-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤
  ∧ IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x128x3 : Shape := ⟨3, ![8, 128, 3]⟩
abbrev S8x3x3 : Shape := ⟨3, ![8, 3, 3]⟩
abbrev S8x3 : Shape := ⟨2, ![8, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x128x3 : S_.BroadcastsInDim S8x128x3 (![] : Fin 0 → Fin S8x128x3.rank)
  reducesTo_S8x128x3_S_d0_1_2 : S8x128x3.ReducesTo [0, 1, 2] S_
  bcast_S_S8x3x3 : S_.BroadcastsInDim S8x3x3 (![] : Fin 0 → Fin S8x3x3.rank)
  reducesTo_S8x3x3_S_d0_1_2 : S8x3x3.ReducesTo [0, 1, 2] S_
  bcast_S_S8x3 : S_.BroadcastsInDim S8x3 (![] : Fin 0 → Fin S8x3.rank)
  reducesTo_S8x3_S_d0_1 : S8x3.ReducesTo [0, 1] S_

variable [Facts]

def fn_part3 {F : FTy → Type} [FloatOps F] (main_v48 : IVec S_ 1) (main_v49 : FVec F S8x3 .f32) (main_v50 : FVec F S8x3 .f32) : IVec S_ 1 :=
  let main_v51 : IVec S8x3 1 := cmpf .olt main_v49 main_v50
  let main_c_19 : IVec S_ 1 := constantI S_ 1 1#1
  let main_v52 : IVec S_ 1 := (fun x v => Host.reduce IntOp.andi x v reducesTo_S8x3_S_d0_1 h_S_) main_v51 main_c_19
  let main_v53 : IVec S_ 1 := andi main_v48 main_v52
  main_v53

def fn_part2 {F : FTy → Type} [FloatOps F] (main_arg7 : FVec F S8x3 .f32) (main_arg8 : FVec F S8x3x3 .f32) (main_arg9 : FVec F S8x3 .f32) (main_arg10 : FVec F S8x3 .f32) (main_v33 : IVec S_ 1) : IVec S_ 1 :=
  let main_v34 : FVec F S8x3 .f32 := Host.absf main_arg7
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S8x3x3 .f32 := Host.absf main_arg8
  let main_cst_14 : FVec F S_ .f32 := constant S_ .f32 0x7F800000#32
  let main_v40 : FVec F S8x3x3 .f32 := broadcastInDim S8x3x3 ![] bcast_S_S8x3x3 main_cst_14
  let main_v41 : IVec S8x3x3 1 := cmpf .olt main_v39 main_v40
  let main_c_15 : IVec S_ 1 := constantI S_ 1 1#1
  let main_v42 : IVec S_ 1 := (fun x v => Host.reduce IntOp.andi x v reducesTo_S8x3x3_S_d0_1_2 h_S_) main_v41 main_c_15
  let main_v43 : IVec S_ 1 := andi main_v38 main_v42
  let main_v44 : FVec F S8x3 .f32 := Host.absf main_arg9
  let main_cst_16 : FVec F S_ .f32 := constant S_ .f32 0x7F800000#32
  let main_v45 : FVec F S8x3 .f32 := broadcastInDim S8x3 ![] bcast_S_S8x3 main_cst_16
  let main_v46 : IVec S8x3 1 := cmpf .olt main_v44 main_v45
  let main_c_17 : IVec S_ 1 := constantI S_ 1 1#1
  let main_v47 : IVec S_ 1 := (fun x v => Host.reduce IntOp.andi x v reducesTo_S8x3_S_d0_1 h_S_) main_v46 main_c_17
  let main_v48 : IVec S_ 1 := andi main_v43 main_v47
  let main_v49 : FVec F S8x3 .f32 := Host.absf main_arg10
  let main_cst_18 : FVec F S_ .f32 := constant S_ .f32 0x7F800000#32
  let main_v50 : FVec F S8x3 .f32 := broadcastInDim S8x3 ![] bcast_S_S8x3 main_cst_18
  fn_part3 (F := F) main_v48 main_v49 main_v50

def fn_part1 {F : FTy → Type} [FloatOps F] (main_arg4 : FVec F S8x128x3 .f32) (main_arg5 : FVec F S8x3x3 .f32) (main_arg6 : FVec F S8x3 .f32) (main_arg7 : FVec F S8x3 .f32) (main_arg8 : FVec F S8x3x3 .f32) (main_arg9 : FVec F S8x3 .f32) (main_arg10 : FVec F S8x3 .f32) (main_v13 : IVec S_ 1) (main_v16 : IVec S8x2048x3 1) : IVec S_ 1 :=
  let main_c_5 : IVec S_ 1 := constantI S_ 1 1#1
  let main_v17 : IVec S_ 1 := (fun x v => Host.reduce IntOp.andi x v reducesTo_S8x2048x3_S_d0_1_2 h_S_) main_v16 main_c_5
  let main_v18 : IVec S_ 1 := andi main_v13 main_v17
  let main_v19 : FVec F S8x128x3 .f32 := Host.absf main_arg4
  let main_cst_6 : FVec F S_ .f32 := constant S_ .f32 0x7F800000#32
  let main_v20 : FVec F S8x128x3 .f32 := broadcastInDim S8x128x3 ![] bcast_S_S8x128x3 main_cst_6
  let main_v21 : IVec S8x128x3 1 := cmpf .olt main_v19 main_v20
  let main_c_7 : IVec S_ 1 := constantI S_ 1 1#1
  let main_v22 : IVec S_ 1 := (fun x v => Host.reduce IntOp.andi x v reducesTo_S8x128x3_S_d0_1_2 h_S_) main_v21 main_c_7
  let main_v23 : IVec S_ 1 := andi main_v18 main_v22
  let main_v24 : FVec F S8x3x3 .f32 := Host.absf main_arg5
  let main_cst_8 : FVec F S_ .f32 := constant S_ .f32 0x7F800000#32
  let main_v25 : FVec F S8x3x3 .f32 := broadcastInDim S8x3x3 ![] bcast_S_S8x3x3 main_cst_8
  let main_v26 : IVec S8x3x3 1 := cmpf .olt main_v24 main_v25
  let main_c_9 : IVec S_ 1 := constantI S_ 1 1#1
  let main_v27 : IVec S_ 1 := (fun x v => Host.reduce IntOp.andi x v reducesTo_S8x3x3_S_d0_1_2 h_S_) main_v26 main_c_9
  let main_v28 : IVec S_ 1 := andi main_v23 main_v27
  let main_v29 : FVec F S8x3 .f32 := Host.absf main_arg6
  let main_cst_10 : FVec F S_ .f32 := constant S_ .f32 0x7F800000#32
  let main_v30 : FVec F S8x3 .f32 := broadcastInDim S8x3 ![] bcast_S_S8x3 main_cst_10
  let main_v31 : IVec S8x3 1 := cmpf .olt main_v29 main_v30
  let main_c_11 : IVec S_ 1 := constantI S_ 1 1#1
  let main_v32 : IVec S_ 1 := (fun x v => Host.reduce IntOp.andi x v reducesTo_S8x3_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x3 .f32) (main_arg1 : FVec F S8x2048x3 .f32) (main_arg2 : FVec F S8x128x3 .f32) (main_arg3 : FVec F S8x2048x3 .f32) (main_arg4 : FVec F S8x128x3 .f32) (main_arg5 : FVec F S8x3x3 .f32) (main_arg6 : FVec F S8x3 .f32) (main_arg7 : FVec F S8x3 .f32) (main_arg8 : FVec F S8x3x3 .f32) (main_arg9 : FVec F S8x3 .f32) (main_arg10 : FVec F S8x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x128x3 .f32 := Host.absf main_arg2
  let main_cst_2 : FVec F S_ .f32 := constant S_ .f32 0x7F800000#32
  let main_v10 : FVec F S8x128x3 .f32 := broadcastInDim S8x128x3 ![] bcast_S_S8x128x3 main_cst_2
  let main_v11 : IVec S8x128x3 1 := cmpf .olt main_v9 main_v10
  let main_c_3 : IVec S_ 1 := constantI S_ 1 1#1
  let main_v12 : IVec S_ 1 := (fun x v => Host.reduce IntOp.andi x v reducesTo_S8x128x3_S_d0_1_2 h_S_) main_v11 main_c_3
  let main_v13 : IVec S_ 1 := andi main_v8 main_v12
  let main_v14 : FVec F S8x2048x3 .f32 := Host.absf main_arg3
  let main_cst_4 : FVec F S_ .f32 := constant S_ .f32 0x7F800000#32
  let main_v15 : FVec F S8x2048x3 .f32 := broadcastInDim S8x2048x3 ![] bcast_S_S8x2048x3 main_cst_4
  let main_v16 : IVec S8x2048x3 1 := cmpf .olt main_v14 main_v15
  fn_part1 (F := F) main_arg4 main_arg5 main_arg6 main_arg7 main_arg8 main_arg9 main_arg10 main_v13 main_v16
-- ==== Kernel.lean ====
abbrev S8x2048x3 : Shape := ⟨3, ![8, 2048, 3]⟩
abbrev S8x128x3 : Shape := ⟨3, ![8, 128, 3]⟩
abbrev S8x3x3 : Shape := ⟨3, ![8, 3, 3]⟩
abbrev S8x3 : Shape := ⟨2, ![8, 3]⟩
abbrev S_ : Shape := ⟨0, ![]⟩
abbrev S8 : Shape := ⟨1, ![8]⟩
abbrev S8x2048 : Shape := ⟨2, ![8, 2048]⟩
abbrev S8x2048x1 : Shape := ⟨3, ![8, 2048, 1]⟩
abbrev S8x128 : Shape := ⟨2, ![8, 128]⟩
abbrev S8x1x128 : Shape := ⟨3, ![8, 1, 128]⟩
abbrev S8x256x3 : Shape := ⟨3, ![8, 256, 3]⟩
abbrev S8x256x1 : Shape := ⟨3, ![8, 256, 1]⟩
abbrev S8x256 : Shape := ⟨2, ![8, 256]⟩
abbrev S8x256x128 : Shape := ⟨3, ![8, 256, 128]⟩
abbrev S8x128x1 : Shape := ⟨3, ![8, 128, 1]⟩
abbrev S8x1x2048 : Shape := ⟨3, ![8, 1, 2048]⟩
abbrev S8x1x256 : Shape := ⟨3, ![8, 1, 256]⟩
abbrev S8x128x256 : Shape := ⟨3, ![8, 128, 256]⟩
abbrev S8x1x1 : Shape := ⟨3, ![8, 1, 1]⟩
abbrev S8x1x3 : Shape := ⟨3, ![8, 1, 3]⟩
abbrev S1x1 : Shape := ⟨2, ![1, 1]⟩
abbrev S8x128x128 : Shape := ⟨3, ![8, 128, 128]⟩
abbrev S8x1 : Shape := ⟨2, ![8, 1]⟩
abbrev S1x1x1 : Shape := ⟨3, ![1, 1, 1]⟩
abbrev S8x256x256 : Shape := ⟨3, ![8, 256, 256]⟩

abbrev nBuf : Space → Nat
  | .hbm => 148
  | .vmem => 41
  | .smem => 0
  | _ => 0

abbrev hbmTy0_0 (i : Nat) : BufTy := match i % 128 with
  | 0 => ⟨S8x2048x3, .f32⟩
  | 1 => ⟨S8x2048x3, .f32⟩
  | 2 => ⟨S8x128x3, .f32⟩
  | 3 => ⟨S8x2048x3, .f32⟩
  | 4 => ⟨S8x128x3, .f32⟩
  | 5 => ⟨S8x3x3, .f32⟩
  | 6 => ⟨S8x3, .f32⟩
  | 7 => ⟨S8x3, .f32⟩
  | 8 => ⟨S8x3x3, .f32⟩
  | 9 => ⟨S8x3, .f32⟩
  | 10 => ⟨S8x3, .f32⟩
  | 11 => ⟨S8x3x3, .f32⟩
  | 12 => ⟨S8x3x3, .f32⟩
  | 13 => ⟨S_, .f32⟩
  | 14 => ⟨S8x3, .f32⟩
  | 15 => ⟨S8x3, .f32⟩
  | 16 => ⟨S_, .f32⟩
  | 17 => ⟨S_, .f32⟩
  | 18 => ⟨S_, .f32⟩
  | 19 => ⟨S_, .f32⟩
  | 20 => ⟨S8x3, .f32⟩
  | 21 => ⟨S8x3, .f32⟩
  | 22 => ⟨S_, .f32⟩
  | 23 => ⟨S8, .f32⟩
  | 24 => ⟨S8, .f32⟩
  | 25 => ⟨S_, .f32⟩
  | 26 => ⟨S_, .f32⟩
  | 27 => ⟨S_, .f32⟩
  | 28 => ⟨S_, .f32⟩
  | 29 => ⟨S_, .f32⟩
  | 30 => ⟨S8x3, .f32⟩
  | 31 => ⟨S8x3, .f32⟩
  | 32 => ⟨S_, .f32⟩
  | 33 => ⟨S8, .f32⟩
  | 34 => ⟨S8, .f32⟩
  | 35 => ⟨S_, .f32⟩
  | 36 => ⟨S_, .f32⟩
  | 37 => ⟨S_, .f32⟩
  | 38 => ⟨S_, .f32⟩
  | 39 => ⟨S_, .f32⟩
  | 40 => ⟨S8x2048x3, .f32⟩
  | 41 => ⟨S_, .f32⟩
  | 42 => ⟨S8x2048, .f32⟩
  | 43 => ⟨S8x2048x1, .f32⟩
  | 44 => ⟨S8x128x3, .f32⟩
  | 45 => ⟨S_, .f32⟩
  | 46 => ⟨S8x128, .f32⟩
  | 47 => ⟨S8x1x128, .f32⟩
  | 48 => ⟨S8x2048, .f32⟩
  | 49 => ⟨S8x128x3, .f32⟩
  | 50 => ⟨S_, .f32⟩
  | 51 => ⟨S8x128, .f32⟩
  | 52 => ⟨S8x128x1, .f32⟩
  | 53 => ⟨S8x2048x3, .f32⟩
  | 54 => ⟨S_, .f32⟩
  | 55 => ⟨S8x2048, .f32⟩
  | 56 => ⟨S8x1x2048, .f32⟩
  | 57 => ⟨S8x128, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S8x3, .f32⟩
  | 70 => ⟨S_, .f32⟩
  | 71 => ⟨S8, .f32⟩
  | 72 => ⟨S8, .f32⟩
  | 73 => ⟨S8x1x1, .f32⟩
  | 74 => ⟨S_, .f32⟩
  | 75 => ⟨S8x1x1, .f32⟩
  | 76 => ⟨S8x1x1, .f32⟩
  | 77 => ⟨S8x1x3, .f32⟩
  | 78 => ⟨S8x128x3, .f32⟩
  | 79 => ⟨S8x128x3, .f32⟩
  | 80 => ⟨S8x128x3, .f32⟩
  | 81 => ⟨S8x128x3, .f32⟩
  | 82 => ⟨S8x128x3, .f32⟩
  | 83 => ⟨S8x128x3, .f32⟩
  | 84 => ⟨S8x128x3, .f32⟩
  | 85 => ⟨S_, .f32⟩
  | 86 => ⟨S8x128x3, .f32⟩
  | 87 => ⟨S8x128x3, .i1⟩
  | 88 => ⟨S_, .f32⟩
  | 89 => ⟨S8x128x3, .f32⟩
  | 90 => ⟨S8x128x3, .f32⟩
  | 91 => ⟨S8x128x3, .f32⟩
  | 92 => ⟨S_, .f32⟩
  | 93 => ⟨S8x128x3, .f32⟩
  | 94 => ⟨S8x128x3, .f32⟩
  | 95 => ⟨S8x128x3, .f32⟩
  | 96 => ⟨S_, .f32⟩
  | 97 => ⟨S8x128, .f32⟩
  | 98 => ⟨S_, .f32⟩
  | 99 => ⟨S_, .f32⟩
  | 100 => ⟨S_, .f32⟩
  | 101 => ⟨S_, .f32⟩
  | 102 => ⟨S1x1, .f32⟩
  | 103 => ⟨S_, .f32⟩
  | 104 => ⟨S_, .f32⟩
  | 105 => ⟨S_, .f32⟩
  | 106 => ⟨S8x2048x3, .f32⟩
  | 107 => ⟨S_, .f32⟩
  | 108 => ⟨S8x2048, .f32⟩
  | 109 => ⟨S8x2048x1, .f32⟩
  | 110 => ⟨S8x2048x3, .f32⟩
  | 111 => ⟨S_, .f32⟩
  | 112 => ⟨S8x2048, .f32⟩
  | 113 => ⟨S8x1x2048, .f32⟩
  | 114 => ⟨S8x2048, .f32⟩
  | 115 => ⟨S8x2048x3, .f32⟩
  | 116 => ⟨S_, .f32⟩
  | 117 => ⟨S8x2048, .f32⟩
  | 118 => ⟨S8x2048x1, .f32⟩
  | 119 => ⟨S8x2048x3, .f32⟩
  | 120 => ⟨S_, .f32⟩
  | 121 => ⟨S8x2048, .f32⟩
  | 122 => ⟨S8x1x2048, .f32⟩
  | 123 => ⟨S8x2048, .f32⟩
  | 124 => ⟨S_, .f32⟩
  | 125 => ⟨S_, .f32⟩
  | 126 => ⟨S_, .f32⟩
  | 127 => ⟨S_, .f32⟩
  | _ => ⟨S8x2048x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S8x2048x3, .f32⟩
  | 8 => ⟨S_, .f32⟩
  | 9 => ⟨S8x2048, .f32⟩
  | 10 => ⟨S8x2048, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | .local _ .vmem, ⟨0, _⟩ => ⟨S8x256x3, .f32⟩
  | .local _ .vmem, ⟨1, _⟩ => ⟨S8x256x3, .f32⟩
  | .local _ .vmem, ⟨2, _⟩ => ⟨S8x256x1, .f32⟩
  | .local _ .vmem, ⟨3, _⟩ => ⟨S8x256x1, .f32⟩
  | .local _ .vmem, ⟨4, _⟩ => ⟨S8x128x3, .f32⟩
  | .local _ .vmem, ⟨5, _⟩ => ⟨S8x1x128, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x128x3, .f32⟩
  | .local _ .vmem, ⟨10, _⟩ => ⟨S8x128x1, .f32⟩
  | .local _ .vmem, ⟨11, _⟩ => ⟨S8x256x3, .f32⟩
  | .local _ .vmem, ⟨12, _⟩ => ⟨S8x256x3, .f32⟩
  | .local _ .vmem, ⟨13, _⟩ => ⟨S8x1x256, .f32⟩
  | .local _ .vmem, ⟨14, _⟩ => ⟨S8x1x256, .f32⟩
  | .local _ .vmem, ⟨15, _⟩ => ⟨S8x128, .f32⟩
  | .local _ .vmem, ⟨16, _⟩ => ⟨S8x128, .f32⟩
  | .local _ .vmem, ⟨17, _⟩ => ⟨S8x128x3, .f32⟩
  | .local _ .vmem, ⟨18, _⟩ => ⟨S1x1, .f32⟩
  | .local _ .vmem, ⟨19, _⟩ => ⟨S8x256x3, .f32⟩
  | .local _ .vmem, ⟨20, _⟩ => ⟨S8x256x3, .f32⟩
  | .local _ .vmem, ⟨21, _⟩ => ⟨S8x256x1, .f32⟩
  | .local _ .vmem, ⟨22, _⟩ => ⟨S8x256x1, .f32⟩
  | .local _ .vmem, ⟨23, _⟩ => ⟨S8x256x3, .f32⟩
  | .local _ .vmem, ⟨24, _⟩ => ⟨S8x256x3, .f32⟩
  | .local _ .vmem, ⟨25, _⟩ => ⟨S8x1x256, .f32⟩
  | .local _ .vmem, ⟨26, _⟩ => ⟨S8x1x256, .f32⟩
  | .local _ .vmem, ⟨27, _⟩ => ⟨S8x256, .f32⟩
  | .local _ .vmem, ⟨28, _⟩ => ⟨S8x256, .f32⟩
  | .local _ .vmem, ⟨29, _⟩ => ⟨S8x256, .f32⟩
  | .local _ .vmem, ⟨30, _⟩ => ⟨S8x256x3, .f32⟩
  | .local _ .vmem, ⟨31, _⟩ => ⟨S8x256x3, .f32⟩
  | .local _ .vmem, ⟨32, _⟩ => ⟨S8x256x1, .f32⟩
  | .local _ .vmem, ⟨33, _⟩ => ⟨S8x256x1, .f32⟩
  | .local _ .vmem, ⟨34, _⟩ => ⟨S8x256x3, .f32⟩
  | .local _ .vmem, ⟨35, _⟩ => ⟨S8x256x3, .f32⟩
  | .local _ .vmem, ⟨36, _⟩ => ⟨S8x1x256, .f32⟩
  | .local _ .vmem, ⟨37, _⟩ => ⟨S8x1x256, .f32⟩
  | .local _ .vmem, ⟨38, _⟩ => ⟨S8x256, .f32⟩
  | .local _ .vmem, ⟨39, _⟩ => ⟨S8x256, .f32⟩
  | .local _ .vmem, ⟨40, _⟩ => ⟨S8x256, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_8 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_9 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_cst_13 : Ref sig .tc := ⟨.hbm, 67, rfl⟩
abbrev main_v33 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_v34 : Ref sig .tc := ⟨.hbm, 72, rfl⟩
abbrev main_v35 : Ref sig .tc := ⟨.hbm, 73, rfl⟩
abbrev main_cst_14 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_15 : Ref sig .tc := ⟨.hbm, 85, rfl⟩
abbrev main_v46 : Ref sig .tc := ⟨.hbm, 86, rfl⟩
abbrev main_v47 : Ref sig .tc := ⟨.hbm, 87, rfl⟩
abbrev main_cst_16 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_18 : Ref sig .tc := ⟨.hbm, 96, rfl⟩
abbrev main_v54 : Ref sig .tc := ⟨.hbm, 97, rfl⟩
abbrev main_cst_19 : Ref sig .tc := ⟨.hbm, 98, rfl⟩
abbrev main_v55 : Ref sig .tc := ⟨.hbm, 99, rfl⟩
abbrev main_cst_20 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_21 : Ref sig .tc := ⟨.hbm, 104, rfl⟩
abbrev main_v59 : Ref sig .tc := ⟨.hbm, 105, rfl⟩
abbrev main_v60 : Ref sig .tc := ⟨.hbm, 106, rfl⟩
abbrev main_cst_22 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_23 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_24 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_26 : Ref sig .tc := ⟨.hbm, 124, rfl⟩
abbrev main_v74 : Ref sig .tc := ⟨.hbm, 125, rfl⟩
abbrev main_cst_27 : Ref sig .tc := ⟨.hbm, 126, rfl⟩
abbrev main_v75 : Ref sig .tc := ⟨.hbm, 127, rfl⟩
abbrev main_cst_28 : Ref sig .tc := ⟨.hbm, 128, rfl⟩
abbrev main_v76 : Ref sig .tc := ⟨.hbm, 129, rfl⟩
abbrev main_cst_29 : Ref sig .tc := ⟨.hbm, 130, rfl⟩
abbrev main_v77 : Ref sig .tc := ⟨.hbm, 131, rfl⟩
abbrev main_v78 : Ref sig .tc := ⟨.hbm, 132, rfl⟩
abbrev main_cst_30 : Ref sig .tc := ⟨.hbm, 133, rfl⟩
abbrev main_v79 : Ref sig .tc := ⟨.hbm, 134, rfl⟩
abbrev main_call5_v0 : Ref sig .tc := ⟨.hbm, 135, rfl⟩
abbrev main_call5_cst : Ref sig .tc := ⟨.hbm, 136, rfl⟩
abbrev main_call5_v1 : Ref sig .tc := ⟨.hbm, 137, rfl⟩
abbrev main_v80 : Ref sig .tc := ⟨.hbm, 138, rfl⟩
abbrev main_cst_31 : Ref sig .tc := ⟨.hbm, 139, rfl⟩
abbrev main_v81 : Ref sig .tc := ⟨.hbm, 140, rfl⟩
abbrev main_cst_32 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem1_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_19 : BitVec 32 := 0#32
  let v25 : BitVec 1 := Scalar.cmpi .eq arg1 c0_i32_19
  let v26 : BitVec 32 := Scalar.extui v25
  let c0_i32_20 : BitVec 32 := 0#32
  let v27 : BitVec 1 := Scalar.cmpi .ne v26 c0_i32_20
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![1, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_19 : BitVec 32 := 0#32
  let v27 : BitVec 1 := Scalar.cmpi .ne v26 c0_i32_19
  v27

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S8x128x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S8x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S8x256x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x128x3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_19 : BitVec 32 := 0#32
  let v27 : BitVec 1 := Scalar.cmpi .ne v26 c0_i32_19
  v27

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S8x256x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x256x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S8x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S8x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_19 : BitVec 32 := 0#32
  let v27 : BitVec 1 := Scalar.cmpi .ne v26 c0_i32_19
  v27

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S8x256x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8x256x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S8x256x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8x1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S8x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  reducesTo_S8x3x3_S8x3_d1 : S8x3x3.ReducesTo [1] S8x3
  h_S_ : 0 < S_.numel
  reducesTo_S8x3_S_d0_1 : S8x3.ReducesTo [0, 1] S_
  reducesTo_S8x3_S8_d1 : S8x3.ReducesTo [1] S8
  reducesTo_S8_S_d0 : S8.ReducesTo [0] S_
  reducesTo_S8x2048x3_S8x2048_d2 : S8x2048x3.ReducesTo [2] S8x2048
  bcast_S8x2048_S8x2048x1_0_1 : S8x2048.BroadcastsInDim S8x2048x1 (![0, 1] : Fin 2 → Fin S8x2048x1.rank)
  reducesTo_S8x128x3_S8x128_d2 : S8x128x3.ReducesTo [2] S8x128
  bcast_S8x128_S8x1x128_0_2 : S8x128.BroadcastsInDim S8x1x128 (![0, 2] : Fin 2 → Fin S8x1x128.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x3_S8x256x3_0_0_0 : ∀ a, (![0, 0, 0] : Fin 3 → Nat) a + S8x256x3.size a ≤ S8x256x3.size a
  h_S8x256x3 : 0 < S8x256x3.numel
  inb_S8x128x3_S8x128x3_0_0_0 : ∀ a, (![0, 0, 0] : Fin 3 → Nat) a + S8x128x3.size a ≤ S8x128x3.size a
  h_S8x128x3 : 0 < S8x128x3.numel
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x1x128_S8x1x128_0_0_0 : ∀ a, (![0, 0, 0] : Fin 3 → Nat) a + S8x1x128.size a ≤ S8x1x128.size a
  h_S8x1x128 : 0 < S8x1x128.numel
  shapeCasts_S8x1x128_S8x1x128 : S8x1x128.ShapeCasts S8x1x128
  broadcasts_S8x256x1_S8x256x128 : S8x256x1.Broadcasts S8x256x128
  broadcasts_S8x1x128_S8x256x128 : S8x1x128.Broadcasts S8x256x128
  reduces_S8x256x128_S8x256 : S8x256x128.Reduces [2] S8x256
  bcast_S8x128_S8x128x1_0_1 : S8x128.BroadcastsInDim S8x128x1 (![0, 1] : Fin 2 → Fin S8x128x1.rank)
  bcast_S8x2048_S8x1x2048_0_2 : S8x2048.BroadcastsInDim S8x1x2048 (![0, 2] : Fin 2 → Fin S8x1x2048.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  broadcasts_S8x128x1_S8x128x256 : S8x128x1.Broadcasts S8x128x256
  broadcasts_S8x1x256_S8x128x256 : S8x1x256.Broadcasts S8x128x256
  reduces_S8x128x256_S8x128 : S8x128x256.Reduces [2] S8x128
  reducesTo_S8x128_S_d0_1 : S8x128.ReducesTo [0, 1] S_
  reducesTo_S8x2048_S_d0_1 : S8x2048.ReducesTo [0, 1] S_
  shapeCasts_S8_S8x1x1 : S8.ShapeCasts S8x1x1
  bcast_S_S8x1x1 : S_.BroadcastsInDim S8x1x1 (![] : Fin 0 → Fin S8x1x1.rank)
  bcast_S8x3_S8x1x3_0_2 : S8x3.BroadcastsInDim S8x1x3 (![0, 2] : Fin 2 → Fin S8x1x3.rank)
  bcast_S8x1x3_S8x128x3_0_1_2 : S8x1x3.BroadcastsInDim S8x128x3 (![0, 1, 2] : Fin 3 → Fin S8x128x3.rank)
  bcast_S8x1x1_S8x128x3_0_1_2 : S8x1x1.BroadcastsInDim S8x128x3 (![0, 1, 2] : Fin 3 → Fin S8x128x3.rank)
  bcast_S_S8x128x3 : S_.BroadcastsInDim S8x128x3 (![] : Fin 0 → Fin S8x128x3.rank)
  reduces_S8x128x3_S8x128 : S8x128x3.Reduces [2] S8x128
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  iota_S8x128x128_d1_w32 : S8x128x128.Iotas .tc 32 [1]
  iota_S8x128x128_d2_w32 : S8x128x128.Iotas .tc 32 [2]
  reduces_S8x128x128_S8x128 : S8x128x128.Reduces [2] S8x128
  reduces_S8x128x1_S8x1 : S8x128x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  broadcasts_S8x256x1_S8x256x256 : S8x256x1.Broadcasts S8x256x256
  broadcasts_S8x1x256_S8x256x256 : S8x1x256.Broadcasts S8x256x256
  reduces_S8x256x256_S8x256 : S8x256x256.Reduces [2] S8x256
  dot_S8x256x3_S8x128x3_S8x256x128_2_2_1_1_0_0_wf : DotDims.WF S8x256x3 S8x128x3 S8x256x128 [2] [2] [1] [1] [0] [0]
  dot_S8x128x3_S8x256x3_S8x128x256_2_2_1_1_0_0_wf : DotDims.WF S8x128x3 S8x256x3 S8x128x256 [2] [2] [1] [1] [0] [0]
  dot_S8x128x3_S8x3x3_S8x128x3_2_1_1_2_0_0_wf : DotDims.WF S8x128x3 S8x3x3 S8x128x3 [2] [1] [1] [2] [0] [0]
  dot_S8x128x3_S8x128x3_S8x128x128_2_2_1_1_0_0_wf : DotDims.WF S8x128x3 S8x128x3 S8x128x128 [2] [2] [1] [1] [0] [0]
  dot_S8x256x3_S8x256x3_S8x256x256_2_2_1_1_0_0_wf : DotDims.WF S8x256x3 S8x256x3 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x2048x3.size a
  hwx0_0 : ∀ i : grid0.Coords, EltTy.bits .f32 = 32 ∨ (Rect.block (s := S8x2048x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1.size a ≤ S8x2048x1.size a
  hwx0_1 : ∀ i : grid0.Coords, EltTy.bits .f32 = 32 ∨ (Rect.block (s := S8x2048x1) S8x256x1.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S8x128x3.size a ≤ S8x128x3.size a
  hwx0_2 : ∀ i : grid0.Coords, EltTy.bits .f32 = 32 ∨ (Rect.block (s := S8x128x3) S8x128x3.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S8x1x128.size a ≤ S8x1x128.size a
  hwx0_3 : ∀ i : grid0.Coords, EltTy.bits .f32 = 32 ∨ (Rect.block (s := S8x1x128) S8x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x2048.size a
  hwx0_4 : ∀ i : grid0.Coords, EltTy.bits .f32 = 32 ∨ (Rect.block (s := S8x2048) S8x256.size (cc0_transform_4 i) (hinb0_4 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S8x128x3.size a ≤ S8x128x3.size a
  hwx1_0 : ∀ i : grid1.Coords, EltTy.bits .f32 = 32 ∨ (Rect.block (s := S8x128x3) S8x128x3.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S8x128x1.size a ≤ S8x128x1.size a
  hwx1_1 : ∀ i : grid1.Coords, EltTy.bits .f32 = 32 ∨ (Rect.block (s := S8x128x1) S8x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x3.size a ≤ S8x2048x3.size a
  hwx1_2 : ∀ i : grid1.Coords, EltTy.bits .f32 = 32 ∨ (Rect.block (s := S8x2048x3) S8x256x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1x256.size a ≤ S8x1x2048.size a
  hwx1_3 : ∀ i : grid1.Coords, EltTy.bits .f32 = 32 ∨ (Rect.block (s := S8x1x2048) S8x1x256.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x128x3.size a ≤ S8x128x3.size a
  hwx2_0 : ∀ i : grid2.Coords, EltTy.bits .f32 = 32 ∨ (Rect.block (s := S8x128x3) S8x128x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x256x3.size a ≤ S8x2048x3.size a
  hwx3_0 : ∀ i : grid3.Coords, EltTy.bits .f32 = 32 ∨ (Rect.block (s := S8x2048x3) S8x256x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x256x1.size a ≤ S8x2048x1.size a
  hwx3_1 : ∀ i : grid3.Coords, EltTy.bits .f32 = 32 ∨ (Rect.block (s := S8x2048x1) S8x256x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x256x3.size a ≤ S8x2048x3.size a
  hwx3_2 : ∀ i : grid3.Coords, EltTy.bits .f32 = 32 ∨ (Rect.block (s := S8x2048x3) S8x256x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x1x256.size a ≤ S8x1x2048.size a
  hwx3_3 : ∀ i : grid3.Coords, EltTy.bits .f32 = 32 ∨ (Rect.block (s := S8x1x2048) S8x1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x256.size a ≤ S8x2048.size a
  hwx3_4 : ∀ i : grid3.Coords, EltTy.bits .f32 = 32 ∨ (Rect.block (s := S8x2048) S8x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x256x3.size a ≤ S8x2048x3.size a
  hwx4_0 : ∀ i : grid4.Coords, EltTy.bits .f32 = 32 ∨ (Rect.block (s := S8x2048x3) S8x256x3.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x256x1.size a ≤ S8x2048x1.size a
  hwx4_1 : ∀ i : grid4.Coords, EltTy.bits .f32 = 32 ∨ (Rect.block (s := S8x2048x1) S8x256x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x256x3.size a ≤ S8x2048x3.size a
  hwx4_2 : ∀ i : grid4.Coords, EltTy.bits .f32 = 32 ∨ (Rect.block (s := S8x2048x3) S8x256x3.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x1x256.size a ≤ S8x1x2048.size a
  hwx4_3 : ∀ i : grid4.Coords, EltTy.bits .f32 = 32 ∨ (Rect.block (s := S8x1x2048) S8x1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x256.size a ≤ S8x2048.size a
  hwx4_4 : ∀ i : grid4.Coords, EltTy.bits .f32 = 32 ∨ (Rect.block (s := S8x2048) S8x256.size (cc4_transform_4 i) (hinb4_4 i)).WholeWords (EltTy.packing .f32)

variable [Facts₀]

def dot_S8x256x3_S8x128x3_S8x256x128_2_2_1_1_0_0 : DotDims S8x256x3 S8x128x3 S8x256x128 where
  lhsContracting := [2]
  rhsContracting := [2]
  lhsNonContracting := [1]
  rhsNonContracting := [1]
  lhsBatch := [0]
  rhsBatch := [0]
  wf := dot_S8x256x3_S8x128x3_S8x256x128_2_2_1_1_0_0_wf
def dot_S8x128x3_S8x256x3_S8x128x256_2_2_1_1_0_0 : DotDims S8x128x3 S8x256x3 S8x128x256 where
  lhsContracting := [2]
  rhsContracting := [2]
  lhsNonContracting := [1]
  rhsNonContracting := [1]
  lhsBatch := [0]
  rhsBatch := [0]
  wf := dot_S8x128x3_S8x256x3_S8x128x256_2_2_1_1_0_0_wf
def dot_S8x128x3_S8x3x3_S8x128x3_2_1_1_2_0_0 : DotDims S8x128x3 S8x3x3 S8x128x3 where
  lhsContracting := [2]
  rhsContracting := [1]
  lhsNonContracting := [1]
  rhsNonContracting := [2]
  lhsBatch := [0]
  rhsBatch := [0]
  wf := dot_S8x128x3_S8x3x3_S8x128x3_2_1_1_2_0_0_wf
def dot_S8x128x3_S8x128x3_S8x128x128_2_2_1_1_0_0 : DotDims S8x128x3 S8x128x3 S8x128x128 where
  lhsContracting := [2]
  rhsContracting := [2]
  lhsNonContracting := [1]
  rhsNonContracting := [1]
  lhsBatch := [0]
  rhsBatch := [0]
  wf := dot_S8x128x3_S8x128x3_S8x128x128_2_2_1_1_0_0_wf
def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128x3.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8x1x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg2) S8x128x3.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8x128x1.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S8x256x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S8x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S8x128.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg2) S8x128x3.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg0) S8x256x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S8x256x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S8x256x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S8x1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v66) S8x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_arg3) S8x256x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S8x256x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S8x256x3.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72) S8x1x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v73) S8x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x128x3 : Shape := ⟨3, ![8, 128, 3]⟩
abbrev S8x3x3 : Shape := ⟨3, ![8, 3, 3]⟩
abbrev S8x3 : Shape := ⟨2, ![8, 3]⟩
abbrev S_ : Shape := ⟨0, ![]⟩
abbrev S8 : Shape := ⟨1, ![8]⟩
abbrev S8x2048x1x3 : Shape := ⟨4, ![8, 2048, 1, 3]⟩
abbrev S8x1x128x3 : Shape := ⟨4, ![8, 1, 128, 3]⟩
abbrev S8x2048x128x3 : Shape := ⟨4, ![8, 2048, 128, 3]⟩
abbrev S8x2048x128 : Shape := ⟨3, ![8, 2048, 128]⟩
abbrev S8x128 : Shape := ⟨2, ![8, 128]⟩
abbrev S8x2048 : Shape := ⟨2, ![8, 2048]⟩
abbrev S8x1x1 : Shape := ⟨3, ![8, 1, 1]⟩
abbrev S8x1x3 : Shape := ⟨3, ![8, 1, 3]⟩
abbrev S128x128 : Shape := ⟨2, ![128, 128]⟩
abbrev S1x128x128 : Shape := ⟨3, ![1, 128, 128]⟩
abbrev S8x128x1x3 : Shape := ⟨4, ![8, 128, 1, 3]⟩
abbrev S8x128x128x3 : Shape := ⟨4, ![8, 128, 128, 3]⟩
abbrev S8x128x128 : Shape := ⟨3, ![8, 128, 128]⟩
abbrev S8x1x2048x3 : Shape := ⟨4, ![8, 1, 2048, 3]⟩
abbrev S8x2048x2048x3 : Shape := ⟨4, ![8, 2048, 2048, 3]⟩
abbrev S8x2048x2048 : Shape := ⟨3, ![8, 2048, 2048]⟩

abbrev nBuf : Space → Nat
  | .hbm => 167
  | .vmem => 0
  | .smem => 0
  | _ => 0

abbrev hbmTy0_0 (i : Nat) : BufTy := match i % 128 with
  | 0 => ⟨S8x2048x3, .f32⟩
  | 1 => ⟨S8x2048x3, .f32⟩
  | 2 => ⟨S8x128x3, .f32⟩
  | 3 => ⟨S8x2048x3, .f32⟩
  | 4 => ⟨S8x128x3, .f32⟩
  | 5 => ⟨S8x3x3, .f32⟩
  | 6 => ⟨S8x3, .f32⟩
  | 7 => ⟨S8x3, .f32⟩
  | 8 => ⟨S8x3x3, .f32⟩
  | 9 => ⟨S8x3, .f32⟩
  | 10 => ⟨S8x3, .f32⟩
  | 11 => ⟨S8x3x3, .f32⟩
  | 12 => ⟨S8x3x3, .f32⟩
  | 13 => ⟨S_, .f32⟩
  | 14 => ⟨S8x3, .f32⟩
  | 15 => ⟨S8x3, .f32⟩
  | 16 => ⟨S_, .f32⟩
  | 17 => ⟨S_, .f32⟩
  | 18 => ⟨S_, .f32⟩
  | 19 => ⟨S_, .f32⟩
  | 20 => ⟨S8x3, .f32⟩
  | 21 => ⟨S8x3, .f32⟩
  | 22 => ⟨S_, .f32⟩
  | 23 => ⟨S8, .f32⟩
  | 24 => ⟨S8, .f32⟩
  | 25 => ⟨S_, .f32⟩
  | 26 => ⟨S_, .f32⟩
  | 27 => ⟨S_, .f32⟩
  | 28 => ⟨S_, .f32⟩
  | 29 => ⟨S_, .f32⟩
  | 30 => ⟨S8x3, .f32⟩
  | 31 => ⟨S8x3, .f32⟩
  | 32 => ⟨S_, .f32⟩
  | 33 => ⟨S8, .f32⟩
  | 34 => ⟨S8, .f32⟩
  | 35 => ⟨S_, .f32⟩
  | 36 => ⟨S_, .f32⟩
  | 37 => ⟨S_, .f32⟩
  | 38 => ⟨S_, .f32⟩
  | 39 => ⟨S_, .f32⟩
  | 40 => ⟨S8x2048x1x3, .f32⟩
  | 41 => ⟨S8x1x128x3, .f32⟩
  | 42 => ⟨S8x2048x128x3, .f32⟩
  | 43 => ⟨S8x2048x128x3, .f32⟩
  | 44 => ⟨S8x2048x128x3, .f32⟩
  | 45 => ⟨S8x2048x128x3, .f32⟩
  | 46 => ⟨S_, .f32⟩
  | 47 => ⟨S8x2048x128, .f32⟩
  | 48 => ⟨S8x2048x128, .f32⟩
  | 49 => ⟨S_, .f32⟩
  | 50 => ⟨S8x128, .f32⟩
  | 51 => ⟨S_, .f32⟩
  | 52 => ⟨S_, .f32⟩
  | 53 => ⟨S_, .f32⟩
  | 54 => ⟨S_, .f32⟩
  | 55 => ⟨S_, .f32⟩
  | 56 => ⟨S8x2048, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S8x3, .f32⟩
  | 65 => ⟨S_, .f32⟩
  | 66 => ⟨S8, .f32⟩
  | 67 => ⟨S8, .f32⟩
  | 68 => ⟨S8x1x1, .f32⟩
  | 69 => ⟨S_, .f32⟩
  | 70 => ⟨S8x1x1, .f32⟩
  | 71 => ⟨S8x1x1, .f32⟩
  | 72 => ⟨S8x1x3, .f32⟩
  | 73 => ⟨S8x128x3, .f32⟩
  | 74 => ⟨S8x128x3, .f32⟩
  | 75 => ⟨S8x128x3, .f32⟩
  | 76 => ⟨S8x128x3, .f32⟩
  | 77 => ⟨S8x128x3, .f32⟩
  | 78 => ⟨S8x128x3, .f32⟩
  | 79 => ⟨S8x128x3, .f32⟩
  | 80 => ⟨S_, .f32⟩
  | 81 => ⟨S8x128x3, .f32⟩
  | 82 => ⟨S8x128x3, .i1⟩
  | 83 => ⟨S_, .f32⟩
  | 84 => ⟨S8x128x3, .f32⟩
  | 85 => ⟨S8x128x3, .f32⟩
  | 86 => ⟨S8x128x3, .f32⟩
  | 87 => ⟨S_, .f32⟩
  | 88 => ⟨S8x128x3, .f32⟩
  | 89 => ⟨S8x128x3, .f32⟩
  | 90 => ⟨S8x128x3, .f32⟩
  | 91 => ⟨S_, .f32⟩
  | 92 => ⟨S8x128, .f32⟩
  | 93 => ⟨S_, .f32⟩
  | 94 => ⟨S_, .f32⟩
  | 95 => ⟨S_, .f32⟩
  | 96 => ⟨S_, .f32⟩
  | 97 => ⟨S128x128, .i32⟩
  | 98 => ⟨S128x128, .i32⟩
  | 99 => ⟨S_, .i32⟩
  | 100 => ⟨S128x128, .i32⟩
  | 101 => ⟨S128x128, .i32⟩
  | 102 => ⟨S128x128, .i1⟩
  | 103 => ⟨S1x128x128, .i1⟩
  | 104 => ⟨S8x128x1x3, .f32⟩
  | 105 => ⟨S8x1x128x3, .f32⟩
  | 106 => ⟨S8x128x128x3, .f32⟩
  | 107 => ⟨S8x128x128x3, .f32⟩
  | 108 => ⟨S8x128x128x3, .f32⟩
  | 109 => ⟨S8x128x128x3, .f32⟩
  | 110 => ⟨S_, .f32⟩
  | 111 => ⟨S8x128x128, .f32⟩
  | 112 => ⟨S_, .f32⟩
  | 113 => ⟨S_, .f32⟩
  | 114 => ⟨S8x128x128, .i1⟩
  | 115 => ⟨S8x128x128, .f32⟩
  | 116 => ⟨S8x128x128, .f32⟩
  | 117 => ⟨S8x128x128, .f32⟩
  | 118 => ⟨S_, .f32⟩
  | 119 => ⟨S_, .f32⟩
  | 120 => ⟨S8x128x128, .i1⟩
  | 121 => ⟨S8x128x128, .f32⟩
  | 122 => ⟨S8x128x128, .f32⟩
  | 123 => ⟨S_, .f32⟩
  | 124 => ⟨S8x128x128, .f32⟩
  | 125 => ⟨S8x128x128, .f32⟩
  | 126 => ⟨S_, .f32⟩
  | 127 => ⟨S_, .f32⟩
  | _ => ⟨S8x2048x3, .f32⟩

abbrev hbmTy0_1 (i : Nat) : BufTy := match i % 128 with
  | 0 => ⟨S_, .f32⟩
  | 1 => ⟨S_, .f32⟩
  | 2 => ⟨S8x2048x1x3, .f32⟩
  | 3 => ⟨S8x1x2048x3, .f32⟩
  | 4 => ⟨S8x2048x2048x3, .f32⟩
  | 5 => ⟨S8x2048x2048x3, .f32⟩
  | 6 => ⟨S8x2048x2048x3, .f32⟩
  | 7 => ⟨S8x2048x2048x3, .f32⟩
  | 8 => ⟨S_, .f32⟩
  | 9 => ⟨S8x2048x2048, .f32⟩
  | 10 => ⟨S8x2048x2048, .f32⟩
  | 11 => ⟨S_, .f32⟩
  | 12 => ⟨S8x2048, .f32⟩
  | 13 => ⟨S_, .f32⟩
  | 14 => ⟨S_, .f32⟩
  | 15 => ⟨S_, .f32⟩
  | 16 => ⟨S_, .f32⟩
  | 17 => ⟨S_, .f32⟩
  | 18 => ⟨S8x2048, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S8x2048x3, .f32⟩
  | 27 => ⟨S_, .f32⟩
  | 28 => ⟨S8x2048, .f32⟩
  | 29 => ⟨S8x2048, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call3_v0 : Ref sig .tc := ⟨.hbm, 45, rfl⟩
abbrev main_call3_cst : Ref sig .tc := ⟨.hbm, 46, rfl⟩
abbrev main_call3_v1 : Ref sig .tc := ⟨.hbm, 47, rfl⟩
abbrev main_v19 : Ref sig .tc := ⟨.hbm, 48, rfl⟩
abbrev main_cst_5 : Ref sig .tc := ⟨.hbm, 49, rfl⟩
abbrev main_v20 : Ref sig .tc := ⟨.hbm, 50, rfl⟩
abbrev main_cst_6 : Ref sig .tc := ⟨.hbm, 51, rfl⟩
abbrev main_v21 : Ref sig .tc := ⟨.hbm, 52, rfl⟩
abbrev main_cst_7 : Ref sig .tc := ⟨.hbm, 53, rfl⟩
abbrev main_v22 : Ref sig .tc := ⟨.hbm, 54, rfl⟩
abbrev main_cst_8 : Ref sig .tc := ⟨.hbm, 55, rfl⟩
abbrev main_v23 : Ref sig .tc := ⟨.hbm, 56, rfl⟩
abbrev main_cst_9 : Ref sig .tc := ⟨.hbm, 57, rfl⟩
abbrev main_v24 : Ref sig .tc := ⟨.hbm, 58, rfl⟩
abbrev main_cst_10 : Ref sig .tc := ⟨.hbm, 59, rfl⟩
abbrev main_v25 : Ref sig .tc := ⟨.hbm, 60, rfl⟩
abbrev main_v26 : Ref sig .tc := ⟨.hbm, 61, rfl⟩
abbrev main_cst_11 : Ref sig .tc := ⟨.hbm, 62, rfl⟩
abbrev main_v27 : Ref sig .tc := ⟨.hbm, 63, rfl⟩
abbrev main_call4_v0 : Ref sig .tc := ⟨.hbm, 64, rfl⟩
abbrev main_call4_cst : Ref sig .tc := ⟨.hbm, 65, rfl⟩
abbrev main_call4_v1 : Ref sig .tc := ⟨.hbm, 66, rfl⟩
abbrev main_v28 : Ref sig .tc := ⟨.hbm, 67, rfl⟩
abbrev main_v29 : Ref sig .tc := ⟨.hbm, 68, rfl⟩
abbrev main_cst_12 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_13 : Ref sig .tc := ⟨.hbm, 80, rfl⟩
abbrev main_v40 : Ref sig .tc := ⟨.hbm, 81, rfl⟩
abbrev main_v41 : Ref sig .tc := ⟨.hbm, 82, rfl⟩
abbrev main_cst_14 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_15 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_16 : Ref sig .tc := ⟨.hbm, 91, rfl⟩
abbrev main_v48 : Ref sig .tc := ⟨.hbm, 92, rfl⟩
abbrev main_cst_17 : Ref sig .tc := ⟨.hbm, 93, rfl⟩
abbrev main_v49 : Ref sig .tc := ⟨.hbm, 94, rfl⟩
abbrev main_cst_18 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_19 : Ref sig .tc := ⟨.hbm, 110, rfl⟩
abbrev main_v63 : Ref sig .tc := ⟨.hbm, 111, rfl⟩
abbrev main_cst_20 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_v64 : Ref sig .tc := ⟨.hbm, 116, rfl⟩
abbrev main_v65 : Ref sig .tc := ⟨.hbm, 117, rfl⟩
abbrev main_cst_21 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_v66 : Ref sig .tc := ⟨.hbm, 122, rfl⟩
abbrev main_cst_22 : Ref sig .tc := ⟨.hbm, 123, rfl⟩
abbrev main_v67 : Ref sig .tc := ⟨.hbm, 124, rfl⟩
abbrev main_v68 : Ref sig .tc := ⟨.hbm, 125, rfl⟩
abbrev main_cst_23 : Ref sig .tc := ⟨.hbm, 126, rfl⟩
abbrev main_v69 : Ref sig .tc := ⟨.hbm, 127, rfl⟩
abbrev main_cst_24 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_call8_v0 : Ref sig .tc := ⟨.hbm, 135, rfl⟩
abbrev main_call8_cst : Ref sig .tc := ⟨.hbm, 136, rfl⟩
abbrev main_call8_v1 : Ref sig .tc := ⟨.hbm, 137, rfl⟩
abbrev main_v76 : Ref sig .tc := ⟨.hbm, 138, rfl⟩
abbrev main_cst_25 : Ref sig .tc := ⟨.hbm, 139, rfl⟩
abbrev main_v77 : Ref sig .tc := ⟨.hbm, 140, rfl⟩
abbrev main_cst_26 : Ref sig .tc := ⟨.hbm, 141, rfl⟩
abbrev main_v78 : Ref sig .tc := ⟨.hbm, 142, rfl⟩
abbrev main_cst_27 : Ref sig .tc := ⟨.hbm, 143, rfl⟩
abbrev main_v79 : Ref sig .tc := ⟨.hbm, 144, rfl⟩
abbrev main_cst_28 : Ref sig .tc := ⟨.hbm, 145, rfl⟩
abbrev main_v80 : Ref sig .tc := ⟨.hbm, 146, rfl⟩
abbrev main_cst_29 : Ref sig .tc := ⟨.hbm, 147, rfl⟩
abbrev main_v81 : Ref sig .tc := ⟨.hbm, 148, rfl⟩
abbrev main_cst_30 : Ref sig .tc := ⟨.hbm, 149, rfl⟩
abbrev main_v82 : Ref sig .tc := ⟨.hbm, 150, rfl⟩
abbrev main_v83 : Ref sig .tc := ⟨.hbm, 151, rfl⟩
abbrev main_cst_31 : Ref sig .tc := ⟨.hbm, 152, rfl⟩
abbrev main_v84 : Ref sig .tc := ⟨.hbm, 153, rfl⟩
abbrev main_call9_v0 : Ref sig .tc := ⟨.hbm, 154, rfl⟩
abbrev main_call9_cst : Ref sig .tc := ⟨.hbm, 155, rfl⟩
abbrev main_call9_v1 : Ref sig .tc := ⟨.hbm, 156, rfl⟩
abbrev main_v85 : Ref sig .tc := ⟨.hbm, 157, rfl⟩
abbrev main_cst_32 : Ref sig .tc := ⟨.hbm, 158, rfl⟩
abbrev main_v86 : Ref sig .tc := ⟨.hbm, 159, rfl⟩
abbrev main_cst_33 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩

abbrev nD : Nat := 1
abbrev τ : Topo := Topo.v7x

variable {F : FTy → Type} [FloatOps F]

class Facts₀ : Prop where
  reducesTo_S8x3x3_S8x3_d1 : S8x3x3.ReducesTo [1] S8x3
  h_S_ : 0 < S_.numel
  reducesTo_S8x3_S_d0_1 : S8x3.ReducesTo [0, 1] S_
  reducesTo_S8x3_S8_d1 : S8x3.ReducesTo [1] S8
  reducesTo_S8_S_d0 : S8.ReducesTo [0] S_
  bcast_S8x2048x3_S8x2048x1x3_0_1_3 : S8x2048x3.BroadcastsInDim S8x2048x1x3 (![0, 1, 3] : Fin 3 → Fin S8x2048x1x3.rank)
  bcast_S8x128x3_S8x1x128x3_0_2_3 : S8x128x3.BroadcastsInDim S8x1x128x3 (![0, 2, 3] : Fin 3 → Fin S8x1x128x3.rank)
  bcast_S8x2048x1x3_S8x2048x128x3_0_1_2_3 : S8x2048x1x3.BroadcastsInDim S8x2048x128x3 (![0, 1, 2, 3] : Fin 4 → Fin S8x2048x128x3.rank)
  bcast_S8x1x128x3_S8x2048x128x3_0_1_2_3 : S8x1x128x3.BroadcastsInDim S8x2048x128x3 (![0, 1, 2, 3] : Fin 4 → Fin S8x2048x128x3.rank)
  reducesTo_S8x2048x128x3_S8x2048x128_d3 : S8x2048x128x3.ReducesTo [3] S8x2048x128
  reducesTo_S8x2048x128_S8x128_d1 : S8x2048x128.ReducesTo [1] S8x128
  reducesTo_S8x128_S_d0_1 : S8x128.ReducesTo [0, 1] S_
  reducesTo_S8x2048x128_S8x2048_d2 : S8x2048x128.ReducesTo [2] S8x2048
  reducesTo_S8x2048_S_d0_1 : S8x2048.ReducesTo [0, 1] S_
  shapeCasts_S8_S8x1x1 : S8.ShapeCasts S8x1x1
  bcast_S_S8x1x1 : S_.BroadcastsInDim S8x1x1 (![] : Fin 0 → Fin S8x1x1.rank)
  bcast_S8x3_S8x1x3_0_2 : S8x3.BroadcastsInDim S8x1x3 (![0, 2] : Fin 2 → Fin S8x1x3.rank)
  bcast_S8x1x3_S8x128x3_0_1_2 : S8x1x3.BroadcastsInDim S8x128x3 (![0, 1, 2] : Fin 3 → Fin S8x128x3.rank)
  bcast_S8x1x1_S8x128x3_0_1_2 : S8x1x1.BroadcastsInDim S8x128x3 (![0, 1, 2] : Fin 3 → Fin S8x128x3.rank)
  bcast_S_S8x128x3 : S_.BroadcastsInDim S8x128x3 (![] : Fin 0 → Fin S8x128x3.rank)
  reducesTo_S8x128x3_S8x128_d2 : S8x128x3.ReducesTo [2] S8x128
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S8x128x3_S8x128x1x3_0_1_3 : S8x128x3.BroadcastsInDim S8x128x1x3 (![0, 1, 3] : Fin 3 → Fin S8x128x1x3.rank)
  bcast_S8x128x1x3_S8x128x128x3_0_1_2_3 : S8x128x1x3.BroadcastsInDim S8x128x128x3 (![0, 1, 2, 3] : Fin 4 → Fin S8x128x128x3.rank)
  bcast_S8x1x128x3_S8x128x128x3_0_1_2_3 : S8x1x128x3.BroadcastsInDim S8x128x128x3 (![0, 1, 2, 3] : Fin 4 → Fin S8x128x128x3.rank)
  reducesTo_S8x128x128x3_S8x128x128_d3 : S8x128x128x3.ReducesTo [3] S8x128x128
  bcast_S1x128x128_S8x128x128_0_1_2 : S1x128x128.BroadcastsInDim S8x128x128 (![0, 1, 2] : Fin 3 → Fin S8x128x128.rank)
  bcast_S_S8x128x128 : S_.BroadcastsInDim S8x128x128 (![] : Fin 0 → Fin S8x128x128.rank)
  reducesTo_S8x128x128_S_d0_1_2 : S8x128x128.ReducesTo [0, 1, 2] S_
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  reducesTo_S8x2048x2048_S8x2048_d2 : S8x2048x2048.ReducesTo [2] S8x2048
  reducesTo_S8x2048x2048_S8x2048_d1 : S8x2048x2048.ReducesTo [1] S8x2048
  reducesTo_S8x2048x3_S8x2048_d2 : S8x2048x3.ReducesTo [2] S8x2048
  dot_S8x128x3_S8x3x3_S8x128x3_2_1_1_2_0_0_wf : DotDims.WF S8x128x3 S8x3x3 S8x128x3 [2] [1] [1] [2] [0] [0]

variable [Facts₀]

def dot_S8x128x3_S8x3x3_S8x128x3_2_1_1_2_0_0 : DotDims S8x128x3 S8x3x3 S8x128x3 where
  lhsContracting := [2]
  rhsContracting := [1]
  lhsNonContracting := [1]
  rhsNonContracting := [2]
  lhsBatch := [0]
  rhsBatch := [0]
  wf := dot_S8x128x3_S8x3x3_S8x128x3_2_1_1_2_0_0_wf

class Facts : Prop extends Facts₀ where

variable [Facts]
-- ==== Proof.Kernel.R0.lean ====
import proofs.«127974_j197568496105_2_alg».proof.Proof.Gen.Kernel.Launch
import proofs.«127974_j197568496105_2_alg».proof.Proof.Gen.Kernel.Skeleton
import proofs.«127974_j197568496105_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the running-minimum kernel on a 256-row block against ONE 128-column tile

There is a single tile per row block, so every point both resets the accumulator and writes the output block. -/

variable (V : (c : Dev nD) → (b : Ref sig .tc) → Buf (Elt F) ((c : Thread nD τ).loc b))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) :=
  (by decide +kernel : ∀ t : Fin grid0.N, cond0 (grid0.coords t))
abbrev cond1 (i : grid0.Coords) : Prop := k0_cond2 i = 1#1
theorem hcond1 : ∀ t : Fin cfg0.N, cond1 (grid0.coords t) :=
  (by decide +kernel : ∀ t : Fin grid0.N, cond1 (grid0.coords t))

theorem live_in (w : Fin 5) (hw : w.val < 4) : ∀ t : Fin cfg0.N, cfg0.idle w (grid0.coords t) = false := by
  intro t; match w, hw with
  | ⟨0, _⟩, _ => rfl
  | ⟨1, _⟩, _ => rfl
  | ⟨2, _⟩, _ => rfl
  | ⟨3, _⟩, _ => rfl
theorem live_out : ∀ t : Fin cfg0.N, cfg0.idle 4 (grid0.coords t) = false := by decide +kernel

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x256 .f32 := win0_4.stage (cfg0.slots t 4)
abbrev hs4 (t : Fin cfg0.N) : (ms4 t).IsWhole := hstage0_4 ((cfg0.slots t 4).cast nbuf0_4)
abbrev scM : Memref sig .tc .vmem S8x256 .f32 := Memref.whole cc0_scratch0
abbrev VO : View sig .tc .vmem S8x256 .f32 := (Memref.whole cc0_stg4_0 : Memref sig .tc .vmem S8x256 .f32).view

theorem PhiA_eq (c : Dev nD) :
    (Pipeline.ΦA spec0 c : sProp 𝕄)
      = iprop(iprop(iprop((∃ d, owns (c : Thread nD τ) scM fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

set_option maxHeartbeats 1000000 in
/-- The body at any point (reset taken, write-out taken): accumulator and output block at anything; the output block
    ends with its one store. -/
noncomputable def runD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i)
    (x0 : Vec F S8x256x3 .f32) (x1 : Vec F S8x256x1 .f32) (x2 : Vec F S8x128x3 .f32) (x3 : Vec F S8x1x128 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_min_kernel i arg2 harg2 arg3 harg3 arg4 harg4 arg5 harg5 arg6 harg6 arg7 harg7) K } := by
  refine ⟨?_, ?_, fun E K => ?run⟩
  case run =>
    simp only [cc0__pairwise_min_kernel_eq_skeleton]; unfold cc0__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem coverD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i) (x0 : Vec F S8x256x3 .f32) (x1 : Vec F S8x256x1 .f32) (x2 : Vec F S8x128x3 .f32) (x3 : Vec F S8x1x128 .f32) (y : S8x256.Idx) :
    ∃ pc ∈ (runD c i arg2 harg2 arg3 harg3 arg4 harg4 arg5 harg5 arg6 harg6 arg7 harg7 hc0 hc1 x0 x1 x2 x3).1, y ∈ pc.1.set :=
  View.cover_of_tiledL (runD c i arg2 harg2 arg3 harg3 arg4 harg4 arg5 harg5 arg6 harg6 arg7 harg7 hc0 hc1 x0 x1 x2 x3).1 S8x256.size (by sl_kernel_rfl) y
def outD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i) (x0 : Vec F S8x256x3 .f32) (x1 : Vec F S8x256x1 .f32) (x2 : Vec F S8x128x3 .f32) (x3 : Vec F S8x1x128 .f32) : Vec F S8x256 .f32 :=
  VO.read (Elt F) (VO.writes (Elt F) VO.junk (runD c i arg2 harg2 arg3 harg3 arg4 harg4 arg5 harg5 arg6 harg6 arg7 harg7 hc0 hc1 x0 x1 x2 x3).1)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outD c (grid0.coords t) (ms0 t) (hs0 t) (ms1 t) (hs1 t) (ms2 t) (hs2 t) (ms3 t) (hs3 t) (ms4 t) (hs4 t) scM (Memref.isWhole_whole _) (hcond0 t) (hcond1 t) (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outD c (grid0.coords t) (ms0 t) (hs0 t) (ms1 t) (hs1 t) (ms2 t) (hs2 t) (ms3 t) (hs3 t) (ms4 t) (hs4 t) scM (Memref.isWhole_whole _) (hcond0 t) (hcond1 t) (iblk V c 0 t) (iblk V c 1 t) (iblk V c 2 t) (iblk V c 3 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Pipeline.ΦA spec0 c from rfl, show (dat V c).Φ t.castSucc = Pipeline.ΦA spec0 c from rfl, PhiA_eq]
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  rw [show (dat V c).leavesExact 4 t = owns (c : Thread nD τ) (ms4 t) fullShare ((dat V c).after 4 t) from by
    unfold Dat.leavesExact; rw [live_out t], after_4]
  unfold outD; (try dsimp only)
  iintro ⟨⟨⟨HS0, Hr⟩, Hg⟩, Ho, ⟨%d0, H0⟩, ⟨%d1, H1⟩, ⟨%d2, H2⟩, ⟨%d3, H3⟩, ⟨%d4, H4⟩⟩
  iapply ((runD c (grid0.coords t) _ _ _ _ _ _ _ _ _ _ _ _ (hcond0 t) (hcond1 t) (iblk V c 0 t) (iblk V c 1 t) (iblk V c 2 t) (iblk V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hr Hg]
  · isplitl [HS0 Hr]
    · isplitl [HS0]
      · iexists _; unfold owns; iexists _; isplitr
        swap; · iexact HS0
        ipureintro; rfl
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverD c _ _ _ _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := Idealize.SL.BI.Entails.refl _
theorem hout (c : Dev nD) : (dat V c).Φ (Fin.last cfg0.N) ⊢ Pipeline.ΦA spec0 c := Idealize.SL.BI.Entails.refl _

end Cert.Kernel.Rgn0

end
-- ==== Proof.Kernel.R1Runs.lean ====
import proofs.«127974_j197568496105_2_alg».proof.Proof.Gen.Kernel.Launch
import proofs.«127974_j197568496105_2_alg».proof.Proof.Gen.Kernel.Skeleton
import proofs.«127974_j197568496105_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the running-minimum kernel on a 128-row block against 256-column tiles

The body resets its accumulator at the first tile of a row block, folds the tile's row minima into it at every
tile, and copies it to the output block at the last tile.  Three control cases over the tile coordinate. -/

/-- The reset condition: the tile coordinate is zero. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 8 = 0 :=
  (by decide +kernel : ∀ t : Fin grid1.N, cond0 (grid1.coords t) ↔ t.val % 8 = 0)

/-- The write-out condition: the tile coordinate is the last one. -/
abbrev cond1 (i : grid1.Coords) : Prop := k1_cond2 i = 1#1
theorem hcond1 : ∀ t : Fin cfg1.N, cond1 (grid1.coords t) ↔ t.val % 8 = 7 :=
  (by decide +kernel : ∀ t : Fin grid1.N, cond1 (grid1.coords t) ↔ t.val % 8 = 7)

/-- The output block is idle exactly where the write-out condition fails, and is written back exactly where it holds. -/
theorem live_in (w : Fin 5) (hw : w.val < 4) : ∀ t : Fin cfg1.N, cfg1.idle w (grid1.coords t) = false := by
  intro t; match w, hw with
  | ⟨0, _⟩, _ => rfl
  | ⟨1, _⟩, _ => rfl
  | ⟨2, _⟩, _ => rfl
  | ⟨3, _⟩, _ => rfl
theorem idle_out : ∀ t : Fin cfg1.N, ¬cond1 (grid1.coords t) → cfg1.idle 4 (grid1.coords t) = true := by decide +kernel
theorem live_out : ∀ t : Fin cfg1.N, cond1 (grid1.coords t) → cfg1.idle 4 (grid1.coords t) = false := by decide +kernel
theorem noFlush_out : ∀ t : Fin cfg1.N, ¬cond1 (grid1.coords t) → (cfg1.win 4).flush t = false := by decide +kernel

/-- The staging memrefs the pipeline passes at a point, the accumulator scratch, and one view of each through which
    contents are stated. -/
abbrev ms0 (t : Fin cfg1.N) : Memref sig .tc .vmem S8x128x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x128x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8x256x3 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S8x1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S8x128 .f32 := win1_4.stage (cfg1.slots t 4)
abbrev hs4 (t : Fin cfg1.N) : (ms4 t).IsWhole := hstage1_4 ((cfg1.slots t 4).cast nbuf1_4)
abbrev scM : Memref sig .tc .vmem S8x128 .f32 := Memref.whole cc1_scratch0
abbrev VS : View sig .tc .vmem S8x128 .f32 := (scM).view
abbrev VO : View sig .tc .vmem S8x128 .f32 := (Memref.whole cc1_stg4_0 : Memref sig .tc .vmem S8x128 .f32).view

/-- The class invariant with the accumulator as a memref owned at some contents. -/
theorem PhiA_eq (c : Dev nD) :
    (Pipeline.ΦA spec1 c : sProp 𝕄)
      = iprop(iprop(iprop((∃ d, owns (c : Thread nD τ) scM fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

set_option maxHeartbeats 1000000 in
/-- FIRST TILE (reset taken, write-out not taken): the accumulator is at anything, ends with its two stores; the output
    block is handed back untouched. -/
noncomputable def runA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i)
    (x0 : Vec F S8x128x3 .f32) (x1 : Vec F S8x128x1 .f32) (x2 : Vec F S8x256x3 .f32) (x3 : Vec F S8x1x256 .f32) :
    Σ' (L4 : List (View.Piece (Elt F) S8x128 .f32)), { LS0 : List (View.Piece (Elt F) S8x128 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨[], ?_, fun xi4 E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i)
    (x0 : Vec F S8x128x3 .f32) (x1 : Vec F S8x128x1 .f32) (x2 : Vec F S8x256x3 .f32) (x3 : Vec F S8x1x256 .f32) (xs0 : Vec F S8x128 .f32) :
    Σ' (L4 : List (View.Piece (Elt F) S8x128 .f32)), { LS0 : List (View.Piece (Elt F) S8x128 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨[], ?_, fun xi4 E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i)
    (x0 : Vec F S8x128x3 .f32) (x1 : Vec F S8x128x1 .f32) (x2 : Vec F S8x256x3 .f32) (x3 : Vec F S8x1x256 .f32) (xs0 : Vec F S8x128 .f32) :
    Σ' (L4 : List (View.Piece (Elt F) S8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨?_, ?_, fun E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Rgn1

end
-- ==== Proof.Kernel.R1.lean ====
import proofs.«127974_j197568496105_2_alg».proof.Proof.Kernel.R1Runs

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the block
    index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) : Vec F S8x128 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) (y : S8x128.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x128.size (by sl_kernel_rfl) y
def soutA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) : Vec F S8x128 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) : Vec F S8x128 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x128.size (by sl_kernel_rfl) y
def soutB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) : Vec F S8x128 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x128.size (by sl_kernel_rfl) y
def outC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) : Vec F S8x128 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x128.size (by sl_kernel_rfl) y
def soutC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) : Vec F S8x128 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg1.N → Vec F S8x128 .f32 × Vec F S8x128 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg1.N) (h0 : t.val % 8 = 0) (h1 : ¬t.val % 8 = 7) :
    outsAt V c t.val t.isLt = (outA c (grid1.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid1.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg1.N) (h0 : ¬t.val % 8 = 0) (h1 : ¬t.val % 8 = 7) :
    outsAt V c t.val t.isLt = (outB c (grid1.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = (outC c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid1.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  have ht : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.Kernel.Rgn1

end
-- ==== Proof.Kernel.R2.lean ====
import proofs.«127974_j197568496105_2_alg».proof.Proof.Gen.Kernel.Launch
import proofs.«127974_j197568496105_2_alg».proof.Proof.Gen.Kernel.Skeleton
import proofs.«127974_j197568496105_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the clamped self-distance sum, one point over the whole key-point array -/

variable (V : (c : Dev nD) → (b : Ref sig .tc) → Buf (Elt F) ((c : Thread nD τ).loc b))

theorem live_0 : ∀ t : Fin cfg2.N, cfg2.idle 0 (grid2.coords t) = false := by decide +kernel
theorem live_1 : ∀ t : Fin cfg2.N, cfg2.idle 1 (grid2.coords t) = false := by decide +kernel

abbrev ms0 (t : Fin cfg2.N) : Memref sig .tc .vmem S8x128x3 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x1 .f32 := win2_1.stage (cfg2.slots t 1)
abbrev hs1 (t : Fin cfg2.N) : (ms1 t).IsWhole := hstage2_1 ((cfg2.slots t 1).cast nbuf2_1)
abbrev VO : View sig .tc .vmem S1x1 .f32 := (Memref.whole cc2_stg1_0 : Memref sig .tc .vmem S1x1 .f32).view

set_option maxHeartbeats 1000000 in
/-- The body: the input block at its contents, the output block at anything; the output block ends with its one store. -/
noncomputable def runD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) :
    { L1 : List (View.Piece (Elt F) S1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__diversity_kernel i arg1 harg1 arg2 harg2) K } := by
  refine ⟨?_, fun E K => ?run⟩
  case run =>
    simp only [cc2__diversity_kernel_eq_skeleton]; unfold cc2__diversity_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem coverD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) (y : S1x1.Idx) :
    ∃ pc ∈ (runD c i arg1 harg1 arg2 harg2 x0).1, y ∈ pc.1.set :=
  View.cover_of_tiledL (runD c i arg1 harg1 arg2 harg2 x0).1 S1x1.size (by sl_kernel_rfl) y
def outD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) : Vec F S1x1 .f32 :=
  VO.read (Elt F) (VO.writes (Elt F) VO.junk (runD c i arg1 harg1 arg2 harg2 x0).1)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => outD c (grid2.coords t) (ms0 t) (hs0 t) (ms1 t) (hs1 t) (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = outD c (grid2.coords t) (ms0 t) (hs0 t) (ms1 t) (hs1 t) (iblk V c 0 t) := by dsimp only [dat]
theorem before_0 (c : Dev nD) (t : Fin cfg2.N) (d) : (dat V c).before 0 t d = iblk V c 0 t :=
  before_0_of V (dat V c) (A_eq V c 0) (after_0 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).owesAt () t.succ = (dat V c).owesAt () t.castSucc from rfl]
  rw [show (dat V c).Φ t.succ = Pipeline.ΦA spec2 c from rfl, show (dat V c).Φ t.castSucc = Pipeline.ΦA spec2 c from rfl]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  unfold outD; (try dsimp only)
  iintro ⟨HΦ, Ho, ⟨%d0, H0⟩, ⟨%d1, H1⟩⟩
  iapply ((runD c (grid2.coords t) _ _ _ _ (iblk V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (coverD c _ _ _ _ _ _)

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := Idealize.SL.BI.Entails.refl _
theorem hout (c : Dev nD) : (dat V c).Φ (Fin.last cfg2.N) ⊢ Pipeline.ΦA spec2 c := Idealize.SL.BI.Entails.refl _

end Cert.Kernel.Rgn2

end
-- ==== Proof.Kernel.R3Runs.lean ====
import proofs.«127974_j197568496105_2_alg».proof.Proof.Gen.Kernel.Launch
import proofs.«127974_j197568496105_2_alg».proof.Proof.Gen.Kernel.Skeleton
import proofs.«127974_j197568496105_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the running-minimum kernel on a 256-row block against 256-column tiles

The body resets its accumulator at the first tile of a row block, folds the tile's row minima into it at every
tile, and copies it to the output block at the last tile.  Three control cases over the tile coordinate. -/

/-- The reset condition: the tile coordinate is zero. -/
abbrev cond0 (i : grid3.Coords) : Prop := (Scalar.cmpi .ne (Scalar.extui (Scalar.cmpi .eq (BitVec.ofNat 32 (i 1).val) 0#32)) 0#32) = 1#1
theorem hcond0 : ∀ t : Fin cfg3.N, cond0 (grid3.coords t) ↔ t.val % 8 = 0 :=
  (by decide +kernel : ∀ t : Fin grid3.N, cond0 (grid3.coords t) ↔ t.val % 8 = 0)

/-- The write-out condition: the tile coordinate is the last one. -/
abbrev cond1 (i : grid3.Coords) : Prop := k3_cond2 i = 1#1
theorem hcond1 : ∀ t : Fin cfg3.N, cond1 (grid3.coords t) ↔ t.val % 8 = 7 :=
  (by decide +kernel : ∀ t : Fin grid3.N, cond1 (grid3.coords t) ↔ t.val % 8 = 7)

/-- The output block is idle exactly where the write-out condition fails, and is written back exactly where it holds. -/
theorem live_in (w : Fin 5) (hw : w.val < 4) : ∀ t : Fin cfg3.N, cfg3.idle w (grid3.coords t) = false := by
  intro t; match w, hw with
  | ⟨0, _⟩, _ => rfl
  | ⟨1, _⟩, _ => rfl
  | ⟨2, _⟩, _ => rfl
  | ⟨3, _⟩, _ => rfl
theorem idle_out : ∀ t : Fin cfg3.N, ¬cond1 (grid3.coords t) → cfg3.idle 4 (grid3.coords t) = true := by decide +kernel
theorem live_out : ∀ t : Fin cfg3.N, cond1 (grid3.coords t) → cfg3.idle 4 (grid3.coords t) = false := by decide +kernel
theorem noFlush_out : ∀ t : Fin cfg3.N, ¬cond1 (grid3.coords t) → (cfg3.win 4).flush t = false := by decide +kernel

/-- The staging memrefs the pipeline passes at a point, the accumulator scratch, and one view of each through which
    contents are stated. -/
abbrev ms0 (t : Fin cfg3.N) : Memref sig .tc .vmem S8x256x3 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S8x256x1 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S8x256x3 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S8x1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S8x256 .f32 := win3_4.stage (cfg3.slots t 4)
abbrev hs4 (t : Fin cfg3.N) : (ms4 t).IsWhole := hstage3_4 ((cfg3.slots t 4).cast nbuf3_4)
abbrev scM : Memref sig .tc .vmem S8x256 .f32 := Memref.whole cc3_scratch0
abbrev VS : View sig .tc .vmem S8x256 .f32 := (scM).view
abbrev VO : View sig .tc .vmem S8x256 .f32 := (Memref.whole cc3_stg4_0 : Memref sig .tc .vmem S8x256 .f32).view

/-- The class invariant with the accumulator as a memref owned at some contents. -/
theorem PhiA_eq (c : Dev nD) :
    (Pipeline.ΦA spec3 c : sProp 𝕄)
      = iprop(iprop(iprop((∃ d, owns (c : Thread nD τ) scM fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

set_option maxHeartbeats 1000000 in
/-- FIRST TILE (reset taken, write-out not taken): the accumulator is at anything, ends with its two stores; the output
    block is handed back untouched. -/
noncomputable def runA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i)
    (x0 : Vec F S8x256x3 .f32) (x1 : Vec F S8x256x1 .f32) (x2 : Vec F S8x256x3 .f32) (x3 : Vec F S8x1x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨[], ?_, fun xi4 E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨[], ?_, fun xi4 E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨?_, ?_, fun E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Rgn3

end
-- ==== Proof.Kernel.R3.lean ====
import proofs.«127974_j197568496105_2_alg».proof.Proof.Kernel.R3Runs

set_option maxRecDepth 16384

noncomputable section

namespace Cert.Kernel.Rgn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: unfetched, the block
    index has not moved. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) (y : S8x256.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x256.size (by sl_kernel_rfl) y
def soutA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x256.size (by sl_kernel_rfl) y
def soutB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x256.size (by sl_kernel_rfl) y
def outC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x256.size (by sl_kernel_rfl) y
def soutC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg3.N → Vec F S8x256 .f32 × Vec F S8x256 .f32
  | 0, hn => (outA c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg3.N) (h0 : t.val % 8 = 0) (h1 : ¬t.val % 8 = 7) :
    outsAt V c t.val t.isLt = (outA c (grid3.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid3.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg3.N) (h0 : ¬t.val % 8 = 0) (h1 : ¬t.val % 8 = 7) :
    outsAt V c t.val t.isLt = (outB c (grid3.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid3.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 8 = 0) (h1 : t.val % 8 = 7) :
    outsAt V c t.val t.isLt = (outC c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg3.N = 64 from N_3)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid3.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid3.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid3.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid3.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg3.N) ⊢ Pipeline.ΦA spec3 c := by
  have ht : (Fin.last cfg3.N).val ≠ 0 := by rw [Fin.val_last]; have : cfg3.N = 64 := N_3; omega
  rw [show (dat V c).Φ (Fin.last cfg3.N) = PhiS V c (Fin.last cfg3.N).val (Nat.le_of_lt_succ (Fin.last cfg3.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.Kernel.Rgn3

end
-- ==== Proof.Kernel.R4Runs.lean ====
import proofs.«127974_j197568496105_2_alg».proof.Proof.Gen.Kernel.Launch
import proofs.«127974_j197568496105_2_alg».proof.Proof.Gen.Kernel.Skeleton
import proofs.«127974_j197568496105_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the running-minimum kernel on a 256-row block against 256-column tiles

The body resets its accumulator at the first tile of a row block, folds the tile's row minima into it at every
tile, and copies it to the output block at the last tile.  Three control cases over the tile coordinate. -/

/-- The reset condition: the tile coordinate is zero. -/
abbrev cond0 (i : grid4.Coords) : Prop := (Scalar.cmpi .ne (Scalar.extui (Scalar.cmpi .eq (BitVec.ofNat 32 (i 1).val) 0#32)) 0#32) = 1#1
theorem hcond0 : ∀ t : Fin cfg4.N, cond0 (grid4.coords t) ↔ t.val % 8 = 0 :=
  (by decide +kernel : ∀ t : Fin grid4.N, cond0 (grid4.coords t) ↔ t.val % 8 = 0)

/-- The write-out condition: the tile coordinate is the last one. -/
abbrev cond1 (i : grid4.Coords) : Prop := k4_cond2 i = 1#1
theorem hcond1 : ∀ t : Fin cfg4.N, cond1 (grid4.coords t) ↔ t.val % 8 = 7 :=
  (by decide +kernel : ∀ t : Fin grid4.N, cond1 (grid4.coords t) ↔ t.val % 8 = 7)

/-- The output block is idle exactly where the write-out condition fails, and is written back exactly where it holds. -/
theorem live_in (w : Fin 5) (hw : w.val < 4) : ∀ t : Fin cfg4.N, cfg4.idle w (grid4.coords t) = false := by
  intro t; match w, hw with
  | ⟨0, _⟩, _ => rfl
  | ⟨1, _⟩, _ => rfl
  | ⟨2, _⟩, _ => rfl
  | ⟨3, _⟩, _ => rfl
theorem idle_out : ∀ t : Fin cfg4.N, ¬cond1 (grid4.coords t) → cfg4.idle 4 (grid4.coords t) = true := by decide +kernel
theorem live_out : ∀ t : Fin cfg4.N, cond1 (grid4.coords t) → cfg4.idle 4 (grid4.coords t) = false := by decide +kernel
theorem noFlush_out : ∀ t : Fin cfg4.N, ¬cond1 (grid4.coords t) → (cfg4.win 4).flush t = false := by decide +kernel

/-- The staging memrefs the pipeline passes at a point, the accumulator scratch, and one view of each through which
    contents are stated. -/
abbrev ms0 (t : Fin cfg4.N) : Memref sig .tc .vmem S8x256x3 .f32 := win4_0.stage (cfg4.slots t 0)
abbrev hs0 (t : Fin cfg4.N) : (ms0 t).IsWhole := hstage4_0 ((cfg4.slots t 0).cast nbuf4_0)
abbrev ms1 (t : Fin cfg4.N) : Memref sig .tc .vmem S8x256x1 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S8x256x3 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S8x1x256 .f32 := win4_3.stage (cfg4.slots t 3)
abbrev hs3 (t : Fin cfg4.N) : (ms3 t).IsWhole := hstage4_3 ((cfg4.slots t 3).cast nbuf4_3)
abbrev ms4 (t : Fin cfg4.N) : Memref sig .tc .vmem S8x256 .f32 := win4_4.stage (cfg4.slots t 4)
abbrev hs4 (t : Fin cfg4.N) : (ms4 t).IsWhole := hstage4_4 ((cfg4.slots t 4).cast nbuf4_4)
abbrev scM : Memref sig .tc .vmem S8x256 .f32 := Memref.whole cc4_scratch0
abbrev VS : View sig .tc .vmem S8x256 .f32 := (scM).view
abbrev VO : View sig .tc .vmem S8x256 .f32 := (Memref.whole cc4_stg4_0 : Memref sig .tc .vmem S8x256 .f32).view

/-- The class invariant with the accumulator as a memref owned at some contents. -/
theorem PhiA_eq (c : Dev nD) :
    (Pipeline.ΦA spec4 c : sProp 𝕄)
      = iprop(iprop(iprop((∃ d, owns (c : Thread nD τ) scM fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM, owns_whole]; try rfl

set_option maxHeartbeats 1000000 in
/-- FIRST TILE (reset taken, write-out not taken): the accumulator is at anything, ends with its two stores; the output
    block is handed back untouched. -/
noncomputable def runA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i)
    (x0 : Vec F S8x256x3 .f32) (x1 : Vec F S8x256x1 .f32) (x2 : Vec F S8x256x3 .f32) (x3 : Vec F S8x1x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨[], ?_, fun xi4 E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨[], ?_, fun xi4 E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨?_, ?_, fun E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Rgn4

end
-- ==== Proof.Kernel.R4.lean ====
import proofs.«127974_j197568496105_2_alg».proof.Proof.Kernel.R4Runs

set_option maxRecDepth 16384

noncomputable section

namespace Cert.Kernel.Rgn4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: unfetched, the block
    index has not moved. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) (y : S8x256.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x256.size (by sl_kernel_rfl) y
def soutA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x256.size (by sl_kernel_rfl) y
def soutB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x256.size (by sl_kernel_rfl) y
def outC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x256.size (by sl_kernel_rfl) y
def soutC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg4.N → Vec F S8x256 .f32 × Vec F S8x256 .f32
  | 0, hn => (outA c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg4.N) (h0 : t.val % 8 = 0) (h1 : ¬t.val % 8 = 7) :
    outsAt V c t.val t.isLt = (outA c (grid4.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid4.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg4.N) (h0 : ¬t.val % 8 = 0) (h1 : ¬t.val % 8 = 7) :
    outsAt V c t.val t.isLt = (outB c (grid4.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid4.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg4.N) (h0 : ¬t.val % 8 = 0) (h1 : t.val % 8 = 7) :
    outsAt V c t.val t.isLt = (outC c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg4.N → sProp 𝕄
  | 0, _ => Pipeline.ΦA spec4 c
  | n + 1, hn => iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r)) := rfl

theorem PhiS_pos (c : Dev nD) (n : ℕ) (h : n ≤ cfg4.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = (outsAt V c t.val t.isLt).1 := by dsimp only [dat]

theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d
theorem before_3 (c : Dev nD) (t : Fin cfg4.N) (d) : (dat V c).before 3 t d = iblk V c 3 t :=
  before_3_of V (dat V c) (A_eq V c 3) (after_3 V c) t d

/-! ## The body obligation -/

def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg4.N = 64 from N_4)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid4.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid4.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid4.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid4.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W4, bigSep_W4]
  exact sound_body V c t

/-- What the launch hands the region is the invariant before the first point. -/
theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg4.N) ⊢ Pipeline.ΦA spec4 c := by
  have ht : (Fin.last cfg4.N).val ≠ 0 := by rw [Fin.val_last]; have : cfg4.N = 64 := N_4; omega
  rw [show (dat V c).Φ (Fin.last cfg4.N) = PhiS V c (Fin.last cfg4.N).val (Nat.le_of_lt_succ (Fin.last cfg4.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.Kernel.Rgn4

end
-- ==== Proof.Kernel.Frame.lean ====
import proofs.«127974_j197568496105_2_alg».proof.Proof.Kernel.R0
import proofs.«127974_j197568496105_2_alg».proof.Proof.Kernel.R1
import proofs.«127974_j197568496105_2_alg».proof.Proof.Kernel.R2
import proofs.«127974_j197568496105_2_alg».proof.Proof.Kernel.R3
import proofs.«127974_j197568496105_2_alg».proof.Proof.Kernel.R4
import proofs.«127974_j197568496105_2_alg».proof.Proof.Gen.Kernel.Regions
import Idealize.ShloMosaic.Lib.Pipeline.RegionsLoop

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! # The five regions as segments of the host program

Between two items every unscoped buffer is held at the valuation the generated host side names; a region's entry
contents are that valuation read at the TensorCore's references. -/

abbrev E0 : (c : Dev nD) → (b : Ref sig .tc) → Buf (Elt F) ((c : Thread nD τ).loc b) := fun c b => V7 m c b
abbrev E1 : (c : Dev nD) → (b : Ref sig .tc) → Buf (Elt F) ((c : Thread nD τ).loc b) := fun c b => V9 m outs c b
abbrev E2 : (c : Dev nD) → (b : Ref sig .tc) → Buf (Elt F) ((c : Thread nD τ).loc b) := fun c b => V15 m outs c b
abbrev E3 : (c : Dev nD) → (b : Ref sig .tc) → Buf (Elt F) ((c : Thread nD τ).loc b) := fun c b => V17 m outs c b
abbrev E4 : (c : Dev nD) → (b : Ref sig .tc) → Buf (Elt F) ((c : Thread nD τ).loc b) := fun c b => V19 m outs c b

/-- Every pipeline's proof data, each at its region's entry contents. -/
def pdats : (p : Fin 5) → (c : Dev nD) → Dat τ (Elt F) Unit ℕ (UR sig nD τ) ℕ (cfgs p) c
  | ⟨0, _⟩ => fun c => Rgn0.dat (E0 m) c
  | ⟨1, _⟩ => fun c => Rgn1.dat (E1 m outs) c
  | ⟨2, _⟩ => fun c => Rgn2.dat (E2 m outs) c
  | ⟨3, _⟩ => fun c => Rgn3.dat (E3 m outs) c
  | ⟨4, _⟩ => fun c => Rgn4.dat (E4 m outs) c

/-- The contents the regions leave ARE what their pipelines compute: each region's output array after its last point. -/
structure OutsOk : Prop where
  h0 : ∀ c : Dev nD, outs 8 main_v20 c = (pdats m outs 0 c).arrAt 4 cfg0.N
  h1 : ∀ c : Dev nD, outs 10 main_v27 c = (pdats m outs 1 c).arrAt 4 cfg1.N
  h2 : ∀ c : Dev nD, outs 16 main_v57 c = (pdats m outs 2 c).arrAt 1 cfg2.N
  h3 : ∀ c : Dev nD, outs 18 main_v66 c = (pdats m outs 3 c).arrAt 4 cfg3.N
  h4 : ∀ c : Dev nD, outs 20 main_v73 c = (pdats m outs 4 c).arrAt 4 cfg4.N

/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option maxHeartbeats 1600000 in
set_option backward.isDefEq.respectTransparency.types false in
/-- Region 0 as a segment: entered from every unscoped buffer at the contents before it, left with its output array
    at what the pipeline leaves and every other buffer as entered; the generator register into the invariant and out;
    nothing owed; no semaphore of the kernel's own. -/
def reg0 (hO : OutsOk m outs) : Pipeline.RegionSeg (pcfgs (F := F)) adm (pdats m outs) () defs₀ Variants.none L lv 0 where
  win := launch0.win.to₀
  block_pos := launch0.block_pos
  stage_whole := launch0.stage_whole
  K := PEmpty
  osem k := k.elim
  ho := Pipeline.OwnSemFacts.none _
  hbody c := (Rgn0.body_obligation (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held c (V7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hF : ∀ w, (pdats m outs 0 c).arrAt w cfg0.N = (fun b : Ref sig .tc => V8 m outs c b) (Pipeline.arrRef spec0 w) := by
      intro w
      match w with
      | ⟨0, _⟩ => exact ((pdats m outs 0 c).arrAt_in 0 rfl _).trans ((Rgn0.A_eq (E0 m) c 0).trans (show V7 m c main_arg0 = V8 m outs c main_arg0 from (V8_of m outs c main_arg0 (by decide)).symm))
      | ⟨1, _⟩ => exact ((pdats m outs 0 c).arrAt_in 1 rfl _).trans ((Rgn0.A_eq (E0 m) c 1).trans (show V7 m c main_v16 = V8 m outs c main_v16 from (V8_of m outs c main_v16 (by decide)).symm))
      | ⟨2, _⟩ => exact ((pdats m outs 0 c).arrAt_in 2 rfl _).trans ((Rgn0.A_eq (E0 m) c 2).trans (show V7 m c main_arg2 = V8 m outs c main_arg2 from (V8_of m outs c main_arg2 (by decide)).symm))
      | ⟨3, _⟩ => exact ((pdats m outs 0 c).arrAt_in 3 rfl _).trans ((Rgn0.A_eq (E0 m) c 3).trans (show V7 m c main_v19 = V8 m outs c main_v19 from (V8_of m outs c main_v19 (by decide)).symm))
      | ⟨4, _⟩ => exact (hO.h0 c).symm.trans (show outs 8 main_v20 c = Function.update (V7 m c) (Proc.devRef .tc main_v20) (outs 8 main_v20 c) (Proc.devRef .tc main_v20) from (Function.update_self (Proc.devRef (τ := τ) .tc main_v20) (outs 8 main_v20 c) (V7 m c)).symm)
    have hrest : ∀ b, b ∉ Finset.univ.image (Pipeline.arrRef spec0) → (fun b : Ref sig .tc => V8 m outs c b) b = (fun b : Ref sig .tc => V7 m c b) b :=
      fun b hb => V8_of m outs c b (fun h => hb (by rw [List.mem_singleton.mp h]; exact Finset.mem_image.mpr ⟨4, Finset.mem_univ _, rfl⟩))
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b : Ref sig .tc => V7 m c b) (fun b : Ref sig .tc => V8 m outs c b) ((pdats m outs 0 c).arrAt · cfg0.N) hF hrest
    rw [Pipeline.unscopedBufs_held c (V8 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 1 as a segment: entered from every unscoped buffer at the contents before it, left with its output array
    at what the pipeline leaves and every other buffer as entered; the generator register into the invariant and out;
    nothing owed; no semaphore of the kernel's own. -/
def reg1 (hO : OutsOk m outs) : Pipeline.RegionSeg (pcfgs (F := F)) adm (pdats m outs) () defs₀ Variants.none L lv 1 where
  win := launch1.win.to₀
  block_pos := launch1.block_pos
  stage_whole := launch1.stage_whole
  K := PEmpty
  osem k := k.elim
  ho := Pipeline.OwnSemFacts.none _
  hbody c := (Rgn1.body_obligation (E1 m outs) c).loose
  hwaits := Pipeline.hwaits_of_owed_zero _ _ _ _ L lv 1 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E1 m outs c) fun _ => rfl
    rw [Pipeline.unscopedBufs_held c (V9 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    refine (Rgn1.hout (E1 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 1 c).arrAt w cfg1.N = (fun b : Ref sig .tc => V10 m outs c b) (Pipeline.arrRef spec1 w) := by
      intro w
      match w with
      | ⟨0, _⟩ => exact ((pdats m outs 1 c).arrAt_in 0 rfl _).trans ((Rgn1.A_eq (E1 m outs) c 0).trans (show V9 m outs c main_arg2 = V10 m outs c main_arg2 from (V10_of m outs c main_arg2 (by decide)).symm))
      | ⟨1, _⟩ => exact ((pdats m outs 1 c).arrAt_in 1 rfl _).trans ((Rgn1.A_eq (E1 m outs) c 1).trans (show V9 m outs c main_v23 = V10 m outs c main_v23 from (V10_of m outs c main_v23 (by decide)).symm))
      | ⟨2, _⟩ => exact ((pdats m outs 1 c).arrAt_in 2 rfl _).trans ((Rgn1.A_eq (E1 m outs) c 2).trans (show V9 m outs c main_arg0 = V10 m outs c main_arg0 from (V10_of m outs c main_arg0 (by decide)).symm))
      | ⟨3, _⟩ => exact ((pdats m outs 1 c).arrAt_in 3 rfl _).trans ((Rgn1.A_eq (E1 m outs) c 3).trans (show V9 m outs c main_v26 = V10 m outs c main_v26 from (V10_of m outs c main_v26 (by decide)).symm))
      | ⟨4, _⟩ => exact (hO.h1 c).symm.trans (show outs 10 main_v27 c = Function.update (V9 m outs c) (Proc.devRef .tc main_v27) (outs 10 main_v27 c) (Proc.devRef .tc main_v27) from (Function.update_self (Proc.devRef (τ := τ) .tc main_v27) (outs 10 main_v27 c) (V9 m outs c)).symm)
    have hrest : ∀ b, b ∉ Finset.univ.image (Pipeline.arrRef spec1) → (fun b : Ref sig .tc => V10 m outs c b) b = (fun b : Ref sig .tc => V9 m outs c b) b :=
      fun b hb => V10_of m outs c b (fun h => hb (by rw [List.mem_singleton.mp h]; exact Finset.mem_image.mpr ⟨4, Finset.mem_univ _, rfl⟩))
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b : Ref sig .tc => V9 m outs c b) (fun b : Ref sig .tc => V10 m outs c b) ((pdats m outs 1 c).arrAt · cfg1.N) hF hrest
    rw [Pipeline.unscopedBufs_held c (V10 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 2 as a segment: entered from every unscoped buffer at the contents before it, left with its output array
    at what the pipeline leaves and every other buffer as entered; the generator register into the invariant and out;
    nothing owed; no semaphore of the kernel's own. -/
def reg2 (hO : OutsOk m outs) : Pipeline.RegionSeg (pcfgs (F := F)) adm (pdats m outs) () defs₀ Variants.none L lv 2 where
  win := launch2.win.to₀
  block_pos := launch2.block_pos
  stage_whole := launch2.stage_whole
  K := PEmpty
  osem k := k.elim
  ho := Pipeline.OwnSemFacts.none _
  hbody c := (Rgn2.body_obligation (E2 m outs) c).loose
  hwaits := Pipeline.hwaits_of_owed_zero _ _ _ _ L lv 2 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E2 m outs c) fun _ => rfl
    rw [Pipeline.unscopedBufs_held c (V15 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w, (pdats m outs 2 c).arrAt w cfg2.N = (fun b : Ref sig .tc => V16 m outs c b) (Pipeline.arrRef spec2 w) := by
      intro w
      match w with
      | ⟨0, _⟩ => exact ((pdats m outs 2 c).arrAt_in 0 rfl _).trans ((Rgn2.A_eq (E2 m outs) c 0).trans (show V15 m outs c main_arg2 = V16 m outs c main_arg2 from (V16_of m outs c main_arg2 (by decide)).symm))
      | ⟨1, _⟩ => exact (hO.h2 c).symm.trans (show outs 16 main_v57 c = Function.update (V15 m outs c) (Proc.devRef .tc main_v57) (outs 16 main_v57 c) (Proc.devRef .tc main_v57) from (Function.update_self (Proc.devRef (τ := τ) .tc main_v57) (outs 16 main_v57 c) (V15 m outs c)).symm)
    have hrest : ∀ b, b ∉ Finset.univ.image (Pipeline.arrRef spec2) → (fun b : Ref sig .tc => V16 m outs c b) b = (fun b : Ref sig .tc => V15 m outs c b) b :=
      fun b hb => V16_of m outs c b (fun h => hb (by rw [List.mem_singleton.mp h]; exact Finset.mem_image.mpr ⟨1, Finset.mem_univ _, rfl⟩))
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b : Ref sig .tc => V15 m outs c b) (fun b : Ref sig .tc => V16 m outs c b) ((pdats m outs 2 c).arrAt · cfg2.N) hF hrest
    rw [Pipeline.unscopedBufs_held c (V16 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 3 as a segment: entered from every unscoped buffer at the contents before it, left with its output array
    at what the pipeline leaves and every other buffer as entered; the generator register into the invariant and out;
    nothing owed; no semaphore of the kernel's own. -/
def reg3 (hO : OutsOk m outs) : Pipeline.RegionSeg (pcfgs (F := F)) adm (pdats m outs) () defs₀ Variants.none L lv 3 where
  win := launch3.win.to₀
  block_pos := launch3.block_pos
  stage_whole := launch3.stage_whole
  K := PEmpty
  osem k := k.elim
  ho := Pipeline.OwnSemFacts.none _
  hbody c := (Rgn3.body_obligation (E3 m outs) c).loose
  hwaits := Pipeline.hwaits_of_owed_zero _ _ _ _ L lv 3 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec3 c (E3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (E3 m outs c) fun _ => rfl
    rw [Pipeline.unscopedBufs_held c (V17 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    refine (Rgn3.hout (E3 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 3 c).arrAt w cfg3.N = (fun b : Ref sig .tc => V18 m outs c b) (Pipeline.arrRef spec3 w) := by
      intro w
      match w with
      | ⟨0, _⟩ => exact ((pdats m outs 3 c).arrAt_in 0 rfl _).trans ((Rgn3.A_eq (E3 m outs) c 0).trans (show V17 m outs c main_arg0 = V18 m outs c main_arg0 from (V18_of m outs c main_arg0 (by decide)).symm))
      | ⟨1, _⟩ => exact ((pdats m outs 3 c).arrAt_in 1 rfl _).trans ((Rgn3.A_eq (E3 m outs) c 1).trans (show V17 m outs c main_v62 = V18 m outs c main_v62 from (V18_of m outs c main_v62 (by decide)).symm))
      | ⟨2, _⟩ => exact ((pdats m outs 3 c).arrAt_in 2 rfl _).trans ((Rgn3.A_eq (E3 m outs) c 2).trans (show V17 m outs c main_arg3 = V18 m outs c main_arg3 from (V18_of m outs c main_arg3 (by decide)).symm))
      | ⟨3, _⟩ => exact ((pdats m outs 3 c).arrAt_in 3 rfl _).trans ((Rgn3.A_eq (E3 m outs) c 3).trans (show V17 m outs c main_v65 = V18 m outs c main_v65 from (V18_of m outs c main_v65 (by decide)).symm))
      | ⟨4, _⟩ => exact (hO.h3 c).symm.trans (show outs 18 main_v66 c = Function.update (V17 m outs c) (Proc.devRef .tc main_v66) (outs 18 main_v66 c) (Proc.devRef .tc main_v66) from (Function.update_self (Proc.devRef (τ := τ) .tc main_v66) (outs 18 main_v66 c) (V17 m outs c)).symm)
    have hrest : ∀ b, b ∉ Finset.univ.image (Pipeline.arrRef spec3) → (fun b : Ref sig .tc => V18 m outs c b) b = (fun b : Ref sig .tc => V17 m outs c b) b :=
      fun b hb => V18_of m outs c b (fun h => hb (by rw [List.mem_singleton.mp h]; exact Finset.mem_image.mpr ⟨4, Finset.mem_univ _, rfl⟩))
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b : Ref sig .tc => V17 m outs c b) (fun b : Ref sig .tc => V18 m outs c b) ((pdats m outs 3 c).arrAt · cfg3.N) hF hrest
    rw [Pipeline.unscopedBufs_held c (V18 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 4 as a segment: entered from every unscoped buffer at the contents before it, left with its output array
    at what the pipeline leaves and every other buffer as entered; the generator register into the invariant and out;
    nothing owed; no semaphore of the kernel's own. -/
def reg4 (hO : OutsOk m outs) : Pipeline.RegionSeg (pcfgs (F := F)) adm (pdats m outs) () defs₀ Variants.none L lv 4 where
  win := launch4.win.to₀
  block_pos := launch4.block_pos
  stage_whole := launch4.stage_whole
  K := PEmpty
  osem k := k.elim
  ho := Pipeline.OwnSemFacts.none _
  hbody c := (Rgn4.body_obligation (E4 m outs) c).loose
  hwaits := Pipeline.hwaits_of_owed_zero _ _ _ _ L lv 4 fun _ _ => rfl
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec4 c (E4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (E4 m outs c) fun _ => rfl
    rw [Pipeline.unscopedBufs_held c (V19 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    refine (Rgn4.hout (E4 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 4 c).arrAt w cfg4.N = (fun b : Ref sig .tc => V20 m outs c b) (Pipeline.arrRef spec4 w) := by
      intro w
      match w with
      | ⟨0, _⟩ => exact ((pdats m outs 4 c).arrAt_in 0 rfl _).trans ((Rgn4.A_eq (E4 m outs) c 0).trans (show V19 m outs c main_arg3 = V20 m outs c main_arg3 from (V20_of m outs c main_arg3 (by decide)).symm))
      | ⟨1, _⟩ => exact ((pdats m outs 4 c).arrAt_in 1 rfl _).trans ((Rgn4.A_eq (E4 m outs) c 1).trans (show V19 m outs c main_v69 = V20 m outs c main_v69 from (V20_of m outs c main_v69 (by decide)).symm))
      | ⟨2, _⟩ => exact ((pdats m outs 4 c).arrAt_in 2 rfl _).trans ((Rgn4.A_eq (E4 m outs) c 2).trans (show V19 m outs c main_arg0 = V20 m outs c main_arg0 from (V20_of m outs c main_arg0 (by decide)).symm))
      | ⟨3, _⟩ => exact ((pdats m outs 4 c).arrAt_in 3 rfl _).trans ((Rgn4.A_eq (E4 m outs) c 3).trans (show V19 m outs c main_v72 = V20 m outs c main_v72 from (V20_of m outs c main_v72 (by decide)).symm))
      | ⟨4, _⟩ => exact (hO.h4 c).symm.trans (show outs 20 main_v73 c = Function.update (V19 m outs c) (Proc.devRef .tc main_v73) (outs 20 main_v73 c) (Proc.devRef .tc main_v73) from (Function.update_self (Proc.devRef (τ := τ) .tc main_v73) (outs 20 main_v73 c) (V19 m outs c)).symm)
    have hrest : ∀ b, b ∉ Finset.univ.image (Pipeline.arrRef spec4) → (fun b : Ref sig .tc => V20 m outs c b) b = (fun b : Ref sig .tc => V19 m outs c b) b :=
      fun b hb => V20_of m outs c b (fun h => hb (by rw [List.mem_singleton.mp h]; exact Finset.mem_image.mpr ⟨4, Finset.mem_univ _, rfl⟩))
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (fun b : Ref sig .tc => V19 m outs c b) (fun b : Ref sig .tc => V20 m outs c b) ((pdats m outs 4 c).arrAt · cfg4.N) hF hrest
    rw [Pipeline.unscopedBufs_held c (V20 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.Kernel.FrameRun.lean ====
import proofs.«127974_j197568496105_2_alg».proof.Proof.Kernel.Frame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The contents the regions leave, chosen stage by stage

A region's entry contents depend only on what the regions BEFORE it left, so the family of left contents is built one
region at a time: stage k fixes region k's output array at what its pipeline computes from the contents the earlier
stages fixed. -/

variable {m} in
theorem V8_congr {o o' : Outs (F := F)} (h8 : ∀ c, o 8 main_v20 c = o' 8 main_v20 c) (c : Dev nD) : V8 m o c = V8 m o' c := by
  show Function.update (V7 m c) _ _ = Function.update (V7 m c) _ _; rw [h8 c]
variable {m} in
theorem V9_congr {o o' : Outs (F := F)} (h8 : ∀ c, o 8 main_v20 c = o' 8 main_v20 c) (c : Dev nD) : V9 m o c = V9 m o' c := by
  show StableHlo.after hostOps1 (V8 m o c) = StableHlo.after hostOps1 (V8 m o' c); rw [V8_congr h8 c]
variable {m} in
theorem V15_congr {o o' : Outs (F := F)} (h8 : ∀ c, o 8 main_v20 c = o' 8 main_v20 c) (h10 : ∀ c, o 10 main_v27 c = o' 10 main_v27 c) (c : Dev nD) : V15 m o c = V15 m o' c := by
  show StableHlo.after hostOps2_4 (StableHlo.after hostOps2_3 (StableHlo.after hostOps2_2 (StableHlo.after hostOps2_1 (StableHlo.after hostOps2 (Function.update (V9 m o c) _ _)))))
     = StableHlo.after hostOps2_4 (StableHlo.after hostOps2_3 (StableHlo.after hostOps2_2 (StableHlo.after hostOps2_1 (StableHlo.after hostOps2 (Function.update (V9 m o' c) _ _)))))
  rw [V9_congr h8 c, h10 c]
variable {m} in
theorem V17_congr {o o' : Outs (F := F)} (h8 : ∀ c, o 8 main_v20 c = o' 8 main_v20 c) (h10 : ∀ c, o 10 main_v27 c = o' 10 main_v27 c) (h16 : ∀ c, o 16 main_v57 c = o' 16 main_v57 c) (c : Dev nD) : V17 m o c = V17 m o' c := by
  show StableHlo.after hostOps3 (Function.update (V15 m o c) _ _) = StableHlo.after hostOps3 (Function.update (V15 m o' c) _ _)
  rw [V15_congr h8 h10 c, h16 c]
variable {m} in
theorem V19_congr {o o' : Outs (F := F)} (h8 : ∀ c, o 8 main_v20 c = o' 8 main_v20 c) (h10 : ∀ c, o 10 main_v27 c = o' 10 main_v27 c) (h16 : ∀ c, o 16 main_v57 c = o' 16 main_v57 c) (h18 : ∀ c, o 18 main_v66 c = o' 18 main_v66 c) (c : Dev nD) : V19 m o c = V19 m o' c := by
  show StableHlo.after hostOps4 (Function.update (V17 m o c) _ _) = StableHlo.after hostOps4 (Function.update (V17 m o' c) _ _)
  rw [V17_congr h8 h10 h16 c, h18 c]

/-- Nothing fixed yet: every buffer at its launch contents. -/
def o0 : Outs (F := F) := fun _ r c => m ((c : Thread nD τ).loc r)
def o1 : Outs (F := F) := fun J r c =>
  if J = 8 then Function.update (fun r' : Ref sig .tc => m ((c : Thread nD τ).loc r')) main_v20 ((pdats m (o0 m) 0 c).arrAt 4 cfg0.N) r else o0 m J r c
def o2 : Outs (F := F) := fun J r c =>
  if J = 10 then Function.update (fun r' : Ref sig .tc => m ((c : Thread nD τ).loc r')) main_v27 ((pdats m (o1 m) 1 c).arrAt 4 cfg1.N) r else o1 m J r c
def o3 : Outs (F := F) := fun J r c =>
  if J = 16 then Function.update (fun r' : Ref sig .tc => m ((c : Thread nD τ).loc r')) main_v57 ((pdats m (o2 m) 2 c).arrAt 1 cfg2.N) r else o2 m J r c
def o4 : Outs (F := F) := fun J r c =>
  if J = 18 then Function.update (fun r' : Ref sig .tc => m ((c : Thread nD τ).loc r')) main_v66 ((pdats m (o3 m) 3 c).arrAt 4 cfg3.N) r else o3 m J r c
def o5 : Outs (F := F) := fun J r c =>
  if J = 20 then Function.update (fun r' : Ref sig .tc => m ((c : Thread nD τ).loc r')) main_v73 ((pdats m (o4 m) 4 c).arrAt 4 cfg4.N) r else o4 m J r c

theorem o5_8 (c : Dev nD) : o5 m 8 main_v20 c = (pdats m (o0 m) 0 c).arrAt 4 cfg0.N := by
  simp only [o5, o4, o3, o2, o1, Function.update_self, reduceIte, Nat.reduceEqDiff]
theorem o5_10 (c : Dev nD) : o5 m 10 main_v27 c = (pdats m (o1 m) 1 c).arrAt 4 cfg1.N := by
  simp only [o5, o4, o3, o2, Function.update_self, reduceIte, Nat.reduceEqDiff]
theorem o5_16 (c : Dev nD) : o5 m 16 main_v57 c = (pdats m (o2 m) 2 c).arrAt 1 cfg2.N := by
  simp only [o5, o4, o3, Function.update_self, reduceIte, Nat.reduceEqDiff]
theorem o5_18 (c : Dev nD) : o5 m 18 main_v66 c = (pdats m (o3 m) 3 c).arrAt 4 cfg3.N := by
  simp only [o5, o4, Function.update_self, reduceIte, Nat.reduceEqDiff]
theorem o5_20 (c : Dev nD) : o5 m 20 main_v73 c = (pdats m (o4 m) 4 c).arrAt 4 cfg4.N := by
  simp only [o5, Function.update_self, reduceIte, Nat.reduceEqDiff]
theorem o1_8 (c : Dev nD) : o1 m 8 main_v20 c = (pdats m (o0 m) 0 c).arrAt 4 cfg0.N := by
  simp only [o1, Function.update_self, reduceIte]
theorem o2_8 (c : Dev nD) : o2 m 8 main_v20 c = (pdats m (o0 m) 0 c).arrAt 4 cfg0.N := by
  simp only [o2, o1, Function.update_self, reduceIte, Nat.reduceEqDiff]
theorem o2_10 (c : Dev nD) : o2 m 10 main_v27 c = (pdats m (o1 m) 1 c).arrAt 4 cfg1.N := by
  simp only [o2, Function.update_self, reduceIte]
theorem o3_8 (c : Dev nD) : o3 m 8 main_v20 c = (pdats m (o0 m) 0 c).arrAt 4 cfg0.N := by
  simp only [o3, o2, o1, Function.update_self, reduceIte, Nat.reduceEqDiff]
theorem o3_10 (c : Dev nD) : o3 m 10 main_v27 c = (pdats m (o1 m) 1 c).arrAt 4 cfg1.N := by
  simp only [o3, o2, Function.update_self, reduceIte, Nat.reduceEqDiff]
theorem o3_16 (c : Dev nD) : o3 m 16 main_v57 c = (pdats m (o2 m) 2 c).arrAt 1 cfg2.N := by
  simp only [o3, Function.update_self, reduceIte]
theorem o4_8 (c : Dev nD) : o4 m 8 main_v20 c = (pdats m (o0 m) 0 c).arrAt 4 cfg0.N := by
  simp only [o4, o3, o2, o1, Function.update_self, reduceIte, Nat.reduceEqDiff]
theorem o4_10 (c : Dev nD) : o4 m 10 main_v27 c = (pdats m (o1 m) 1 c).arrAt 4 cfg1.N := by
  simp only [o4, o3, o2, Function.update_self, reduceIte, Nat.reduceEqDiff]
theorem o4_16 (c : Dev nD) : o4 m 16 main_v57 c = (pdats m (o2 m) 2 c).arrAt 1 cfg2.N := by
  simp only [o4, o3, Function.update_self, reduceIte, Nat.reduceEqDiff]
theorem o4_18 (c : Dev nD) : o4 m 18 main_v66 c = (pdats m (o3 m) 3 c).arrAt 4 cfg3.N := by
  simp only [o4, Function.update_self, reduceIte]

/-- A region's proof data depend on the left contents only through its entry valuation. -/
theorem pdats1_congr {o o' : Outs (F := F)} (h8 : ∀ c, o 8 main_v20 c = o' 8 main_v20 c) (c : Dev nD) : pdats m o 1 c = pdats m o' 1 c := by
  show Rgn1.dat (E1 m o) c = Rgn1.dat (E1 m o') c
  rw [show E1 m o = E1 m o' from funext fun c => funext fun b => congrFun (V9_congr h8 c) _]
theorem pdats2_congr {o o' : Outs (F := F)} (h8 : ∀ c, o 8 main_v20 c = o' 8 main_v20 c) (h10 : ∀ c, o 10 main_v27 c = o' 10 main_v27 c) (c : Dev nD) : pdats m o 2 c = pdats m o' 2 c := by
  show Rgn2.dat (E2 m o) c = Rgn2.dat (E2 m o') c
  rw [show E2 m o = E2 m o' from funext fun c => funext fun b => congrFun (V15_congr h8 h10 c) _]
theorem pdats3_congr {o o' : Outs (F := F)} (h8 : ∀ c, o 8 main_v20 c = o' 8 main_v20 c) (h10 : ∀ c, o 10 main_v27 c = o' 10 main_v27 c) (h16 : ∀ c, o 16 main_v57 c = o' 16 main_v57 c) (c : Dev nD) : pdats m o 3 c = pdats m o' 3 c := by
  show Rgn3.dat (E3 m o) c = Rgn3.dat (E3 m o') c
  rw [show E3 m o = E3 m o' from funext fun c => funext fun b => congrFun (V17_congr h8 h10 h16 c) _]
theorem pdats4_congr {o o' : Outs (F := F)} (h8 : ∀ c, o 8 main_v20 c = o' 8 main_v20 c) (h10 : ∀ c, o 10 main_v27 c = o' 10 main_v27 c) (h16 : ∀ c, o 16 main_v57 c = o' 16 main_v57 c) (h18 : ∀ c, o 18 main_v66 c = o' 18 main_v66 c) (c : Dev nD) : pdats m o 4 c = pdats m o' 4 c := by
  show Rgn4.dat (E4 m o) c = Rgn4.dat (E4 m o') c
  rw [show E4 m o = E4 m o' from funext fun c => funext fun b => congrFun (V19_congr h8 h10 h16 h18 c) _]

/-- The staged family leaves, after each region, what that region's pipeline computes. -/
theorem outsOk : OutsOk m (o5 m) where
  h0 c := o5_8 m c
  h1 c := (o5_10 m c).trans (by rw [pdats1_congr m (o := o5 m) (o' := o1 m) (fun c => (o5_8 m c).trans (o1_8 m c).symm) c])
  h2 c := (o5_16 m c).trans (by rw [pdats2_congr m (o := o5 m) (o' := o2 m) (fun c => (o5_8 m c).trans (o2_8 m c).symm) (fun c => (o5_10 m c).trans (o2_10 m c).symm) c])
  h3 c := (o5_18 m c).trans (by rw [pdats3_congr m (o := o5 m) (o' := o3 m) (fun c => (o5_8 m c).trans (o3_8 m c).symm) (fun c => (o5_10 m c).trans (o3_10 m c).symm) (fun c => (o5_16 m c).trans (o3_16 m c).symm) c])
  h4 c := (o5_20 m c).trans (by rw [pdats4_congr m (o := o5 m) (o' := o4 m) (fun c => (o5_8 m c).trans (o4_8 m c).symm) (fun c => (o5_10 m c).trans (o4_10 m c).symm) (fun c => (o5_16 m c).trans (o4_16 m c).symm) (fun c => (o5_18 m c).trans (o4_18 m c).symm) c])

/-! # The frame -/

set_option backward.isDefEq.respectTransparency.types false in
/-- From any memory with zero counters every weakly fair execution of the host program terminates, nothing faulting,
    and every final state has the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m emb₁ () Variants.none L lv (fun _ _ => rfl) ρ (o5 m) (pdats m (o5 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄))
          ⊢ bigSep Finset.univ (fun c : Dev nD => R c) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
            ⊢ iprop((∃ r, prngReg c r) ∗ ∃ W, owes (c : Thread nD τ) (0 : CellTallies nD τ sig Unit) W) from by
          iintro ⟨-, HO, -, Hp, -⟩
          isplitl [Hp]; · iexists _; iexact Hp
          iexists ∅; iexact HO)
      iintro ⟨H, -⟩
      ihave H' := hmono $$ H
      imodintro
      iexact H')
    (hE5 := fun c => by
      iintro ⟨-, HO⟩; iexact HO)
    (reg0 m (o5 m) (outsOk m)) (fun _ => .rfl) (fun _ => .rfl)
    (reg1 m (o5 m) (outsOk m)) (fun _ => .rfl) (fun _ => .rfl)
    (reg2 m (o5 m) (outsOk m)) (fun _ => .rfl) (fun _ => .rfl)
    (reg3 m (o5 m) (outsOk m)) (fun _ => .rfl) (fun _ => .rfl)
    (reg4 m (o5 m) (outsOk m)) (fun _ => .rfl) (fun _ => .rfl)

end Cert.Kernel.Frm

end
-- ==== Proof.KernelIdeal.R0.lean ====
import proofs.«127974_j197568496105_2_alg».proof.Proof.Gen.KernelIdeal.Launch
import proofs.«127974_j197568496105_2_alg».proof.Proof.Gen.KernelIdeal.Skeleton
import proofs.«127974_j197568496105_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0: the running-minimum kernel on a 256-row block against ONE 128-column tile

There is a single tile per row block, so every point both resets the accumulator and writes the output block. -/

variable (V : (c : Dev nD) → (b : Ref sig .tc) → Buf (Elt F) ((c : Thread nD τ).loc b))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) :=
  (by decide +kernel : ∀ t : Fin grid0.N, cond0 (grid0.coords t))
abbrev cond1 (i : grid0.Coords) : Prop := k0_cond2 i = 1#1
theorem hcond1 : ∀ t : Fin cfg0.N, cond1 (grid0.coords t) :=
  (by decide +kernel : ∀ t : Fin grid0.N, cond1 (grid0.coords t))

theorem live_in (w : Fin 5) (hw : w.val < 4) : ∀ t : Fin cfg0.N, cfg0.idle w (grid0.coords t) = false := by
  intro t; match w, hw with
  | ⟨0, _⟩, _ => rfl
  | ⟨1, _⟩, _ => rfl
  | ⟨2, _⟩, _ => rfl
  | ⟨3, _⟩, _ => rfl
theorem live_out : ∀ t : Fin cfg0.N, cfg0.idle 4 (grid0.coords t) = false := by decide +kernel

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x256 .f32 := win0_4.stage (cfg0.slots t 4)
abbrev hs4 (t : Fin cfg0.N) : (ms4 t).IsWhole := hstage0_4 ((cfg0.slots t 4).cast nbuf0_4)
abbrev scM : Memref sig .tc .vmem S8x256 .f32 := Memref.whole cc0_scratch0
abbrev VO : View sig .tc .vmem S8x256 .f32 := (Memref.whole cc0_stg4_0 : Memref sig .tc .vmem S8x256 .f32).view

theorem PhiA_eq (c : Dev nD) :
    (Pipeline.ΦA spec0 c : sProp 𝕄)
      = iprop(iprop(iprop((∃ d, owns (c : Thread nD τ) scM fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM, owns_whole]; try rfl

set_option maxHeartbeats 1000000 in
/-- The body at any point (reset taken, write-out taken): accumulator and output block at anything; the output block
    ends with its one store. -/
noncomputable def runD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i)
    (x0 : Vec F S8x256x3 .f32) (x1 : Vec F S8x256x1 .f32) (x2 : Vec F S8x128x3 .f32) (x3 : Vec F S8x1x128 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_min_kernel i arg2 harg2 arg3 harg3 arg4 harg4 arg5 harg5 arg6 harg6 arg7 harg7) K } := by
  refine ⟨?_, ?_, fun E K => ?run⟩
  case run =>
    simp only [cc0__pairwise_min_kernel_eq_skeleton]; unfold cc0__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem coverD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i) (x0 : Vec F S8x256x3 .f32) (x1 : Vec F S8x256x1 .f32) (x2 : Vec F S8x128x3 .f32) (x3 : Vec F S8x1x128 .f32) (y : S8x256.Idx) :
    ∃ pc ∈ (runD c i arg2 harg2 arg3 harg3 arg4 harg4 arg5 harg5 arg6 harg6 arg7 harg7 hc0 hc1 x0 x1 x2 x3).1, y ∈ pc.1.set :=
  View.cover_of_tiledL (runD c i arg2 harg2 arg3 harg3 arg4 harg4 arg5 harg5 arg6 harg6 arg7 harg7 hc0 hc1 x0 x1 x2 x3).1 S8x256.size (by sl_kernel_rfl) y
def outD (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i) (x0 : Vec F S8x256x3 .f32) (x1 : Vec F S8x256x1 .f32) (x2 : Vec F S8x128x3 .f32) (x3 : Vec F S8x1x128 .f32) : Vec F S8x256 .f32 :=
  VO.read (Elt F) (VO.writes (Elt F) VO.junk (runD c i arg2 harg2 arg3 harg3 arg4 harg4 arg5 harg5 arg6 harg6 arg7 harg7 hc0 hc1 x0 x1 x2 x3).1)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outD c (grid0.coords t) (ms0 t) (hs0 t) (ms1 t) (hs1 t) (ms2 t) (hs2 t) (ms3 t) (hs3 t) (ms4 t) (hs4 t) scM (Memref.isWhole_whole _) (hcond0 t) (hcond1 t) (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outD c (grid0.coords t) (ms0 t) (hs0 t) (ms1 t) (hs1 t) (ms2 t) (hs2 t) (ms3 t) (hs3 t) (ms4 t) (hs4 t) scM (Memref.isWhole_whole _) (hcond0 t) (hcond1 t) (iblk V c 0 t) (iblk V c 1 t) (iblk V c 2 t) (iblk V c 3 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Pipeline.ΦA spec0 c from rfl, show (dat V c).Φ t.castSucc = Pipeline.ΦA spec0 c from rfl, PhiA_eq]
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  rw [show (dat V c).leavesExact 4 t = owns (c : Thread nD τ) (ms4 t) fullShare ((dat V c).after 4 t) from by
    unfold Dat.leavesExact; rw [live_out t], after_4]
  unfold outD; (try dsimp only)
  iintro ⟨⟨⟨HS0, Hr⟩, Hg⟩, Ho, ⟨%d0, H0⟩, ⟨%d1, H1⟩, ⟨%d2, H2⟩, ⟨%d3, H3⟩, ⟨%d4, H4⟩⟩
  iapply ((runD c (grid0.coords t) _ _ _ _ _ _ _ _ _ _ _ _ (hcond0 t) (hcond1 t) (iblk V c 0 t) (iblk V c 1 t) (iblk V c 2 t) (iblk V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hr Hg]
  · isplitl [HS0 Hr]
    · isplitl [HS0]
      · iexists _; unfold owns; iexists _; isplitr
        swap; · iexact HS0
        ipureintro; rfl
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverD c _ _ _ _ _ _ _ _ _ _ _ _ _ _ _ _ _ _ _)

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := Idealize.SL.BI.Entails.refl _
theorem hout (c : Dev nD) : (dat V c).Φ (Fin.last cfg0.N) ⊢ Pipeline.ΦA spec0 c := Idealize.SL.BI.Entails.refl _

end Cert.KernelIdeal.Rgn0

end
-- ==== Proof.KernelIdeal.R1Runs.lean ====
import proofs.«127974_j197568496105_2_alg».proof.Proof.Gen.KernelIdeal.Launch
import proofs.«127974_j197568496105_2_alg».proof.Proof.Gen.KernelIdeal.Skeleton
import proofs.«127974_j197568496105_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: the running-minimum kernel on a 128-row block against 256-column tiles

The body resets its accumulator at the first tile of a row block, folds the tile's row minima into it at every
tile, and copies it to the output block at the last tile.  Three control cases over the tile coordinate. -/

/-- The reset condition: the tile coordinate is zero. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 8 = 0 :=
  (by decide +kernel : ∀ t : Fin grid1.N, cond0 (grid1.coords t) ↔ t.val % 8 = 0)

/-- The write-out condition: the tile coordinate is the last one. -/
abbrev cond1 (i : grid1.Coords) : Prop := k1_cond2 i = 1#1
theorem hcond1 : ∀ t : Fin cfg1.N, cond1 (grid1.coords t) ↔ t.val % 8 = 7 :=
  (by decide +kernel : ∀ t : Fin grid1.N, cond1 (grid1.coords t) ↔ t.val % 8 = 7)

/-- The output block is idle exactly where the write-out condition fails, and is written back exactly where it holds. -/
theorem live_in (w : Fin 5) (hw : w.val < 4) : ∀ t : Fin cfg1.N, cfg1.idle w (grid1.coords t) = false := by
  intro t; match w, hw with
  | ⟨0, _⟩, _ => rfl
  | ⟨1, _⟩, _ => rfl
  | ⟨2, _⟩, _ => rfl
  | ⟨3, _⟩, _ => rfl
theorem idle_out : ∀ t : Fin cfg1.N, ¬cond1 (grid1.coords t) → cfg1.idle 4 (grid1.coords t) = true := by decide +kernel
theorem live_out : ∀ t : Fin cfg1.N, cond1 (grid1.coords t) → cfg1.idle 4 (grid1.coords t) = false := by decide +kernel
theorem noFlush_out : ∀ t : Fin cfg1.N, ¬cond1 (grid1.coords t) → (cfg1.win 4).flush t = false := by decide +kernel

/-- The staging memrefs the pipeline passes at a point, the accumulator scratch, and one view of each through which
    contents are stated. -/
abbrev ms0 (t : Fin cfg1.N) : Memref sig .tc .vmem S8x128x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x128x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8x256x3 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S8x1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S8x128 .f32 := win1_4.stage (cfg1.slots t 4)
abbrev hs4 (t : Fin cfg1.N) : (ms4 t).IsWhole := hstage1_4 ((cfg1.slots t 4).cast nbuf1_4)
abbrev scM : Memref sig .tc .vmem S8x128 .f32 := Memref.whole cc1_scratch0
abbrev VS : View sig .tc .vmem S8x128 .f32 := (scM).view
abbrev VO : View sig .tc .vmem S8x128 .f32 := (Memref.whole cc1_stg4_0 : Memref sig .tc .vmem S8x128 .f32).view

/-- The class invariant with the accumulator as a memref owned at some contents. -/
theorem PhiA_eq (c : Dev nD) :
    (Pipeline.ΦA spec1 c : sProp 𝕄)
      = iprop(iprop(iprop((∃ d, owns (c : Thread nD τ) scM fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

set_option maxHeartbeats 1000000 in
/-- FIRST TILE (reset taken, write-out not taken): the accumulator is at anything, ends with its two stores; the output
    block is handed back untouched. -/
noncomputable def runA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i)
    (x0 : Vec F S8x128x3 .f32) (x1 : Vec F S8x128x1 .f32) (x2 : Vec F S8x256x3 .f32) (x3 : Vec F S8x1x256 .f32) :
    Σ' (L4 : List (View.Piece (Elt F) S8x128 .f32)), { LS0 : List (View.Piece (Elt F) S8x128 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨[], ?_, fun xi4 E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i)
    (x0 : Vec F S8x128x3 .f32) (x1 : Vec F S8x128x1 .f32) (x2 : Vec F S8x256x3 .f32) (x3 : Vec F S8x1x256 .f32) (xs0 : Vec F S8x128 .f32) :
    Σ' (L4 : List (View.Piece (Elt F) S8x128 .f32)), { LS0 : List (View.Piece (Elt F) S8x128 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨[], ?_, fun xi4 E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i)
    (x0 : Vec F S8x128x3 .f32) (x1 : Vec F S8x128x1 .f32) (x2 : Vec F S8x256x3 .f32) (x3 : Vec F S8x1x256 .f32) (xs0 : Vec F S8x128 .f32) :
    Σ' (L4 : List (View.Piece (Elt F) S8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_min_kernel i arg2 harg2 arg3 harg3 arg4 harg4 arg5 harg5 arg6 harg6 arg7 harg7) K } := by
  refine ⟨?_, ?_, fun E K => ?run⟩
  case run =>
    simp only [cc1__pairwise_min_kernel_eq_skeleton]; unfold cc1__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Rgn1

end
-- ==== Proof.KernelIdeal.R1.lean ====
import proofs.«127974_j197568496105_2_alg».proof.Proof.KernelIdeal.R1Runs

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the block
    index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) : Vec F S8x128 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) (y : S8x128.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x128.size (by sl_kernel_rfl) y
def soutA (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) : Vec F S8x128 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) : Vec F S8x128 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x128.size (by sl_kernel_rfl) y
def soutB (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) : Vec F S8x128 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x128.size (by sl_kernel_rfl) y
def outC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) : Vec F S8x128 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) (y : S8x128.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x128.size (by sl_kernel_rfl) y
def soutC (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) : Vec F S8x128 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg1.N → Vec F S8x128 .f32 × Vec F S8x128 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg1.N) (h0 : t.val % 8 = 0) (h1 : ¬t.val % 8 = 7) :
    outsAt V c t.val t.isLt = (outA c (grid1.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid1.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg1.N) (h0 : ¬t.val % 8 = 0) (h1 : ¬t.val % 8 = 7) :
    outsAt V c t.val t.isLt = (outB c (grid1.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid1.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 8 = 0) (h1 : t.val % 8 = 7) :
    outsAt V c t.val t.isLt = (outC c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid1.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  have ht : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.KernelIdeal.Rgn1

end
-- ==== Proof.KernelIdeal.R2.lean ====
import proofs.«127974_j197568496105_2_alg».proof.Proof.Gen.KernelIdeal.Launch
import proofs.«127974_j197568496105_2_alg».proof.Proof.Gen.KernelIdeal.Skeleton
import proofs.«127974_j197568496105_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 2: the clamped self-distance sum, one point over the whole key-point array -/

variable (V : (c : Dev nD) → (b : Ref sig .tc) → Buf (Elt F) ((c : Thread nD τ).loc b))

theorem live_0 : ∀ t : Fin cfg2.N, cfg2.idle 0 (grid2.coords t) = false := by decide +kernel
theorem live_1 : ∀ t : Fin cfg2.N, cfg2.idle 1 (grid2.coords t) = false := by decide +kernel

abbrev ms0 (t : Fin cfg2.N) : Memref sig .tc .vmem S8x128x3 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x1 .f32 := win2_1.stage (cfg2.slots t 1)
abbrev hs1 (t : Fin cfg2.N) : (ms1 t).IsWhole := hstage2_1 ((cfg2.slots t 1).cast nbuf2_1)
abbrev VO : View sig .tc .vmem S1x1 .f32 := (Memref.whole cc2_stg1_0 : Memref sig .tc .vmem S1x1 .f32).view

set_option maxHeartbeats 1000000 in
/-- The body: the input block at its contents, the output block at anything; the output block ends with its one store. -/
noncomputable def runD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) :
    { L1 : List (View.Piece (Elt F) S1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__diversity_kernel i arg1 harg1 arg2 harg2) K } := by
  refine ⟨?_, fun E K => ?run⟩
  case run =>
    simp only [cc2__diversity_kernel_eq_skeleton]; unfold cc2__diversity_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem coverD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) (y : S1x1.Idx) :
    ∃ pc ∈ (runD c i arg1 harg1 arg2 harg2 x0).1, y ∈ pc.1.set :=
  View.cover_of_tiledL (runD c i arg1 harg1 arg2 harg2 x0).1 S1x1.size (by sl_kernel_rfl) y
def outD (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) : Vec F S1x1 .f32 :=
  VO.read (Elt F) (VO.writes (Elt F) VO.junk (runD c i arg1 harg1 arg2 harg2 x0).1)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => outD c (grid2.coords t) (ms0 t) (hs0 t) (ms1 t) (hs1 t) (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = outD c (grid2.coords t) (ms0 t) (hs0 t) (ms1 t) (hs1 t) (iblk V c 0 t) := by dsimp only [dat]
theorem before_0 (c : Dev nD) (t : Fin cfg2.N) (d) : (dat V c).before 0 t d = iblk V c 0 t :=
  before_0_of V (dat V c) (A_eq V c 0) (after_0 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).owesAt () t.succ = (dat V c).owesAt () t.castSucc from rfl]
  rw [show (dat V c).Φ t.succ = Pipeline.ΦA spec2 c from rfl, show (dat V c).Φ t.castSucc = Pipeline.ΦA spec2 c from rfl]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  unfold outD; (try dsimp only)
  iintro ⟨HΦ, Ho, ⟨%d0, H0⟩, ⟨%d1, H1⟩⟩
  iapply ((runD c (grid2.coords t) _ _ _ _ (iblk V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (coverD c _ _ _ _ _ _)

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := Idealize.SL.BI.Entails.refl _
theorem hout (c : Dev nD) : (dat V c).Φ (Fin.last cfg2.N) ⊢ Pipeline.ΦA spec2 c := Idealize.SL.BI.Entails.refl _

end Cert.KernelIdeal.Rgn2

end
-- ==== Proof.KernelIdeal.R3Runs.lean ====
import proofs.«127974_j197568496105_2_alg».proof.Proof.Gen.KernelIdeal.Launch
import proofs.«127974_j197568496105_2_alg».proof.Proof.Gen.KernelIdeal.Skeleton
import proofs.«127974_j197568496105_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 3: the running-minimum kernel on a 256-row block against 256-column tiles

The body resets its accumulator at the first tile of a row block, folds the tile's row minima into it at every
tile, and copies it to the output block at the last tile.  Three control cases over the tile coordinate. -/

/-- The reset condition: the tile coordinate is zero. -/
abbrev cond0 (i : grid3.Coords) : Prop := (Scalar.cmpi .ne (Scalar.extui (Scalar.cmpi .eq (BitVec.ofNat 32 (i 1).val) 0#32)) 0#32) = 1#1
theorem hcond0 : ∀ t : Fin cfg3.N, cond0 (grid3.coords t) ↔ t.val % 8 = 0 :=
  (by decide +kernel : ∀ t : Fin grid3.N, cond0 (grid3.coords t) ↔ t.val % 8 = 0)

/-- The write-out condition: the tile coordinate is the last one. -/
abbrev cond1 (i : grid3.Coords) : Prop := k3_cond2 i = 1#1
theorem hcond1 : ∀ t : Fin cfg3.N, cond1 (grid3.coords t) ↔ t.val % 8 = 7 :=
  (by decide +kernel : ∀ t : Fin grid3.N, cond1 (grid3.coords t) ↔ t.val % 8 = 7)

/-- The output block is idle exactly where the write-out condition fails, and is written back exactly where it holds. -/
theorem live_in (w : Fin 5) (hw : w.val < 4) : ∀ t : Fin cfg3.N, cfg3.idle w (grid3.coords t) = false := by
  intro t; match w, hw with
  | ⟨0, _⟩, _ => rfl
  | ⟨1, _⟩, _ => rfl
  | ⟨2, _⟩, _ => rfl
  | ⟨3, _⟩, _ => rfl
theorem idle_out : ∀ t : Fin cfg3.N, ¬cond1 (grid3.coords t) → cfg3.idle 4 (grid3.coords t) = true := by decide +kernel
theorem live_out : ∀ t : Fin cfg3.N, cond1 (grid3.coords t) → cfg3.idle 4 (grid3.coords t) = false := by decide +kernel
theorem noFlush_out : ∀ t : Fin cfg3.N, ¬cond1 (grid3.coords t) → (cfg3.win 4).flush t = false := by decide +kernel

/-- The staging memrefs the pipeline passes at a point, the accumulator scratch, and one view of each through which
    contents are stated. -/
abbrev ms0 (t : Fin cfg3.N) : Memref sig .tc .vmem S8x256x3 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S8x256x1 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S8x256x3 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S8x1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S8x256 .f32 := win3_4.stage (cfg3.slots t 4)
abbrev hs4 (t : Fin cfg3.N) : (ms4 t).IsWhole := hstage3_4 ((cfg3.slots t 4).cast nbuf3_4)
abbrev scM : Memref sig .tc .vmem S8x256 .f32 := Memref.whole cc3_scratch0
abbrev VS : View sig .tc .vmem S8x256 .f32 := (scM).view
abbrev VO : View sig .tc .vmem S8x256 .f32 := (Memref.whole cc3_stg4_0 : Memref sig .tc .vmem S8x256 .f32).view

/-- The class invariant with the accumulator as a memref owned at some contents. -/
theorem PhiA_eq (c : Dev nD) :
    (Pipeline.ΦA spec3 c : sProp 𝕄)
      = iprop(iprop(iprop((∃ d, owns (c : Thread nD τ) scM fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

set_option maxHeartbeats 1000000 in
/-- FIRST TILE (reset taken, write-out not taken): the accumulator is at anything, ends with its two stores; the output
    block is handed back untouched. -/
noncomputable def runA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i)
    (x0 : Vec F S8x256x3 .f32) (x1 : Vec F S8x256x1 .f32) (x2 : Vec F S8x256x3 .f32) (x3 : Vec F S8x1x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨[], ?_, fun xi4 E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨[], ?_, fun xi4 E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_min_kernel i arg2 harg2 arg3 harg3 arg4 harg4 arg5 harg5 arg6 harg6 arg7 harg7) K } := by
  refine ⟨?_, ?_, fun E K => ?run⟩
  case run =>
    simp only [cc3__pairwise_min_kernel_eq_skeleton]; unfold cc3__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Rgn3

end
-- ==== Proof.KernelIdeal.R3.lean ====
import proofs.«127974_j197568496105_2_alg».proof.Proof.KernelIdeal.R3Runs

set_option maxRecDepth 16384

noncomputable section

namespace Cert.KernelIdeal.Rgn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: unfetched, the block
    index has not moved. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) (y : S8x256.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x256.size (by sl_kernel_rfl) y
def soutA (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x256.size (by sl_kernel_rfl) y
def soutB (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x256.size (by sl_kernel_rfl) y
def outC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x256.size (by sl_kernel_rfl) y
def soutC (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg3.N → Vec F S8x256 .f32 × Vec F S8x256 .f32
  | 0, hn => (outA c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg3.N) (h0 : t.val % 8 = 0) (h1 : ¬t.val % 8 = 7) :
    outsAt V c t.val t.isLt = (outA c (grid3.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid3.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg3.N) (h0 : ¬t.val % 8 = 0) (h1 : ¬t.val % 8 = 7) :
    outsAt V c t.val t.isLt = (outB c (grid3.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid3.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 8 = 0) (h1 : t.val % 8 = 7) :
    outsAt V c t.val t.isLt = (outC c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg3.N = 64 from N_3)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid3.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid3.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid3.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid3.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg3.N) ⊢ Pipeline.ΦA spec3 c := by
  have ht : (Fin.last cfg3.N).val ≠ 0 := by rw [Fin.val_last]; have : cfg3.N = 64 := N_3; omega
  rw [show (dat V c).Φ (Fin.last cfg3.N) = PhiS V c (Fin.last cfg3.N).val (Nat.le_of_lt_succ (Fin.last cfg3.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.KernelIdeal.Rgn3

end
-- ==== Proof.KernelIdeal.R4Runs.lean ====
import proofs.«127974_j197568496105_2_alg».proof.Proof.Gen.KernelIdeal.Launch
import proofs.«127974_j197568496105_2_alg».proof.Proof.Gen.KernelIdeal.Skeleton
import proofs.«127974_j197568496105_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 4: the running-minimum kernel on a 256-row block against 256-column tiles

The body resets its accumulator at the first tile of a row block, folds the tile's row minima into it at every
tile, and copies it to the output block at the last tile.  Three control cases over the tile coordinate. -/

/-- The reset condition: the tile coordinate is zero. -/
abbrev cond0 (i : grid4.Coords) : Prop := (Scalar.cmpi .ne (Scalar.extui (Scalar.cmpi .eq (BitVec.ofNat 32 (i 1).val) 0#32)) 0#32) = 1#1
theorem hcond0 : ∀ t : Fin cfg4.N, cond0 (grid4.coords t) ↔ t.val % 8 = 0 :=
  (by decide +kernel : ∀ t : Fin grid4.N, cond0 (grid4.coords t) ↔ t.val % 8 = 0)

/-- The write-out condition: the tile coordinate is the last one. -/
abbrev cond1 (i : grid4.Coords) : Prop := k4_cond2 i = 1#1
theorem hcond1 : ∀ t : Fin cfg4.N, cond1 (grid4.coords t) ↔ t.val % 8 = 7 :=
  (by decide +kernel : ∀ t : Fin grid4.N, cond1 (grid4.coords t) ↔ t.val % 8 = 7)

/-- The output block is idle exactly where the write-out condition fails, and is written back exactly where it holds. -/
theorem live_in (w : Fin 5) (hw : w.val < 4) : ∀ t : Fin cfg4.N, cfg4.idle w (grid4.coords t) = false := by
  intro t; match w, hw with
  | ⟨0, _⟩, _ => rfl
  | ⟨1, _⟩, _ => rfl
  | ⟨2, _⟩, _ => rfl
  | ⟨3, _⟩, _ => rfl
theorem idle_out : ∀ t : Fin cfg4.N, ¬cond1 (grid4.coords t) → cfg4.idle 4 (grid4.coords t) = true := by decide +kernel
theorem live_out : ∀ t : Fin cfg4.N, cond1 (grid4.coords t) → cfg4.idle 4 (grid4.coords t) = false := by decide +kernel
theorem noFlush_out : ∀ t : Fin cfg4.N, ¬cond1 (grid4.coords t) → (cfg4.win 4).flush t = false := by decide +kernel

/-- The staging memrefs the pipeline passes at a point, the accumulator scratch, and one view of each through which
    contents are stated. -/
abbrev ms0 (t : Fin cfg4.N) : Memref sig .tc .vmem S8x256x3 .f32 := win4_0.stage (cfg4.slots t 0)
abbrev hs0 (t : Fin cfg4.N) : (ms0 t).IsWhole := hstage4_0 ((cfg4.slots t 0).cast nbuf4_0)
abbrev ms1 (t : Fin cfg4.N) : Memref sig .tc .vmem S8x256x1 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S8x256x3 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S8x1x256 .f32 := win4_3.stage (cfg4.slots t 3)
abbrev hs3 (t : Fin cfg4.N) : (ms3 t).IsWhole := hstage4_3 ((cfg4.slots t 3).cast nbuf4_3)
abbrev ms4 (t : Fin cfg4.N) : Memref sig .tc .vmem S8x256 .f32 := win4_4.stage (cfg4.slots t 4)
abbrev hs4 (t : Fin cfg4.N) : (ms4 t).IsWhole := hstage4_4 ((cfg4.slots t 4).cast nbuf4_4)
abbrev scM : Memref sig .tc .vmem S8x256 .f32 := Memref.whole cc4_scratch0
abbrev VS : View sig .tc .vmem S8x256 .f32 := (scM).view
abbrev VO : View sig .tc .vmem S8x256 .f32 := (Memref.whole cc4_stg4_0 : Memref sig .tc .vmem S8x256 .f32).view

/-- The class invariant with the accumulator as a memref owned at some contents. -/
theorem PhiA_eq (c : Dev nD) :
    (Pipeline.ΦA spec4 c : sProp 𝕄)
      = iprop(iprop(iprop((∃ d, owns (c : Thread nD τ) scM fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM, owns_whole]; try rfl

set_option maxHeartbeats 1000000 in
/-- FIRST TILE (reset taken, write-out not taken): the accumulator is at anything, ends with its two stores; the output
    block is handed back untouched. -/
noncomputable def runA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i)
    (x0 : Vec F S8x256x3 .f32) (x1 : Vec F S8x256x1 .f32) (x2 : Vec F S8x256x3 .f32) (x3 : Vec F S8x1x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨[], ?_, fun xi4 E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A MIDDLE TILE (neither taken): the accumulator at what the tile before left, ends with its one store. -/
noncomputable def runB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (xi4 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨[], ?_, fun xi4 E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- THE LAST TILE (reset not taken, write-out taken): the accumulator at what the tile before left; the output block at
    anything, ends with its one store. -/
noncomputable def runC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i)
    (x0 : Vec F S8x256x3 .f32) (x1 : Vec F S8x256x1 .f32) (x2 : Vec F S8x256x3 .f32) (x3 : Vec F S8x1x256 .f32) (xs0 : Vec F S8x256 .f32) :
    Σ' (L4 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__pairwise_min_kernel i arg2 harg2 arg3 harg3 arg4 harg4 arg5 harg5 arg6 harg6 arg7 harg7) K } := by
  refine ⟨?_, ?_, fun E K => ?run⟩
  case run =>
    simp only [cc4__pairwise_min_kernel_eq_skeleton]; unfold cc4__pairwise_min_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Rgn4

end
-- ==== Proof.KernelIdeal.R4.lean ====
import proofs.«127974_j197568496105_2_alg».proof.Proof.KernelIdeal.R4Runs

set_option maxRecDepth 16384

noncomputable section

namespace Cert.KernelIdeal.Rgn4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: unfetched, the block
    index has not moved. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block -/

def outA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VO.read (Elt F) (VO.writes (Elt F) VO.junk (runA c i arg2 harg2 arg3 harg3 arg4 harg4 arg5 harg5 arg6 harg6 arg7 harg7 hc0 hc1 x0 x1 x2 x3).1)
theorem scoverA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) (y : S8x256.Idx) :
    ∃ pc ∈ (runA c i arg2 harg2 arg3 harg3 arg4 harg4 arg5 harg5 arg6 harg6 arg7 harg7 hc0 hc1 x0 x1 x2 x3).2.1, y ∈ pc.1.set :=
  View.cover_of_tiledL (runA c i arg2 harg2 arg3 harg3 arg4 harg4 arg5 harg5 arg6 harg6 arg7 harg7 hc0 hc1 x0 x1 x2 x3).2.1 S8x256.size (by sl_kernel_rfl) y
def soutA (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) : Vec F S8x256 .f32 :=
  VS.read (Elt F) (VS.writes (Elt F) VS.junk (runA c i arg2 harg2 arg3 harg3 arg4 harg4 arg5 harg5 arg6 harg6 arg7 harg7 hc0 hc1 x0 x1 x2 x3).2.1)

def outB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runB c i arg2 harg2 arg3 harg3 arg4 harg4 arg5 harg5 arg6 harg6 arg7 harg7 hc0 hc1 x0 x1 x2 x3 xs0).1)
theorem scoverB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runB c i arg2 harg2 arg3 harg3 arg4 harg4 arg5 harg5 arg6 harg6 arg7 harg7 hc0 hc1 x0 x1 x2 x3 xs0).2.1, y ∈ pc.1.set :=
  View.cover_of_tiledL (runB c i arg2 harg2 arg3 harg3 arg4 harg4 arg5 harg5 arg6 harg6 arg7 harg7 hc0 hc1 x0 x1 x2 x3 xs0).2.1 S8x256.size (by sl_kernel_rfl) y
def soutB (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runB c i arg2 harg2 arg3 harg3 arg4 harg4 arg5 harg5 arg6 harg6 arg7 harg7 hc0 hc1 x0 x1 x2 x3 xs0).2.1)

theorem coverC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).1, y ∈ pc.1.set :=
  View.cover_of_tiledL (runC c i arg2 harg2 arg3 harg3 arg4 harg4 arg5 harg5 arg6 harg6 arg7 harg7 hc0 hc1 x0 x1 x2 x3 xs0).1 S8x256.size (by sl_kernel_rfl) y
def outC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VO.read (Elt F) (VO.writes (Elt F) VO.junk (runC c i arg2 harg2 arg3 harg3 arg4 harg4 arg5 harg5 arg6 harg6 arg7 harg7 hc0 hc1 x0 x1 x2 x3 xs0).1)
theorem scoverC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) (y : S8x256.Idx) :
    ∃ pc ∈ (runC c i arg2 harg2 arg3 harg3 arg4 harg4 arg5 harg5 arg6 harg6 arg7 harg7 hc0 hc1 x0 x1 x2 x3 xs0).2.1, y ∈ pc.1.set :=
  View.cover_of_tiledL (runC c i arg2 harg2 arg3 harg3 arg4 harg4 arg5 harg5 arg6 harg6 arg7 harg7 hc0 hc1 x0 x1 x2 x3 xs0).2.1 S8x256.size (by sl_kernel_rfl) y
def soutC (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) : Vec F S8x256 .f32 :=
  VS.read (Elt F) (VS.writes (Elt F) VS.junk (runC c i arg2 harg2 arg3 harg3 arg4 harg4 arg5 harg5 arg6 harg6 arg7 harg7 hc0 hc1 x0 x1 x2 x3 xs0).2.1)

/-! ## The accumulation over the grid -/

/-- What the output block's staging buffer and the accumulator hold after the body at position `n`: the case the tile
    coordinate selects, the accumulator read at what position `n - 1` left. -/
def outsAt (c : Dev nD) : (n : ℕ) → n < cfg4.N → Vec F S8x256 .f32 × Vec F S8x256 .f32
  | 0, hn => (outA c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩),
              soutA c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      (outA c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩),
       soutA c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 8 = 7 then
        (outC c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutC c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outB c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         soutB c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg4.N) (h0 : t.val % 8 = 0) (h1 : ¬t.val % 8 = 7) :
    outsAt V c t.val t.isLt = (outA c (grid4.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t), soutA c (grid4.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans rfl

theorem outsAt_B (c : Dev nD) (t : Fin cfg4.N) (h0 : ¬t.val % 8 = 0) (h1 : ¬t.val % 8 = 7) :
    outsAt V c t.val t.isLt = (outB c (grid4.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, soutB c (grid4.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg4.N) (h0 : ¬t.val % 8 = 0) (h1 : t.val % 8 = 7) :
    outsAt V c t.val t.isLt = (outC c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, soutC c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left, the other scoped buffers unopened, the generator register
    at some state. -/
def PhiS (c : Dev nD) : (n : ℕ) → n ≤ cfg4.N → sProp 𝕄
  | 0, _ => Pipeline.ΦA spec4 c
  | n + 1, hn => iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r)) := rfl

theorem PhiS_pos (c : Dev nD) (n : ℕ) (h : n ≤ cfg4.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = (outsAt V c t.val t.isLt).1 := by dsimp only [dat]

theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d
theorem before_3 (c : Dev nD) (t : Fin cfg4.N) (d) : (dat V c).before 3 t d = iblk V c 3 t :=
  before_3_of V (dat V c) (A_eq V c 3) (after_3 V c) t d

/-! ## The body obligation -/

def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg4.N = 64 from N_4)
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  by_cases h0 : t.val % 8 = 0
  · have h1 : ¬t.val % 8 = 7 := by omega
    rw [Dat.leavesExact_idle (dat V c) 4 t (idle_out t (fun h => h1 ((hcond1 t).mp h))) (noFlush_out t (fun h => h1 ((hcond1 t).mp h)))]
    rw [outsAt_A V c t h0 h1]
    unfold soutA; (try dsimp only)
    by_cases hz : t.val = 0
    · rw [PhiS_castSucc V c t, PhiS_zero V c _ _ hz, PhiA_eq]
      iintro ⟨⟨⟨HS0, Hr⟩, Hg⟩, Ho, ⟨%d0, H0⟩, ⟨%d1, H1⟩, ⟨%d2, H2⟩, ⟨%d3, H3⟩, ⟨%d4, H4⟩⟩
      iapply ((runA c (grid4.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runA c (grid4.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverA c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_out t ((hcond1 t).mpr h1)], after_4]
      rw [outsAt_C V c t h0 h1]
      unfold outC soutC; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runC c (grid4.coords t) _ _ _ _ _ _ _ _ _ _ _ _ (fun h => h0 ((hcond0 t).mp h)) ((hcond1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dat V c) 4 t (idle_out t (fun h => h1 ((hcond1 t).mp h))) (noFlush_out t (fun h => h1 ((hcond1 t).mp h)))]
      rw [outsAt_B V c t h0 h1]
      unfold soutB; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((runB c (grid4.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W4, bigSep_W4]
  exact sound_body V c t

/-- What the launch hands the region is the invariant before the first point. -/
theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg4.N) ⊢ Pipeline.ΦA spec4 c := by
  have ht : (Fin.last cfg4.N).val ≠ 0 := by rw [Fin.val_last]; have : cfg4.N = 64 := N_4; omega
  rw [show (dat V c).Φ (Fin.last cfg4.N) = PhiS V c (Fin.last cfg4.N).val (Nat.le_of_lt_succ (Fin.last cfg4.N).isLt) from rfl, PhiS_pos V c _ _ ht, PhiA_eq]
  iintro ⟨⟨HS0, Hr⟩, Hg⟩
  isplitl [HS0 Hr]
  · isplitl [HS0]
    · iexists _; iexact HS0
    iexact Hr
  iexact Hg

end Cert.KernelIdeal.Rgn4

end
-- ==== Proof.KernelIdeal.Frame.lean ====
import proofs.«127974_j197568496105_2_alg».proof.Proof.KernelIdeal.R0
import proofs.«127974_j197568496105_2_alg».proof.Proof.KernelIdeal.R1
import proofs.«127974_j197568496105_2_alg».proof.Proof.KernelIdeal.R2
import proofs.«127974_j197568496105_2_alg».proof.Proof.KernelIdeal.R3
import proofs.«127974_j197568496105_2_alg».proof.Proof.KernelIdeal.R4
import proofs.«127974_j197568496105_2_alg».proof.Proof.Gen.KernelIdeal.Regions
import Idealize.ShloMosaic.Lib.Pipeline.RegionsLoop

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-! # The five regions as segments of the host program

Between two items every unscoped buffer is held at the valuation the generated host side names; a region's entry
contents are that valuation read at the TensorCore's references. -/

abbrev E0 : (c : Dev nD) → (b : Ref sig .tc) → Buf (Elt F) ((c : Thread nD τ).loc b) := fun c b => V7 m c b
abbrev E1 : (c : Dev nD) → (b : Ref sig .tc) → Buf (Elt F) ((c : Thread nD τ).loc b) := fun c b => V9 m outs c b
abbrev E2 : (c : Dev nD) → (b : Ref sig .tc) → Buf (Elt F) ((c : Thread nD τ).loc b) := fun c b => V15 m outs c b
abbrev E3 : (c : Dev nD) → (b : Ref sig .tc) → Buf (Elt F) ((c : Thread nD τ).loc b) := fun c b => V17 m outs c b
abbrev E4 : (c : Dev nD) → (b : Ref sig .tc) → Buf (Elt F) ((c : Thread nD τ).loc b) := fun c b => V19 m outs c b

/-- Every pipeline's proof data, each at its region's entry contents. -/
def pdats : (p : Fin 5) → (c : Dev nD) → Dat τ (Elt F) Unit ℕ (UR sig nD τ) ℕ (cfgs p) c
  | ⟨0, _⟩ => fun c => Rgn0.dat (E0 m) c
  | ⟨1, _⟩ => fun c => Rgn1.dat (E1 m outs) c
  | ⟨2, _⟩ => fun c => Rgn2.dat (E2 m outs) c
  | ⟨3, _⟩ => fun c => Rgn3.dat (E3 m outs) c
  | ⟨4, _⟩ => fun c => Rgn4.dat (E4 m outs) c

/-- The contents the regions leave ARE what their pipelines compute: each region's output array after its last point. -/
structure OutsOk : Prop where
  h0 : ∀ c : Dev nD, outs 8 main_v20 c = (pdats m outs 0 c).arrAt 4 cfg0.N
  h1 : ∀ c : Dev nD, outs 10 main_v27 c = (pdats m outs 1 c).arrAt 4 cfg1.N
  h2 : ∀ c : Dev nD, outs 16 main_v57 c = (pdats m outs 2 c).arrAt 1 cfg2.N
  h3 : ∀ c : Dev nD, outs 18 main_v66 c = (pdats m outs 3 c).arrAt 4 cfg3.N
  h4 : ∀ c : Dev nD, outs 20 main_v73 c = (pdats m outs 4 c).arrAt 4 cfg4.N

/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option maxHeartbeats 1600000 in
set_option backward.isDefEq.respectTransparency.types false in
/-- Region 0 as a segment: entered from every unscoped buffer at the contents before it, left with its output array
    at what the pipeline leaves and every other buffer as entered; the generator register into the invariant and out;
    nothing owed; no semaphore of the kernel's own. -/
def reg0 (hO : OutsOk m outs) : Pipeline.RegionSeg (pcfgs (F := F)) adm (pdats m outs) () defs₀ Variants.none L lv 0 where
  win := launch0.win.to₀
  block_pos := launch0.block_pos
  stage_whole := launch0.stage_whole
  K := PEmpty
  osem k := k.elim
  ho := Pipeline.OwnSemFacts.none _
  hbody c := (Rgn0.body_obligation (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held c (V7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hF : ∀ w, (pdats m outs 0 c).arrAt w cfg0.N = (fun b : Ref sig .tc => V8 m outs c b) (Pipeline.arrRef spec0 w) := by
      intro w
      match w with
      | ⟨0, _⟩ => exact ((pdats m outs 0 c).arrAt_in 0 rfl _).trans ((Rgn0.A_eq (E0 m) c 0).trans (show V7 m c main_arg0 = V8 m outs c main_arg0 from (V8_of m outs c main_arg0 (by decide)).symm))
      | ⟨1, _⟩ => exact ((pdats m outs 0 c).arrAt_in 1 rfl _).trans ((Rgn0.A_eq (E0 m) c 1).trans (show V7 m c main_v16 = V8 m outs c main_v16 from (V8_of m outs c main_v16 (by decide)).symm))
      | ⟨2, _⟩ => exact ((pdats m outs 0 c).arrAt_in 2 rfl _).trans ((Rgn0.A_eq (E0 m) c 2).trans (show V7 m c main_arg2 = V8 m outs c main_arg2 from (V8_of m outs c main_arg2 (by decide)).symm))
      | ⟨3, _⟩ => exact ((pdats m outs 0 c).arrAt_in 3 rfl _).trans ((Rgn0.A_eq (E0 m) c 3).trans (show V7 m c main_v19 = V8 m outs c main_v19 from (V8_of m outs c main_v19 (by decide)).symm))
      | ⟨4, _⟩ => exact (hO.h0 c).symm.trans (show outs 8 main_v20 c = Function.update (V7 m c) (Proc.devRef .tc main_v20) (outs 8 main_v20 c) (Proc.devRef .tc main_v20) from (Function.update_self (Proc.devRef (τ := τ) .tc main_v20) (outs 8 main_v20 c) (V7 m c)).symm)
    have hrest : ∀ b, b ∉ Finset.univ.image (Pipeline.arrRef spec0) → (fun b : Ref sig .tc => V8 m outs c b) b = (fun b : Ref sig .tc => V7 m c b) b :=
      fun b hb => V8_of m outs c b (fun h => hb (by rw [List.mem_singleton.mp h]; exact Finset.mem_image.mpr ⟨4, Finset.mem_univ _, rfl⟩))
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b : Ref sig .tc => V7 m c b) (fun b : Ref sig .tc => V8 m outs c b) ((pdats m outs 0 c).arrAt · cfg0.N) hF hrest
    rw [Pipeline.unscopedBufs_held c (V8 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 1 as a segment: entered from every unscoped buffer at the contents before it, left with its output array
    at what the pipeline leaves and every other buffer as entered; the generator register into the invariant and out;
    nothing owed; no semaphore of the kernel's own. -/
def reg1 (hO : OutsOk m outs) : Pipeline.RegionSeg (pcfgs (F := F)) adm (pdats m outs) () defs₀ Variants.none L lv 1 where
  win := launch1.win.to₀
  block_pos := launch1.block_pos
  stage_whole := launch1.stage_whole
  K := PEmpty
  osem k := k.elim
  ho := Pipeline.OwnSemFacts.none _
  hbody c := (Rgn1.body_obligation (E1 m outs) c).loose
  hwaits := Pipeline.hwaits_of_owed_zero _ _ _ _ L lv 1 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E1 m outs c) fun _ => rfl
    rw [Pipeline.unscopedBufs_held c (V9 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    refine (Rgn1.hout (E1 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 1 c).arrAt w cfg1.N = (fun b : Ref sig .tc => V10 m outs c b) (Pipeline.arrRef spec1 w) := by
      intro w
      match w with
      | ⟨0, _⟩ => exact ((pdats m outs 1 c).arrAt_in 0 rfl _).trans ((Rgn1.A_eq (E1 m outs) c 0).trans (show V9 m outs c main_arg2 = V10 m outs c main_arg2 from (V10_of m outs c main_arg2 (by decide)).symm))
      | ⟨1, _⟩ => exact ((pdats m outs 1 c).arrAt_in 1 rfl _).trans ((Rgn1.A_eq (E1 m outs) c 1).trans (show V9 m outs c main_v23 = V10 m outs c main_v23 from (V10_of m outs c main_v23 (by decide)).symm))
      | ⟨2, _⟩ => exact ((pdats m outs 1 c).arrAt_in 2 rfl _).trans ((Rgn1.A_eq (E1 m outs) c 2).trans (show V9 m outs c main_arg0 = V10 m outs c main_arg0 from (V10_of m outs c main_arg0 (by decide)).symm))
      | ⟨3, _⟩ => exact ((pdats m outs 1 c).arrAt_in 3 rfl _).trans ((Rgn1.A_eq (E1 m outs) c 3).trans (show V9 m outs c main_v26 = V10 m outs c main_v26 from (V10_of m outs c main_v26 (by decide)).symm))
      | ⟨4, _⟩ => exact (hO.h1 c).symm.trans (show outs 10 main_v27 c = Function.update (V9 m outs c) (Proc.devRef .tc main_v27) (outs 10 main_v27 c) (Proc.devRef .tc main_v27) from (Function.update_self (Proc.devRef (τ := τ) .tc main_v27) (outs 10 main_v27 c) (V9 m outs c)).symm)
    have hrest : ∀ b, b ∉ Finset.univ.image (Pipeline.arrRef spec1) → (fun b : Ref sig .tc => V10 m outs c b) b = (fun b : Ref sig .tc => V9 m outs c b) b :=
      fun b hb => V10_of m outs c b (fun h => hb (by rw [List.mem_singleton.mp h]; exact Finset.mem_image.mpr ⟨4, Finset.mem_univ _, rfl⟩))
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b : Ref sig .tc => V9 m outs c b) (fun b : Ref sig .tc => V10 m outs c b) ((pdats m outs 1 c).arrAt · cfg1.N) hF hrest
    rw [Pipeline.unscopedBufs_held c (V10 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 2 as a segment: entered from every unscoped buffer at the contents before it, left with its output array
    at what the pipeline leaves and every other buffer as entered; the generator register into the invariant and out;
    nothing owed; no semaphore of the kernel's own. -/
def reg2 (hO : OutsOk m outs) : Pipeline.RegionSeg (pcfgs (F := F)) adm (pdats m outs) () defs₀ Variants.none L lv 2 where
  win := launch2.win.to₀
  block_pos := launch2.block_pos
  stage_whole := launch2.stage_whole
  K := PEmpty
  osem k := k.elim
  ho := Pipeline.OwnSemFacts.none _
  hbody c := (Rgn2.body_obligation (E2 m outs) c).loose
  hwaits := Pipeline.hwaits_of_owed_zero _ _ _ _ L lv 2 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E2 m outs c) fun _ => rfl
    rw [Pipeline.unscopedBufs_held c (V15 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w, (pdats m outs 2 c).arrAt w cfg2.N = (fun b : Ref sig .tc => V16 m outs c b) (Pipeline.arrRef spec2 w) := by
      intro w
      match w with
      | ⟨0, _⟩ => exact ((pdats m outs 2 c).arrAt_in 0 rfl _).trans ((Rgn2.A_eq (E2 m outs) c 0).trans (show V15 m outs c main_arg2 = V16 m outs c main_arg2 from (V16_of m outs c main_arg2 (by decide)).symm))
      | ⟨1, _⟩ => exact (hO.h2 c).symm.trans (show outs 16 main_v57 c = Function.update (V15 m outs c) (Proc.devRef .tc main_v57) (outs 16 main_v57 c) (Proc.devRef .tc main_v57) from (Function.update_self (Proc.devRef (τ := τ) .tc main_v57) (outs 16 main_v57 c) (V15 m outs c)).symm)
    have hrest : ∀ b, b ∉ Finset.univ.image (Pipeline.arrRef spec2) → (fun b : Ref sig .tc => V16 m outs c b) b = (fun b : Ref sig .tc => V15 m outs c b) b :=
      fun b hb => V16_of m outs c b (fun h => hb (by rw [List.mem_singleton.mp h]; exact Finset.mem_image.mpr ⟨1, Finset.mem_univ _, rfl⟩))
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b : Ref sig .tc => V15 m outs c b) (fun b : Ref sig .tc => V16 m outs c b) ((pdats m outs 2 c).arrAt · cfg2.N) hF hrest
    rw [Pipeline.unscopedBufs_held c (V16 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 3 as a segment: entered from every unscoped buffer at the contents before it, left with its output array
    at what the pipeline leaves and every other buffer as entered; the generator register into the invariant and out;
    nothing owed; no semaphore of the kernel's own. -/
def reg3 (hO : OutsOk m outs) : Pipeline.RegionSeg (pcfgs (F := F)) adm (pdats m outs) () defs₀ Variants.none L lv 3 where
  win := launch3.win.to₀
  block_pos := launch3.block_pos
  stage_whole := launch3.stage_whole
  K := PEmpty
  osem k := k.elim
  ho := Pipeline.OwnSemFacts.none _
  hbody c := (Rgn3.body_obligation (E3 m outs) c).loose
  hwaits := Pipeline.hwaits_of_owed_zero _ _ _ _ L lv 3 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec3 c (E3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (E3 m outs c) fun _ => rfl
    rw [Pipeline.unscopedBufs_held c (V17 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    refine (Rgn3.hout (E3 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 3 c).arrAt w cfg3.N = (fun b : Ref sig .tc => V18 m outs c b) (Pipeline.arrRef spec3 w) := by
      intro w
      match w with
      | ⟨0, _⟩ => exact ((pdats m outs 3 c).arrAt_in 0 rfl _).trans ((Rgn3.A_eq (E3 m outs) c 0).trans (show V17 m outs c main_arg0 = V18 m outs c main_arg0 from (V18_of m outs c main_arg0 (by decide)).symm))
      | ⟨1, _⟩ => exact ((pdats m outs 3 c).arrAt_in 1 rfl _).trans ((Rgn3.A_eq (E3 m outs) c 1).trans (show V17 m outs c main_v62 = V18 m outs c main_v62 from (V18_of m outs c main_v62 (by decide)).symm))
      | ⟨2, _⟩ => exact ((pdats m outs 3 c).arrAt_in 2 rfl _).trans ((Rgn3.A_eq (E3 m outs) c 2).trans (show V17 m outs c main_arg3 = V18 m outs c main_arg3 from (V18_of m outs c main_arg3 (by decide)).symm))
      | ⟨3, _⟩ => exact ((pdats m outs 3 c).arrAt_in 3 rfl _).trans ((Rgn3.A_eq (E3 m outs) c 3).trans (show V17 m outs c main_v65 = V18 m outs c main_v65 from (V18_of m outs c main_v65 (by decide)).symm))
      | ⟨4, _⟩ => exact (hO.h3 c).symm.trans (show outs 18 main_v66 c = Function.update (V17 m outs c) (Proc.devRef .tc main_v66) (outs 18 main_v66 c) (Proc.devRef .tc main_v66) from (Function.update_self (Proc.devRef (τ := τ) .tc main_v66) (outs 18 main_v66 c) (V17 m outs c)).symm)
    have hrest : ∀ b, b ∉ Finset.univ.image (Pipeline.arrRef spec3) → (fun b : Ref sig .tc => V18 m outs c b) b = (fun b : Ref sig .tc => V17 m outs c b) b :=
      fun b hb => V18_of m outs c b (fun h => hb (by rw [List.mem_singleton.mp h]; exact Finset.mem_image.mpr ⟨4, Finset.mem_univ _, rfl⟩))
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b : Ref sig .tc => V17 m outs c b) (fun b : Ref sig .tc => V18 m outs c b) ((pdats m outs 3 c).arrAt · cfg3.N) hF hrest
    rw [Pipeline.unscopedBufs_held c (V18 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1600000 in
set_option backward.isDefEq.respectTransparency.types false in
/-- Region 4 as a segment: entered from every unscoped buffer at the contents before it, left with its output array
    at what the pipeline leaves and every other buffer as entered; the generator register into the invariant and out;
    nothing owed; no semaphore of the kernel's own. -/
def reg4 (hO : OutsOk m outs) : Pipeline.RegionSeg (pcfgs (F := F)) adm (pdats m outs) () defs₀ Variants.none L lv 4 where
  win := launch4.win.to₀
  block_pos := launch4.block_pos
  stage_whole := launch4.stage_whole
  K := PEmpty
  osem k := k.elim
  ho := Pipeline.OwnSemFacts.none _
  hbody c := (Rgn4.body_obligation (E4 m outs) c).loose
  hwaits := Pipeline.hwaits_of_owed_zero _ _ _ _ L lv 4 fun _ _ => rfl
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec4 c (E4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (E4 m outs c) fun _ => rfl
    rw [Pipeline.unscopedBufs_held c (V19 m outs c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    refine (Rgn4.hout (E4 m outs) c).trans ?_
    rw [Pipeline.ownSems0_none]; unfold Pipeline.ΦA
    iintro ⟨Hr, Hp⟩
    isplitl [Hp]; · iexact Hp
    isplitr; · iempintro
    iexact Hr
  hexit c := by
    have hF : ∀ w, (pdats m outs 4 c).arrAt w cfg4.N = (fun b : Ref sig .tc => V20 m outs c b) (Pipeline.arrRef spec4 w) := by
      intro w
      match w with
      | ⟨0, _⟩ => exact ((pdats m outs 4 c).arrAt_in 0 rfl _).trans ((Rgn4.A_eq (E4 m outs) c 0).trans (show V19 m outs c main_arg3 = V20 m outs c main_arg3 from (V20_of m outs c main_arg3 (by decide)).symm))
      | ⟨1, _⟩ => exact ((pdats m outs 4 c).arrAt_in 1 rfl _).trans ((Rgn4.A_eq (E4 m outs) c 1).trans (show V19 m outs c main_v69 = V20 m outs c main_v69 from (V20_of m outs c main_v69 (by decide)).symm))
      | ⟨2, _⟩ => exact ((pdats m outs 4 c).arrAt_in 2 rfl _).trans ((Rgn4.A_eq (E4 m outs) c 2).trans (show V19 m outs c main_arg0 = V20 m outs c main_arg0 from (V20_of m outs c main_arg0 (by decide)).symm))
      | ⟨3, _⟩ => exact ((pdats m outs 4 c).arrAt_in 3 rfl _).trans ((Rgn4.A_eq (E4 m outs) c 3).trans (show V19 m outs c main_v72 = V20 m outs c main_v72 from (V20_of m outs c main_v72 (by decide)).symm))
      | ⟨4, _⟩ => exact (hO.h4 c).symm.trans (show outs 20 main_v73 c = Function.update (V19 m outs c) (Proc.devRef .tc main_v73) (outs 20 main_v73 c) (Proc.devRef .tc main_v73) from (Function.update_self (Proc.devRef (τ := τ) .tc main_v73) (outs 20 main_v73 c) (V19 m outs c)).symm)
    have hrest : ∀ b, b ∉ Finset.univ.image (Pipeline.arrRef spec4) → (fun b : Ref sig .tc => V20 m outs c b) b = (fun b : Ref sig .tc => V19 m outs c b) b :=
      fun b hb => V20_of m outs c b (fun h => hb (by rw [List.mem_singleton.mp h]; exact Finset.mem_image.mpr ⟨4, Finset.mem_univ _, rfl⟩))
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (fun b : Ref sig .tc => V19 m outs c b) (fun b : Ref sig .tc => V20 m outs c b) ((pdats m outs 4 c).arrAt · cfg4.N) hF hrest
    rw [Pipeline.unscopedBufs_held c (V20 m outs c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KernelIdeal.FrameRun.lean ====
import proofs.«127974_j197568496105_2_alg».proof.Proof.KernelIdeal.Frame
import proofs.«127974_j197568496105_2_alg».proof.Proof.KernelIdeal.RunCond

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! # The contents the regions leave, chosen stage by stage

A region's entry contents depend only on what the regions BEFORE it left, so the family of left contents is built one
region at a time: stage k fixes region k's output array at what its pipeline computes from the contents the earlier
stages fixed. -/

variable {m} in
theorem V8_congr {o o' : Outs (F := F)} (h8 : ∀ c, o 8 main_v20 c = o' 8 main_v20 c) (c : Dev nD) : V8 m o c = V8 m o' c := by
  show Function.update (V7 m c) _ _ = Function.update (V7 m c) _ _; rw [h8 c]
variable {m} in
theorem V9_congr {o o' : Outs (F := F)} (h8 : ∀ c, o 8 main_v20 c = o' 8 main_v20 c) (c : Dev nD) : V9 m o c = V9 m o' c := by
  show StableHlo.after hostOps1 (V8 m o c) = StableHlo.after hostOps1 (V8 m o' c); rw [V8_congr h8 c]
variable {m} in
theorem V15_congr {o o' : Outs (F := F)} (h8 : ∀ c, o 8 main_v20 c = o' 8 main_v20 c) (h10 : ∀ c, o 10 main_v27 c = o' 10 main_v27 c) (c : Dev nD) : V15 m o c = V15 m o' c := by
  show StableHlo.after hostOps2_4 (StableHlo.after hostOps2_3 (StableHlo.after hostOps2_2 (StableHlo.after hostOps2_1 (StableHlo.after hostOps2 (Function.update (V9 m o c) _ _)))))
     = StableHlo.after hostOps2_4 (StableHlo.after hostOps2_3 (StableHlo.after hostOps2_2 (StableHlo.after hostOps2_1 (StableHlo.after hostOps2 (Function.update (V9 m o' c) _ _)))))
  rw [V9_congr h8 c, h10 c]
variable {m} in
theorem V17_congr {o o' : Outs (F := F)} (h8 : ∀ c, o 8 main_v20 c = o' 8 main_v20 c) (h10 : ∀ c, o 10 main_v27 c = o' 10 main_v27 c) (h16 : ∀ c, o 16 main_v57 c = o' 16 main_v57 c) (c : Dev nD) : V17 m o c = V17 m o' c := by
  show StableHlo.after hostOps3 (Function.update (V15 m o c) _ _) = StableHlo.after hostOps3 (Function.update (V15 m o' c) _ _)
  rw [V15_congr h8 h10 c, h16 c]
variable {m} in
theorem V19_congr {o o' : Outs (F := F)} (h8 : ∀ c, o 8 main_v20 c = o' 8 main_v20 c) (h10 : ∀ c, o 10 main_v27 c = o' 10 main_v27 c) (h16 : ∀ c, o 16 main_v57 c = o' 16 main_v57 c) (h18 : ∀ c, o 18 main_v66 c = o' 18 main_v66 c) (c : Dev nD) : V19 m o c = V19 m o' c := by
  show StableHlo.after hostOps4 (Function.update (V17 m o c) _ _) = StableHlo.after hostOps4 (Function.update (V17 m o' c) _ _)
  rw [V17_congr h8 h10 h16 c, h18 c]

/-- Nothing fixed yet: every buffer at its launch contents. -/
def o0 : Outs (F := F) := fun _ r c => m ((c : Thread nD τ).loc r)
def o1 : Outs (F := F) := fun J r c =>
  if J = 8 then Function.update (fun r' : Ref sig .tc => m ((c : Thread nD τ).loc r')) main_v20 ((pdats m (o0 m) 0 c).arrAt 4 cfg0.N) r else o0 m J r c
def o2 : Outs (F := F) := fun J r c =>
  if J = 10 then Function.update (fun r' : Ref sig .tc => m ((c : Thread nD τ).loc r')) main_v27 ((pdats m (o1 m) 1 c).arrAt 4 cfg1.N) r else o1 m J r c
def o3 : Outs (F := F) := fun J r c =>
  if J = 16 then Function.update (fun r' : Ref sig .tc => m ((c : Thread nD τ).loc r')) main_v57 ((pdats m (o2 m) 2 c).arrAt 1 cfg2.N) r else o2 m J r c
def o4 : Outs (F := F) := fun J r c =>
  if J = 18 then Function.update (fun r' : Ref sig .tc => m ((c : Thread nD τ).loc r')) main_v66 ((pdats m (o3 m) 3 c).arrAt 4 cfg3.N) r else o3 m J r c
def o5 : Outs (F := F) := fun J r c =>
  if J = 20 then Function.update (fun r' : Ref sig .tc => m ((c : Thread nD τ).loc r')) main_v73 ((pdats m (o4 m) 4 c).arrAt 4 cfg4.N) r else o4 m J r c

theorem o5_8 (c : Dev nD) : o5 m 8 main_v20 c = (pdats m (o0 m) 0 c).arrAt 4 cfg0.N := by
  simp only [o5, o4, o3, o2, o1, Function.update_self, reduceIte, Nat.reduceEqDiff]
theorem o5_10 (c : Dev nD) : o5 m 10 main_v27 c = (pdats m (o1 m) 1 c).arrAt 4 cfg1.N := by
  simp only [o5, o4, o3, o2, Function.update_self, reduceIte, Nat.reduceEqDiff]
theorem o5_16 (c : Dev nD) : o5 m 16 main_v57 c = (pdats m (o2 m) 2 c).arrAt 1 cfg2.N := by
  simp only [o5, o4, o3, Function.update_self, reduceIte, Nat.reduceEqDiff]
theorem o5_18 (c : Dev nD) : o5 m 18 main_v66 c = (pdats m (o3 m) 3 c).arrAt 4 cfg3.N := by
  simp only [o5, o4, Function.update_self, reduceIte, Nat.reduceEqDiff]
theorem o5_20 (c : Dev nD) : o5 m 20 main_v73 c = (pdats m (o4 m) 4 c).arrAt 4 cfg4.N := by
  simp only [o5, Function.update_self, reduceIte, Nat.reduceEqDiff]
theorem o1_8 (c : Dev nD) : o1 m 8 main_v20 c = (pdats m (o0 m) 0 c).arrAt 4 cfg0.N := by
  simp only [o1, Function.update_self, reduceIte]
theorem o2_8 (c : Dev nD) : o2 m 8 main_v20 c = (pdats m (o0 m) 0 c).arrAt 4 cfg0.N := by
  simp only [o2, o1, Function.update_self, reduceIte, Nat.reduceEqDiff]
theorem o2_10 (c : Dev nD) : o2 m 10 main_v27 c = (pdats m (o1 m) 1 c).arrAt 4 cfg1.N := by
  simp only [o2, Function.update_self, reduceIte]
theorem o3_8 (c : Dev nD) : o3 m 8 main_v20 c = (pdats m (o0 m) 0 c).arrAt 4 cfg0.N := by
  simp only [o3, o2, o1, Function.update_self, reduceIte, Nat.reduceEqDiff]
theorem o3_10 (c : Dev nD) : o3 m 10 main_v27 c = (pdats m (o1 m) 1 c).arrAt 4 cfg1.N := by
  simp only [o3, o2, Function.update_self, reduceIte, Nat.reduceEqDiff]
theorem o3_16 (c : Dev nD) : o3 m 16 main_v57 c = (pdats m (o2 m) 2 c).arrAt 1 cfg2.N := by
  simp only [o3, Function.update_self, reduceIte]
theorem o4_8 (c : Dev nD) : o4 m 8 main_v20 c = (pdats m (o0 m) 0 c).arrAt 4 cfg0.N := by
  simp only [o4, o3, o2, o1, Function.update_self, reduceIte, Nat.reduceEqDiff]
theorem o4_10 (c : Dev nD) : o4 m 10 main_v27 c = (pdats m (o1 m) 1 c).arrAt 4 cfg1.N := by
  simp only [o4, o3, o2, Function.update_self, reduceIte, Nat.reduceEqDiff]
theorem o4_16 (c : Dev nD) : o4 m 16 main_v57 c = (pdats m (o2 m) 2 c).arrAt 1 cfg2.N := by
  simp only [o4, o3, Function.update_self, reduceIte, Nat.reduceEqDiff]
theorem o4_18 (c : Dev nD) : o4 m 18 main_v66 c = (pdats m (o3 m) 3 c).arrAt 4 cfg3.N := by
  simp only [o4, Function.update_self, reduceIte]

/-- A region's proof data depend on the left contents only through its entry valuation. -/
theorem pdats1_congr {o o' : Outs (F := F)} (h8 : ∀ c, o 8 main_v20 c = o' 8 main_v20 c) (c : Dev nD) : pdats m o 1 c = pdats m o' 1 c := by
  show Rgn1.dat (E1 m o) c = Rgn1.dat (E1 m o') c
  rw [show E1 m o = E1 m o' from funext fun c => funext fun b => congrFun (V9_congr h8 c) _]
theorem pdats2_congr {o o' : Outs (F := F)} (h8 : ∀ c, o 8 main_v20 c = o' 8 main_v20 c) (h10 : ∀ c, o 10 main_v27 c = o' 10 main_v27 c) (c : Dev nD) : pdats m o 2 c = pdats m o' 2 c := by
  show Rgn2.dat (E2 m o) c = Rgn2.dat (E2 m o') c
  rw [show E2 m o = E2 m o' from funext fun c => funext fun b => congrFun (V15_congr h8 h10 c) _]
theorem pdats3_congr {o o' : Outs (F := F)} (h8 : ∀ c, o 8 main_v20 c = o' 8 main_v20 c) (h10 : ∀ c, o 10 main_v27 c = o' 10 main_v27 c) (h16 : ∀ c, o 16 main_v57 c = o' 16 main_v57 c) (c : Dev nD) : pdats m o 3 c = pdats m o' 3 c := by
  show Rgn3.dat (E3 m o) c = Rgn3.dat (E3 m o') c
  rw [show E3 m o = E3 m o' from funext fun c => funext fun b => congrFun (V17_congr h8 h10 h16 c) _]
theorem pdats4_congr {o o' : Outs (F := F)} (h8 : ∀ c, o 8 main_v20 c = o' 8 main_v20 c) (h10 : ∀ c, o 10 main_v27 c = o' 10 main_v27 c) (h16 : ∀ c, o 16 main_v57 c = o' 16 main_v57 c) (h18 : ∀ c, o 18 main_v66 c = o' 18 main_v66 c) (c : Dev nD) : pdats m o 4 c = pdats m o' 4 c := by
  show Rgn4.dat (E4 m o) c = Rgn4.dat (E4 m o') c
  rw [show E4 m o = E4 m o' from funext fun c => funext fun b => congrFun (V19_congr h8 h10 h16 h18 c) _]

/-- The staged family leaves, after each region, what that region's pipeline computes. -/
theorem outsOk : OutsOk m (o5 m) where
  h0 c := o5_8 m c
  h1 c := (o5_10 m c).trans (by rw [pdats1_congr m (o := o5 m) (o' := o1 m) (fun c => (o5_8 m c).trans (o1_8 m c).symm) c])
  h2 c := (o5_16 m c).trans (by rw [pdats2_congr m (o := o5 m) (o' := o2 m) (fun c => (o5_8 m c).trans (o2_8 m c).symm) (fun c => (o5_10 m c).trans (o2_10 m c).symm) c])
  h3 c := (o5_18 m c).trans (by rw [pdats3_congr m (o := o5 m) (o' := o3 m) (fun c => (o5_8 m c).trans (o3_8 m c).symm) (fun c => (o5_10 m c).trans (o3_10 m c).symm) (fun c => (o5_16 m c).trans (o3_16 m c).symm) c])
  h4 c := (o5_20 m c).trans (by rw [pdats4_congr m (o := o5 m) (o' := o4 m) (fun c => (o5_8 m c).trans (o4_8 m c).symm) (fun c => (o5_10 m c).trans (o4_10 m c).symm) (fun c => (o5_16 m c).trans (o4_16 m c).symm) (fun c => (o5_18 m c).trans (o4_18 m c).symm) c])

/-! # The frame -/

set_option backward.isDefEq.respectTransparency.types false in
/-- From any memory with zero counters every weakly fair execution of the host program terminates, nothing faulting,
    and every final state has the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m emb₁ () Variants.none L lv (fun _ _ => rfl) ρ (o5 m) (pdats m (o5 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄))
          ⊢ bigSep Finset.univ (fun c : Dev nD => R c) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
            ⊢ iprop((∃ r, prngReg c r) ∗ ∃ W, owes (c : Thread nD τ) (0 : CellTallies nD τ sig Unit) W) from by
          iintro ⟨-, HO, -, Hp, -⟩
          isplitl [Hp]; · iexists _; iexact Hp
          iexists ∅; iexact HO)
      iintro ⟨H, -⟩
      ihave H' := hmono $$ H
      imodintro
      iexact H')
    (hE5 := fun c => by
      iintro ⟨-, HO⟩; iexact HO)
    (reg0 m (o5 m) (outsOk m)) (fun _ => .rfl) (fun _ => .rfl)
    (reg1 m (o5 m) (outsOk m)) (fun _ => .rfl) (fun _ => .rfl)
    (reg2 m (o5 m) (outsOk m)) (fun _ => .rfl) (fun _ => .rfl)
    (reg3 m (o5 m) (outsOk m)) (fun _ => .rfl) (fun _ => .rfl)
    (reg4 m (o5 m) (outsOk m)) (fun _ => .rfl) (fun _ => .rfl)

set_option backward.isDefEq.respectTransparency.types false in
/-- The same run read also at the result: it ends holding what the last valuation gives the result buffer, the regions'
    output arrays being what their pipelines compute. -/
theorem run_value (ρ : Dev nD → PrngReg) : θ_run defs (onTc (τ := τ) (main (F := F))) ⟨m, fun _ => 0, ρ⟩ (fun r => ∀ c : Dev nD,
      r.2.mem ((c.tc : Thread nD τ).loc main_v87) = V23 m (o5 m) c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond (F := F) m emb₁ () Variants.none L lv (fun _ _ => rfl) ρ (o5 m) (pdats m (o5 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄))
          ⊢ bigSep Finset.univ (fun c : Dev nD => R c) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
            ⊢ iprop((∃ r, prngReg c r) ∗ ∃ W, owes (c : Thread nD τ) (0 : CellTallies nD τ sig Unit) W) from by
          iintro ⟨-, HO, -, Hp, -⟩
          isplitl [Hp]; · iexists _; iexact Hp
          iexists ∅; iexact HO)
      iintro ⟨H, -⟩
      ihave H' := hmono $$ H
      imodintro
      iexact H')
    (hE5 := fun c => by
      iintro ⟨-, HO⟩; iexact HO)
    (reg0 m (o5 m) (outsOk m)) (fun _ => .rfl) (fun _ => .rfl)
    (reg1 m (o5 m) (outsOk m)) (fun _ => .rfl) (fun _ => .rfl)
    (reg2 m (o5 m) (outsOk m)) (fun _ => .rfl) (fun _ => .rfl)
    (reg3 m (o5 m) (outsOk m)) (fun _ => .rfl) (fun _ => .rfl)
    (reg4 m (o5 m) (outsOk m)) (fun _ => .rfl) (fun _ => .rfl)

end Cert.KernelIdeal.Frm

end
-- ==== Proof.Small.lean ====
import proofs.«127974_j197568496105_2_alg».proof.Defs
import proofs.«127974_j197568496105_2_alg».proof.Proof.Gen.KernelIdeal
import proofs.«127974_j197568496105_2_alg».proof.Proof.Gen.ReferenceIdeal
import proofs.«127974_j197568496105_2_alg».proof.Proof.Gen.ReferenceIdeal.Run
import proofs.«127974_j197568496105_2_alg».proof.Proof.Gen.Pre_finite_inputs

noncomputable section

namespace Cert.Proof.Small

open Idealize.ShloMosaic Idealize.SL.Sem

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's four entries are one statement: the accumulator's start value, a finite stand-in, is named +∞. -/
theorem preserves : Cert.preserves_Kernel_KernelIdeal :=
  ⟨IdealRules.named_const.statement Cert.KernelIdeal.κ "pos_big" .f32 0x7149F2CA#32 ⊤ rfl,
   IdealRules.named_const.statement Cert.KernelIdeal.κ "pos_big" .f32 0x7149F2CA#32 ⊤ rfl,
   IdealRules.named_const.statement Cert.KernelIdeal.κ "pos_big" .f32 0x7149F2CA#32 ⊤ rfl,
   IdealRules.named_const.statement Cert.KernelIdeal.κ "pos_big" .f32 0x7149F2CA#32 ⊤ rfl⟩

end Cert.Proof.Small

end
-- ==== Proof.KernelIdeal.Pay2.lean ====
import proofs.«127974_j197568496105_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws

set_option maxRecDepth 16384

/-! # Region 2: the body's arithmetic as nested sums

For the key-point array x [8,128,3] the body forms, for every batch i and every pair (k, k') of points, the distance
form sqrt (max (|x_k|^2 + |x_k'|^2 - 2 * sum_d x_k,d * x_k',d) 0), replaces it by the threshold on the diagonal
k = k', clamps it from above by the threshold, and adds everything up: over k', then over k, then over i. -/

noncomputable section

namespace Cert.KernelIdeal.Pay2

open Cert.KernelIdeal Cert.KernelIdeal.Gen Cert.KernelIdeal.Facts₀ Cert.KernelIdeal.Facts
open Idealize.ShloMosaic Idealize.ShloMosaic.ValueIdx

/-! ## The layout operations at an entry -/

theorem sc_col (v : Vec Ideal S8x128 .f32) (i : Fin 8) (k : Fin 128) :
    shapeCast S8x128x1 v Gen.shapeCasts_S8x128_S8x128x1 (ix3 i k 0) = v (ix2 i k) :=
  shapeCast_apply v _ (ix3 i k 0) (ix2 i k) (by
    rw [Shape.rowMajor_val_two, Shape.rowMajor_val_three]
    show i.val * 128 + k.val = (i.val * 128 + k.val) * 1 + 0
    omega)

theorem sc_row (v : Vec Ideal S8x128 .f32) (i : Fin 8) (k : Fin 128) :
    shapeCast S8x1x128 v Gen.shapeCasts_S8x128_S8x1x128 (ix3 i 0 k) = v (ix2 i k) :=
  shapeCast_apply v _ (ix3 i 0 k) (ix2 i k) (by
    rw [Shape.rowMajor_val_two, Shape.rowMajor_val_three]
    show i.val * 128 + k.val = (i.val * 1 + 0) * 128 + k.val
    omega)

theorem sc_i (v : Vec Ideal S8x1 .f32) (i : Fin 8) :
    shapeCast S8x1x1 v Gen.shapeCasts_S8x1_S8x1x1 (ix3 i 0 0) = v (ix2 i 0) :=
  shapeCast_apply v _ (ix3 i 0 0) (ix2 i 0) (by
    rw [Shape.rowMajor_val_two, Shape.rowMajor_val_three]
    show i.val * 1 + 0 = (i.val * 1 + 0) * 1 + 0
    omega)

theorem sc_up (v : Vec Ideal S1x1 .f32) :
    shapeCast S1x1x1 v Gen.shapeCasts_S1x1_S1x1x1 (ix3 0 0 0) = v (ix2 0 0) :=
  shapeCast_apply v _ (ix3 0 0 0) (ix2 0 0) (by
    rw [Shape.rowMajor_val_two, Shape.rowMajor_val_three]
    rfl)

theorem sc_down (v : Vec Ideal S1x1x1 .f32) :
    shapeCast S1x1 v Gen.shapeCasts_S1x1x1_S1x1 (ix2 0 0) = v (ix3 0 0 0) :=
  shapeCast_apply v _ (ix2 0 0) (ix3 0 0 0) (by
    rw [Shape.rowMajor_val_two, Shape.rowMajor_val_three]
    rfl)

/-- The row norms, broadcast along the columns. -/
theorem bcast_a2 (x1 : Vec Ideal S8x128x1 .f32) (i : Fin 8) (n : Fin 128) (m : Fin 128) :
    broadcastTo S8x128x128 x1 Gen.broadcasts_S8x128x1_S8x128x128 (ix3 i n m) = x1 (ix3 i n 0) :=
  broadcastTo_apply x1 _ (ix3 i n m) (ix3 i n 0) (fun a => by
    match a with
    | ⟨0, _⟩ => rfl
    | ⟨1, _⟩ => rfl
    | ⟨2, _⟩ => rfl)

/-- The column norms, broadcast along the rows. -/
theorem bcast_b2 (x3 : Vec Ideal S8x1x128 .f32) (i : Fin 8) (n : Fin 128) (m : Fin 128) :
    broadcastTo S8x128x128 x3 Gen.broadcasts_S8x1x128_S8x128x128 (ix3 i n m) = x3 (ix3 i 0 m) :=
  broadcastTo_apply x3 _ (ix3 i n m) (ix3 i 0 m) (fun a => by
    match a with
    | ⟨0, _⟩ => rfl
    | ⟨1, _⟩ => rfl
    | ⟨2, _⟩ => rfl)

theorem lhs_0 (j : S8x128x128.Idx) (q : dot_S8x128x3_S8x128x3_S8x128x128_2_2_1_1_0_0.contr.Idx) : (dot_S8x128x3_S8x128x3_S8x128x128_2_2_1_1_0_0.lhsIdx j q 0).val = (j 0).val := by
  unfold DotDims.lhsIdx
  rw [dif_pos (show (0 : Fin S8x128x3.rank) ∈ dot_S8x128x3_S8x128x3_S8x128x128_2_2_1_1_0_0.lhsBatch by decide)]
  rfl
theorem lhs_1 (j : S8x128x128.Idx) (q : dot_S8x128x3_S8x128x3_S8x128x128_2_2_1_1_0_0.contr.Idx) : (dot_S8x128x3_S8x128x3_S8x128x128_2_2_1_1_0_0.lhsIdx j q 1).val = (j 1).val := by
  unfold DotDims.lhsIdx
  rw [dif_neg (show ¬(1 : Fin S8x128x3.rank) ∈ dot_S8x128x3_S8x128x3_S8x128x128_2_2_1_1_0_0.lhsBatch by decide), dif_pos (show (1 : Fin S8x128x3.rank) ∈ dot_S8x128x3_S8x128x3_S8x128x128_2_2_1_1_0_0.lhsNonContracting by decide)]
  rfl
theorem lhs_2 (j : S8x128x128.Idx) (q : dot_S8x128x3_S8x128x3_S8x128x128_2_2_1_1_0_0.contr.Idx) : (dot_S8x128x3_S8x128x3_S8x128x128_2_2_1_1_0_0.lhsIdx j q 2).val = (q ⟨0, by decide⟩).val :=
  dot_S8x128x3_S8x128x3_S8x128x128_2_2_1_1_0_0.lhsIdx_val_of_single rfl j q
theorem rhs_0 (j : S8x128x128.Idx) (q : dot_S8x128x3_S8x128x3_S8x128x128_2_2_1_1_0_0.contr.Idx) : (dot_S8x128x3_S8x128x3_S8x128x128_2_2_1_1_0_0.rhsIdx j q 0).val = (j 0).val := by
  unfold DotDims.rhsIdx
  rw [dif_pos (show (0 : Fin S8x128x3.rank) ∈ dot_S8x128x3_S8x128x3_S8x128x128_2_2_1_1_0_0.rhsBatch by decide)]
  rfl
theorem rhs_1 (j : S8x128x128.Idx) (q : dot_S8x128x3_S8x128x3_S8x128x128_2_2_1_1_0_0.contr.Idx) : (dot_S8x128x3_S8x128x3_S8x128x128_2_2_1_1_0_0.rhsIdx j q 1).val = (j 2).val := by
  unfold DotDims.rhsIdx
  rw [dif_neg (show ¬(1 : Fin S8x128x3.rank) ∈ dot_S8x128x3_S8x128x3_S8x128x128_2_2_1_1_0_0.rhsBatch by decide), dif_pos (show (1 : Fin S8x128x3.rank) ∈ dot_S8x128x3_S8x128x3_S8x128x128_2_2_1_1_0_0.rhsNonContracting by decide)]
  rfl
theorem rhs_2 (j : S8x128x128.Idx) (q : dot_S8x128x3_S8x128x3_S8x128x128_2_2_1_1_0_0.contr.Idx) : (dot_S8x128x3_S8x128x3_S8x128x128_2_2_1_1_0_0.rhsIdx j q 2).val = (q ⟨0, by decide⟩).val :=
  dot_S8x128x3_S8x128x3_S8x128x128_2_2_1_1_0_0.rhsIdx_val_of_single rfl j q

/-- The product of a row block with a column tile, at an entry: the sum over the three coordinates. -/
theorem mm_at (x0 : Vec Ideal S8x128x3 .f32) (x2 : Vec Ideal S8x128x3 .f32) (i : Fin 8) (n : Fin 128) (m : Fin 128) :
    matmul (F := Ideal) (φ₁ := .f32) (φ₂ := .f32) dot_S8x128x3_S8x128x3_S8x128x128_2_2_1_1_0_0 (some .fp32) x0 x2 (constant (F := Ideal) S8x128x128 .f32 0x00000000#32) (ix3 i n m)
      = ∑ d : Fin 3, x0 (ix3 i n d) * x2 (ix3 i m d) := by
  refine (Ideal.matmul_constant_zero_apply dot_S8x128x3_S8x128x3_S8x128x128_2_2_1_1_0_0 (some .fp32) x0 x2 (ix3 i n m)).trans ?_
  rw [← Equiv.sum_comp (ValueIdx.contrEquiv1 dot_S8x128x3_S8x128x3_S8x128x128_2_2_1_1_0_0 3 rfl rfl).symm]
  refine Finset.sum_congr rfl fun k _ => ?_
  have hk := ValueIdx.contrEquiv1_symm_val dot_S8x128x3_S8x128x3_S8x128x128_2_2_1_1_0_0 3 rfl rfl k
  have el : dot_S8x128x3_S8x128x3_S8x128x128_2_2_1_1_0_0.lhsIdx (ix3 i n m) ((ValueIdx.contrEquiv1 dot_S8x128x3_S8x128x3_S8x128x128_2_2_1_1_0_0 3 rfl rfl).symm k) = ix3 i n k := funext fun a => Fin.ext (by
    match a with
    | ⟨0, _⟩ => exact lhs_0 _ _
    | ⟨1, _⟩ => exact lhs_1 _ _
    | ⟨2, _⟩ => exact (lhs_2 _ _).trans hk)
  have er : dot_S8x128x3_S8x128x3_S8x128x128_2_2_1_1_0_0.rhsIdx (ix3 i n m) ((ValueIdx.contrEquiv1 dot_S8x128x3_S8x128x3_S8x128x128_2_2_1_1_0_0 3 rfl rfl).symm k) = ix3 i m k := funext fun a => Fin.ext (by
    match a with
    | ⟨0, _⟩ => exact rhs_0 _ _
    | ⟨1, _⟩ => exact rhs_1 _ _
    | ⟨2, _⟩ => exact (rhs_2 _ _).trans hk)
  rw [el, er]

/-! ## The sums at an entry -/

theorem lift_d (i : Fin 8) (k : Fin 128) (d : Fin 3) : Gen.reduces_S8x128x3_S8x128.lift (ix2 i k) d = ix3 i k d := funext fun a => Fin.ext (by
  match a with
  | ⟨0, _⟩ => rfl
  | ⟨1, _⟩ => rfl
  | ⟨2, _⟩ => rfl)
theorem lift_k' (i : Fin 8) (k : Fin 128) (k' : Fin 128) : Gen.reduces_S8x128x128_S8x128.lift (ix2 i k) k' = ix3 i k k' := funext fun a => Fin.ext (by
  match a with
  | ⟨0, _⟩ => rfl
  | ⟨1, _⟩ => rfl
  | ⟨2, _⟩ => rfl)
theorem lift_k (i : Fin 8) (k : Fin 128) : Gen.reduces_S8x128x1_S8x1.lift (ix2 i 0) k = ix3 i k 0 := funext fun a => Fin.ext (by
  match a with
  | ⟨0, _⟩ => rfl
  | ⟨1, _⟩ => rfl
  | ⟨2, _⟩ => rfl)
theorem lift_i (i : Fin 8) : Gen.reduces_S8x1x1_S1x1.lift (ix2 0 0) i = ix3 i 0 0 := funext fun a => Fin.ext (by
  match a with
  | ⟨0, _⟩ => rfl
  | ⟨1, _⟩ => rfl
  | ⟨2, _⟩ => rfl)

theorem red_d (src : FVec Ideal S8x128x3 .f32) (hφ : FKind.Formats .f32) (hacc : (0x00000000#32 : BitVec 32) = FKind.add.neutral .f32 hφ) (i : Fin 8) (k : Fin 128) :
    multiReduction .add [2] S8x128 src 0x00000000#32 Gen.reduces_S8x128x3_S8x128 hφ hacc (ix2 i k) = ∑ d : Fin 3, src (ix3 i k d) :=
  (Ideal.multiReduction_add_single src _ Gen.reduces_S8x128x3_S8x128 hφ hacc (ix2 i k)).trans
    (Finset.sum_congr rfl fun d _ => congrArg src (lift_d i k d))

theorem red_k' (src : FVec Ideal S8x128x128 .f32) (hφ : FKind.Formats .f32) (hacc : (0x00000000#32 : BitVec 32) = FKind.add.neutral .f32 hφ) (i : Fin 8) (k : Fin 128) :
    multiReduction .add [2] S8x128 src 0x00000000#32 Gen.reduces_S8x128x128_S8x128 hφ hacc (ix2 i k) = ∑ k' : Fin 128, src (ix3 i k k') :=
  (Ideal.multiReduction_add_single src _ Gen.reduces_S8x128x128_S8x128 hφ hacc (ix2 i k)).trans
    (Finset.sum_congr rfl fun k' _ => congrArg src (lift_k' i k k'))

theorem red_k (src : FVec Ideal S8x128x1 .f32) (hφ : FKind.Formats .f32) (hacc : (0x00000000#32 : BitVec 32) = FKind.add.neutral .f32 hφ) (i : Fin 8) :
    multiReduction .add [1] S8x1 src 0x00000000#32 Gen.reduces_S8x128x1_S8x1 hφ hacc (ix2 i 0) = ∑ k : Fin 128, src (ix3 i k 0) :=
  (Ideal.multiReduction_add_single src _ Gen.reduces_S8x128x1_S8x1 hφ hacc (ix2 i 0)).trans
    (Finset.sum_congr rfl fun k _ => congrArg src (lift_k i k))

theorem red_i (src : FVec Ideal S8x1x1 .f32) (hφ : FKind.Formats .f32) (hacc : (0x00000000#32 : BitVec 32) = FKind.add.neutral .f32 hφ) :
    multiReduction .add [0] S1x1 src 0x00000000#32 Gen.reduces_S8x1x1_S1x1 hφ hacc (ix2 0 0) = ∑ i : Fin 8, src (ix3 i 0 0) :=
  (Ideal.multiReduction_add_single src _ Gen.reduces_S8x1x1_S1x1 hφ hacc (ix2 0 0)).trans
    (Finset.sum_congr rfl fun i _ => congrArg src (lift_i i))

/-- The squared norm of a point: the sum of the squares of its three coordinates. -/
theorem sq_at (x : Vec Ideal S8x128x3 .f32) (hφ : FKind.Formats .f32) (hacc : (0x00000000#32 : BitVec 32) = 0x00000000#32) (i : Fin 8) (k : Fin 128) :
    multiReduction .add [2] S8x128 (mulf (F := Ideal) (φ := .f32) x x) 0x00000000#32 Gen.reduces_S8x128x3_S8x128 hφ hacc (ix2 i k)
      = ∑ d : Fin 3, x (ix3 i k d) * x (ix3 i k d) :=
  red_d (mulf (F := Ideal) (φ := .f32) x x) hφ hacc i k

/-! ## The diagonal mask -/

theorem iota1_at (i : Fin 8) (k k' : Fin 128) :
    iota .tc S8x128x128 32 [1] Gen.iota_S8x128x128_d1_w32 (ix3 i k k') = BitVec.ofNat 32 k.val :=
  iota_single_apply .tc S8x128x128 32 1 Gen.iota_S8x128x128_d1_w32 (ix3 i k k')

theorem iota2_at (i : Fin 8) (k k' : Fin 128) :
    iota .tc S8x128x128 32 [2] Gen.iota_S8x128x128_d2_w32 (ix3 i k k') = BitVec.ofNat 32 k'.val :=
  iota_single_apply .tc S8x128x128 32 2 Gen.iota_S8x128x128_d2_w32 (ix3 i k k')

/-- Selecting on the comparison of the two coordinates is the case split on k = k'. -/
theorem eye_at (k k' : Fin 128) (a b : EReal) :
    Scalar.select (IntOp.cmpi .eq (BitVec.ofNat 32 k.val) (BitVec.ofNat 32 k'.val)) a b = if k = k' then a else b := by
  have hiff : (BitVec.ofNat 32 k.val = BitVec.ofNat 32 k'.val) ↔ k = k' :=
    ⟨fun h => Fin.ext (by
      have h1 := congrArg BitVec.toNat h
      rw [BitVec.toNat_ofNat, BitVec.toNat_ofNat] at h1
      have := k.isLt; have := k'.isLt
      omega), fun h => by rw [h]⟩
  unfold Scalar.select
  by_cases hk : k = k'
  · have hc : IntOp.cmpi .eq (BitVec.ofNat 32 k.val) (BitVec.ofNat 32 k'.val) = 1 := IntOp.cmpi_eq.mpr (hiff.mpr hk)
    rw [if_pos hk, if_pos hc]
  · have hc : ¬IntOp.cmpi .eq (BitVec.ofNat 32 k.val) (BitVec.ofNat 32 k'.val) = 1 := fun h => hk (hiff.mp (IntOp.cmpi_eq.mp h))
    rw [if_neg hk, if_neg hc]

/-! ## The body's value -/

theorem pay_at (x : Vec Ideal S8x128x3 .f32) :
    k2_pay1 (F := Ideal) x (ix2 0 0)
      = ∑ i : Fin 8, ∑ k : Fin 128, ∑ k' : Fin 128,
          min (if k = k' then Ideal.ofBits .f32 0x3DCCCCCD#32 else
            Ideal.sqrt (max ((∑ d : Fin 3, x (ix3 i k d) * x (ix3 i k d)) + (∑ d : Fin 3, x (ix3 i k' d) * x (ix3 i k' d))
              - Ideal.ofBits .f32 0x40000000#32 * ∑ d : Fin 3, x (ix3 i k d) * x (ix3 i k' d)) (Ideal.ofBits .f32 0x00000000#32))) (Ideal.ofBits .f32 0x3DCCCCCD#32) := by
  unfold k2_pay1
  dsimp only
  refine (sc_down _).trans ?_
  refine (sc_up _).trans ?_
  refine (red_i _ _ _).trans ?_
  refine Finset.sum_congr rfl fun i _ => ?_
  refine (sc_i _ i).trans ?_
  refine (red_k _ _ _ i).trans ?_
  refine Finset.sum_congr rfl fun k _ => ?_
  refine (sc_col _ i k).trans ?_
  refine (red_k' _ _ _ i k).trans ?_
  refine Finset.sum_congr rfl fun k' _ => ?_
  show min (Scalar.select (IntOp.cmpi .eq (iota .tc S8x128x128 32 [1] Gen.iota_S8x128x128_d1_w32 (ix3 i k k')) (iota .tc S8x128x128 32 [2] Gen.iota_S8x128x128_d2_w32 (ix3 i k k')))
      (Ideal.ofBits .f32 0x3DCCCCCD#32)
      (Ideal.sqrt (max (broadcastTo S8x128x128 (shapeCast S8x128x1 (multiReduction (F := Ideal) .add [2] S8x128 (mulf (F := Ideal) (φ := .f32) x x) 0x00000000#32 Gen.reduces_S8x128x3_S8x128 _ _) Gen.shapeCasts_S8x128_S8x128x1) Gen.broadcasts_S8x128x1_S8x128x128 (ix3 i k k')
        + broadcastTo S8x128x128 (shapeCast S8x1x128 (multiReduction (F := Ideal) .add [2] S8x128 (mulf (F := Ideal) (φ := .f32) x x) 0x00000000#32 Gen.reduces_S8x128x3_S8x128 _ _) Gen.shapeCasts_S8x128_S8x1x128) Gen.broadcasts_S8x1x128_S8x128x128 (ix3 i k k')
        - Ideal.ofBits .f32 0x40000000#32 * matmul (F := Ideal) (φ₁ := .f32) (φ₂ := .f32) dot_S8x128x3_S8x128x3_S8x128x128_2_2_1_1_0_0 (some .fp32) x x (constant (F := Ideal) S8x128x128 .f32 0x00000000#32) (ix3 i k k')) (Ideal.ofBits .f32 0x00000000#32))))
      (Ideal.ofBits .f32 0x3DCCCCCD#32) = _
  rw [iota1_at, iota2_at, eye_at, bcast_a2, sc_col, sq_at, bcast_b2, sc_row, sq_at, mm_at]

end Cert.KernelIdeal.Pay2
end
-- ==== Proof.LibDistForms.lean ====
/-
  The two ways of writing a Euclidean distance between points of ℝ³, on the extended reals.

  For real coordinates `x d`, `y d` (`d : Fin 3`), read as extended reals,
    √( max ( (0 + ∑ x·x) + (0 + ∑ y·y) − 2 · ∑ x·y , 0 ) )  =  √( 0 + ∑ (x − y)·(x − y) ),
  because on the reals  ∑ x² + ∑ y² − 2 ∑ x y = ∑ (x − y)² ≥ 0, so the clamp at zero is the identity; every
  extended-real operation involved maps real arguments to the real result, so the identity of reals transfers.
  The literal `2.0` is the f32 pattern `0x40000000`, the literal `0.0` the pattern `0x00000000`, and `+∞` the
  pattern `0x7F800000`. The mirror form has `x` and `y` exchanged on the right-hand side only (a squared
  difference does not see the order of subtraction). The law is also stated for extended-real coordinates that are
  known to be finite, and under the diagonal mask of a thresholded sum of pairwise distances. A fold of `min`
  over a finite index type may be rewritten pointwise.
-/
import Idealize.ShloMosaic.PureOps.Ideal
import Idealize.ShloMosaic.PureOps.Ideal.Laws
import Idealize.ShloMosaic.Lib.ValueIdx

open scoped BigOperators

namespace Cert.Lib.DistForms

open Idealize.ShloMosaic

/-! ## Literals -/

/-- The f32 pattern `0x40000000` denotes the real number 2. -/
theorem ofBits_two_f32 : Ideal.ofBits .f32 0x40000000#32 = ((2 : ℝ) : EReal) := by
  simp [Ideal.ofBits, Ideal.ieee, -EReal.coe_mul]; norm_num

/-- The f32 pattern `0x7F800000` denotes +∞. -/
theorem ofBits_inf_f32 : Ideal.ofBits .f32 0x7F800000#32 = ⊤ := by
  simp [Ideal.ofBits, Ideal.ieee]

/-- The f32 pattern `0x3F800000` denotes the real number 1. -/
theorem ofBits_one_f32 : Ideal.ofBits .f32 0x3F800000#32 = ((1 : ℝ) : EReal) := by
  simp [Ideal.ofBits, Ideal.ieee, -EReal.coe_mul]; norm_num

/-! ## Sums of three real terms, read as extended reals -/

/-- The coercion of a sum over three terms is the sum of the coercions. -/
theorem coe_sum3 (f : Fin 3 → ℝ) : (∑ d, ((f d : ℝ) : EReal)) = ((∑ d, f d : ℝ) : EReal) := by
  simp only [Fin.sum_univ_three, EReal.coe_add]

/-- The squared-difference form is the coercion of the real sum of squared differences. -/
theorem sqdiff_eq_coe (x y : Fin 3 → ℝ) :
    (0 + ∑ d, ((x d : EReal) - (y d : EReal)) * ((x d : EReal) - (y d : EReal)))
      = ((∑ d, (x d - y d) * (x d - y d) : ℝ) : EReal) := by
  simp only [← EReal.coe_sub, ← EReal.coe_mul, coe_sum3, zero_add]

/-- The real identity behind the law. -/
theorem real_expand (x y : Fin 3 → ℝ) :
    (∑ d, x d * x d) + (∑ d, y d * y d) - 2 * (∑ d, x d * y d) = ∑ d, (x d - y d) * (x d - y d) := by
  simp only [Fin.sum_univ_three]; ring

theorem real_sqdiff_nonneg (x y : Fin 3 → ℝ) : 0 ≤ ∑ d, (x d - y d) * (x d - y d) :=
  Finset.sum_nonneg fun d _ => mul_self_nonneg _

/-- The expanded form, clamped at zero, is the coercion of the same real sum. -/
theorem expanded_eq_coe (x y : Fin 3 → ℝ) :
    max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32)
      = ((∑ d, (x d - y d) * (x d - y d) : ℝ) : EReal) := by
  rw [ofBits_two_f32, Ideal.ofBits_zero_f32]
  simp only [← EReal.coe_mul, coe_sum3, zero_add, ← EReal.coe_add, ← EReal.coe_sub]
  rw [real_expand]
  exact max_eq_left (EReal.coe_nonneg.mpr (real_sqdiff_nonneg x y))

/-! ## The law -/

/-- THE LAW, for real coordinates. -/
theorem dist_forms (x y : Fin 3 → ℝ) :
    Ideal.sqrt (max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32))
      = Ideal.sqrt (0 + ∑ d, ((x d : EReal) - (y d : EReal)) * ((x d : EReal) - (y d : EReal))) := by
  rw [expanded_eq_coe, sqdiff_eq_coe]

/-- The mirror: the right-hand side subtracts in the other order. -/
theorem dist_forms_swap (x y : Fin 3 → ℝ) :
    Ideal.sqrt (max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32))
      = Ideal.sqrt (0 + ∑ d, ((y d : EReal) - (x d : EReal)) * ((y d : EReal) - (x d : EReal))) := by
  rw [expanded_eq_coe, sqdiff_eq_coe]
  refine congrArg Ideal.sqrt (congrArg _ (Finset.sum_congr rfl fun d _ => ?_))
  ring

/-! ## From finite extended reals to real witnesses -/

/-- A family of extended reals none of which is infinite is the coercion of a family of reals. -/
theorem exists_real_of_finite {ι : Type*} (x : ι → EReal) (h : ∀ j, x j ≠ ⊤ ∧ x j ≠ ⊥) :
    ∃ r : ι → ℝ, x = fun j => ((r j : ℝ) : EReal) :=
  ⟨fun j => (x j).toReal, funext fun j => (EReal.coe_toReal (h j).1 (h j).2).symm⟩

/-- The same with finiteness spelt as the negation of "is `⊤` or is `⊥`". -/
theorem exists_real_of_not_inf {ι : Type*} (x : ι → EReal) (h : ∀ j, ¬(x j = ⊤ ∨ x j = ⊥)) :
    ∃ r : ι → ℝ, x = fun j => ((r j : ℝ) : EReal) :=
  exists_real_of_finite x fun j => ⟨fun e => h j (Or.inl e), fun e => h j (Or.inr e)⟩

/-- THE LAW for finite extended-real coordinates. -/
theorem dist_forms_of_finite (x y : Fin 3 → EReal) (hx : ∀ d, x d ≠ ⊤ ∧ x d ≠ ⊥) (hy : ∀ d, y d ≠ ⊤ ∧ y d ≠ ⊥) :
    Ideal.sqrt (max ((0 + ∑ d, x d * x d) + (0 + ∑ d, y d * y d)
          - Ideal.ofBits .f32 0x40000000#32 * ∑ d, x d * y d)
        (Ideal.ofBits .f32 0x00000000#32))
      = Ideal.sqrt (0 + ∑ d, (x d - y d) * (x d - y d)) := by
  obtain ⟨rx, rfl⟩ := exists_real_of_finite x hx
  obtain ⟨ry, rfl⟩ := exists_real_of_finite y hy
  exact dist_forms rx ry

/-- The mirror for finite extended-real coordinates. -/
theorem dist_forms_swap_of_finite (x y : Fin 3 → EReal) (hx : ∀ d, x d ≠ ⊤ ∧ x d ≠ ⊥) (hy : ∀ d, y d ≠ ⊤ ∧ y d ≠ ⊥) :
    Ideal.sqrt (max ((0 + ∑ d, x d * x d) + (0 + ∑ d, y d * y d)
          - Ideal.ofBits .f32 0x40000000#32 * ∑ d, x d * y d)
        (Ideal.ofBits .f32 0x00000000#32))
      = Ideal.sqrt (0 + ∑ d, (y d - x d) * (y d - x d)) := by
  obtain ⟨rx, rfl⟩ := exists_real_of_finite x hx
  obtain ⟨ry, rfl⟩ := exists_real_of_finite y hy
  exact dist_forms_swap rx ry

/-- The law with the three sums NAMED: whatever a proof knows the two squared norms and the cross term to be. -/
theorem dist_forms_of_eq (x y : Fin 3 → EReal) (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    Ideal.sqrt (max (A + B - Ideal.ofBits .f32 0x40000000#32 * C) (Ideal.ofBits .f32 0x00000000#32))
      = Ideal.sqrt (0 + ∑ d, (x d - y d) * (x d - y d)) := by
  subst hA hB hC; exact dist_forms_of_finite x y hx hy

/-- Its mirror. -/
theorem dist_forms_swap_of_eq (x y : Fin 3 → EReal) (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    Ideal.sqrt (max (A + B - Ideal.ofBits .f32 0x40000000#32 * C) (Ideal.ofBits .f32 0x00000000#32))
      = Ideal.sqrt (0 + ∑ d, (y d - x d) * (y d - x d)) := by
  subst hA hB hC; exact dist_forms_swap_of_finite x y hx hy

/-! ## Re-indexing and pointwise rewriting -/

/-- A sum over a one-axis contraction index of extent three is the sum over `Fin 3` through the coordinate bijection. -/
theorem sum_contr3 {sl sr so : Shape} (D : DotDims sl sr so) (hr : D.contr.rank = 1)
    (hs : D.contr.size ⟨0, by omega⟩ = 3) (f : D.contr.Idx → EReal) :
    ∑ k, f k = ∑ d : Fin 3, f ((ValueIdx.contrEquiv1 D 3 hr hs).symm d) :=
  (Equiv.sum_comp (ValueIdx.contrEquiv1 D 3 hr hs).symm f).symm

/-- A fold of `min` from `⊤` over a finite index type may be rewritten pointwise. -/
theorem fold_min_congr {ι : Type*} [Fintype ι] (f g : ι → EReal) (h : ∀ m, f m = g m) :
    (Finset.univ : Finset ι).fold min ⊤ f = (Finset.univ : Finset ι).fold min ⊤ g := by
  rw [funext h]

/-- The same from any initial value. -/
theorem fold_min_congr' {ι : Type*} [Fintype ι] (init : EReal) (f g : ι → EReal) (h : ∀ m, f m = g m) :
    (Finset.univ : Finset ι).fold min init f = (Finset.univ : Finset ι).fold min init g := by
  rw [funext h]

end Cert.Lib.DistForms
-- ==== Proof.LibDivForms.lean ====
/-
  The thresholded sum of pairwise distances, on the extended reals: the pieces that are pure mathematics.

  A diagonal mask is computed by comparing two 32-bit coordinate words for equality; for coordinates below 2³² the
  comparison's bit is set exactly when the coordinates are equal, so a select on it is an `if` on that equality.
  Under the mask the two ways of writing a distance agree: on the diagonal both sides are the threshold itself
  (`min th th` on one side, `min ⊤ th` on the other), off the diagonal the law of the two distance forms applies.
  A sum over a rank-3 index set is the triple sum over its coordinates.
-/
import proofs.«127974_j197568496105_2_alg».proof.Proof.LibDistForms

open scoped BigOperators

namespace Cert.Lib.DivForms

open Idealize.ShloMosaic Idealize.ShloMosaic.ValueIdx

/-! ## The mask bit -/

/-- Two naturals below 2³² are equal exactly when their 32-bit words are. -/
theorem ofNat32_inj {a b : Nat} (ha : a < 4294967296) (hb : b < 4294967296) :
    BitVec.ofNat 32 a = BitVec.ofNat 32 b ↔ a = b := by
  constructor
  · intro e
    have h := congrArg BitVec.toNat e
    simp only [BitVec.toNat_ofNat] at h
    omega
  · intro e; rw [e]

/-- The equality comparison of two coordinate words is the bit of the coordinates' equality. -/
theorem cmpi_eq_ofNat {a b : Nat} (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h ((ofNat32_inj ha hb).mp e)
    have hb' : (BitVec.ofNat 32 a == BitVec.ofNat 32 b) = false := beq_eq_false_iff_ne.mpr hne
    rw [hb']; rfl

/-- The same with a zero word added to the left coordinate first. -/
theorem cmpi_eq_addi_zero {a b : Nat} (ha : a < 4294967296) (hb : b < 4294967296) :
    IntOp.cmpi .eq (IntOp.addi (BitVec.ofNat 32 a) 0#32) (BitVec.ofNat 32 b) = if a = b then 1#1 else 0#1 := by
  have : IntOp.addi (BitVec.ofNat 32 a) 0#32 = BitVec.ofNat 32 a := by unfold IntOp.addi; simp
  rw [this, cmpi_eq_ofNat ha hb]

/-- A select on a decided bit is the `if`. -/
theorem select_ite {α : Type} (p : Prop) [Decidable p] (A B : α) :
    Scalar.select (if p then 1#1 else 0#1) A B = if p then A else B := by
  by_cases h : p
  · rw [if_pos h, if_pos h]; exact select_one A B
  · rw [if_neg h, if_neg h]; exact select_zero A B

/-! ## A rank-3 index set is the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two masked forms -/

/-- The masked form that clamps a safe value under the root: on the diagonal `min ⊤ th`, off it the root of the sum. -/
theorem masked_root_form (p : Prop) [Decidable p] (th one s : EReal) :
    min (if p then ⊤ else Ideal.sqrt (if p then one else s)) th = if p then th else min (Ideal.sqrt s) th := by
  by_cases h : p
  · simp only [if_pos h]; exact min_eq_right le_top
  · simp only [if_neg h]

/-- The masked form that selects the threshold on the diagonal, with the distance in its expanded form, is the
    same function of the coordinates as the one above with the distance in its squared-difference form. -/
theorem div_forms_of_eq (p : Prop) [Decidable p] (th : EReal) (x y : Fin 3 → EReal)
    (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    min (if p then th else Ideal.sqrt (max (A + B - Ideal.ofBits .f32 0x40000000#32 * C) (Ideal.ofBits .f32 0x00000000#32))) th
      = if p then th else min (Ideal.sqrt (0 + ∑ d, (x d - y d) * (x d - y d))) th := by
  by_cases h : p
  · simp only [if_pos h]; exact min_self th
  · simp only [if_neg h]
    rw [Cert.Lib.DistForms.dist_forms_of_eq x y hx hy A B C hA hB hC]

/-- Zeros added at the inner levels of a nested sum are absorbed. -/
theorem nested_zero_add {a b c : Nat} (f : Fin a → Fin b → Fin c → EReal) :
    (0 + ∑ i, (0 + ∑ k, (0 + ∑ k', f i k k'))) = 0 + ∑ i, ∑ k, ∑ k', f i k k' := by
  simp only [zero_add]

end Cert.Lib.DivForms
-- ==== Proof.KernelIdeal.Val2.lean ====
import proofs.«127974_j197568496105_2_alg».proof.Proof.KernelIdeal.R2
import proofs.«127974_j197568496105_2_alg».proof.Proof.KernelIdeal.Pay2
import proofs.«127974_j197568496105_2_alg».proof.Proof.LibDivForms
import Idealize.ShloMosaic.Lib.Pipeline.Value
import Idealize.ShloMosaic.Lib.ValueIdx

set_option maxRecDepth 16384

/-! # Region 2: what the output array holds at the extended reals

One point; its input block is the whole key-point array x [8,128,3], its output block the whole [1,1] result.  The
result is the sum over batches i and pairs (k, k') of points of the pairwise distance clamped by the threshold, the
threshold itself on the diagonal.  For finite x the expanded distance |x_k|^2 + |x_k'|^2 - 2 x_k . x_k' is the
sum of squared differences, which is the form stated at the end. -/

noncomputable section

namespace Cert.KernelIdeal.Rgn2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

/-! ## What the body stores, for any float values -/

section Pieces

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- The output block receives the body's value of the input block. -/
theorem blkD_eq (c : Dev nD) (i : grid2.Coords) (arg1 : Memref sig .tc .vmem S8x128x3 .f32) (harg1 : arg1.IsWhole) (arg2 : Memref sig .tc .vmem S1x1 .f32) (harg2 : arg2.IsWhole)
    (x0 : Vec F S8x128x3 .f32) : outD c i arg1 harg1 arg2 harg2 x0 = k2_pay1 x0 := by
  unfold outD
  rw [View.read_writes_eq_canon _ _ _ (coverD c i arg1 harg1 arg2 harg2 x0)]
  unfold runD
  dsimp only
  try sl_unfold_words
  rw [View.canon_unit_zero zero2]
  simp only [View.readAt_eq_ld, harg1.read_unread, View.ld_unit_zero (S := S8x128x3) zero3]

end Pieces

/-! ## The values, at the extended reals -/

variable (V : (c : Dev nD) → (b : Ref sig .tc) → Buf (Elt Ideal) ((c : Thread nD τ).loc b))

/-- The key-point array as the region finds it. -/
abbrev arrA (c : Dev nD) : Vec Ideal S8x128x3 .f32 := V c (Pipeline.arrRef spec2 0)

theorem idxA : ∀ t : Fin cfg2.N, win2_0.index t (0 : Fin 3) = 0 ∧ win2_0.index t (1 : Fin 3) = 0 ∧ win2_0.index t (2 : Fin 3) = 0 :=
  (by decide +kernel : ∀ t : Fin grid2.N, _)
theorem idxO : ∀ t : Fin cfg2.N, win2_1.index t (0 : Fin 2) = 0 ∧ win2_1.index t (1 : Fin 2) = 0 :=
  (by decide +kernel : ∀ t : Fin grid2.N, _)

/-- The one input block is the whole array. -/
theorem blkA_eq (c : Dev nD) (t : Fin cfg2.N) (x0 : Vec Ideal S8x128x3 .f32) (hx : x0 = iblk V c 0 t) : x0 = arrA V c := by
  subst hx
  obtain ⟨e0, e1, e2⟩ := idxA t
  funext j
  obtain ⟨i, k, d, rfl⟩ : ∃ (i : Fin 8) (k : Fin 128) (d : Fin 3), j = ix3 i k d := ⟨j 0, j 1, j 2, eq_ix3 j⟩
  unfold iblk
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t 0 * 8 + 1 * i.val = i.val; rw [e0]; omega
  | ⟨1, _⟩ => show win2_0.index t 1 * 128 + 1 * k.val = k.val; rw [e1]; omega
  | ⟨2, _⟩ => show win2_0.index t 2 * 3 + 1 * d.val = d.val; rw [e2]; omega

/-- The output array: the body's value of the key-point array. -/
def divSum (c : Dev nD) : Vec Ideal S1x1 .f32 := k2_pay1 (F := Ideal) (arrA V c)

/-- What the point leaves in the output block. -/
theorem out_eq (c : Dev nD) (t : Fin cfg2.N) : (dat V c).after 1 t = divSum V c :=
  (after_1 V c t).trans ((blkD_eq c (grid2.coords t) (ms0 t) (hs0 t) (ms1 t) (hs1 t) (iblk V c 0 t)).trans
    (congrArg (k2_pay1 (F := Ideal)) (blkA_eq V c t (iblk V c 0 t) rfl)))

theorem flushed_eq (c : Dev nD) (t : Fin cfg2.N) (hf : (cfg2.win 1).flush t = true) :
    (dat V c).flushed 1 t = ((cfg2.win 1).blk t).view.read (Elt Ideal) (divSum V c) := by
  obtain ⟨e0, e1⟩ := idxO t
  show (cfg2.win 1).cut (grid2.coords t) ((dat V c).after 1 t) = _
  rw [out_eq V c t]
  funext y
  obtain ⟨p, q, rfl⟩ : ∃ (p : Fin 1) (q : Fin 1), y = ix2 p q := ⟨y 0, y 1, eq_ix2 y⟩
  rw [View.read_apply]
  have hemb : ((cfg2.win 1).blk t).view.emb (ix2 p q) = ix2 p q :=
    funext fun a => Fin.ext (by
      match a with
      | ⟨0, _⟩ => show win2_1.index t 0 * 1 + 1 * p.val = p.val; rw [e0]; omega
      | ⟨1, _⟩ => show win2_1.index t 1 * 1 + 1 * q.val = q.val; rw [e1]; omega)
  rw [hemb]
  rfl

theorem mem_blkO (t : Fin cfg2.N) (y : S1x1.Idx) :
    y ∈ ((cfg2.win 1).blk t).view.set ↔ ∀ a : Fin 2, win2_1.index t a * S1x1.size a ≤ (y a).val ∧ (y a).val < win2_1.index t a * S1x1.size a + S1x1.size a := by
  show y ∈ ((View.whole main_v57).slice (win2_1.rect t)).set ↔ _
  rw [View.set_slice_whole, Rect.mem_set_unit]
  exact Iff.rfl

theorem covered (y : S1x1.Idx) : ∃ t : Fin cfg2.N, (cfg2.win 1).flush t = true ∧ y ∈ ((cfg2.win 1).blk t).view.set := by
  have hN : cfg2.N = 1 := N_2
  have h0 : (y 0).val < 1 := (y 0).isLt
  have h1 : (y 1).val < 1 := (y 1).isLt
  have ht : 0 < cfg2.N := by omega
  obtain ⟨e0, e1⟩ := idxO ⟨0, ht⟩
  refine ⟨⟨0, ht⟩, flush2_1 _, ?_⟩
  rw [mem_blkO]
  intro a
  match a with
  | ⟨0, _⟩ =>
    show win2_1.index ⟨0, ht⟩ 0 * 1 ≤ (y 0).val ∧ (y 0).val < win2_1.index ⟨0, ht⟩ 0 * 1 + 1
    rw [e0]; omega
  | ⟨1, _⟩ =>
    show win2_1.index ⟨0, ht⟩ 1 * 1 ≤ (y 1).val ∧ (y 1).val < win2_1.index ⟨0, ht⟩ 1 * 1 + 1
    rw [e1]; omega

/-- THE OUTPUT ARRAY after the region: the body's value of the key-point array. -/
theorem arr_out_eq (c : Dev nD) : (dat V c).arrAt 1 cfg2.N = divSum V c :=
  (dat V c).arrAt_eq_of_cover 1 (divSum V c) (flushed_eq V c) covered

theorem arr_out_pay (c : Dev nD) : (dat V c).arrAt 1 cfg2.N (ix2 0 0) = k2_pay1 (F := Ideal) (arrA V c) (ix2 0 0) :=
  congrFun (arr_out_eq V c) (ix2 0 0)

/-- Its one entry as nested sums of the expanded distance form, for any values. -/
theorem arr_out_expanded (c : Dev nD) :
    (dat V c).arrAt 1 cfg2.N (ix2 0 0)
      = ∑ i : Fin 8, ∑ k : Fin 128, ∑ k' : Fin 128,
          min (if k = k' then Ideal.ofBits .f32 0x3DCCCCCD#32 else
            Ideal.sqrt (max ((∑ d : Fin 3, arrA V c (ix3 i k d) * arrA V c (ix3 i k d)) + (∑ d : Fin 3, arrA V c (ix3 i k' d) * arrA V c (ix3 i k' d))
              - Ideal.ofBits .f32 0x40000000#32 * ∑ d : Fin 3, arrA V c (ix3 i k d) * arrA V c (ix3 i k' d)) (Ideal.ofBits .f32 0x00000000#32))) (Ideal.ofBits .f32 0x3DCCCCCD#32) :=
  (arr_out_pay V c).trans (Pay2.pay_at (arrA V c))

/-- For a finite key-point array: the sum over batches and pairs of points of the distance, in its
    squared-difference form, clamped by the threshold; the threshold on the diagonal. -/
theorem arr_out (c : Dev nD) (hfin : ∀ j, arrA V c j ≠ ⊤ ∧ arrA V c j ≠ ⊥) :
    (dat V c).arrAt 1 cfg2.N (ix2 0 0)
      = 0 + ∑ i : Fin 8, ∑ k : Fin 128, ∑ k' : Fin 128,
          (if k = k' then Ideal.ofBits .f32 0x3DCCCCCD#32 else
            min (Ideal.sqrt (0 + ∑ d : Fin 3, (arrA V c (ix3 i k d) - arrA V c (ix3 i k' d)) * (arrA V c (ix3 i k d) - arrA V c (ix3 i k' d)))) (Ideal.ofBits .f32 0x3DCCCCCD#32)) := by
  have h : (∑ i : Fin 8, ∑ k : Fin 128, ∑ k' : Fin 128,
          min (if k = k' then Ideal.ofBits .f32 0x3DCCCCCD#32 else
            Ideal.sqrt (max ((∑ d : Fin 3, arrA V c (ix3 i k d) * arrA V c (ix3 i k d)) + (∑ d : Fin 3, arrA V c (ix3 i k' d) * arrA V c (ix3 i k' d))
              - Ideal.ofBits .f32 0x40000000#32 * ∑ d : Fin 3, arrA V c (ix3 i k d) * arrA V c (ix3 i k' d)) (Ideal.ofBits .f32 0x00000000#32))) (Ideal.ofBits .f32 0x3DCCCCCD#32) : EReal)
      = ∑ i : Fin 8, ∑ k : Fin 128, ∑ k' : Fin 128,
          (if k = k' then Ideal.ofBits .f32 0x3DCCCCCD#32 else
            min (Ideal.sqrt (0 + ∑ d : Fin 3, (arrA V c (ix3 i k d) - arrA V c (ix3 i k' d)) * (arrA V c (ix3 i k d) - arrA V c (ix3 i k' d)))) (Ideal.ofBits .f32 0x3DCCCCCD#32)) :=
    Finset.sum_congr rfl fun i _ => Finset.sum_congr rfl fun k _ => Finset.sum_congr rfl fun k' _ =>
      Cert.Lib.DivForms.div_forms_of_eq (k = k') (Ideal.ofBits .f32 0x3DCCCCCD#32) (fun d => arrA V c (ix3 i k d)) (fun d => arrA V c (ix3 i k' d))
        (fun d => hfin _) (fun d => hfin _) _ _ _ (zero_add _).symm (zero_add _).symm rfl
  exact (arr_out_expanded V c).trans (h.trans (zero_add _).symm)

/-- The input array is unchanged. -/
theorem arr_in0 (c : Dev nD) : (dat V c).arrAt 0 cfg2.N = V c (Pipeline.arrRef spec2 0) := ((dat V c).arrAt_in 0 rfl _).trans (A_eq V c 0)

end Cert.KernelIdeal.Rgn2

end
-- ==== Proof.KernelIdeal.MinFold.lean ====
import Idealize.ShloMosaic.PureOps.Ideal.Laws

/-! # A minimum taken tile by tile

The running minimum over the columns of a row is carried here by its universal property: a value X is the
minimum of g over the columns below k exactly when its lower bounds are the common lower bounds of those
g m.  Folding one more tile of T columns into X moves k by T; once every column is below k, X is the
fold of min over all columns. -/

namespace Cert.KernelIdeal.MinFold

/-- X is the greatest lower bound of g over the columns below k. -/
def IsMinBelow {Nb : ℕ} (g : Fin Nb → EReal) (k : ℕ) (X : EReal) : Prop :=
  ∀ c : EReal, c ≤ X ↔ ∀ m : Fin Nb, m.val < k → c ≤ g m

/-- Before any column: the top element. -/
theorem isMinBelow_top {Nb : ℕ} (g : Fin Nb → EReal) : IsMinBelow g 0 ⊤ :=
  fun c => ⟨fun _ m hm => absurd hm (Nat.not_lt_zero _), fun _ => le_top⟩

/-- One more tile: the minimum of the carried value and the tile's own minimum. -/
theorem isMinBelow_step {Nb T : ℕ} (g : Fin Nb → EReal) (j : ℕ) (hj : T * j + T ≤ Nb) (X : EReal) (tile : Fin T → EReal)
    (htile : ∀ m' : Fin T, tile m' = g ⟨T * j + m'.val, by have := m'.isLt; omega⟩)
    (hX : IsMinBelow g (T * j) X) :
    IsMinBelow g (T * j + T) (min X ((Finset.univ : Finset (Fin T)).fold min ⊤ tile)) := by
  intro c
  rw [le_min_iff, hX c, Finset.le_fold_min]
  constructor
  · rintro ⟨h1, -, h2⟩ m hm
    by_cases h : m.val < T * j
    · exact h1 m h
    · have h3 := h2 ⟨m.val - T * j, by omega⟩ (Finset.mem_univ _)
      rw [htile] at h3
      have e : (⟨T * j + (m.val - T * j), by omega⟩ : Fin Nb) = m := Fin.ext (by simp only; omega)
      rw [e] at h3
      exact h3
  · intro h
    refine ⟨fun m hm => h m (by omega), le_top, fun m' _ => ?_⟩
    rw [htile]
    exact h _ (by have := m'.isLt; simp only; omega)

/-- With every column below k the value is the fold of min over all columns. -/
theorem eq_fold_of_isMinBelow {Nb : ℕ} (g : Fin Nb → EReal) (k : ℕ) (hk : Nb ≤ k) (X : EReal) (hX : IsMinBelow g k X) :
    X = (Finset.univ : Finset (Fin Nb)).fold min ⊤ g := by
  refine eq_of_forall_le_iff fun c => ?_
  rw [hX c, Finset.le_fold_min]
  exact ⟨fun h => ⟨le_top, fun m _ => h m (lt_of_lt_of_le m.isLt hk)⟩, fun h m _ => h.2 m (Finset.mem_univ _)⟩

end Cert.KernelIdeal.MinFold
-- ==== Proof.KernelIdeal.Pay0.lean ====
import proofs.«127974_j197568496105_2_alg».proof.Proof.Gen.KernelIdeal.Skeleton
import proofs.«127974_j197568496105_2_alg».proof.Proof.KernelIdeal.MinFold
import Idealize.ShloMosaic.Lib.Pipeline.Value
import Idealize.ShloMosaic.Lib.ValueIdx
import Idealize.ShloMosaic.PureOps.Ideal.Laws
import Idealize.ShloMosaic.PureOps.IdealRules

set_option maxRecDepth 16384

/-! # Region 0: the tile's arithmetic at an entry

For a row block a (with its squared norms a2, kept as a column) and a column tile b (with its squared norms b2, kept
as a row), the body forms a2[i,n] + b2[i,m] - 2 * sum_d a[i,n,d] * b[i,m,d], clamps it at zero, takes the square root,
and folds the minimum over the tile's columns m into the carried value.  Read at the extended reals, entry by entry. -/

noncomputable section

namespace Cert.KernelIdeal.Pay0

open Cert.KernelIdeal Cert.KernelIdeal.Gen Cert.KernelIdeal.Facts₀ Cert.KernelIdeal.Facts
open Idealize.ShloMosaic Idealize.ShloMosaic.ValueIdx

/-- A minimum over one axis, read at the ideal values: the fold of min from the start value over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of plus infinity is the top extended real. -/
theorem ofBits_inf : Ideal.ofBits .f32 0x7F800000#32 = (⊤ : EReal) := by simp [Ideal.ofBits, Ideal.ieee]

/-- The reset value: the named large constant, which denotes the top extended real. -/
theorem pay1_at (i : Fin 8) (n : Fin 256) : k0_pay1 (F := Ideal) (ix2 i n) = (⊤ : EReal) := by
  unfold k0_pay1
  simp only [shapeCast_self]
  show Named.named (F := Ideal) κ "pos_big" (φ := .f32) 0x7149F2CA#32 = _
  exact IdealRules.named_const.ideal_named_scalar _ _ _ _ rfl

/-- The row norms, broadcast along the columns. -/
theorem bcast_a2 (x1 : Vec Ideal S8x256x1 .f32) (i : Fin 8) (n : Fin 256) (m : Fin 128) :
    broadcastTo S8x256x128 x1 Gen.broadcasts_S8x256x1_S8x256x128 (ix3 i n m) = x1 (ix3 i n 0) :=
  broadcastTo_apply x1 _ (ix3 i n m) (ix3 i n 0) (fun a => by
    match a with
    | ⟨0, _⟩ => rfl
    | ⟨1, _⟩ => rfl
    | ⟨2, _⟩ => rfl)

/-- The column norms, broadcast along the rows. -/
theorem bcast_b2 (x3 : Vec Ideal S8x1x128 .f32) (i : Fin 8) (n : Fin 256) (m : Fin 128) :
    broadcastTo S8x256x128 x3 Gen.broadcasts_S8x1x128_S8x256x128 (ix3 i n m) = x3 (ix3 i 0 m) :=
  broadcastTo_apply x3 _ (ix3 i n m) (ix3 i 0 m) (fun a => by
    match a with
    | ⟨0, _⟩ => rfl
    | ⟨1, _⟩ => rfl
    | ⟨2, _⟩ => rfl)

theorem lhs_0 (j : S8x256x128.Idx) (q : dot_S8x256x3_S8x128x3_S8x256x128_2_2_1_1_0_0.contr.Idx) : (dot_S8x256x3_S8x128x3_S8x256x128_2_2_1_1_0_0.lhsIdx j q 0).val = (j 0).val := by
  unfold DotDims.lhsIdx
  rw [dif_pos (show (0 : Fin S8x256x3.rank) ∈ dot_S8x256x3_S8x128x3_S8x256x128_2_2_1_1_0_0.lhsBatch by decide)]
  rfl
theorem lhs_1 (j : S8x256x128.Idx) (q : dot_S8x256x3_S8x128x3_S8x256x128_2_2_1_1_0_0.contr.Idx) : (dot_S8x256x3_S8x128x3_S8x256x128_2_2_1_1_0_0.lhsIdx j q 1).val = (j 1).val := by
  unfold DotDims.lhsIdx
  rw [dif_neg (show ¬(1 : Fin S8x256x3.rank) ∈ dot_S8x256x3_S8x128x3_S8x256x128_2_2_1_1_0_0.lhsBatch by decide), dif_pos (show (1 : Fin S8x256x3.rank) ∈ dot_S8x256x3_S8x128x3_S8x256x128_2_2_1_1_0_0.lhsNonContracting by decide)]
  rfl
theorem lhs_2 (j : S8x256x128.Idx) (q : dot_S8x256x3_S8x128x3_S8x256x128_2_2_1_1_0_0.contr.Idx) : (dot_S8x256x3_S8x128x3_S8x256x128_2_2_1_1_0_0.lhsIdx j q 2).val = (q ⟨0, by decide⟩).val :=
  dot_S8x256x3_S8x128x3_S8x256x128_2_2_1_1_0_0.lhsIdx_val_of_single rfl j q
theorem rhs_0 (j : S8x256x128.Idx) (q : dot_S8x256x3_S8x128x3_S8x256x128_2_2_1_1_0_0.contr.Idx) : (dot_S8x256x3_S8x128x3_S8x256x128_2_2_1_1_0_0.rhsIdx j q 0).val = (j 0).val := by
  unfold DotDims.rhsIdx
  rw [dif_pos (show (0 : Fin S8x128x3.rank) ∈ dot_S8x256x3_S8x128x3_S8x256x128_2_2_1_1_0_0.rhsBatch by decide)]
  rfl
theorem rhs_1 (j : S8x256x128.Idx) (q : dot_S8x256x3_S8x128x3_S8x256x128_2_2_1_1_0_0.contr.Idx) : (dot_S8x256x3_S8x128x3_S8x256x128_2_2_1_1_0_0.rhsIdx j q 1).val = (j 2).val := by
  unfold DotDims.rhsIdx
  rw [dif_neg (show ¬(1 : Fin S8x128x3.rank) ∈ dot_S8x256x3_S8x128x3_S8x256x128_2_2_1_1_0_0.rhsBatch by decide), dif_pos (show (1 : Fin S8x128x3.rank) ∈ dot_S8x256x3_S8x128x3_S8x256x128_2_2_1_1_0_0.rhsNonContracting by decide)]
  rfl
theorem rhs_2 (j : S8x256x128.Idx) (q : dot_S8x256x3_S8x128x3_S8x256x128_2_2_1_1_0_0.contr.Idx) : (dot_S8x256x3_S8x128x3_S8x256x128_2_2_1_1_0_0.rhsIdx j q 2).val = (q ⟨0, by decide⟩).val :=
  dot_S8x256x3_S8x128x3_S8x256x128_2_2_1_1_0_0.rhsIdx_val_of_single rfl j q

/-- The product of a row block with a column tile, at an entry: the sum over the three coordinates. -/
theorem mm_at (x0 : Vec Ideal S8x256x3 .f32) (x2 : Vec Ideal S8x128x3 .f32) (i : Fin 8) (n : Fin 256) (m : Fin 128) :
    matmul (F := Ideal) (φ₁ := .f32) (φ₂ := .f32) dot_S8x256x3_S8x128x3_S8x256x128_2_2_1_1_0_0 (some .fp32) x0 x2 (constant (F := Ideal) S8x256x128 .f32 0x00000000#32) (ix3 i n m)
      = ∑ d : Fin 3, x0 (ix3 i n d) * x2 (ix3 i m d) := by
  refine (Ideal.matmul_constant_zero_apply dot_S8x256x3_S8x128x3_S8x256x128_2_2_1_1_0_0 (some .fp32) x0 x2 (ix3 i n m)).trans ?_
  rw [← Equiv.sum_comp (ValueIdx.contrEquiv1 dot_S8x256x3_S8x128x3_S8x256x128_2_2_1_1_0_0 3 rfl rfl).symm]
  refine Finset.sum_congr rfl fun k _ => ?_
  have hk := ValueIdx.contrEquiv1_symm_val dot_S8x256x3_S8x128x3_S8x256x128_2_2_1_1_0_0 3 rfl rfl k
  have el : dot_S8x256x3_S8x128x3_S8x256x128_2_2_1_1_0_0.lhsIdx (ix3 i n m) ((ValueIdx.contrEquiv1 dot_S8x256x3_S8x128x3_S8x256x128_2_2_1_1_0_0 3 rfl rfl).symm k) = ix3 i n k := funext fun a => Fin.ext (by
    match a with
    | ⟨0, _⟩ => exact lhs_0 _ _
    | ⟨1, _⟩ => exact lhs_1 _ _
    | ⟨2, _⟩ => exact (lhs_2 _ _).trans hk)
  have er : dot_S8x256x3_S8x128x3_S8x256x128_2_2_1_1_0_0.rhsIdx (ix3 i n m) ((ValueIdx.contrEquiv1 dot_S8x256x3_S8x128x3_S8x256x128_2_2_1_1_0_0 3 rfl rfl).symm k) = ix3 i m k := funext fun a => Fin.ext (by
    match a with
    | ⟨0, _⟩ => exact rhs_0 _ _
    | ⟨1, _⟩ => exact rhs_1 _ _
    | ⟨2, _⟩ => exact (rhs_2 _ _).trans hk)
  rw [el, er]

/-- The index over (i, n) with column m inserted is (i, n, m). -/
theorem lift_at (i : Fin 8) (n : Fin 256) (m : Fin 128) :
    Gen.reduces_S8x256x128_S8x256.lift (ix2 i n) m = ix3 i n m := funext fun a => Fin.ext (by
  match a with
  | ⟨0, _⟩ => rfl
  | ⟨1, _⟩ => rfl
  | ⟨2, _⟩ => rfl)

/-- The row minimum of a tile: the fold of min from the top element over the tile's columns. -/
theorem minRed_at (src : FVec Ideal S8x256x128 .f32) (hφ : FKind.Formats .f32) (hacc : (0x7F800000#32 : BitVec 32) = FKind.minimumf.neutral .f32 hφ)
    (i : Fin 8) (n : Fin 256) :
    multiReduction .minimumf [2] S8x256 src 0x7F800000#32 Gen.reduces_S8x256x128_S8x256 hφ hacc (ix2 i n)
      = (Finset.univ : Finset (Fin 128)).fold min ⊤ (fun m => src (ix3 i n m)) :=
  (multiReduction_minimumf_single src _ Gen.reduces_S8x256x128_S8x256 hφ hacc (ix2 i n)).trans (by
    rw [show FloatOps.ofBits (F := Ideal) .f32 0x7F800000#32 = (⊤ : EReal) from ofBits_inf]
    exact congrArg (fun f => Finset.fold min (⊤ : EReal) f Finset.univ) (funext fun m => congrArg src (lift_at i n m)))

/-- The body's stored value at (i, n): the carried value against the tile's row minimum of the distance form. -/
theorem pay2_at (x0 : Vec Ideal S8x256x3 .f32) (x2 : Vec Ideal S8x128x3 .f32) (x1 : Vec Ideal S8x256x1 .f32) (x3 : Vec Ideal S8x1x128 .f32)
    (acc : Vec Ideal S8x256 .f32) (i : Fin 8) (n : Fin 256) :
    k0_pay2 (F := Ideal) x0 x2 x1 x3 acc (ix2 i n)
      = min (acc (ix2 i n)) ((Finset.univ : Finset (Fin 128)).fold min ⊤ (fun m => Ideal.sqrt (max (x1 (ix3 i n 0) + x3 (ix3 i 0 m)
          - Ideal.ofBits .f32 0x40000000#32 * ∑ d : Fin 3, x0 (ix3 i n d) * x2 (ix3 i m d)) (Ideal.ofBits .f32 0x00000000#32)))) := by
  unfold k0_pay2
  simp only [shapeCast_self]
  refine congrArg (min (acc (ix2 i n))) ?_
  refine (minRed_at _ _ _ i n).trans ?_
  refine congrArg (fun f => Finset.fold min (⊤ : EReal) f Finset.univ) (funext fun m => ?_)
  show Ideal.sqrt (max (broadcastTo S8x256x128 x1 Gen.broadcasts_S8x256x1_S8x256x128 (ix3 i n m) + broadcastTo S8x256x128 x3 Gen.broadcasts_S8x1x128_S8x256x128 (ix3 i n m)
      - Ideal.ofBits .f32 0x40000000#32 * matmul (F := Ideal) (φ₁ := .f32) (φ₂ := .f32) dot_S8x256x3_S8x128x3_S8x256x128_2_2_1_1_0_0 (some .fp32) x0 x2 (constant (F := Ideal) S8x256x128 .f32 0x00000000#32) (ix3 i n m)) (Ideal.ofBits .f32 0x00000000#32)) = _
  rw [bcast_a2, bcast_b2, mm_at]

end Cert.KernelIdeal.Pay0
end
-- ==== Proof.KernelIdeal.Val0.lean ====
import proofs.«127974_j197568496105_2_alg».proof.Proof.KernelIdeal.R0
import proofs.«127974_j197568496105_2_alg».proof.Proof.KernelIdeal.Pay0
import Idealize.ShloMosaic.Lib.Pipeline.Value
import Idealize.ShloMosaic.Lib.ValueIdx

set_option maxRecDepth 16384

/-! # Region 0: what the output array holds at the extended reals

The grid walks eight row blocks of a (256 rows each) against the one column tile that is all 128 rows of b.  Every
point resets the carried value to the top element, folds the tile's row minima in, and copies the result to the
output block.  So the output array at (i, n) is the minimum, over every row m of b, of
sqrt (max (a2[i,n] + b2[i,m] - 2 * sum_d a[i,n,d] * b[i,m,d]) 0). -/

noncomputable section

namespace Cert.KernelIdeal.Rgn0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

/-! ## What the body stores, for any float values -/

section Pieces

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- A load of the whole buffer after stores of which the last wrote the whole buffer reads that store's value. -/
theorem readCov_cons_unit_zero {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon']
  show View.ld (View.canon _) (Rect.unit off S.size inb) = w
  rw [View.canon_cons_unit_zero h, View.ld_unit_zero h]

/-- The one tile: the output block receives the body's value of the four blocks over the reset value. -/
theorem blkD_eq (c : Dev nD) (i : grid0.Coords) (arg2 : Memref sig .tc .vmem S8x256x3 .f32) (harg2 : arg2.IsWhole) (arg3 : Memref sig .tc .vmem S8x256x1 .f32) (harg3 : arg3.IsWhole) (arg4 : Memref sig .tc .vmem S8x128x3 .f32) (harg4 : arg4.IsWhole) (arg5 : Memref sig .tc .vmem S8x1x128 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : cond1 i) (x0 : Vec F S8x256x3 .f32) (x1 : Vec F S8x256x1 .f32) (x2 : Vec F S8x128x3 .f32) (x3 : Vec F S8x1x128 .f32) :
    outD c i arg2 harg2 arg3 harg3 arg4 harg4 arg5 harg5 arg6 harg6 arg7 harg7 hc0 hc1 x0 x1 x2 x3 = k0_pay2 x0 x2 x1 x3 (k0_pay1 (F := F)) := by
  unfold outD
  rw [View.read_writes_eq_canon _ _ _ (coverD c i arg2 harg2 arg3 harg3 arg4 harg4 arg5 harg5 arg6 harg6 arg7 harg7 hc0 hc1 x0 x1 x2 x3)]
  unfold runD
  dsimp only
  sl_unfold_words
  rw [View.canon_unit_zero zero2, readCov_cons_unit_zero _ zero2, View.readCov_unit_zero (S := S8x256) _ zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x128x3) zero3, View.ld_unit_zero (S := S8x1x128) zero3]

end Pieces

/-! ## The values, at the extended reals -/

variable (V : (c : Dev nD) → (b : Ref sig .tc) → Buf (Elt Ideal) ((c : Thread nD τ).loc b))

/-- The four input arrays as the region finds them: a, its squared norms, b, its squared norms. -/
abbrev arrA (c : Dev nD) : Vec Ideal S8x2048x3 .f32 := V c (Pipeline.arrRef spec0 0)
abbrev arrA2 (c : Dev nD) : Vec Ideal S8x2048x1 .f32 := V c (Pipeline.arrRef spec0 1)
abbrev arrB (c : Dev nD) : Vec Ideal S8x128x3 .f32 := V c (Pipeline.arrRef spec0 2)
abbrev arrB2 (c : Dev nD) : Vec Ideal S8x1x128 .f32 := V c (Pipeline.arrRef spec0 3)

/-- The block index maps, decided over the grid: point t is row block t against the whole of b. -/
theorem idxA : ∀ t : Fin cfg0.N, win0_0.index t (0 : Fin 3) = 0 ∧ win0_0.index t (1 : Fin 3) = t.val ∧ win0_0.index t (2 : Fin 3) = 0 :=
  (by decide +kernel : ∀ t : Fin grid0.N, _)
theorem idxA2 : ∀ t : Fin cfg0.N, win0_1.index t (0 : Fin 3) = 0 ∧ win0_1.index t (1 : Fin 3) = t.val ∧ win0_1.index t (2 : Fin 3) = 0 :=
  (by decide +kernel : ∀ t : Fin grid0.N, _)
theorem idxB : ∀ t : Fin cfg0.N, win0_2.index t (0 : Fin 3) = 0 ∧ win0_2.index t (1 : Fin 3) = 0 ∧ win0_2.index t (2 : Fin 3) = 0 :=
  (by decide +kernel : ∀ t : Fin grid0.N, _)
theorem idxB2 : ∀ t : Fin cfg0.N, win0_3.index t (0 : Fin 3) = 0 ∧ win0_3.index t (1 : Fin 3) = 0 ∧ win0_3.index t (2 : Fin 3) = 0 :=
  (by decide +kernel : ∀ t : Fin grid0.N, _)
theorem idxO : ∀ t : Fin cfg0.N, win0_4.index t (0 : Fin 2) = 0 ∧ win0_4.index t (1 : Fin 2) = t.val :=
  (by decide +kernel : ∀ t : Fin grid0.N, _)

/-- The row block of a at point t holds rows 256 * t + n of a. -/
theorem blkA_at (c : Dev nD) (t : Fin cfg0.N) (i : Fin 8) (n : Fin 256) (d : Fin 3) (r : Fin 2048) (hr : r.val = 256 * t.val + n.val)
    (x0 : Vec Ideal S8x256x3 .f32) (hx : x0 = iblk V c 0 t) : x0 (ix3 i n d) = arrA V c (ix3 i r d) := by
  subst hx
  obtain ⟨e0, e1, e2⟩ := idxA t
  unfold iblk
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 8 + 1 * i.val = i.val; rw [e0]; omega
  | ⟨1, _⟩ => show win0_0.index t 1 * 256 + 1 * n.val = r.val; rw [e1, hr]; omega
  | ⟨2, _⟩ => show win0_0.index t 2 * 3 + 1 * d.val = d.val; rw [e2]; omega

theorem blkA2_at (c : Dev nD) (t : Fin cfg0.N) (i : Fin 8) (n : Fin 256) (r : Fin 2048) (hr : r.val = 256 * t.val + n.val)
    (x1 : Vec Ideal S8x256x1 .f32) (hx : x1 = iblk V c 1 t) : x1 (ix3 i n 0) = arrA2 V c (ix3 i r 0) := by
  subst hx
  obtain ⟨e0, e1, e2⟩ := idxA2 t
  unfold iblk
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 8 + 1 * i.val = i.val; rw [e0]; omega
  | ⟨1, _⟩ => show win0_1.index t 1 * 256 + 1 * n.val = r.val; rw [e1, hr]; omega
  | ⟨2, _⟩ => show win0_1.index t 2 * 1 + 1 * 0 = 0; rw [e2]

/-- The one column tile holds all of b. -/
theorem blkB_at (c : Dev nD) (t : Fin cfg0.N) (i : Fin 8) (m : Fin 128) (d : Fin 3)
    (x2 : Vec Ideal S8x128x3 .f32) (hx : x2 = iblk V c 2 t) : x2 (ix3 i m d) = arrB V c (ix3 i m d) := by
  subst hx
  obtain ⟨e0, e1, e2⟩ := idxB t
  unfold iblk
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t 0 * 8 + 1 * i.val = i.val; rw [e0]; omega
  | ⟨1, _⟩ => show win0_2.index t 1 * 128 + 1 * m.val = m.val; rw [e1]; omega
  | ⟨2, _⟩ => show win0_2.index t 2 * 3 + 1 * d.val = d.val; rw [e2]; omega

theorem blkB2_at (c : Dev nD) (t : Fin cfg0.N) (i : Fin 8) (m : Fin 128)
    (x3 : Vec Ideal S8x1x128 .f32) (hx : x3 = iblk V c 3 t) : x3 (ix3 i 0 m) = arrB2 V c (ix3 i 0 m) := by
  subst hx
  obtain ⟨e0, e1, e2⟩ := idxB2 t
  unfold iblk
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t 0 * 8 + 1 * i.val = i.val; rw [e0]; omega
  | ⟨1, _⟩ => show win0_3.index t 1 * 1 + 1 * 0 = 0; rw [e1]
  | ⟨2, _⟩ => show win0_3.index t 2 * 128 + 1 * m.val = m.val; rw [e2]; omega

/-- The distance form between row n of a and row m of b, in batch i. -/
def dist (c : Dev nD) (i : Fin 8) (n : Fin 2048) (m : Fin 128) : EReal :=
  Ideal.sqrt (max (arrA2 V c (ix3 i n 0) + arrB2 V c (ix3 i 0 m)
    - Ideal.ofBits .f32 0x40000000#32 * ∑ d : Fin 3, arrA V c (ix3 i n d) * arrB V c (ix3 i m d)) (Ideal.ofBits .f32 0x00000000#32))

/-- The tile's entry (n, m) at point t is the distance form at the rows the blocks hold. -/
theorem tile_at (c : Dev nD) (t : Fin cfg0.N) (i : Fin 8) (n : Fin 256) (m : Fin 128) (r : Fin 2048) (hr : r.val = 256 * t.val + n.val)
    (x0 : Vec Ideal S8x256x3 .f32) (x1 : Vec Ideal S8x256x1 .f32) (x2 : Vec Ideal S8x128x3 .f32) (x3 : Vec Ideal S8x1x128 .f32)
    (h0 : x0 = iblk V c 0 t) (h1 : x1 = iblk V c 1 t) (h2 : x2 = iblk V c 2 t) (h3 : x3 = iblk V c 3 t) :
    Ideal.sqrt (max (x1 (ix3 i n 0) + x3 (ix3 i 0 m) - Ideal.ofBits .f32 0x40000000#32 * ∑ d : Fin 3, x0 (ix3 i n d) * x2 (ix3 i m d)) (Ideal.ofBits .f32 0x00000000#32))
      = dist V c i r m := by
  unfold dist
  have hs : ∑ d : Fin 3, x0 (ix3 i n d) * x2 (ix3 i m d) = ∑ d : Fin 3, arrA V c (ix3 i r d) * arrB V c (ix3 i m d) :=
    Finset.sum_congr rfl fun d _ => by rw [blkA_at V c t i n d r hr x0 h0, blkB_at V c t i m d x2 h2]
  rw [hs, blkA2_at V c t i n r hr x1 h1, blkB2_at V c t i m x3 h3]

/-- The output block at point t: the minimum over every row of b. -/
theorem out_at (c : Dev nD) (t : Fin cfg0.N) (i : Fin 8) (n : Fin 256) (r : Fin 2048) (hr : r.val = 256 * t.val + n.val) :
    (dat V c).after 4 t (ix2 i n) = (Finset.univ : Finset (Fin 128)).fold min ⊤ (dist V c i r) := by
  have e : (dat V c).after 4 t = k0_pay2 (F := Ideal) (iblk V c 0 t) (iblk V c 2 t) (iblk V c 1 t) (iblk V c 3 t) (k0_pay1 (F := Ideal)) :=
    (after_4 V c t).trans (blkD_eq c (grid0.coords t) (ms0 t) (hs0 t) (ms1 t) (hs1 t) (ms2 t) (hs2 t) (ms3 t) (hs3 t) (ms4 t) (hs4 t) scM (Memref.isWhole_whole _) (hcond0 t) (hcond1 t) (iblk V c 0 t) (iblk V c 1 t) (iblk V c 2 t) (iblk V c 3 t))
  rw [e, Pay0.pay2_at (iblk V c 0 t) (iblk V c 2 t) (iblk V c 1 t) (iblk V c 3 t) (k0_pay1 (F := Ideal)) i n, Pay0.pay1_at, min_top_left]
  exact congrArg (fun f => Finset.fold min (⊤ : EReal) f Finset.univ)
    (funext fun m => tile_at V c t i n m r hr (iblk V c 0 t) (iblk V c 1 t) (iblk V c 2 t) (iblk V c 3 t) rfl rfl rfl rfl)

/-- The output array: at (i, n) the minimum over all rows m of b of the distance form. -/
def minDist (c : Dev nD) : Vec Ideal S8x2048 .f32 :=
  fun y => (Finset.univ : Finset (Fin 128)).fold min ⊤ (dist V c (y 0) (y 1))

/-- What a point writes back is its block of that array. -/
theorem flushed_eq (c : Dev nD) (t : Fin cfg0.N) (hf : (cfg0.win 4).flush t = true) :
    (dat V c).flushed 4 t = ((cfg0.win 4).blk t).view.read (Elt Ideal) (minDist V c) := by
  have hN : cfg0.N = 8 := N_0
  obtain ⟨e0, e1⟩ := idxO t
  show (cfg0.win 4).cut (grid0.coords t) ((dat V c).after 4 t) = _
  funext y
  obtain ⟨i, n, rfl⟩ : ∃ (i : Fin 8) (n : Fin 256), y = ix2 i n := ⟨y 0, y 1, eq_ix2 y⟩
  rw [View.read_apply]
  have hemb : ((cfg0.win 4).blk t).view.emb (ix2 i n) = ix2 i (⟨256 * t.val + n.val, by have := t.isLt; have := n.isLt; omega⟩ : Fin 2048) :=
    funext fun a => Fin.ext (by
      match a with
      | ⟨0, _⟩ => show win0_4.index t 0 * 8 + 1 * i.val = i.val; rw [e0]; omega
      | ⟨1, _⟩ => show win0_4.index t 1 * 256 + 1 * n.val = 256 * t.val + n.val; rw [e1]; omega)
  rw [hemb]
  exact out_at V c t i n _ rfl

/-- An index of the output array is in point t's block iff each coordinate is in the block's range. -/
theorem mem_blkO (t : Fin cfg0.N) (y : S8x2048.Idx) :
    y ∈ ((cfg0.win 4).blk t).view.set ↔ ∀ a : Fin 2, win0_4.index t a * S8x256.size a ≤ (y a).val ∧ (y a).val < win0_4.index t a * S8x256.size a + S8x256.size a := by
  show y ∈ ((View.whole main_v20).slice (win0_4.rect t)).set ↔ _
  rw [View.set_slice_whole, Rect.mem_set_unit]
  exact Iff.rfl

/-- Every index of the output array is in the block of its row block's point. -/
theorem covered (y : S8x2048.Idx) : ∃ t : Fin cfg0.N, (cfg0.win 4).flush t = true ∧ y ∈ ((cfg0.win 4).blk t).view.set := by
  have hN : cfg0.N = 8 := N_0
  have h0 : (y 0).val < 8 := (y 0).isLt
  have h1 : (y 1).val < 2048 := (y 1).isLt
  have ht : (y 1).val / 256 < cfg0.N := by omega
  obtain ⟨e0, e1⟩ := idxO ⟨(y 1).val / 256, ht⟩
  refine ⟨⟨(y 1).val / 256, ht⟩, flush0_4 _, ?_⟩
  rw [mem_blkO]
  intro a
  match a with
  | ⟨0, _⟩ =>
    show win0_4.index ⟨(y 1).val / 256, ht⟩ 0 * 8 ≤ (y 0).val ∧ (y 0).val < win0_4.index ⟨(y 1).val / 256, ht⟩ 0 * 8 + 8
    rw [e0]; omega
  | ⟨1, _⟩ =>
    show win0_4.index ⟨(y 1).val / 256, ht⟩ 1 * 256 ≤ (y 1).val ∧ (y 1).val < win0_4.index ⟨(y 1).val / 256, ht⟩ 1 * 256 + 256
    rw [e1]; show (y 1).val / 256 * 256 ≤ (y 1).val ∧ (y 1).val < (y 1).val / 256 * 256 + 256; omega

/-- THE OUTPUT ARRAY after the region. -/
theorem arr_out_eq (c : Dev nD) : (dat V c).arrAt 4 cfg0.N = minDist V c :=
  (dat V c).arrAt_eq_of_cover 4 (minDist V c) (flushed_eq V c) covered

/-- At (i, n): the minimum over every row m of b of sqrt (max (a2 + b2 - 2 * sum_d a * b) 0). -/
theorem arr_out (c : Dev nD) (i : Fin 8) (n : Fin 2048) :
    (dat V c).arrAt 4 cfg0.N (ix2 i n)
      = (Finset.univ : Finset (Fin 128)).fold min ⊤ (fun m => Ideal.sqrt (max (arrA2 V c (ix3 i n 0) + arrB2 V c (ix3 i 0 m)
          - Ideal.ofBits .f32 0x40000000#32 * ∑ d : Fin 3, arrA V c (ix3 i n d) * arrB V c (ix3 i m d)) (Ideal.ofBits .f32 0x00000000#32))) :=
  congrFun (arr_out_eq V c) (ix2 i n)

/-- The input arrays are unchanged. -/
theorem arr_in0 (c : Dev nD) : (dat V c).arrAt 0 cfg0.N = V c (Pipeline.arrRef spec0 0) := ((dat V c).arrAt_in 0 rfl _).trans (A_eq V c 0)
theorem arr_in1 (c : Dev nD) : (dat V c).arrAt 1 cfg0.N = V c (Pipeline.arrRef spec0 1) := ((dat V c).arrAt_in 1 rfl _).trans (A_eq V c 1)
theorem arr_in2 (c : Dev nD) : (dat V c).arrAt 2 cfg0.N = V c (Pipeline.arrRef spec0 2) := ((dat V c).arrAt_in 2 rfl _).trans (A_eq V c 2)
theorem arr_in3 (c : Dev nD) : (dat V c).arrAt 3 cfg0.N = V c (Pipeline.arrRef spec0 3) := ((dat V c).arrAt_in 3 rfl _).trans (A_eq V c 3)

end Cert.KernelIdeal.Rgn0

end
-- ==== Proof.KernelIdeal.Pay1.lean ====
import proofs.«127974_j197568496105_2_alg».proof.Proof.Gen.KernelIdeal.Skeleton
import proofs.«127974_j197568496105_2_alg».proof.Proof.KernelIdeal.MinFold
import Idealize.ShloMosaic.Lib.Pipeline.Value
import Idealize.ShloMosaic.Lib.ValueIdx
import Idealize.ShloMosaic.PureOps.Ideal.Laws
import Idealize.ShloMosaic.PureOps.IdealRules

set_option maxRecDepth 16384

/-! # Region 1: the tile's arithmetic at an entry

For a row block a (with its squared norms a2, kept as a column) and a column tile b (with its squared norms b2, kept
as a row), the body forms a2[i,n] + b2[i,m] - 2 * sum_d a[i,n,d] * b[i,m,d], clamps it at zero, takes the square root,
and folds the minimum over the tile's columns m into the carried value.  Read at the extended reals, entry by entry. -/

noncomputable section

namespace Cert.KernelIdeal.Pay1

open Cert.KernelIdeal Cert.KernelIdeal.Gen Cert.KernelIdeal.Facts₀ Cert.KernelIdeal.Facts
open Idealize.ShloMosaic Idealize.ShloMosaic.ValueIdx

/-- A minimum over one axis, read at the ideal values: the fold of min from the start value over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of plus infinity is the top extended real. -/
theorem ofBits_inf : Ideal.ofBits .f32 0x7F800000#32 = (⊤ : EReal) := by simp [Ideal.ofBits, Ideal.ieee]

/-- The reset value: the named large constant, which denotes the top extended real. -/
theorem pay1_at (i : Fin 8) (n : Fin 128) : k1_pay1 (F := Ideal) (ix2 i n) = (⊤ : EReal) := by
  unfold k1_pay1
  simp only [shapeCast_self]
  show Named.named (F := Ideal) κ "pos_big" (φ := .f32) 0x7149F2CA#32 = _
  exact IdealRules.named_const.ideal_named_scalar _ _ _ _ rfl

/-- The row norms, broadcast along the columns. -/
theorem bcast_a2 (x1 : Vec Ideal S8x128x1 .f32) (i : Fin 8) (n : Fin 128) (m : Fin 256) :
    broadcastTo S8x128x256 x1 Gen.broadcasts_S8x128x1_S8x128x256 (ix3 i n m) = x1 (ix3 i n 0) :=
  broadcastTo_apply x1 _ (ix3 i n m) (ix3 i n 0) (fun a => by
    match a with
    | ⟨0, _⟩ => rfl
    | ⟨1, _⟩ => rfl
    | ⟨2, _⟩ => rfl)

/-- The column norms, broadcast along the rows. -/
theorem bcast_b2 (x3 : Vec Ideal S8x1x256 .f32) (i : Fin 8) (n : Fin 128) (m : Fin 256) :
    broadcastTo S8x128x256 x3 Gen.broadcasts_S8x1x256_S8x128x256 (ix3 i n m) = x3 (ix3 i 0 m) :=
  broadcastTo_apply x3 _ (ix3 i n m) (ix3 i 0 m) (fun a => by
    match a with
    | ⟨0, _⟩ => rfl
    | ⟨1, _⟩ => rfl
    | ⟨2, _⟩ => rfl)

theorem lhs_0 (j : S8x128x256.Idx) (q : dot_S8x128x3_S8x256x3_S8x128x256_2_2_1_1_0_0.contr.Idx) : (dot_S8x128x3_S8x256x3_S8x128x256_2_2_1_1_0_0.lhsIdx j q 0).val = (j 0).val := by
  unfold DotDims.lhsIdx
  rw [dif_pos (show (0 : Fin S8x128x3.rank) ∈ dot_S8x128x3_S8x256x3_S8x128x256_2_2_1_1_0_0.lhsBatch by decide)]
  rfl
theorem lhs_1 (j : S8x128x256.Idx) (q : dot_S8x128x3_S8x256x3_S8x128x256_2_2_1_1_0_0.contr.Idx) : (dot_S8x128x3_S8x256x3_S8x128x256_2_2_1_1_0_0.lhsIdx j q 1).val = (j 1).val := by
  unfold DotDims.lhsIdx
  rw [dif_neg (show ¬(1 : Fin S8x128x3.rank) ∈ dot_S8x128x3_S8x256x3_S8x128x256_2_2_1_1_0_0.lhsBatch by decide), dif_pos (show (1 : Fin S8x128x3.rank) ∈ dot_S8x128x3_S8x256x3_S8x128x256_2_2_1_1_0_0.lhsNonContracting by decide)]
  rfl
theorem lhs_2 (j : S8x128x256.Idx) (q : dot_S8x128x3_S8x256x3_S8x128x256_2_2_1_1_0_0.contr.Idx) : (dot_S8x128x3_S8x256x3_S8x128x256_2_2_1_1_0_0.lhsIdx j q 2).val = (q ⟨0, by decide⟩).val :=
  dot_S8x128x3_S8x256x3_S8x128x256_2_2_1_1_0_0.lhsIdx_val_of_single rfl j q
theorem rhs_0 (j : S8x128x256.Idx) (q : dot_S8x128x3_S8x256x3_S8x128x256_2_2_1_1_0_0.contr.Idx) : (dot_S8x128x3_S8x256x3_S8x128x256_2_2_1_1_0_0.rhsIdx j q 0).val = (j 0).val := by
  unfold DotDims.rhsIdx
  rw [dif_pos (show (0 : Fin S8x256x3.rank) ∈ dot_S8x128x3_S8x256x3_S8x128x256_2_2_1_1_0_0.rhsBatch by decide)]
  rfl
theorem rhs_1 (j : S8x128x256.Idx) (q : dot_S8x128x3_S8x256x3_S8x128x256_2_2_1_1_0_0.contr.Idx) : (dot_S8x128x3_S8x256x3_S8x128x256_2_2_1_1_0_0.rhsIdx j q 1).val = (j 2).val := by
  unfold DotDims.rhsIdx
  rw [dif_neg (show ¬(1 : Fin S8x256x3.rank) ∈ dot_S8x128x3_S8x256x3_S8x128x256_2_2_1_1_0_0.rhsBatch by decide), dif_pos (show (1 : Fin S8x256x3.rank) ∈ dot_S8x128x3_S8x256x3_S8x128x256_2_2_1_1_0_0.rhsNonContracting by decide)]
  rfl
theorem rhs_2 (j : S8x128x256.Idx) (q : dot_S8x128x3_S8x256x3_S8x128x256_2_2_1_1_0_0.contr.Idx) : (dot_S8x128x3_S8x256x3_S8x128x256_2_2_1_1_0_0.rhsIdx j q 2).val = (q ⟨0, by decide⟩).val :=
  dot_S8x128x3_S8x256x3_S8x128x256_2_2_1_1_0_0.rhsIdx_val_of_single rfl j q

/-- The product of a row block with a column tile, at an entry: the sum over the three coordinates. -/
theorem mm_at (x0 : Vec Ideal S8x128x3 .f32) (x2 : Vec Ideal S8x256x3 .f32) (i : Fin 8) (n : Fin 128) (m : Fin 256) :
    matmul (F := Ideal) (φ₁ := .f32) (φ₂ := .f32) dot_S8x128x3_S8x256x3_S8x128x256_2_2_1_1_0_0 (some .fp32) x0 x2 (constant (F := Ideal) S8x128x256 .f32 0x00000000#32) (ix3 i n m)
      = ∑ d : Fin 3, x0 (ix3 i n d) * x2 (ix3 i m d) := by
  refine (Ideal.matmul_constant_zero_apply dot_S8x128x3_S8x256x3_S8x128x256_2_2_1_1_0_0 (some .fp32) x0 x2 (ix3 i n m)).trans ?_
  rw [← Equiv.sum_comp (ValueIdx.contrEquiv1 dot_S8x128x3_S8x256x3_S8x128x256_2_2_1_1_0_0 3 rfl rfl).symm]
  refine Finset.sum_congr rfl fun k _ => ?_
  have hk := ValueIdx.contrEquiv1_symm_val dot_S8x128x3_S8x256x3_S8x128x256_2_2_1_1_0_0 3 rfl rfl k
  have el : dot_S8x128x3_S8x256x3_S8x128x256_2_2_1_1_0_0.lhsIdx (ix3 i n m) ((ValueIdx.contrEquiv1 dot_S8x128x3_S8x256x3_S8x128x256_2_2_1_1_0_0 3 rfl rfl).symm k) = ix3 i n k := funext fun a => Fin.ext (by
    match a with
    | ⟨0, _⟩ => exact lhs_0 _ _
    | ⟨1, _⟩ => exact lhs_1 _ _
    | ⟨2, _⟩ => exact (lhs_2 _ _).trans hk)
  have er : dot_S8x128x3_S8x256x3_S8x128x256_2_2_1_1_0_0.rhsIdx (ix3 i n m) ((ValueIdx.contrEquiv1 dot_S8x128x3_S8x256x3_S8x128x256_2_2_1_1_0_0 3 rfl rfl).symm k) = ix3 i m k := funext fun a => Fin.ext (by
    match a with
    | ⟨0, _⟩ => exact rhs_0 _ _
    | ⟨1, _⟩ => exact rhs_1 _ _
    | ⟨2, _⟩ => exact (rhs_2 _ _).trans hk)
  rw [el, er]

/-- The index over (i, n) with column m inserted is (i, n, m). -/
theorem lift_at (i : Fin 8) (n : Fin 128) (m : Fin 256) :
    Gen.reduces_S8x128x256_S8x128.lift (ix2 i n) m = ix3 i n m := funext fun a => Fin.ext (by
  match a with
  | ⟨0, _⟩ => rfl
  | ⟨1, _⟩ => rfl
  | ⟨2, _⟩ => rfl)

/-- The row minimum of a tile: the fold of min from the top element over the tile's columns. -/
theorem minRed_at (src : FVec Ideal S8x128x256 .f32) (hφ : FKind.Formats .f32) (hacc : (0x7F800000#32 : BitVec 32) = FKind.minimumf.neutral .f32 hφ)
    (i : Fin 8) (n : Fin 128) :
    multiReduction .minimumf [2] S8x128 src 0x7F800000#32 Gen.reduces_S8x128x256_S8x128 hφ hacc (ix2 i n)
      = (Finset.univ : Finset (Fin 256)).fold min ⊤ (fun m => src (ix3 i n m)) :=
  (multiReduction_minimumf_single src _ Gen.reduces_S8x128x256_S8x128 hφ hacc (ix2 i n)).trans (by
    rw [show FloatOps.ofBits (F := Ideal) .f32 0x7F800000#32 = (⊤ : EReal) from ofBits_inf]
    exact congrArg (fun f => Finset.fold min (⊤ : EReal) f Finset.univ) (funext fun m => congrArg src (lift_at i n m)))

/-- The body's stored value at (i, n): the carried value against the tile's row minimum of the distance form. -/
theorem pay2_at (x0 : Vec Ideal S8x128x3 .f32) (x2 : Vec Ideal S8x256x3 .f32) (x1 : Vec Ideal S8x128x1 .f32) (x3 : Vec Ideal S8x1x256 .f32)
    (acc : Vec Ideal S8x128 .f32) (i : Fin 8) (n : Fin 128) :
    k1_pay2 (F := Ideal) x0 x2 x1 x3 acc (ix2 i n)
      = min (acc (ix2 i n)) ((Finset.univ : Finset (Fin 256)).fold min ⊤ (fun m => Ideal.sqrt (max (x1 (ix3 i n 0) + x3 (ix3 i 0 m)
          - Ideal.ofBits .f32 0x40000000#32 * ∑ d : Fin 3, x0 (ix3 i n d) * x2 (ix3 i m d)) (Ideal.ofBits .f32 0x00000000#32)))) := by
  unfold k1_pay2
  simp only [shapeCast_self]
  refine congrArg (min (acc (ix2 i n))) ?_
  refine (minRed_at _ _ _ i n).trans ?_
  refine congrArg (fun f => Finset.fold min (⊤ : EReal) f Finset.univ) (funext fun m => ?_)
  show Ideal.sqrt (max (broadcastTo S8x128x256 x1 Gen.broadcasts_S8x128x1_S8x128x256 (ix3 i n m) + broadcastTo S8x128x256 x3 Gen.broadcasts_S8x1x256_S8x128x256 (ix3 i n m)
      - Ideal.ofBits .f32 0x40000000#32 * matmul (F := Ideal) (φ₁ := .f32) (φ₂ := .f32) dot_S8x128x3_S8x256x3_S8x128x256_2_2_1_1_0_0 (some .fp32) x0 x2 (constant (F := Ideal) S8x128x256 .f32 0x00000000#32) (ix3 i n m)) (Ideal.ofBits .f32 0x00000000#32)) = _
  rw [bcast_a2, bcast_b2, mm_at]

end Cert.KernelIdeal.Pay1
end
-- ==== Proof.KernelIdeal.Val1.lean ====
import proofs.«127974_j197568496105_2_alg».proof.Proof.KernelIdeal.R1
import proofs.«127974_j197568496105_2_alg».proof.Proof.KernelIdeal.Pay1
import proofs.«127974_j197568496105_2_alg».proof.Proof.KernelIdeal.MinFold
import Idealize.ShloMosaic.Lib.Pipeline.Value
import Idealize.ShloMosaic.Lib.ValueIdx

set_option maxRecDepth 16384

/-! # Region 1: what the output array holds at the extended reals

The grid walks row blocks of a (128 rows each) against column tiles of b (256 rows of b each, 8 tiles).  Within a row
block the carried value starts at the top element, takes the minimum with each tile's row minima in turn, and is
copied to the output block at the last tile.  So the output array at (i, n) is the minimum, over every row m of b,
of sqrt (max (a2[i,n] + b2[i,m] - 2 * sum_d a[i,n,d] * b[i,m,d]) 0). -/

noncomputable section

namespace Cert.KernelIdeal.Rgn1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.MinFold

/-! ## What each control case stores, for any float values -/

section Pieces

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- A middle tile leaves in the carried buffer the body's value of the four blocks and of what it held. -/
theorem accB_eq (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : ¬cond1 i) (x0 : Vec F S8x128x3 .f32) (x1 : Vec F S8x128x1 .f32) (x2 : Vec F S8x256x3 .f32) (x3 : Vec F S8x1x256 .f32) (xs0 : Vec F S8x128 .f32) :
    soutB c i arg2 harg2 arg3 harg3 arg4 harg4 arg5 harg5 arg6 harg6 arg7 harg7 hc0 hc1 x0 x1 x2 x3 xs0 = k1_pay2 x0 x2 x1 x3 xs0 := by
  unfold soutB
  rw [View.read_writes_eq_canon _ _ _ (scoverB c i arg2 harg2 arg3 harg3 arg4 harg4 arg5 harg5 arg6 harg6 arg7 harg7 hc0 hc1 x0 x1 x2 x3 xs0)]
  unfold runB
  dsimp only
  rw [View.canon_unit_zero zero2]
  simp only [View.readAt_eq_ld, harg2.read_unread, harg3.read_unread, harg4.read_unread, harg5.read_unread, harg7.read_unread,
    View.ld_unit_zero (S := S8x128) zero2, View.ld_unit_zero (S := S8x128x3) zero3, View.ld_unit_zero (S := S8x128x1) zero3,
    View.ld_unit_zero (S := S8x256x3) zero3, View.ld_unit_zero (S := S8x1x256) zero3]

/-- The first tile resets the carried buffer and then folds the tile in: the body's value over the reset value. -/
theorem accA_eq (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : cond0 i) (hc1 : ¬cond1 i) (x0 : Vec F S8x128x3 .f32) (x1 : Vec F S8x128x1 .f32) (x2 : Vec F S8x256x3 .f32) (x3 : Vec F S8x1x256 .f32) :
    soutA c i arg2 harg2 arg3 harg3 arg4 harg4 arg5 harg5 arg6 harg6 arg7 harg7 hc0 hc1 x0 x1 x2 x3 = k1_pay2 x0 x2 x1 x3 (k1_pay1 (F := F)) := by
  unfold soutA
  rw [View.read_writes_eq_canon _ _ _ (scoverA c i arg2 harg2 arg3 harg3 arg4 harg4 arg5 harg5 arg6 harg6 arg7 harg7 hc0 hc1 x0 x1 x2 x3)]
  unfold runA
  dsimp only
  sl_unfold_words
  rw [View.canon_cons_unit_zero (S := S8x128) zero2, View.readCov_unit_zero (S := S8x128) _ zero2]
  simp only [View.readAt_eq_ld, harg2.read_unread, harg3.read_unread, harg4.read_unread, harg5.read_unread, harg7.read_unread,
    View.ld_unit_zero (S := S8x128) zero2, View.ld_unit_zero (S := S8x128x3) zero3, View.ld_unit_zero (S := S8x128x1) zero3,
    View.ld_unit_zero (S := S8x256x3) zero3, View.ld_unit_zero (S := S8x1x256) zero3]

/-- The last tile leaves the same value in the carried buffer, -/
theorem accC_eq (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) :
    soutC c i arg2 harg2 arg3 harg3 arg4 harg4 arg5 harg5 arg6 harg6 arg7 harg7 hc0 hc1 x0 x1 x2 x3 xs0 = k1_pay2 x0 x2 x1 x3 xs0 := by
  unfold soutC
  rw [View.read_writes_eq_canon _ _ _ (scoverC c i arg2 harg2 arg3 harg3 arg4 harg4 arg5 harg5 arg6 harg6 arg7 harg7 hc0 hc1 x0 x1 x2 x3 xs0)]
  unfold runC
  dsimp only
  sl_unfold_words
  rw [View.canon_unit_zero zero2]
  simp only [View.readAt_eq_ld, harg2.read_unread, harg3.read_unread, harg4.read_unread, harg5.read_unread, harg7.read_unread,
    View.ld_unit_zero (S := S8x128) zero2, View.ld_unit_zero (S := S8x128x3) zero3, View.ld_unit_zero (S := S8x128x1) zero3,
    View.ld_unit_zero (S := S8x256x3) zero3, View.ld_unit_zero (S := S8x1x256) zero3]

/-- and copies it to the output block. -/
theorem blkC_eq (c : Dev nD) (i : grid1.Coords) (arg2 : Memref sig .tc .vmem S8x128x3 .f32) (harg2 : arg2.IsWhole) (arg3 : Memref sig .tc .vmem S8x128x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x128 .f32) (harg6 : arg6.IsWhole) (arg7 : Memref sig .tc .vmem S8x128 .f32) (harg7 : arg7.IsWhole) (hc0 : ¬cond0 i) (hc1 : cond1 i) (x0 : Vec F S8x128x3 .f32) (x1 : Vec F S8x128x1 .f32) (x2 : Vec F S8x256x3 .f32) (x3 : Vec F S8x1x256 .f32) (xs0 : Vec F S8x128 .f32) :
    outC c i arg2 harg2 arg3 harg3 arg4 harg4 arg5 harg5 arg6 harg6 arg7 harg7 hc0 hc1 x0 x1 x2 x3 xs0 = k1_pay2 x0 x2 x1 x3 xs0 := by
  unfold outC
  rw [View.read_writes_eq_canon _ _ _ (coverC c i arg2 harg2 arg3 harg3 arg4 harg4 arg5 harg5 arg6 harg6 arg7 harg7 hc0 hc1 x0 x1 x2 x3 xs0)]
  unfold runC
  dsimp only
  sl_unfold_words
  rw [View.canon_unit_zero zero2, View.readCov_unit_zero (S := S8x128) _ zero2]
  simp only [View.readAt_eq_ld, harg2.read_unread, harg3.read_unread, harg4.read_unread, harg5.read_unread, harg7.read_unread,
    View.ld_unit_zero (S := S8x128) zero2, View.ld_unit_zero (S := S8x128x3) zero3, View.ld_unit_zero (S := S8x128x1) zero3,
    View.ld_unit_zero (S := S8x256x3) zero3, View.ld_unit_zero (S := S8x1x256) zero3]

end Pieces

/-! ## The values, at the extended reals -/

variable (V : (c : Dev nD) → (b : Ref sig .tc) → Buf (Elt Ideal) ((c : Thread nD τ).loc b))

/-- The four input arrays as the region finds them: a, its squared norms, b, its squared norms. -/
abbrev arrA (c : Dev nD) : Vec Ideal S8x128x3 .f32 := V c (Pipeline.arrRef spec1 0)
abbrev arrA2 (c : Dev nD) : Vec Ideal S8x128x1 .f32 := V c (Pipeline.arrRef spec1 1)
abbrev arrB (c : Dev nD) : Vec Ideal S8x2048x3 .f32 := V c (Pipeline.arrRef spec1 2)
abbrev arrB2 (c : Dev nD) : Vec Ideal S8x1x2048 .f32 := V c (Pipeline.arrRef spec1 3)

/-- The block index maps, decided over the grid: point t is tile t % 8 of row block t / 8. -/
theorem idxA : ∀ t : Fin cfg1.N, win1_0.index t (0 : Fin 3) = 0 ∧ win1_0.index t (1 : Fin 3) = t.val / 8 ∧ win1_0.index t (2 : Fin 3) = 0 :=
  (by decide +kernel : ∀ t : Fin grid1.N, _)
theorem idxA2 : ∀ t : Fin cfg1.N, win1_1.index t (0 : Fin 3) = 0 ∧ win1_1.index t (1 : Fin 3) = t.val / 8 ∧ win1_1.index t (2 : Fin 3) = 0 :=
  (by decide +kernel : ∀ t : Fin grid1.N, _)
theorem idxB : ∀ t : Fin cfg1.N, win1_2.index t (0 : Fin 3) = 0 ∧ win1_2.index t (1 : Fin 3) = t.val % 8 ∧ win1_2.index t (2 : Fin 3) = 0 :=
  (by decide +kernel : ∀ t : Fin grid1.N, _)
theorem idxB2 : ∀ t : Fin cfg1.N, win1_3.index t (0 : Fin 3) = 0 ∧ win1_3.index t (1 : Fin 3) = 0 ∧ win1_3.index t (2 : Fin 3) = t.val % 8 :=
  (by decide +kernel : ∀ t : Fin grid1.N, _)
theorem idxO : ∀ t : Fin cfg1.N, win1_4.index t (0 : Fin 2) = 0 ∧ win1_4.index t (1 : Fin 2) = t.val / 8 :=
  (by decide +kernel : ∀ t : Fin grid1.N, _)

/-- The row block of a at point t holds rows 128 * (t / 8) + n of a. -/
theorem blkA_at (c : Dev nD) (t : Fin cfg1.N) (i : Fin 8) (n : Fin 128) (d : Fin 3) (r : Fin 128) (hr : r.val = 128 * (t.val / 8) + n.val)
    (x0 : Vec Ideal S8x128x3 .f32) (hx : x0 = iblk V c 0 t) : x0 (ix3 i n d) = arrA V c (ix3 i r d) := by
  subst hx
  obtain ⟨e0, e1, e2⟩ := idxA t
  unfold iblk
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 8 + 1 * i.val = i.val; rw [e0]; omega
  | ⟨1, _⟩ => show win1_0.index t 1 * 128 + 1 * n.val = r.val; rw [e1, hr]; omega
  | ⟨2, _⟩ => show win1_0.index t 2 * 3 + 1 * d.val = d.val; rw [e2]; omega

theorem blkA2_at (c : Dev nD) (t : Fin cfg1.N) (i : Fin 8) (n : Fin 128) (r : Fin 128) (hr : r.val = 128 * (t.val / 8) + n.val)
    (x1 : Vec Ideal S8x128x1 .f32) (hx : x1 = iblk V c 1 t) : x1 (ix3 i n 0) = arrA2 V c (ix3 i r 0) := by
  subst hx
  obtain ⟨e0, e1, e2⟩ := idxA2 t
  unfold iblk
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 8 + 1 * i.val = i.val; rw [e0]; omega
  | ⟨1, _⟩ => show win1_1.index t 1 * 128 + 1 * n.val = r.val; rw [e1, hr]; omega
  | ⟨2, _⟩ => show win1_1.index t 2 * 1 + 1 * 0 = 0; rw [e2]

/-- The column tile of b at point t holds rows 256 * (t % 8) + m of b. -/
theorem blkB_at (c : Dev nD) (t : Fin cfg1.N) (i : Fin 8) (m : Fin 256) (d : Fin 3) (q : Fin 2048) (hq : q.val = 256 * (t.val % 8) + m.val)
    (x2 : Vec Ideal S8x256x3 .f32) (hx : x2 = iblk V c 2 t) : x2 (ix3 i m d) = arrB V c (ix3 i q d) := by
  subst hx
  obtain ⟨e0, e1, e2⟩ := idxB t
  unfold iblk
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t 0 * 8 + 1 * i.val = i.val; rw [e0]; omega
  | ⟨1, _⟩ => show win1_2.index t 1 * 256 + 1 * m.val = q.val; rw [e1, hq]; omega
  | ⟨2, _⟩ => show win1_2.index t 2 * 3 + 1 * d.val = d.val; rw [e2]; omega

theorem blkB2_at (c : Dev nD) (t : Fin cfg1.N) (i : Fin 8) (m : Fin 256) (q : Fin 2048) (hq : q.val = 256 * (t.val % 8) + m.val)
    (x3 : Vec Ideal S8x1x256 .f32) (hx : x3 = iblk V c 3 t) : x3 (ix3 i 0 m) = arrB2 V c (ix3 i 0 q) := by
  subst hx
  obtain ⟨e0, e1, e2⟩ := idxB2 t
  unfold iblk
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t 0 * 8 + 1 * i.val = i.val; rw [e0]; omega
  | ⟨1, _⟩ => show win1_3.index t 1 * 1 + 1 * 0 = 0; rw [e1]
  | ⟨2, _⟩ => show win1_3.index t 2 * 256 + 1 * m.val = q.val; rw [e2, hq]; omega

/-- The distance form between row n of a and row m of b, in batch i. -/
def dist (c : Dev nD) (i : Fin 8) (n : Fin 128) (m : Fin 2048) : EReal :=
  Ideal.sqrt (max (arrA2 V c (ix3 i n 0) + arrB2 V c (ix3 i 0 m)
    - Ideal.ofBits .f32 0x40000000#32 * ∑ d : Fin 3, arrA V c (ix3 i n d) * arrB V c (ix3 i m d)) (Ideal.ofBits .f32 0x00000000#32))

/-- The tile's entry (n, m) at point t is the distance form at the rows the blocks hold. -/
theorem tile_at (c : Dev nD) (t : Fin cfg1.N) (i : Fin 8) (n : Fin 128) (m : Fin 256) (r : Fin 128) (hr : r.val = 128 * (t.val / 8) + n.val)
    (q : Fin 2048) (hq : q.val = 256 * (t.val % 8) + m.val)
    (x0 : Vec Ideal S8x128x3 .f32) (x1 : Vec Ideal S8x128x1 .f32) (x2 : Vec Ideal S8x256x3 .f32) (x3 : Vec Ideal S8x1x256 .f32)
    (h0 : x0 = iblk V c 0 t) (h1 : x1 = iblk V c 1 t) (h2 : x2 = iblk V c 2 t) (h3 : x3 = iblk V c 3 t) :
    Ideal.sqrt (max (x1 (ix3 i n 0) + x3 (ix3 i 0 m) - Ideal.ofBits .f32 0x40000000#32 * ∑ d : Fin 3, x0 (ix3 i n d) * x2 (ix3 i m d)) (Ideal.ofBits .f32 0x00000000#32))
      = dist V c i r q := by
  unfold dist
  have hs : ∑ d : Fin 3, x0 (ix3 i n d) * x2 (ix3 i m d) = ∑ d : Fin 3, arrA V c (ix3 i r d) * arrB V c (ix3 i q d) :=
    Finset.sum_congr rfl fun d _ => by rw [blkA_at V c t i n d r hr x0 h0, blkB_at V c t i m d q hq x2 h2]
  rw [hs, blkA2_at V c t i n r hr x1 h1, blkB2_at V c t i m q hq x3 h3]

/-- One tile folded in: the minimum over the columns below tile t % 8 becomes the minimum over those of the next. -/
theorem step_inv (c : Dev nD) (t : Fin cfg1.N) (i : Fin 8) (n : Fin 128) (r : Fin 128) (hr : r.val = 128 * (t.val / 8) + n.val)
    (X : Vec Ideal S8x128 .f32) (hX : IsMinBelow (dist V c i r) (256 * (t.val % 8)) (X (ix2 i n))) :
    IsMinBelow (dist V c i r) (256 * (t.val % 8) + 256)
      (k1_pay2 (F := Ideal) (iblk V c 0 t) (iblk V c 2 t) (iblk V c 1 t) (iblk V c 3 t) X (ix2 i n)) := by
  rw [Pay1.pay2_at (iblk V c 0 t) (iblk V c 2 t) (iblk V c 1 t) (iblk V c 3 t) X i n]
  exact isMinBelow_step (dist V c i r) (t.val % 8) (by omega) (X (ix2 i n)) _
    (fun m => tile_at V c t i n m r hr ⟨256 * (t.val % 8) + m.val, by have := m.isLt; omega⟩ rfl
      (iblk V c 0 t) (iblk V c 1 t) (iblk V c 2 t) (iblk V c 3 t) rfl rfl rfl rfl) hX

/-- The carried buffer after the first tile of a row block. -/
theorem caseA (c : Dev nD) (t : Fin cfg1.N) (h0 : t.val % 8 = 0) (h1 : ¬t.val % 8 = 7) (i : Fin 8) (n : Fin 128) (r : Fin 128)
    (hr : r.val = 128 * (t.val / 8) + n.val) :
    IsMinBelow (dist V c i r) (256 * (t.val % 8) + 256) ((outsAt V c t.val t.isLt).2 (ix2 i n)) := by
  have e : (outsAt V c t.val t.isLt).2 = k1_pay2 (F := Ideal) (iblk V c 0 t) (iblk V c 2 t) (iblk V c 1 t) (iblk V c 3 t) (k1_pay1 (F := Ideal)) :=
    (congrArg Prod.snd (outsAt_A V c t h0 h1)).trans
      (accA_eq c (grid1.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t))
  rw [e]
  refine step_inv V c t i n r hr _ ?_
  rw [Pay1.pay1_at, h0]
  exact isMinBelow_top _

/-- The carried buffer after a middle tile, from what the tile before left. -/
theorem caseB (c : Dev nD) (t : Fin cfg1.N) (h0 : ¬t.val % 8 = 0) (h1 : ¬t.val % 8 = 7) (i : Fin 8) (n : Fin 128) (r : Fin 128)
    (hr : r.val = 128 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n)) := by
  have e : (outsAt V c t.val t.isLt).2 = k1_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_B V c t h0 h1)).trans
      (accB_eq c (grid1.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2)
  rw [e]
  exact step_inv V c t i n r hr _ IH

/-- The carried buffer and the output block after the last tile. -/
theorem caseC (c : Dev nD) (t : Fin cfg1.N) (h0 : ¬t.val % 8 = 0) (h1 : t.val % 8 = 7) (i : Fin 8) (n : Fin 128) (r : Fin 128)
    (hr : r.val = 128 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n))
    ∧ IsMinBelow (dist V c i r) (256 * (t.val % 8) + 256) ((outsAt V c t.val t.isLt).1 (ix2 i n)) := by
  have e2 : (outsAt V c t.val t.isLt).2 = k1_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_C V c t h0 h1)).trans
      (accC_eq c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  have e1 : (outsAt V c t.val t.isLt).1 = k1_pay2 (F := Ideal) (iblk V c 0 t) (iblk V c 2 t) (iblk V c 1 t) (iblk V c 3 t) (outsAt V c (t.val - 1) (Nat.lt_of_le_of_lt (Nat.sub_le _ _) t.isLt)).2 :=
    (congrArg Prod.fst (outsAt_C V c t h0 h1)).trans
      (blkC_eq c (grid1.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  rw [e1, e2]
  exact ⟨step_inv V c t i n r hr _ IH, step_inv V c t i n r hr _ IH⟩

/-- After tile t % 8 of row block t / 8 the carried buffer at (i, n) is the minimum of the distance form over the
    rows of b in tiles 0 .. t % 8. -/
theorem acc_inv (c : Dev nD) (t : ℕ) : ∀ (ht : t < cfg1.N) (i : Fin 8) (n : Fin 128) (r : Fin 128) (hr : r.val = 128 * (t / 8) + n.val),
    IsMinBelow (dist V c i r) (256 * (t % 8) + 256) ((outsAt V c t ht).2 (ix2 i n)) := by
  induction t using Nat.strong_induction_on with
  | _ t ih =>
    intro ht i n r hr
    by_cases h0 : t % 8 = 0
    · exact caseA V c ⟨t, ht⟩ h0 (show ¬t % 8 = 7 from by omega) i n r hr
    · have IH := ih (t - 1) (by omega) (by omega) i n r (by omega)
      have hm : 256 * ((t - 1) % 8) + 256 = 256 * (t % 8) := by omega
      rw [hm] at IH
      by_cases h1 : t % 8 = 7
      · exact (caseC V c ⟨t, ht⟩ h0 h1 i n r hr IH).1
      · exact caseB V c ⟨t, ht⟩ h0 h1 i n r hr IH

/-- The output block at the last tile of a row block: the minimum over every row of b. -/
theorem out_at (c : Dev nD) (t : Fin cfg1.N) (h7 : t.val % 8 = 7) (i : Fin 8) (n : Fin 128) (r : Fin 128)
    (hr : r.val = 128 * (t.val / 8) + n.val) :
    (outsAt V c t.val t.isLt).1 (ix2 i n) = (Finset.univ : Finset (Fin 2048)).fold min ⊤ (dist V c i r) := by
  have h0 : ¬t.val % 8 = 0 := by omega
  have IH := acc_inv V c (t.val - 1) (Nat.lt_of_le_of_lt (Nat.sub_le _ _) t.isLt) i n r (by omega)
  have hm : 256 * ((t.val - 1) % 8) + 256 = 256 * (t.val % 8) := by omega
  rw [hm] at IH
  exact eq_fold_of_isMinBelow (dist V c i r) (256 * (t.val % 8) + 256) (by omega) _ (caseC V c t h0 h7 i n r hr IH).2

/-- The output array: at (i, n) the minimum over all rows m of b of the distance form. -/
def minDist (c : Dev nD) : Vec Ideal S8x128 .f32 :=
  fun y => (Finset.univ : Finset (Fin 2048)).fold min ⊤ (dist V c (y 0) (y 1))

/-- What a flushing point writes back is its block of that array. -/
theorem flushed_eq (c : Dev nD) (t : Fin cfg1.N) (hf : (cfg1.win 4).flush t = true) :
    (dat V c).flushed 4 t = ((cfg1.win 4).blk t).view.read (Elt Ideal) (minDist V c) := by
  have h7 : t.val % 8 = 7 := (flush1_4 t).mp hf
  have hN : cfg1.N = 8 := N_1
  obtain ⟨e0, e1⟩ := idxO t
  show (cfg1.win 4).cut (grid1.coords t) ((dat V c).after 4 t) = _
  rw [after_4]
  funext y
  obtain ⟨i, n, rfl⟩ : ∃ (i : Fin 8) (n : Fin 128), y = ix2 i n := ⟨y 0, y 1, eq_ix2 y⟩
  rw [View.read_apply]
  have hemb : ((cfg1.win 4).blk t).view.emb (ix2 i n) = ix2 i (⟨128 * (t.val / 8) + n.val, by have := t.isLt; have := n.isLt; omega⟩ : Fin 128) :=
    funext fun a => Fin.ext (by
      match a with
      | ⟨0, _⟩ => show win1_4.index t 0 * 8 + 1 * i.val = i.val; rw [e0]; omega
      | ⟨1, _⟩ => show win1_4.index t 1 * 128 + 1 * n.val = 128 * (t.val / 8) + n.val; rw [e1]; omega)
  rw [hemb]
  exact out_at V c t h7 i n _ rfl

/-- An index of the output array is in point t's block iff each coordinate is in the block's range. -/
theorem mem_blkO (t : Fin cfg1.N) (y : S8x128.Idx) :
    y ∈ ((cfg1.win 4).blk t).view.set ↔ ∀ a : Fin 2, win1_4.index t a * S8x128.size a ≤ (y a).val ∧ (y a).val < win1_4.index t a * S8x128.size a + S8x128.size a := by
  show y ∈ ((View.whole main_v27).slice (win1_4.rect t)).set ↔ _
  rw [View.set_slice_whole, Rect.mem_set_unit]
  exact Iff.rfl

/-- Every index of the output array is in the block of the last tile of its row block. -/
theorem covered (y : S8x128.Idx) : ∃ t : Fin cfg1.N, (cfg1.win 4).flush t = true ∧ y ∈ ((cfg1.win 4).blk t).view.set := by
  have hN : cfg1.N = 8 := N_1
  have h0 : (y 0).val < 8 := (y 0).isLt
  have h1 : (y 1).val < 128 := (y 1).isLt
  have ht : 8 * ((y 1).val / 128) + 7 < cfg1.N := by omega
  obtain ⟨e0, e1⟩ := idxO ⟨8 * ((y 1).val / 128) + 7, ht⟩
  refine ⟨⟨8 * ((y 1).val / 128) + 7, ht⟩, (flush1_4 _).mpr (by show (8 * ((y 1).val / 128) + 7) % 8 = 7; omega), ?_⟩
  rw [mem_blkO]
  intro a
  match a with
  | ⟨0, _⟩ =>
    show win1_4.index ⟨8 * ((y 1).val / 128) + 7, ht⟩ 0 * 8 ≤ (y 0).val ∧ (y 0).val < win1_4.index ⟨8 * ((y 1).val / 128) + 7, ht⟩ 0 * 8 + 8
    rw [e0]; omega
  | ⟨1, _⟩ =>
    show win1_4.index ⟨8 * ((y 1).val / 128) + 7, ht⟩ 1 * 128 ≤ (y 1).val ∧ (y 1).val < win1_4.index ⟨8 * ((y 1).val / 128) + 7, ht⟩ 1 * 128 + 128
    rw [e1]; show (8 * ((y 1).val / 128) + 7) / 8 * 128 ≤ (y 1).val ∧ (y 1).val < (8 * ((y 1).val / 128) + 7) / 8 * 128 + 128; omega

/-- THE OUTPUT ARRAY after the region. -/
theorem arr_out_eq (c : Dev nD) : (dat V c).arrAt 4 cfg1.N = minDist V c :=
  (dat V c).arrAt_eq_of_cover 4 (minDist V c) (flushed_eq V c) covered

/-- At (i, n): the minimum over every row m of b of sqrt (max (a2 + b2 - 2 * sum_d a * b) 0). -/
theorem arr_out (c : Dev nD) (i : Fin 8) (n : Fin 128) :
    (dat V c).arrAt 4 cfg1.N (ix2 i n)
      = (Finset.univ : Finset (Fin 2048)).fold min ⊤ (fun m => Ideal.sqrt (max (arrA2 V c (ix3 i n 0) + arrB2 V c (ix3 i 0 m)
          - Ideal.ofBits .f32 0x40000000#32 * ∑ d : Fin 3, arrA V c (ix3 i n d) * arrB V c (ix3 i m d)) (Ideal.ofBits .f32 0x00000000#32))) :=
  congrFun (arr_out_eq V c) (ix2 i n)

/-- The input arrays are unchanged. -/
theorem arr_in0 (c : Dev nD) : (dat V c).arrAt 0 cfg1.N = V c (Pipeline.arrRef spec1 0) := ((dat V c).arrAt_in 0 rfl _).trans (A_eq V c 0)
theorem arr_in1 (c : Dev nD) : (dat V c).arrAt 1 cfg1.N = V c (Pipeline.arrRef spec1 1) := ((dat V c).arrAt_in 1 rfl _).trans (A_eq V c 1)
theorem arr_in2 (c : Dev nD) : (dat V c).arrAt 2 cfg1.N = V c (Pipeline.arrRef spec1 2) := ((dat V c).arrAt_in 2 rfl _).trans (A_eq V c 2)
theorem arr_in3 (c : Dev nD) : (dat V c).arrAt 3 cfg1.N = V c (Pipeline.arrRef spec1 3) := ((dat V c).arrAt_in 3 rfl _).trans (A_eq V c 3)

end Cert.KernelIdeal.Rgn1

end
-- ==== Proof.KernelIdeal.Pay3.lean ====
import proofs.«127974_j197568496105_2_alg».proof.Proof.Gen.KernelIdeal.Skeleton
import proofs.«127974_j197568496105_2_alg».proof.Proof.KernelIdeal.MinFold
import Idealize.ShloMosaic.Lib.Pipeline.Value
import Idealize.ShloMosaic.Lib.ValueIdx
import Idealize.ShloMosaic.PureOps.Ideal.Laws
import Idealize.ShloMosaic.PureOps.IdealRules

set_option maxRecDepth 16384

/-! # Region 3: the tile's arithmetic at an entry

For a row block a (with its squared norms a2, kept as a column) and a column tile b (with its squared norms b2, kept
as a row), the body forms a2[i,n] + b2[i,m] - 2 * sum_d a[i,n,d] * b[i,m,d], clamps it at zero, takes the square root,
and folds the minimum over the tile's columns m into the carried value.  Read at the extended reals, entry by entry. -/

noncomputable section

namespace Cert.KernelIdeal.Pay3

open Cert.KernelIdeal Cert.KernelIdeal.Gen Cert.KernelIdeal.Facts₀ Cert.KernelIdeal.Facts
open Idealize.ShloMosaic Idealize.ShloMosaic.ValueIdx

/-- A minimum over one axis, read at the ideal values: the fold of min from the start value over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of plus infinity is the top extended real. -/
theorem ofBits_inf : Ideal.ofBits .f32 0x7F800000#32 = (⊤ : EReal) := by simp [Ideal.ofBits, Ideal.ieee]

/-- The reset value: the named large constant, which denotes the top extended real. -/
theorem pay1_at (i : Fin 8) (n : Fin 256) : k3_pay1 (F := Ideal) (ix2 i n) = (⊤ : EReal) := by
  unfold k3_pay1
  simp only [shapeCast_self]
  show Named.named (F := Ideal) κ "pos_big" (φ := .f32) 0x7149F2CA#32 = _
  exact IdealRules.named_const.ideal_named_scalar _ _ _ _ rfl

/-- The row norms, broadcast along the columns. -/
theorem bcast_a2 (x1 : Vec Ideal S8x256x1 .f32) (i : Fin 8) (n : Fin 256) (m : Fin 256) :
    broadcastTo S8x256x256 x1 Gen.broadcasts_S8x256x1_S8x256x256 (ix3 i n m) = x1 (ix3 i n 0) :=
  broadcastTo_apply x1 _ (ix3 i n m) (ix3 i n 0) (fun a => by
    match a with
    | ⟨0, _⟩ => rfl
    | ⟨1, _⟩ => rfl
    | ⟨2, _⟩ => rfl)

/-- The column norms, broadcast along the rows. -/
theorem bcast_b2 (x3 : Vec Ideal S8x1x256 .f32) (i : Fin 8) (n : Fin 256) (m : Fin 256) :
    broadcastTo S8x256x256 x3 Gen.broadcasts_S8x1x256_S8x256x256 (ix3 i n m) = x3 (ix3 i 0 m) :=
  broadcastTo_apply x3 _ (ix3 i n m) (ix3 i 0 m) (fun a => by
    match a with
    | ⟨0, _⟩ => rfl
    | ⟨1, _⟩ => rfl
    | ⟨2, _⟩ => rfl)

theorem lhs_0 (j : S8x256x256.Idx) (q : dot_S8x256x3_S8x256x3_S8x256x256_2_2_1_1_0_0.contr.Idx) : (dot_S8x256x3_S8x256x3_S8x256x256_2_2_1_1_0_0.lhsIdx j q 0).val = (j 0).val := by
  unfold DotDims.lhsIdx
  rw [dif_pos (show (0 : Fin S8x256x3.rank) ∈ dot_S8x256x3_S8x256x3_S8x256x256_2_2_1_1_0_0.lhsBatch by decide)]
  rfl
theorem lhs_1 (j : S8x256x256.Idx) (q : dot_S8x256x3_S8x256x3_S8x256x256_2_2_1_1_0_0.contr.Idx) : (dot_S8x256x3_S8x256x3_S8x256x256_2_2_1_1_0_0.lhsIdx j q 1).val = (j 1).val := by
  unfold DotDims.lhsIdx
  rw [dif_neg (show ¬(1 : Fin S8x256x3.rank) ∈ dot_S8x256x3_S8x256x3_S8x256x256_2_2_1_1_0_0.lhsBatch by decide), dif_pos (show (1 : Fin S8x256x3.rank) ∈ dot_S8x256x3_S8x256x3_S8x256x256_2_2_1_1_0_0.lhsNonContracting by decide)]
  rfl
theorem lhs_2 (j : S8x256x256.Idx) (q : dot_S8x256x3_S8x256x3_S8x256x256_2_2_1_1_0_0.contr.Idx) : (dot_S8x256x3_S8x256x3_S8x256x256_2_2_1_1_0_0.lhsIdx j q 2).val = (q ⟨0, by decide⟩).val :=
  dot_S8x256x3_S8x256x3_S8x256x256_2_2_1_1_0_0.lhsIdx_val_of_single rfl j q
theorem rhs_0 (j : S8x256x256.Idx) (q : dot_S8x256x3_S8x256x3_S8x256x256_2_2_1_1_0_0.contr.Idx) : (dot_S8x256x3_S8x256x3_S8x256x256_2_2_1_1_0_0.rhsIdx j q 0).val = (j 0).val := by
  unfold DotDims.rhsIdx
  rw [dif_pos (show (0 : Fin S8x256x3.rank) ∈ dot_S8x256x3_S8x256x3_S8x256x256_2_2_1_1_0_0.rhsBatch by decide)]
  rfl
theorem rhs_1 (j : S8x256x256.Idx) (q : dot_S8x256x3_S8x256x3_S8x256x256_2_2_1_1_0_0.contr.Idx) : (dot_S8x256x3_S8x256x3_S8x256x256_2_2_1_1_0_0.rhsIdx j q 1).val = (j 2).val := by
  unfold DotDims.rhsIdx
  rw [dif_neg (show ¬(1 : Fin S8x256x3.rank) ∈ dot_S8x256x3_S8x256x3_S8x256x256_2_2_1_1_0_0.rhsBatch by decide), dif_pos (show (1 : Fin S8x256x3.rank) ∈ dot_S8x256x3_S8x256x3_S8x256x256_2_2_1_1_0_0.rhsNonContracting by decide)]
  rfl
theorem rhs_2 (j : S8x256x256.Idx) (q : dot_S8x256x3_S8x256x3_S8x256x256_2_2_1_1_0_0.contr.Idx) : (dot_S8x256x3_S8x256x3_S8x256x256_2_2_1_1_0_0.rhsIdx j q 2).val = (q ⟨0, by decide⟩).val :=
  dot_S8x256x3_S8x256x3_S8x256x256_2_2_1_1_0_0.rhsIdx_val_of_single rfl j q

/-- The product of a row block with a column tile, at an entry: the sum over the three coordinates. -/
theorem mm_at (x0 : Vec Ideal S8x256x3 .f32) (x2 : Vec Ideal S8x256x3 .f32) (i : Fin 8) (n : Fin 256) (m : Fin 256) :
    matmul (F := Ideal) (φ₁ := .f32) (φ₂ := .f32) dot_S8x256x3_S8x256x3_S8x256x256_2_2_1_1_0_0 (some .fp32) x0 x2 (constant (F := Ideal) S8x256x256 .f32 0x00000000#32) (ix3 i n m)
      = ∑ d : Fin 3, x0 (ix3 i n d) * x2 (ix3 i m d) := by
  refine (Ideal.matmul_constant_zero_apply dot_S8x256x3_S8x256x3_S8x256x256_2_2_1_1_0_0 (some .fp32) x0 x2 (ix3 i n m)).trans ?_
  rw [← Equiv.sum_comp (ValueIdx.contrEquiv1 dot_S8x256x3_S8x256x3_S8x256x256_2_2_1_1_0_0 3 rfl rfl).symm]
  refine Finset.sum_congr rfl fun k _ => ?_
  have hk := ValueIdx.contrEquiv1_symm_val dot_S8x256x3_S8x256x3_S8x256x256_2_2_1_1_0_0 3 rfl rfl k
  have el : dot_S8x256x3_S8x256x3_S8x256x256_2_2_1_1_0_0.lhsIdx (ix3 i n m) ((ValueIdx.contrEquiv1 dot_S8x256x3_S8x256x3_S8x256x256_2_2_1_1_0_0 3 rfl rfl).symm k) = ix3 i n k := funext fun a => Fin.ext (by
    match a with
    | ⟨0, _⟩ => exact lhs_0 _ _
    | ⟨1, _⟩ => exact lhs_1 _ _
    | ⟨2, _⟩ => exact (lhs_2 _ _).trans hk)
  have er : dot_S8x256x3_S8x256x3_S8x256x256_2_2_1_1_0_0.rhsIdx (ix3 i n m) ((ValueIdx.contrEquiv1 dot_S8x256x3_S8x256x3_S8x256x256_2_2_1_1_0_0 3 rfl rfl).symm k) = ix3 i m k := funext fun a => Fin.ext (by
    match a with
    | ⟨0, _⟩ => exact rhs_0 _ _
    | ⟨1, _⟩ => exact rhs_1 _ _
    | ⟨2, _⟩ => exact (rhs_2 _ _).trans hk)
  rw [el, er]

/-- The index over (i, n) with column m inserted is (i, n, m). -/
theorem lift_at (i : Fin 8) (n : Fin 256) (m : Fin 256) :
    Gen.reduces_S8x256x256_S8x256.lift (ix2 i n) m = ix3 i n m := funext fun a => Fin.ext (by
  match a with
  | ⟨0, _⟩ => rfl
  | ⟨1, _⟩ => rfl
  | ⟨2, _⟩ => rfl)

/-- The row minimum of a tile: the fold of min from the top element over the tile's columns. -/
theorem minRed_at (src : FVec Ideal S8x256x256 .f32) (hφ : FKind.Formats .f32) (hacc : (0x7F800000#32 : BitVec 32) = FKind.minimumf.neutral .f32 hφ)
    (i : Fin 8) (n : Fin 256) :
    multiReduction .minimumf [2] S8x256 src 0x7F800000#32 Gen.reduces_S8x256x256_S8x256 hφ hacc (ix2 i n)
      = (Finset.univ : Finset (Fin 256)).fold min ⊤ (fun m => src (ix3 i n m)) :=
  (multiReduction_minimumf_single src _ Gen.reduces_S8x256x256_S8x256 hφ hacc (ix2 i n)).trans (by
    rw [show FloatOps.ofBits (F := Ideal) .f32 0x7F800000#32 = (⊤ : EReal) from ofBits_inf]
    exact congrArg (fun f => Finset.fold min (⊤ : EReal) f Finset.univ) (funext fun m => congrArg src (lift_at i n m)))

/-- The body's stored value at (i, n): the carried value against the tile's row minimum of the distance form. -/
theorem pay2_at (x0 : Vec Ideal S8x256x3 .f32) (x2 : Vec Ideal S8x256x3 .f32) (x1 : Vec Ideal S8x256x1 .f32) (x3 : Vec Ideal S8x1x256 .f32)
    (acc : Vec Ideal S8x256 .f32) (i : Fin 8) (n : Fin 256) :
    k3_pay2 (F := Ideal) x0 x2 x1 x3 acc (ix2 i n)
      = min (acc (ix2 i n)) ((Finset.univ : Finset (Fin 256)).fold min ⊤ (fun m => Ideal.sqrt (max (x1 (ix3 i n 0) + x3 (ix3 i 0 m)
          - Ideal.ofBits .f32 0x40000000#32 * ∑ d : Fin 3, x0 (ix3 i n d) * x2 (ix3 i m d)) (Ideal.ofBits .f32 0x00000000#32)))) := by
  unfold k3_pay2
  simp only [shapeCast_self]
  refine congrArg (min (acc (ix2 i n))) ?_
  refine (minRed_at _ _ _ i n).trans ?_
  refine congrArg (fun f => Finset.fold min (⊤ : EReal) f Finset.univ) (funext fun m => ?_)
  show Ideal.sqrt (max (broadcastTo S8x256x256 x1 Gen.broadcasts_S8x256x1_S8x256x256 (ix3 i n m) + broadcastTo S8x256x256 x3 Gen.broadcasts_S8x1x256_S8x256x256 (ix3 i n m)
      - Ideal.ofBits .f32 0x40000000#32 * matmul (F := Ideal) (φ₁ := .f32) (φ₂ := .f32) dot_S8x256x3_S8x256x3_S8x256x256_2_2_1_1_0_0 (some .fp32) x0 x2 (constant (F := Ideal) S8x256x256 .f32 0x00000000#32) (ix3 i n m)) (Ideal.ofBits .f32 0x00000000#32)) = _
  rw [bcast_a2, bcast_b2, mm_at]

end Cert.KernelIdeal.Pay3
end
-- ==== Proof.KernelIdeal.Val3.lean ====
import proofs.«127974_j197568496105_2_alg».proof.Proof.KernelIdeal.R3
import proofs.«127974_j197568496105_2_alg».proof.Proof.KernelIdeal.Pay3
import proofs.«127974_j197568496105_2_alg».proof.Proof.KernelIdeal.MinFold
import Idealize.ShloMosaic.Lib.Pipeline.Value
import Idealize.ShloMosaic.Lib.ValueIdx

set_option maxRecDepth 16384

/-! # Region 3: what the output array holds at the extended reals

The grid walks row blocks of a (256 rows each) against column tiles of b (256 rows of b each, 8 tiles).  Within a row
block the carried value starts at the top element, takes the minimum with each tile's row minima in turn, and is
copied to the output block at the last tile.  So the output array at (i, n) is the minimum, over every row m of b,
of sqrt (max (a2[i,n] + b2[i,m] - 2 * sum_d a[i,n,d] * b[i,m,d]) 0). -/

noncomputable section

namespace Cert.KernelIdeal.Rgn3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.MinFold

/-! ## What each control case stores, for any float values -/

section Pieces

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- A middle tile leaves in the carried buffer the body's value of the four blocks and of what it held. -/
theorem accB_eq (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) :
    soutB c i arg2 harg2 arg3 harg3 arg4 harg4 arg5 harg5 arg6 harg6 arg7 harg7 hc0 hc1 x0 x1 x2 x3 xs0 = k3_pay2 x0 x2 x1 x3 xs0 := by
  unfold soutB
  rw [View.read_writes_eq_canon _ _ _ (scoverB c i arg2 harg2 arg3 harg3 arg4 harg4 arg5 harg5 arg6 harg6 arg7 harg7 hc0 hc1 x0 x1 x2 x3 xs0)]
  unfold runB
  dsimp only
  rw [View.canon_unit_zero zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- The first tile resets the carried buffer and then folds the tile in: the body's value over the reset value. -/
theorem accA_eq (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) :
    soutA c i arg2 harg2 arg3 harg3 arg4 harg4 arg5 harg5 arg6 harg6 arg7 harg7 hc0 hc1 x0 x1 x2 x3 = k3_pay2 x0 x2 x1 x3 (k3_pay1 (F := F)) := by
  unfold soutA
  rw [View.read_writes_eq_canon _ _ _ (scoverA c i arg2 harg2 arg3 harg3 arg4 harg4 arg5 harg5 arg6 harg6 arg7 harg7 hc0 hc1 x0 x1 x2 x3)]
  unfold runA
  dsimp only
  sl_unfold_words
  rw [View.canon_cons_unit_zero (S := S8x256) zero2, View.readCov_unit_zero (S := S8x256) _ zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- The last tile leaves the same value in the carried buffer, -/
theorem accC_eq (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) :
    soutC c i arg2 harg2 arg3 harg3 arg4 harg4 arg5 harg5 arg6 harg6 arg7 harg7 hc0 hc1 x0 x1 x2 x3 xs0 = k3_pay2 x0 x2 x1 x3 xs0 := by
  unfold soutC
  rw [View.read_writes_eq_canon _ _ _ (scoverC c i arg2 harg2 arg3 harg3 arg4 harg4 arg5 harg5 arg6 harg6 arg7 harg7 hc0 hc1 x0 x1 x2 x3 xs0)]
  unfold runC
  dsimp only
  sl_unfold_words
  rw [View.canon_unit_zero zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- and copies it to the output block. -/
theorem blkC_eq (c : Dev nD) (i : grid3.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) :
    outC c i arg2 harg2 arg3 harg3 arg4 harg4 arg5 harg5 arg6 harg6 arg7 harg7 hc0 hc1 x0 x1 x2 x3 xs0 = k3_pay2 x0 x2 x1 x3 xs0 := by
  unfold outC
  rw [View.read_writes_eq_canon _ _ _ (coverC c i arg2 harg2 arg3 harg3 arg4 harg4 arg5 harg5 arg6 harg6 arg7 harg7 hc0 hc1 x0 x1 x2 x3 xs0)]
  unfold runC
  dsimp only
  sl_unfold_words
  rw [View.canon_unit_zero zero2, View.readCov_unit_zero (S := S8x256) _ zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

end Pieces

/-! ## The values, at the extended reals -/

variable (V : (c : Dev nD) → (b : Ref sig .tc) → Buf (Elt Ideal) ((c : Thread nD τ).loc b))

/-- The four input arrays as the region finds them: a, its squared norms, b, its squared norms. -/
abbrev arrA (c : Dev nD) : Vec Ideal S8x2048x3 .f32 := V c (Pipeline.arrRef spec3 0)
abbrev arrA2 (c : Dev nD) : Vec Ideal S8x2048x1 .f32 := V c (Pipeline.arrRef spec3 1)
abbrev arrB (c : Dev nD) : Vec Ideal S8x2048x3 .f32 := V c (Pipeline.arrRef spec3 2)
abbrev arrB2 (c : Dev nD) : Vec Ideal S8x1x2048 .f32 := V c (Pipeline.arrRef spec3 3)

/-- The block index maps, decided over the grid: point t is tile t % 8 of row block t / 8. -/
theorem idxA : ∀ t : Fin cfg3.N, win3_0.index t (0 : Fin 3) = 0 ∧ win3_0.index t (1 : Fin 3) = t.val / 8 ∧ win3_0.index t (2 : Fin 3) = 0 :=
  (by decide +kernel : ∀ t : Fin grid3.N, _)
theorem idxA2 : ∀ t : Fin cfg3.N, win3_1.index t (0 : Fin 3) = 0 ∧ win3_1.index t (1 : Fin 3) = t.val / 8 ∧ win3_1.index t (2 : Fin 3) = 0 :=
  (by decide +kernel : ∀ t : Fin grid3.N, _)
theorem idxB : ∀ t : Fin cfg3.N, win3_2.index t (0 : Fin 3) = 0 ∧ win3_2.index t (1 : Fin 3) = t.val % 8 ∧ win3_2.index t (2 : Fin 3) = 0 :=
  (by decide +kernel : ∀ t : Fin grid3.N, _)
theorem idxB2 : ∀ t : Fin cfg3.N, win3_3.index t (0 : Fin 3) = 0 ∧ win3_3.index t (1 : Fin 3) = 0 ∧ win3_3.index t (2 : Fin 3) = t.val % 8 :=
  (by decide +kernel : ∀ t : Fin grid3.N, _)
theorem idxO : ∀ t : Fin cfg3.N, win3_4.index t (0 : Fin 2) = 0 ∧ win3_4.index t (1 : Fin 2) = t.val / 8 :=
  (by decide +kernel : ∀ t : Fin grid3.N, _)

/-- The row block of a at point t holds rows 256 * (t / 8) + n of a. -/
theorem blkA_at (c : Dev nD) (t : Fin cfg3.N) (i : Fin 8) (n : Fin 256) (d : Fin 3) (r : Fin 2048) (hr : r.val = 256 * (t.val / 8) + n.val)
    (x0 : Vec Ideal S8x256x3 .f32) (hx : x0 = iblk V c 0 t) : x0 (ix3 i n d) = arrA V c (ix3 i r d) := by
  subst hx
  obtain ⟨e0, e1, e2⟩ := idxA t
  unfold iblk
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t 0 * 8 + 1 * i.val = i.val; rw [e0]; omega
  | ⟨1, _⟩ => show win3_0.index t 1 * 256 + 1 * n.val = r.val; rw [e1, hr]; omega
  | ⟨2, _⟩ => show win3_0.index t 2 * 3 + 1 * d.val = d.val; rw [e2]; omega

theorem blkA2_at (c : Dev nD) (t : Fin cfg3.N) (i : Fin 8) (n : Fin 256) (r : Fin 2048) (hr : r.val = 256 * (t.val / 8) + n.val)
    (x1 : Vec Ideal S8x256x1 .f32) (hx : x1 = iblk V c 1 t) : x1 (ix3 i n 0) = arrA2 V c (ix3 i r 0) := by
  subst hx
  obtain ⟨e0, e1, e2⟩ := idxA2 t
  unfold iblk
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t 0 * 8 + 1 * i.val = i.val; rw [e0]; omega
  | ⟨1, _⟩ => show win3_1.index t 1 * 256 + 1 * n.val = r.val; rw [e1, hr]; omega
  | ⟨2, _⟩ => show win3_1.index t 2 * 1 + 1 * 0 = 0; rw [e2]

/-- The column tile of b at point t holds rows 256 * (t % 8) + m of b. -/
theorem blkB_at (c : Dev nD) (t : Fin cfg3.N) (i : Fin 8) (m : Fin 256) (d : Fin 3) (q : Fin 2048) (hq : q.val = 256 * (t.val % 8) + m.val)
    (x2 : Vec Ideal S8x256x3 .f32) (hx : x2 = iblk V c 2 t) : x2 (ix3 i m d) = arrB V c (ix3 i q d) := by
  subst hx
  obtain ⟨e0, e1, e2⟩ := idxB t
  unfold iblk
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t 0 * 8 + 1 * i.val = i.val; rw [e0]; omega
  | ⟨1, _⟩ => show win3_2.index t 1 * 256 + 1 * m.val = q.val; rw [e1, hq]; omega
  | ⟨2, _⟩ => show win3_2.index t 2 * 3 + 1 * d.val = d.val; rw [e2]; omega

theorem blkB2_at (c : Dev nD) (t : Fin cfg3.N) (i : Fin 8) (m : Fin 256) (q : Fin 2048) (hq : q.val = 256 * (t.val % 8) + m.val)
    (x3 : Vec Ideal S8x1x256 .f32) (hx : x3 = iblk V c 3 t) : x3 (ix3 i 0 m) = arrB2 V c (ix3 i 0 q) := by
  subst hx
  obtain ⟨e0, e1, e2⟩ := idxB2 t
  unfold iblk
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t 0 * 8 + 1 * i.val = i.val; rw [e0]; omega
  | ⟨1, _⟩ => show win3_3.index t 1 * 1 + 1 * 0 = 0; rw [e1]
  | ⟨2, _⟩ => show win3_3.index t 2 * 256 + 1 * m.val = q.val; rw [e2, hq]; omega

/-- The distance form between row n of a and row m of b, in batch i. -/
def dist (c : Dev nD) (i : Fin 8) (n : Fin 2048) (m : Fin 2048) : EReal :=
  Ideal.sqrt (max (arrA2 V c (ix3 i n 0) + arrB2 V c (ix3 i 0 m)
    - Ideal.ofBits .f32 0x40000000#32 * ∑ d : Fin 3, arrA V c (ix3 i n d) * arrB V c (ix3 i m d)) (Ideal.ofBits .f32 0x00000000#32))

/-- The tile's entry (n, m) at point t is the distance form at the rows the blocks hold. -/
theorem tile_at (c : Dev nD) (t : Fin cfg3.N) (i : Fin 8) (n : Fin 256) (m : Fin 256) (r : Fin 2048) (hr : r.val = 256 * (t.val / 8) + n.val)
    (q : Fin 2048) (hq : q.val = 256 * (t.val % 8) + m.val)
    (x0 : Vec Ideal S8x256x3 .f32) (x1 : Vec Ideal S8x256x1 .f32) (x2 : Vec Ideal S8x256x3 .f32) (x3 : Vec Ideal S8x1x256 .f32)
    (h0 : x0 = iblk V c 0 t) (h1 : x1 = iblk V c 1 t) (h2 : x2 = iblk V c 2 t) (h3 : x3 = iblk V c 3 t) :
    Ideal.sqrt (max (x1 (ix3 i n 0) + x3 (ix3 i 0 m) - Ideal.ofBits .f32 0x40000000#32 * ∑ d : Fin 3, x0 (ix3 i n d) * x2 (ix3 i m d)) (Ideal.ofBits .f32 0x00000000#32))
      = dist V c i r q := by
  unfold dist
  have hs : ∑ d : Fin 3, x0 (ix3 i n d) * x2 (ix3 i m d) = ∑ d : Fin 3, arrA V c (ix3 i r d) * arrB V c (ix3 i q d) :=
    Finset.sum_congr rfl fun d _ => by rw [blkA_at V c t i n d r hr x0 h0, blkB_at V c t i m d q hq x2 h2]
  rw [hs, blkA2_at V c t i n r hr x1 h1, blkB2_at V c t i m q hq x3 h3]

/-- One tile folded in: the minimum over the columns below tile t % 8 becomes the minimum over those of the next. -/
theorem step_inv (c : Dev nD) (t : Fin cfg3.N) (i : Fin 8) (n : Fin 256) (r : Fin 2048) (hr : r.val = 256 * (t.val / 8) + n.val)
    (X : Vec Ideal S8x256 .f32) (hX : IsMinBelow (dist V c i r) (256 * (t.val % 8)) (X (ix2 i n))) :
    IsMinBelow (dist V c i r) (256 * (t.val % 8) + 256)
      (k3_pay2 (F := Ideal) (iblk V c 0 t) (iblk V c 2 t) (iblk V c 1 t) (iblk V c 3 t) X (ix2 i n)) := by
  rw [Pay3.pay2_at (iblk V c 0 t) (iblk V c 2 t) (iblk V c 1 t) (iblk V c 3 t) X i n]
  exact isMinBelow_step (dist V c i r) (t.val % 8) (by omega) (X (ix2 i n)) _
    (fun m => tile_at V c t i n m r hr ⟨256 * (t.val % 8) + m.val, by have := m.isLt; omega⟩ rfl
      (iblk V c 0 t) (iblk V c 1 t) (iblk V c 2 t) (iblk V c 3 t) rfl rfl rfl rfl) hX

set_option maxHeartbeats 1000000 in
/-- The carried buffer after the first tile of a row block. -/
theorem caseA (c : Dev nD) (t : Fin cfg3.N) (h0 : t.val % 8 = 0) (h1 : ¬t.val % 8 = 7) (i : Fin 8) (n : Fin 256) (r : Fin 2048)
    (hr : r.val = 256 * (t.val / 8) + n.val) :
    IsMinBelow (dist V c i r) (256 * (t.val % 8) + 256) ((outsAt V c t.val t.isLt).2 (ix2 i n)) := by
  have e : (outsAt V c t.val t.isLt).2 = k3_pay2 (F := Ideal) (iblk V c 0 t) (iblk V c 2 t) (iblk V c 1 t) (iblk V c 3 t) (k3_pay1 (F := Ideal)) :=
    (congrArg Prod.snd (outsAt_A V c t h0 h1)).trans
      (accA_eq c (grid3.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t))
  rw [e]
  refine step_inv V c t i n r hr _ ?_
  rw [Pay3.pay1_at, h0]
  exact isMinBelow_top _

set_option maxHeartbeats 1000000 in
/-- The carried buffer after a middle tile, from what the tile before left. -/
theorem caseB (c : Dev nD) (t : Fin cfg3.N) (h0 : ¬t.val % 8 = 0) (h1 : ¬t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n)) := by
  have e : (outsAt V c t.val t.isLt).2 = k3_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_B V c t h0 h1)).trans
      (accB_eq c (grid3.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2)
  rw [e]
  exact step_inv V c t i n r hr _ IH

set_option maxHeartbeats 1000000 in
/-- The carried buffer after the last tile, -/
theorem caseC (c : Dev nD) (t : Fin cfg3.N) (h0 : ¬t.val % 8 = 0) (h1 : t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n)) := by
  have e2 : (outsAt V c t.val t.isLt).2 = k3_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_C V c t h0 h1)).trans
      (accC_eq c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  rw [e2]
  exact step_inv V c t i n r hr _ IH

set_option maxHeartbeats 1000000 in
/-- and the output block, which receives the same value. -/
theorem caseC_out (c : Dev nD) (t : Fin cfg3.N) (h0 : ¬t.val % 8 = 0) (h1 : t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).1 (ix2 i n)) := by
  have e1 : (outsAt V c t.val t.isLt).1 = k3_pay2 (F := Ideal) (iblk V c 0 t) (iblk V c 2 t) (iblk V c 1 t) (iblk V c 3 t) (outsAt V c (t.val - 1) (Nat.lt_of_le_of_lt (Nat.sub_le _ _) t.isLt)).2 :=
    (congrArg Prod.fst (outsAt_C V c t h0 h1)).trans
      (blkC_eq c (grid3.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  rw [e1]
  exact step_inv V c t i n r hr _ IH

/-- After tile t % 8 of row block t / 8 the carried buffer at (i, n) is the minimum of the distance form over the
    rows of b in tiles 0 .. t % 8. -/
theorem acc_inv (c : Dev nD) (t : ℕ) : ∀ (ht : t < cfg3.N) (i : Fin 8) (n : Fin 256) (r : Fin 2048) (hr : r.val = 256 * (t / 8) + n.val),
    IsMinBelow (dist V c i r) (256 * (t % 8) + 256) ((outsAt V c t ht).2 (ix2 i n)) := by
  induction t using Nat.strong_induction_on with
  | _ t ih =>
    intro ht i n r hr
    by_cases h0 : t % 8 = 0
    · exact caseA V c ⟨t, ht⟩ h0 (show ¬t % 8 = 7 from by omega) i n r hr
    · have IH := ih (t - 1) (by omega) (by omega) i n r (by omega)
      have hm : 256 * ((t - 1) % 8) + 256 = 256 * (t % 8) := by omega
      rw [hm] at IH
      by_cases h1 : t % 8 = 7
      · exact caseC V c ⟨t, ht⟩ h0 h1 i n r hr IH
      · exact caseB V c ⟨t, ht⟩ h0 h1 i n r hr IH

/-- The output block at the last tile of a row block: the minimum over every row of b. -/
theorem out_at (c : Dev nD) (t : Fin cfg3.N) (h7 : t.val % 8 = 7) (i : Fin 8) (n : Fin 256) (r : Fin 2048)
    (hr : r.val = 256 * (t.val / 8) + n.val) :
    (outsAt V c t.val t.isLt).1 (ix2 i n) = (Finset.univ : Finset (Fin 2048)).fold min ⊤ (dist V c i r) := by
  have h0 : ¬t.val % 8 = 0 := by omega
  have IH := acc_inv V c (t.val - 1) (Nat.lt_of_le_of_lt (Nat.sub_le _ _) t.isLt) i n r (by omega)
  have hm : 256 * ((t.val - 1) % 8) + 256 = 256 * (t.val % 8) := by omega
  rw [hm] at IH
  exact eq_fold_of_isMinBelow (dist V c i r) (256 * (t.val % 8) + 256) (by omega) _ (caseC_out V c t h0 h7 i n r hr IH)

/-- The output array: at (i, n) the minimum over all rows m of b of the distance form. -/
def minDist (c : Dev nD) : Vec Ideal S8x2048 .f32 :=
  fun y => (Finset.univ : Finset (Fin 2048)).fold min ⊤ (dist V c (y 0) (y 1))

/-- What a flushing point writes back is its block of that array. -/
theorem flushed_eq (c : Dev nD) (t : Fin cfg3.N) (hf : (cfg3.win 4).flush t = true) :
    (dat V c).flushed 4 t = ((cfg3.win 4).blk t).view.read (Elt Ideal) (minDist V c) := by
  have h7 : t.val % 8 = 7 := (flush3_4 t).mp hf
  have hN : cfg3.N = 64 := N_3
  obtain ⟨e0, e1⟩ := idxO t
  show (cfg3.win 4).cut (grid3.coords t) ((dat V c).after 4 t) = _
  rw [after_4]
  funext y
  obtain ⟨i, n, rfl⟩ : ∃ (i : Fin 8) (n : Fin 256), y = ix2 i n := ⟨y 0, y 1, eq_ix2 y⟩
  rw [View.read_apply]
  have hemb : ((cfg3.win 4).blk t).view.emb (ix2 i n) = ix2 i (⟨256 * (t.val / 8) + n.val, by have := t.isLt; have := n.isLt; omega⟩ : Fin 2048) :=
    funext fun a => Fin.ext (by
      match a with
      | ⟨0, _⟩ => show win3_4.index t 0 * 8 + 1 * i.val = i.val; rw [e0]; omega
      | ⟨1, _⟩ => show win3_4.index t 1 * 256 + 1 * n.val = 256 * (t.val / 8) + n.val; rw [e1]; omega)
  rw [hemb]
  exact out_at V c t h7 i n _ rfl

/-- An index of the output array is in point t's block iff each coordinate is in the block's range. -/
theorem mem_blkO (t : Fin cfg3.N) (y : S8x2048.Idx) :
    y ∈ ((cfg3.win 4).blk t).view.set ↔ ∀ a : Fin 2, win3_4.index t a * S8x256.size a ≤ (y a).val ∧ (y a).val < win3_4.index t a * S8x256.size a + S8x256.size a := by
  show y ∈ ((View.whole main_v66).slice (win3_4.rect t)).set ↔ _
  rw [View.set_slice_whole, Rect.mem_set_unit]
  exact Iff.rfl

/-- Every index of the output array is in the block of the last tile of its row block. -/
theorem covered (y : S8x2048.Idx) : ∃ t : Fin cfg3.N, (cfg3.win 4).flush t = true ∧ y ∈ ((cfg3.win 4).blk t).view.set := by
  have hN : cfg3.N = 64 := N_3
  have h0 : (y 0).val < 8 := (y 0).isLt
  have h1 : (y 1).val < 2048 := (y 1).isLt
  have ht : 8 * ((y 1).val / 256) + 7 < cfg3.N := by omega
  obtain ⟨e0, e1⟩ := idxO ⟨8 * ((y 1).val / 256) + 7, ht⟩
  refine ⟨⟨8 * ((y 1).val / 256) + 7, ht⟩, (flush3_4 _).mpr (by show (8 * ((y 1).val / 256) + 7) % 8 = 7; omega), ?_⟩
  rw [mem_blkO]
  intro a
  match a with
  | ⟨0, _⟩ =>
    show win3_4.index ⟨8 * ((y 1).val / 256) + 7, ht⟩ 0 * 8 ≤ (y 0).val ∧ (y 0).val < win3_4.index ⟨8 * ((y 1).val / 256) + 7, ht⟩ 0 * 8 + 8
    rw [e0]; omega
  | ⟨1, _⟩ =>
    show win3_4.index ⟨8 * ((y 1).val / 256) + 7, ht⟩ 1 * 256 ≤ (y 1).val ∧ (y 1).val < win3_4.index ⟨8 * ((y 1).val / 256) + 7, ht⟩ 1 * 256 + 256
    rw [e1]; show (8 * ((y 1).val / 256) + 7) / 8 * 256 ≤ (y 1).val ∧ (y 1).val < (8 * ((y 1).val / 256) + 7) / 8 * 256 + 256; omega

/-- THE OUTPUT ARRAY after the region. -/
theorem arr_out_eq (c : Dev nD) : (dat V c).arrAt 4 cfg3.N = minDist V c :=
  (dat V c).arrAt_eq_of_cover 4 (minDist V c) (flushed_eq V c) covered

/-- At (i, n): the minimum over every row m of b of sqrt (max (a2 + b2 - 2 * sum_d a * b) 0). -/
theorem arr_out (c : Dev nD) (i : Fin 8) (n : Fin 2048) :
    (dat V c).arrAt 4 cfg3.N (ix2 i n)
      = (Finset.univ : Finset (Fin 2048)).fold min ⊤ (fun m => Ideal.sqrt (max (arrA2 V c (ix3 i n 0) + arrB2 V c (ix3 i 0 m)
          - Ideal.ofBits .f32 0x40000000#32 * ∑ d : Fin 3, arrA V c (ix3 i n d) * arrB V c (ix3 i m d)) (Ideal.ofBits .f32 0x00000000#32))) :=
  congrFun (arr_out_eq V c) (ix2 i n)

/-- The input arrays are unchanged. -/
theorem arr_in0 (c : Dev nD) : (dat V c).arrAt 0 cfg3.N = V c (Pipeline.arrRef spec3 0) := ((dat V c).arrAt_in 0 rfl _).trans (A_eq V c 0)
theorem arr_in1 (c : Dev nD) : (dat V c).arrAt 1 cfg3.N = V c (Pipeline.arrRef spec3 1) := ((dat V c).arrAt_in 1 rfl _).trans (A_eq V c 1)
theorem arr_in2 (c : Dev nD) : (dat V c).arrAt 2 cfg3.N = V c (Pipeline.arrRef spec3 2) := ((dat V c).arrAt_in 2 rfl _).trans (A_eq V c 2)
theorem arr_in3 (c : Dev nD) : (dat V c).arrAt 3 cfg3.N = V c (Pipeline.arrRef spec3 3) := ((dat V c).arrAt_in 3 rfl _).trans (A_eq V c 3)

end Cert.KernelIdeal.Rgn3

end
-- ==== Proof.KernelIdeal.Pay4.lean ====
import proofs.«127974_j197568496105_2_alg».proof.Proof.Gen.KernelIdeal.Skeleton
import proofs.«127974_j197568496105_2_alg».proof.Proof.KernelIdeal.MinFold
import Idealize.ShloMosaic.Lib.Pipeline.Value
import Idealize.ShloMosaic.Lib.ValueIdx
import Idealize.ShloMosaic.PureOps.Ideal.Laws
import Idealize.ShloMosaic.PureOps.IdealRules

set_option maxRecDepth 16384

/-! # Region 4: the tile's arithmetic at an entry

For a row block a (with its squared norms a2, kept as a column) and a column tile b (with its squared norms b2, kept
as a row), the body forms a2[i,n] + b2[i,m] - 2 * sum_d a[i,n,d] * b[i,m,d], clamps it at zero, takes the square root,
and folds the minimum over the tile's columns m into the carried value.  Read at the extended reals, entry by entry. -/

noncomputable section

namespace Cert.KernelIdeal.Pay4

open Cert.KernelIdeal Cert.KernelIdeal.Gen Cert.KernelIdeal.Facts₀ Cert.KernelIdeal.Facts
open Idealize.ShloMosaic Idealize.ShloMosaic.ValueIdx

/-- A minimum over one axis, read at the ideal values: the fold of min from the start value over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of plus infinity is the top extended real. -/
theorem ofBits_inf : Ideal.ofBits .f32 0x7F800000#32 = (⊤ : EReal) := by simp [Ideal.ofBits, Ideal.ieee]

/-- The reset value: the named large constant, which denotes the top extended real. -/
theorem pay1_at (i : Fin 8) (n : Fin 256) : k4_pay1 (F := Ideal) (ix2 i n) = (⊤ : EReal) := by
  unfold k4_pay1
  simp only [shapeCast_self]
  show Named.named (F := Ideal) κ "pos_big" (φ := .f32) 0x7149F2CA#32 = _
  exact IdealRules.named_const.ideal_named_scalar _ _ _ _ rfl

/-- The row norms, broadcast along the columns. -/
theorem bcast_a2 (x1 : Vec Ideal S8x256x1 .f32) (i : Fin 8) (n : Fin 256) (m : Fin 256) :
    broadcastTo S8x256x256 x1 Gen.broadcasts_S8x256x1_S8x256x256 (ix3 i n m) = x1 (ix3 i n 0) :=
  broadcastTo_apply x1 _ (ix3 i n m) (ix3 i n 0) (fun a => by
    match a with
    | ⟨0, _⟩ => rfl
    | ⟨1, _⟩ => rfl
    | ⟨2, _⟩ => rfl)

/-- The column norms, broadcast along the rows. -/
theorem bcast_b2 (x3 : Vec Ideal S8x1x256 .f32) (i : Fin 8) (n : Fin 256) (m : Fin 256) :
    broadcastTo S8x256x256 x3 Gen.broadcasts_S8x1x256_S8x256x256 (ix3 i n m) = x3 (ix3 i 0 m) :=
  broadcastTo_apply x3 _ (ix3 i n m) (ix3 i 0 m) (fun a => by
    match a with
    | ⟨0, _⟩ => rfl
    | ⟨1, _⟩ => rfl
    | ⟨2, _⟩ => rfl)

theorem lhs_0 (j : S8x256x256.Idx) (q : dot_S8x256x3_S8x256x3_S8x256x256_2_2_1_1_0_0.contr.Idx) : (dot_S8x256x3_S8x256x3_S8x256x256_2_2_1_1_0_0.lhsIdx j q 0).val = (j 0).val := by
  unfold DotDims.lhsIdx
  rw [dif_pos (show (0 : Fin S8x256x3.rank) ∈ dot_S8x256x3_S8x256x3_S8x256x256_2_2_1_1_0_0.lhsBatch by decide)]
  rfl
theorem lhs_1 (j : S8x256x256.Idx) (q : dot_S8x256x3_S8x256x3_S8x256x256_2_2_1_1_0_0.contr.Idx) : (dot_S8x256x3_S8x256x3_S8x256x256_2_2_1_1_0_0.lhsIdx j q 1).val = (j 1).val := by
  unfold DotDims.lhsIdx
  rw [dif_neg (show ¬(1 : Fin S8x256x3.rank) ∈ dot_S8x256x3_S8x256x3_S8x256x256_2_2_1_1_0_0.lhsBatch by decide), dif_pos (show (1 : Fin S8x256x3.rank) ∈ dot_S8x256x3_S8x256x3_S8x256x256_2_2_1_1_0_0.lhsNonContracting by decide)]
  rfl
theorem lhs_2 (j : S8x256x256.Idx) (q : dot_S8x256x3_S8x256x3_S8x256x256_2_2_1_1_0_0.contr.Idx) : (dot_S8x256x3_S8x256x3_S8x256x256_2_2_1_1_0_0.lhsIdx j q 2).val = (q ⟨0, by decide⟩).val :=
  dot_S8x256x3_S8x256x3_S8x256x256_2_2_1_1_0_0.lhsIdx_val_of_single rfl j q
theorem rhs_0 (j : S8x256x256.Idx) (q : dot_S8x256x3_S8x256x3_S8x256x256_2_2_1_1_0_0.contr.Idx) : (dot_S8x256x3_S8x256x3_S8x256x256_2_2_1_1_0_0.rhsIdx j q 0).val = (j 0).val := by
  unfold DotDims.rhsIdx
  rw [dif_pos (show (0 : Fin S8x256x3.rank) ∈ dot_S8x256x3_S8x256x3_S8x256x256_2_2_1_1_0_0.rhsBatch by decide)]
  rfl
theorem rhs_1 (j : S8x256x256.Idx) (q : dot_S8x256x3_S8x256x3_S8x256x256_2_2_1_1_0_0.contr.Idx) : (dot_S8x256x3_S8x256x3_S8x256x256_2_2_1_1_0_0.rhsIdx j q 1).val = (j 2).val := by
  unfold DotDims.rhsIdx
  rw [dif_neg (show ¬(1 : Fin S8x256x3.rank) ∈ dot_S8x256x3_S8x256x3_S8x256x256_2_2_1_1_0_0.rhsBatch by decide), dif_pos (show (1 : Fin S8x256x3.rank) ∈ dot_S8x256x3_S8x256x3_S8x256x256_2_2_1_1_0_0.rhsNonContracting by decide)]
  rfl
theorem rhs_2 (j : S8x256x256.Idx) (q : dot_S8x256x3_S8x256x3_S8x256x256_2_2_1_1_0_0.contr.Idx) : (dot_S8x256x3_S8x256x3_S8x256x256_2_2_1_1_0_0.rhsIdx j q 2).val = (q ⟨0, by decide⟩).val :=
  dot_S8x256x3_S8x256x3_S8x256x256_2_2_1_1_0_0.rhsIdx_val_of_single rfl j q

/-- The product of a row block with a column tile, at an entry: the sum over the three coordinates. -/
theorem mm_at (x0 : Vec Ideal S8x256x3 .f32) (x2 : Vec Ideal S8x256x3 .f32) (i : Fin 8) (n : Fin 256) (m : Fin 256) :
    matmul (F := Ideal) (φ₁ := .f32) (φ₂ := .f32) dot_S8x256x3_S8x256x3_S8x256x256_2_2_1_1_0_0 (some .fp32) x0 x2 (constant (F := Ideal) S8x256x256 .f32 0x00000000#32) (ix3 i n m)
      = ∑ d : Fin 3, x0 (ix3 i n d) * x2 (ix3 i m d) := by
  refine (Ideal.matmul_constant_zero_apply dot_S8x256x3_S8x256x3_S8x256x256_2_2_1_1_0_0 (some .fp32) x0 x2 (ix3 i n m)).trans ?_
  rw [← Equiv.sum_comp (ValueIdx.contrEquiv1 dot_S8x256x3_S8x256x3_S8x256x256_2_2_1_1_0_0 3 rfl rfl).symm]
  refine Finset.sum_congr rfl fun k _ => ?_
  have hk := ValueIdx.contrEquiv1_symm_val dot_S8x256x3_S8x256x3_S8x256x256_2_2_1_1_0_0 3 rfl rfl k
  have el : dot_S8x256x3_S8x256x3_S8x256x256_2_2_1_1_0_0.lhsIdx (ix3 i n m) ((ValueIdx.contrEquiv1 dot_S8x256x3_S8x256x3_S8x256x256_2_2_1_1_0_0 3 rfl rfl).symm k) = ix3 i n k := funext fun a => Fin.ext (by
    match a with
    | ⟨0, _⟩ => exact lhs_0 _ _
    | ⟨1, _⟩ => exact lhs_1 _ _
    | ⟨2, _⟩ => exact (lhs_2 _ _).trans hk)
  have er : dot_S8x256x3_S8x256x3_S8x256x256_2_2_1_1_0_0.rhsIdx (ix3 i n m) ((ValueIdx.contrEquiv1 dot_S8x256x3_S8x256x3_S8x256x256_2_2_1_1_0_0 3 rfl rfl).symm k) = ix3 i m k := funext fun a => Fin.ext (by
    match a with
    | ⟨0, _⟩ => exact rhs_0 _ _
    | ⟨1, _⟩ => exact rhs_1 _ _
    | ⟨2, _⟩ => exact (rhs_2 _ _).trans hk)
  rw [el, er]

/-- The index over (i, n) with column m inserted is (i, n, m). -/
theorem lift_at (i : Fin 8) (n : Fin 256) (m : Fin 256) :
    Gen.reduces_S8x256x256_S8x256.lift (ix2 i n) m = ix3 i n m := funext fun a => Fin.ext (by
  match a with
  | ⟨0, _⟩ => rfl
  | ⟨1, _⟩ => rfl
  | ⟨2, _⟩ => rfl)

/-- The row minimum of a tile: the fold of min from the top element over the tile's columns. -/
theorem minRed_at (src : FVec Ideal S8x256x256 .f32) (hφ : FKind.Formats .f32) (hacc : (0x7F800000#32 : BitVec 32) = FKind.minimumf.neutral .f32 hφ)
    (i : Fin 8) (n : Fin 256) :
    multiReduction .minimumf [2] S8x256 src 0x7F800000#32 Gen.reduces_S8x256x256_S8x256 hφ hacc (ix2 i n)
      = (Finset.univ : Finset (Fin 256)).fold min ⊤ (fun m => src (ix3 i n m)) :=
  (multiReduction_minimumf_single src _ Gen.reduces_S8x256x256_S8x256 hφ hacc (ix2 i n)).trans (by
    rw [show FloatOps.ofBits (F := Ideal) .f32 0x7F800000#32 = (⊤ : EReal) from ofBits_inf]
    exact congrArg (fun f => Finset.fold min (⊤ : EReal) f Finset.univ) (funext fun m => congrArg src (lift_at i n m)))

/-- The body's stored value at (i, n): the carried value against the tile's row minimum of the distance form. -/
theorem pay2_at (x0 : Vec Ideal S8x256x3 .f32) (x2 : Vec Ideal S8x256x3 .f32) (x1 : Vec Ideal S8x256x1 .f32) (x3 : Vec Ideal S8x1x256 .f32)
    (acc : Vec Ideal S8x256 .f32) (i : Fin 8) (n : Fin 256) :
    k4_pay2 (F := Ideal) x0 x2 x1 x3 acc (ix2 i n)
      = min (acc (ix2 i n)) ((Finset.univ : Finset (Fin 256)).fold min ⊤ (fun m => Ideal.sqrt (max (x1 (ix3 i n 0) + x3 (ix3 i 0 m)
          - Ideal.ofBits .f32 0x40000000#32 * ∑ d : Fin 3, x0 (ix3 i n d) * x2 (ix3 i m d)) (Ideal.ofBits .f32 0x00000000#32)))) := by
  unfold k4_pay2
  simp only [shapeCast_self]
  refine congrArg (min (acc (ix2 i n))) ?_
  refine (minRed_at _ _ _ i n).trans ?_
  refine congrArg (fun f => Finset.fold min (⊤ : EReal) f Finset.univ) (funext fun m => ?_)
  show Ideal.sqrt (max (broadcastTo S8x256x256 x1 Gen.broadcasts_S8x256x1_S8x256x256 (ix3 i n m) + broadcastTo S8x256x256 x3 Gen.broadcasts_S8x1x256_S8x256x256 (ix3 i n m)
      - Ideal.ofBits .f32 0x40000000#32 * matmul (F := Ideal) (φ₁ := .f32) (φ₂ := .f32) dot_S8x256x3_S8x256x3_S8x256x256_2_2_1_1_0_0 (some .fp32) x0 x2 (constant (F := Ideal) S8x256x256 .f32 0x00000000#32) (ix3 i n m)) (Ideal.ofBits .f32 0x00000000#32)) = _
  rw [bcast_a2, bcast_b2, mm_at]

end Cert.KernelIdeal.Pay4
end
-- ==== Proof.KernelIdeal.Val4.lean ====
import proofs.«127974_j197568496105_2_alg».proof.Proof.KernelIdeal.R4
import proofs.«127974_j197568496105_2_alg».proof.Proof.KernelIdeal.Pay4
import proofs.«127974_j197568496105_2_alg».proof.Proof.KernelIdeal.MinFold
import Idealize.ShloMosaic.Lib.Pipeline.Value
import Idealize.ShloMosaic.Lib.ValueIdx

set_option maxRecDepth 16384

/-! # Region 4: what the output array holds at the extended reals

The grid walks row blocks of a (256 rows each) against column tiles of b (256 rows of b each, 8 tiles).  Within a row
block the carried value starts at the top element, takes the minimum with each tile's row minima in turn, and is
copied to the output block at the last tile.  So the output array at (i, n) is the minimum, over every row m of b,
of sqrt (max (a2[i,n] + b2[i,m] - 2 * sum_d a[i,n,d] * b[i,m,d]) 0). -/

noncomputable section

namespace Cert.KernelIdeal.Rgn4

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal.MinFold

/-! ## What each control case stores, for any float values -/

section Pieces

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

/-- A middle tile leaves in the carried buffer the body's value of the four blocks and of what it held. -/
theorem accB_eq (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : ¬cond1 i) (x0 : Vec F S8x256x3 .f32) (x1 : Vec F S8x256x1 .f32) (x2 : Vec F S8x256x3 .f32) (x3 : Vec F S8x1x256 .f32) (xs0 : Vec F S8x256 .f32) :
    soutB c i arg2 harg2 arg3 harg3 arg4 harg4 arg5 harg5 arg6 harg6 arg7 harg7 hc0 hc1 x0 x1 x2 x3 xs0 = k4_pay2 x0 x2 x1 x3 xs0 := by
  unfold soutB
  rw [View.read_writes_eq_canon _ _ _ (scoverB c i arg2 harg2 arg3 harg3 arg4 harg4 arg5 harg5 arg6 harg6 arg7 harg7 hc0 hc1 x0 x1 x2 x3 xs0)]
  unfold runB
  dsimp only
  rw [View.canon_unit_zero zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- The first tile resets the carried buffer and then folds the tile in: the body's value over the reset value. -/
theorem accA_eq (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : cond0 i) (hc1 : ¬cond1 i) (x0 : Vec F S8x256x3 .f32) (x1 : Vec F S8x256x1 .f32) (x2 : Vec F S8x256x3 .f32) (x3 : Vec F S8x1x256 .f32) :
    soutA c i arg2 harg2 arg3 harg3 arg4 harg4 arg5 harg5 arg6 harg6 arg7 harg7 hc0 hc1 x0 x1 x2 x3 = k4_pay2 x0 x2 x1 x3 (k4_pay1 (F := F)) := by
  unfold soutA
  rw [View.read_writes_eq_canon _ _ _ (scoverA c i arg2 harg2 arg3 harg3 arg4 harg4 arg5 harg5 arg6 harg6 arg7 harg7 hc0 hc1 x0 x1 x2 x3)]
  unfold runA
  dsimp only
  sl_unfold_words
  rw [View.canon_cons_unit_zero (S := S8x256) zero2, View.readCov_unit_zero (S := S8x256) _ zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- The last tile leaves the same value in the carried buffer, -/
theorem accC_eq (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) :
    soutC c i arg2 harg2 arg3 harg3 arg4 harg4 arg5 harg5 arg6 harg6 arg7 harg7 hc0 hc1 x0 x1 x2 x3 xs0 = k4_pay2 x0 x2 x1 x3 xs0 := by
  unfold soutC
  rw [View.read_writes_eq_canon _ _ _ (scoverC c i arg2 harg2 arg3 harg3 arg4 harg4 arg5 harg5 arg6 harg6 arg7 harg7 hc0 hc1 x0 x1 x2 x3 xs0)]
  unfold runC
  dsimp only
  sl_unfold_words
  rw [View.canon_unit_zero zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

/-- and copies it to the output block. -/
theorem blkC_eq (c : Dev nD) (i : grid4.Coords) (arg2 : Memref sig .tc .vmem S8x256x3 .f32) (harg2 : arg2.IsWhole) (arg3 : Memref sig .tc .vmem S8x256x1 .f32) (harg3 : arg3.IsWhole) (arg4 : Memref sig .tc .vmem S8x256x3 .f32) (harg4 : arg4.IsWhole) (arg5 : Memref sig .tc .vmem S8x1x256 .f32) (harg5 : arg5.IsWhole) (arg6 : Memref sig .tc .vmem S8x256 .f32) (harg6 : arg6.IsWhole) (arg7 : Memref sig .tc .vmem S8x256 .f32) (harg7 : arg7.IsWhole) (hc0 : ¬cond0 i) (hc1 : cond1 i) (x0 : Vec F S8x256x3 .f32) (x1 : Vec F S8x256x1 .f32) (x2 : Vec F S8x256x3 .f32) (x3 : Vec F S8x1x256 .f32) (xs0 : Vec F S8x256 .f32) :
    outC c i arg2 harg2 arg3 harg3 arg4 harg4 arg5 harg5 arg6 harg6 arg7 harg7 hc0 hc1 x0 x1 x2 x3 xs0 = k4_pay2 x0 x2 x1 x3 xs0 := by
  unfold outC
  rw [View.read_writes_eq_canon _ _ _ (coverC c i arg2 harg2 arg3 harg3 arg4 harg4 arg5 harg5 arg6 harg6 arg7 harg7 hc0 hc1 x0 x1 x2 x3 xs0)]
  unfold runC
  dsimp only
  sl_unfold_words
  rw [View.canon_unit_zero zero2, View.readCov_unit_zero (S := S8x256) _ zero2]
  simp only [View.readAt_eq_ld, harg2.read_unread, harg3.read_unread, harg4.read_unread, harg5.read_unread, harg7.read_unread,
    View.ld_unit_zero (S := S8x256) zero2, View.ld_unit_zero (S := S8x256x3) zero3, View.ld_unit_zero (S := S8x256x1) zero3,
    View.ld_unit_zero (S := S8x256x3) zero3, View.ld_unit_zero (S := S8x1x256) zero3]

end Pieces

/-! ## The values, at the extended reals -/

variable (V : (c : Dev nD) → (b : Ref sig .tc) → Buf (Elt Ideal) ((c : Thread nD τ).loc b))

/-- The four input arrays as the region finds them: a, its squared norms, b, its squared norms. -/
abbrev arrA (c : Dev nD) : Vec Ideal S8x2048x3 .f32 := V c (Pipeline.arrRef spec4 0)
abbrev arrA2 (c : Dev nD) : Vec Ideal S8x2048x1 .f32 := V c (Pipeline.arrRef spec4 1)
abbrev arrB (c : Dev nD) : Vec Ideal S8x2048x3 .f32 := V c (Pipeline.arrRef spec4 2)
abbrev arrB2 (c : Dev nD) : Vec Ideal S8x1x2048 .f32 := V c (Pipeline.arrRef spec4 3)

/-- The block index maps, decided over the grid: point t is tile t % 8 of row block t / 8. -/
theorem idxA : ∀ t : Fin cfg4.N, win4_0.index t (0 : Fin 3) = 0 ∧ win4_0.index t (1 : Fin 3) = t.val / 8 ∧ win4_0.index t (2 : Fin 3) = 0 :=
  (by decide +kernel : ∀ t : Fin grid4.N, _)
theorem idxA2 : ∀ t : Fin cfg4.N, win4_1.index t (0 : Fin 3) = 0 ∧ win4_1.index t (1 : Fin 3) = t.val / 8 ∧ win4_1.index t (2 : Fin 3) = 0 :=
  (by decide +kernel : ∀ t : Fin grid4.N, _)
theorem idxB : ∀ t : Fin cfg4.N, win4_2.index t (0 : Fin 3) = 0 ∧ win4_2.index t (1 : Fin 3) = t.val % 8 ∧ win4_2.index t (2 : Fin 3) = 0 :=
  (by decide +kernel : ∀ t : Fin grid4.N, _)
theorem idxB2 : ∀ t : Fin cfg4.N, win4_3.index t (0 : Fin 3) = 0 ∧ win4_3.index t (1 : Fin 3) = 0 ∧ win4_3.index t (2 : Fin 3) = t.val % 8 :=
  (by decide +kernel : ∀ t : Fin grid4.N, _)
theorem idxO : ∀ t : Fin cfg4.N, win4_4.index t (0 : Fin 2) = 0 ∧ win4_4.index t (1 : Fin 2) = t.val / 8 :=
  (by decide +kernel : ∀ t : Fin grid4.N, _)

/-- The row block of a at point t holds rows 256 * (t / 8) + n of a. -/
theorem blkA_at (c : Dev nD) (t : Fin cfg4.N) (i : Fin 8) (n : Fin 256) (d : Fin 3) (r : Fin 2048) (hr : r.val = 256 * (t.val / 8) + n.val)
    (x0 : Vec Ideal S8x256x3 .f32) (hx : x0 = iblk V c 0 t) : x0 (ix3 i n d) = arrA V c (ix3 i r d) := by
  subst hx
  obtain ⟨e0, e1, e2⟩ := idxA t
  unfold iblk
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t 0 * 8 + 1 * i.val = i.val; rw [e0]; omega
  | ⟨1, _⟩ => show win4_0.index t 1 * 256 + 1 * n.val = r.val; rw [e1, hr]; omega
  | ⟨2, _⟩ => show win4_0.index t 2 * 3 + 1 * d.val = d.val; rw [e2]; omega

theorem blkA2_at (c : Dev nD) (t : Fin cfg4.N) (i : Fin 8) (n : Fin 256) (r : Fin 2048) (hr : r.val = 256 * (t.val / 8) + n.val)
    (x1 : Vec Ideal S8x256x1 .f32) (hx : x1 = iblk V c 1 t) : x1 (ix3 i n 0) = arrA2 V c (ix3 i r 0) := by
  subst hx
  obtain ⟨e0, e1, e2⟩ := idxA2 t
  unfold iblk
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t 0 * 8 + 1 * i.val = i.val; rw [e0]; omega
  | ⟨1, _⟩ => show win4_1.index t 1 * 256 + 1 * n.val = r.val; rw [e1, hr]; omega
  | ⟨2, _⟩ => show win4_1.index t 2 * 1 + 1 * 0 = 0; rw [e2]

/-- The column tile of b at point t holds rows 256 * (t % 8) + m of b. -/
theorem blkB_at (c : Dev nD) (t : Fin cfg4.N) (i : Fin 8) (m : Fin 256) (d : Fin 3) (q : Fin 2048) (hq : q.val = 256 * (t.val % 8) + m.val)
    (x2 : Vec Ideal S8x256x3 .f32) (hx : x2 = iblk V c 2 t) : x2 (ix3 i m d) = arrB V c (ix3 i q d) := by
  subst hx
  obtain ⟨e0, e1, e2⟩ := idxB t
  unfold iblk
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t 0 * 8 + 1 * i.val = i.val; rw [e0]; omega
  | ⟨1, _⟩ => show win4_2.index t 1 * 256 + 1 * m.val = q.val; rw [e1, hq]; omega
  | ⟨2, _⟩ => show win4_2.index t 2 * 3 + 1 * d.val = d.val; rw [e2]; omega

theorem blkB2_at (c : Dev nD) (t : Fin cfg4.N) (i : Fin 8) (m : Fin 256) (q : Fin 2048) (hq : q.val = 256 * (t.val % 8) + m.val)
    (x3 : Vec Ideal S8x1x256 .f32) (hx : x3 = iblk V c 3 t) : x3 (ix3 i 0 m) = arrB2 V c (ix3 i 0 q) := by
  subst hx
  obtain ⟨e0, e1, e2⟩ := idxB2 t
  unfold iblk
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t 0 * 8 + 1 * i.val = i.val; rw [e0]; omega
  | ⟨1, _⟩ => show win4_3.index t 1 * 1 + 1 * 0 = 0; rw [e1]
  | ⟨2, _⟩ => show win4_3.index t 2 * 256 + 1 * m.val = q.val; rw [e2, hq]; omega

/-- The distance form between row n of a and row m of b, in batch i. -/
def dist (c : Dev nD) (i : Fin 8) (n : Fin 2048) (m : Fin 2048) : EReal :=
  Ideal.sqrt (max (arrA2 V c (ix3 i n 0) + arrB2 V c (ix3 i 0 m)
    - Ideal.ofBits .f32 0x40000000#32 * ∑ d : Fin 3, arrA V c (ix3 i n d) * arrB V c (ix3 i m d)) (Ideal.ofBits .f32 0x00000000#32))

/-- The tile's entry (n, m) at point t is the distance form at the rows the blocks hold. -/
theorem tile_at (c : Dev nD) (t : Fin cfg4.N) (i : Fin 8) (n : Fin 256) (m : Fin 256) (r : Fin 2048) (hr : r.val = 256 * (t.val / 8) + n.val)
    (q : Fin 2048) (hq : q.val = 256 * (t.val % 8) + m.val)
    (x0 : Vec Ideal S8x256x3 .f32) (x1 : Vec Ideal S8x256x1 .f32) (x2 : Vec Ideal S8x256x3 .f32) (x3 : Vec Ideal S8x1x256 .f32)
    (h0 : x0 = iblk V c 0 t) (h1 : x1 = iblk V c 1 t) (h2 : x2 = iblk V c 2 t) (h3 : x3 = iblk V c 3 t) :
    Ideal.sqrt (max (x1 (ix3 i n 0) + x3 (ix3 i 0 m) - Ideal.ofBits .f32 0x40000000#32 * ∑ d : Fin 3, x0 (ix3 i n d) * x2 (ix3 i m d)) (Ideal.ofBits .f32 0x00000000#32))
      = dist V c i r q := by
  unfold dist
  have hs : ∑ d : Fin 3, x0 (ix3 i n d) * x2 (ix3 i m d) = ∑ d : Fin 3, arrA V c (ix3 i r d) * arrB V c (ix3 i q d) :=
    Finset.sum_congr rfl fun d _ => by rw [blkA_at V c t i n d r hr x0 h0, blkB_at V c t i m d q hq x2 h2]
  rw [hs, blkA2_at V c t i n r hr x1 h1, blkB2_at V c t i m q hq x3 h3]

/-- One tile folded in: the minimum over the columns below tile t % 8 becomes the minimum over those of the next. -/
theorem step_inv (c : Dev nD) (t : Fin cfg4.N) (i : Fin 8) (n : Fin 256) (r : Fin 2048) (hr : r.val = 256 * (t.val / 8) + n.val)
    (X : Vec Ideal S8x256 .f32) (hX : IsMinBelow (dist V c i r) (256 * (t.val % 8)) (X (ix2 i n))) :
    IsMinBelow (dist V c i r) (256 * (t.val % 8) + 256)
      (k4_pay2 (F := Ideal) (iblk V c 0 t) (iblk V c 2 t) (iblk V c 1 t) (iblk V c 3 t) X (ix2 i n)) := by
  rw [Pay4.pay2_at (iblk V c 0 t) (iblk V c 2 t) (iblk V c 1 t) (iblk V c 3 t) X i n]
  exact isMinBelow_step (dist V c i r) (t.val % 8) (by omega) (X (ix2 i n)) _
    (fun m => tile_at V c t i n m r hr ⟨256 * (t.val % 8) + m.val, by have := m.isLt; omega⟩ rfl
      (iblk V c 0 t) (iblk V c 1 t) (iblk V c 2 t) (iblk V c 3 t) rfl rfl rfl rfl) hX

set_option maxHeartbeats 1000000 in
/-- The carried buffer after the first tile of a row block. -/
theorem caseA (c : Dev nD) (t : Fin cfg4.N) (h0 : t.val % 8 = 0) (h1 : ¬t.val % 8 = 7) (i : Fin 8) (n : Fin 256) (r : Fin 2048)
    (hr : r.val = 256 * (t.val / 8) + n.val) :
    IsMinBelow (dist V c i r) (256 * (t.val % 8) + 256) ((outsAt V c t.val t.isLt).2 (ix2 i n)) := by
  have e : (outsAt V c t.val t.isLt).2 = k4_pay2 (F := Ideal) (iblk V c 0 t) (iblk V c 2 t) (iblk V c 1 t) (iblk V c 3 t) (k4_pay1 (F := Ideal)) :=
    (congrArg Prod.snd (outsAt_A V c t h0 h1)).trans
      (accA_eq c (grid4.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk V c 0 t) (iblk V c 1 t) (iblk V c 2 t) (iblk V c 3 t))
  rw [e]
  refine step_inv V c t i n r hr _ ?_
  rw [Pay4.pay1_at, h0]
  exact isMinBelow_top _

set_option maxHeartbeats 1000000 in
/-- The carried buffer after a middle tile, from what the tile before left. -/
theorem caseB (c : Dev nD) (t : Fin cfg4.N) (h0 : ¬t.val % 8 = 0) (h1 : ¬t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n)) := by
  have e : (outsAt V c t.val t.isLt).2 = k4_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_B V c t h0 h1)).trans
      (accB_eq c (grid4.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2)
  rw [e]
  exact step_inv V c t i n r hr _ IH

set_option maxHeartbeats 1000000 in
/-- The carried buffer after the last tile, -/
theorem caseC (c : Dev nD) (t : Fin cfg4.N) (h0 : ¬t.val % 8 = 0) (h1 : t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).2 (ix2 i n)) := by
  have e2 : (outsAt V c t.val t.isLt).2 = k4_pay2 (F := Ideal) (iblk V c 0 t) (iblk V c 2 t) (iblk V c 1 t) (iblk V c 3 t) (outsAt V c (t.val - 1) (Nat.lt_of_le_of_lt (Nat.sub_le _ _) t.isLt)).2 :=
    (congrArg Prod.snd (outsAt_C V c t h0 h1)).trans
      (accC_eq c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  rw [e2]
  exact step_inv V c t i n r hr _ IH

set_option maxHeartbeats 1000000 in
/-- and the output block, which receives the same value. -/
theorem caseC_out (c : Dev nD) (t : Fin cfg4.N) (h0 : ¬t.val % 8 = 0) (h1 : t.val % 8 = 7) (i : Fin 8) (n : Fin 256) (r : Fin 2048)
    (hr : r.val = 256 * (t.val / 8) + n.val)
    (IH : IsMinBelow (dist V c i r) (256 * (t.val % 8)) ((outsAt V c (t.val - 1) (Nat.lt_of_le_of_lt (Nat.sub_le _ _) t.isLt)).2 (ix2 i n))) :
    IsMinBelow (dist V c i r) (256 * (t.val % 8) + 256) ((outsAt V c t.val t.isLt).1 (ix2 i n)) := by
  have e1 : (outsAt V c t.val t.isLt).1 = k4_pay2 (F := Ideal) (iblk V c 0 t) (iblk V c 2 t) (iblk V c 1 t) (iblk V c 3 t) (outsAt V c (t.val - 1) (Nat.lt_of_le_of_lt (Nat.sub_le _ _) t.isLt)).2 :=
    (congrArg Prod.fst (outsAt_C V c t h0 h1)).trans
      (blkC_eq c (grid4.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2)
  rw [e1]
  exact step_inv V c t i n r hr _ IH

/-- After tile t % 8 of row block t / 8 the carried buffer at (i, n) is the minimum of the distance form over the
    rows of b in tiles 0 .. t % 8. -/
theorem acc_inv (c : Dev nD) (t : ℕ) : ∀ (ht : t < cfg4.N) (i : Fin 8) (n : Fin 256) (r : Fin 2048) (hr : r.val = 256 * (t / 8) + n.val),
    IsMinBelow (dist V c i r) (256 * (t % 8) + 256) ((outsAt V c t ht).2 (ix2 i n)) := by
  induction t using Nat.strong_induction_on with
  | _ t ih =>
    intro ht i n r hr
    by_cases h0 : t % 8 = 0
    · exact caseA V c ⟨t, ht⟩ h0 (show ¬t % 8 = 7 from by omega) i n r hr
    · have IH := ih (t - 1) (by omega) (by omega) i n r (by omega)
      have hm : 256 * ((t - 1) % 8) + 256 = 256 * (t % 8) := by omega
      rw [hm] at IH
      by_cases h1 : t % 8 = 7
      · exact caseC V c ⟨t, ht⟩ h0 h1 i n r hr IH
      · exact caseB V c ⟨t, ht⟩ h0 h1 i n r hr IH

/-- The output block at the last tile of a row block: the minimum over every row of b. -/
theorem out_at (c : Dev nD) (t : Fin cfg4.N) (h7 : t.val % 8 = 7) (i : Fin 8) (n : Fin 256) (r : Fin 2048)
    (hr : r.val = 256 * (t.val / 8) + n.val) :
    (outsAt V c t.val t.isLt).1 (ix2 i n) = (Finset.univ : Finset (Fin 2048)).fold min ⊤ (dist V c i r) := by
  have h0 : ¬t.val % 8 = 0 := by omega
  have IH := acc_inv V c (t.val - 1) (Nat.lt_of_le_of_lt (Nat.sub_le _ _) t.isLt) i n r (by omega)
  have hm : 256 * ((t.val - 1) % 8) + 256 = 256 * (t.val % 8) := by omega
  rw [hm] at IH
  exact eq_fold_of_isMinBelow (dist V c i r) (256 * (t.val % 8) + 256) (by omega) _ (caseC_out V c t h0 h7 i n r hr IH)

/-- The output array: at (i, n) the minimum over all rows m of b of the distance form. -/
def minDist (c : Dev nD) : Vec Ideal S8x2048 .f32 :=
  fun y => (Finset.univ : Finset (Fin 2048)).fold min ⊤ (dist V c (y 0) (y 1))

/-- What a flushing point writes back is its block of that array. -/
theorem flushed_eq (c : Dev nD) (t : Fin cfg4.N) (hf : (cfg4.win 4).flush t = true) :
    (dat V c).flushed 4 t = ((cfg4.win 4).blk t).view.read (Elt Ideal) (minDist V c) := by
  have h7 : t.val % 8 = 7 := (flush4_4 t).mp hf
  have hN : cfg4.N = 64 := N_4
  obtain ⟨e0, e1⟩ := idxO t
  show (cfg4.win 4).cut (grid4.coords t) ((dat V c).after 4 t) = _
  rw [after_4]
  funext y
  obtain ⟨i, n, rfl⟩ : ∃ (i : Fin 8) (n : Fin 256), y = ix2 i n := ⟨y 0, y 1, eq_ix2 y⟩
  rw [View.read_apply]
  have hemb : ((cfg4.win 4).blk t).view.emb (ix2 i n) = ix2 i (⟨256 * (t.val / 8) + n.val, by have := t.isLt; have := n.isLt; omega⟩ : Fin 2048) :=
    funext fun a => Fin.ext (by
      match a with
      | ⟨0, _⟩ => show win4_4.index t 0 * 8 + 1 * i.val = i.val; rw [e0]; omega
      | ⟨1, _⟩ => show win4_4.index t 1 * 256 + 1 * n.val = 256 * (t.val / 8) + n.val; rw [e1]; omega)
  rw [hemb]
  exact out_at V c t h7 i n _ rfl

/-- An index of the output array is in point t's block iff each coordinate is in the block's range. -/
theorem mem_blkO (t : Fin cfg4.N) (y : S8x2048.Idx) :
    y ∈ ((cfg4.win 4).blk t).view.set ↔ ∀ a : Fin 2, win4_4.index t a * S8x256.size a ≤ (y a).val ∧ (y a).val < win4_4.index t a * S8x256.size a + S8x256.size a := by
  show y ∈ ((View.whole main_v73).slice (win4_4.rect t)).set ↔ _
  rw [View.set_slice_whole, Rect.mem_set_unit]
  exact Iff.rfl

/-- Every index of the output array is in the block of the last tile of its row block. -/
theorem covered (y : S8x2048.Idx) : ∃ t : Fin cfg4.N, (cfg4.win 4).flush t = true ∧ y ∈ ((cfg4.win 4).blk t).view.set := by
  have hN : cfg4.N = 64 := N_4
  have h0 : (y 0).val < 8 := (y 0).isLt
  have h1 : (y 1).val < 2048 := (y 1).isLt
  have ht : 8 * ((y 1).val / 256) + 7 < cfg4.N := by omega
  obtain ⟨e0, e1⟩ := idxO ⟨8 * ((y 1).val / 256) + 7, ht⟩
  refine ⟨⟨8 * ((y 1).val / 256) + 7, ht⟩, (flush4_4 _).mpr (by show (8 * ((y 1).val / 256) + 7) % 8 = 7; omega), ?_⟩
  rw [mem_blkO]
  intro a
  match a with
  | ⟨0, _⟩ =>
    show win4_4.index ⟨8 * ((y 1).val / 256) + 7, ht⟩ 0 * 8 ≤ (y 0).val ∧ (y 0).val < win4_4.index ⟨8 * ((y 1).val / 256) + 7, ht⟩ 0 * 8 + 8
    rw [e0]; omega
  | ⟨1, _⟩ =>
    show win4_4.index ⟨8 * ((y 1).val / 256) + 7, ht⟩ 1 * 256 ≤ (y 1).val ∧ (y 1).val < win4_4.index ⟨8 * ((y 1).val / 256) + 7, ht⟩ 1 * 256 + 256
    rw [e1]; show (8 * ((y 1).val / 256) + 7) / 8 * 256 ≤ (y 1).val ∧ (y 1).val < (8 * ((y 1).val / 256) + 7) / 8 * 256 + 256; omega

/-- THE OUTPUT ARRAY after the region. -/
theorem arr_out_eq (c : Dev nD) : (dat V c).arrAt 4 cfg4.N = minDist V c :=
  (dat V c).arrAt_eq_of_cover 4 (minDist V c) (flushed_eq V c) covered

/-- At (i, n): the minimum over every row m of b of sqrt (max (a2 + b2 - 2 * sum_d a * b) 0). -/
theorem arr_out (c : Dev nD) (i : Fin 8) (n : Fin 2048) :
    (dat V c).arrAt 4 cfg4.N (ix2 i n)
      = (Finset.univ : Finset (Fin 2048)).fold min ⊤ (fun m => Ideal.sqrt (max (arrA2 V c (ix3 i n 0) + arrB2 V c (ix3 i 0 m)
          - Ideal.ofBits .f32 0x40000000#32 * ∑ d : Fin 3, arrA V c (ix3 i n d) * arrB V c (ix3 i m d)) (Ideal.ofBits .f32 0x00000000#32))) :=
  congrFun (arr_out_eq V c) (ix2 i n)

/-- The input arrays are unchanged. -/
theorem arr_in0 (c : Dev nD) : (dat V c).arrAt 0 cfg4.N = V c (Pipeline.arrRef spec4 0) := ((dat V c).arrAt_in 0 rfl _).trans (A_eq V c 0)
theorem arr_in1 (c : Dev nD) : (dat V c).arrAt 1 cfg4.N = V c (Pipeline.arrRef spec4 1) := ((dat V c).arrAt_in 1 rfl _).trans (A_eq V c 1)
theorem arr_in2 (c : Dev nD) : (dat V c).arrAt 2 cfg4.N = V c (Pipeline.arrRef spec4 2) := ((dat V c).arrAt_in 2 rfl _).trans (A_eq V c 2)
theorem arr_in3 (c : Dev nD) : (dat V c).arrAt 3 cfg4.N = V c (Pipeline.arrRef spec4 3) := ((dat V c).arrAt_in 3 rfl _).trans (A_eq V c 3)

end Cert.KernelIdeal.Rgn4

end
-- ==== Proof.RefDist.lean ====
/-
  The reference's four nearest-neighbour arrays read at an index.

  The reference forms the pairwise distances d(i, n, m) = √(0 + ∑_d (p(i,n,d) − q(i,m,d))²) between two point sets by
  broadcasting both to a common four-axis shape, subtracting, squaring, summing over the coordinate axis and taking the
  square root; then it takes the minimum, from +∞, over one of the two point axes. Read at one index of the result, each
  such array is the fold of `min` from `⊤` over the reduced axis of the distance at the corresponding pair of points.
  The argument arrays are arbitrary here.
-/
import proofs.«127974_j197568496105_2_alg».proof.Proof.Gen.ReferenceIdeal.Read
import proofs.«127974_j197568496105_2_alg».proof.Proof.LibDistForms

noncomputable section

open scoped BigOperators

namespace Cert.ReferenceIdeal.RefValue

open Cert.ReferenceIdeal Cert.ReferenceIdeal.Gen Idealize.ShloMosaic Idealize.ShloMosaic.ValueIdx

/-! ## A fold of the minimum from the +∞ pattern -/

/-- The fold of the float minimum, from an initial value known to be `⊤`, of a function known pointwise. -/
theorem fold_minimumf_eq {N : Nat} (init : EReal) (hinit : init = ⊤) (f g : Fin N → EReal) (hfg : ∀ m, f m = g m) :
    Finset.fold (FloatOps.minimumf (F := Ideal) (φ := .f32)) init f (Finset.univ : Finset (Fin N))
      = Finset.fold min ⊤ g (Finset.univ : Finset (Fin N)) := by
  subst hinit
  rw [funext hfg]
  rfl

/-! ## The distances between `pts` and `kpt` -/

/-- The distance array between the points and the key points, at (i, n, k): point row `n`, key-point row `k`. -/
theorem d_pk_apply (pts : FVec Ideal S8x2048x3 .f32) (kpt : FVec Ideal S8x128x3 .f32) (i : Fin 8) (n : Fin 2048) (k : Fin 128) :
    Read.val_main_v19 (F := Ideal) pts kpt (ix3 i n k)
      = Ideal.sqrt (0 + ∑ d : Fin 3, (pts (ix3 i n d) - kpt (ix3 i k d)) * (pts (ix3 i n d) - kpt (ix3 i k d))) := by
  rw [Read.val_main_v19_apply, Read.val_main_call3_v1_apply]
  simp only [Read.val_main_call3_v0_apply, Read.val_main_v18_apply, Read.val_main_v16_apply, Read.val_main_v17_apply,
    Read.val_main_v14_apply, Read.val_main_v15_apply, Read.val_main_call3_cst_apply, Ideal.hostUnary_sqrt_def,
    Ideal.mulf_def, Ideal.subf_def, Ideal.ofBits_def, Ideal.ofBits_zero_f32]
  refine congrArg Ideal.sqrt (congrArg (0 + ·) (Finset.sum_congr rfl fun d _ => ?_))
  have e1 : Read.idx_main_v14 (Read.idx_main_v16 (Read.idx_main_call3_v1 (ix3 i n k) d)) = ix3 i n d := by
    funext a; match a with | ⟨0, _⟩ => rfl | ⟨1, _⟩ => rfl | ⟨2, _⟩ => rfl
  have e2 : Read.idx_main_v15 (Read.idx_main_v17 (Read.idx_main_call3_v1 (ix3 i n k) d)) = ix3 i k d := by
    funext a; match a with | ⟨0, _⟩ => rfl | ⟨1, _⟩ => rfl | ⟨2, _⟩ => rfl
  rw [e1, e2]

/-! ## Putting the reduced coordinate back -/

/-- Over (i, k), the index with `n` put back on axis 1 of an [8, N, M] array is (i, n, k). -/
theorem lift_axis1 {N M : Nat} (h : (⟨3, ![8, N, M]⟩ : Shape).Reduces [1] (⟨2, ![8, M]⟩ : Shape)) (i : Fin 8) (k : Fin M)
    (n : Fin ((⟨3, ![8, N, M]⟩ : Shape).size 1)) : h.lift (ix2 i k) n = ix3 i (⟨n.val, n.isLt⟩ : Fin N) k := by
  funext c; apply Fin.ext
  fin_cases c <;> rfl

/-- Over (i, n), the index with `m` put back on axis 2 of an [8, N, M] array is (i, n, m). -/
theorem lift_axis2 {N M : Nat} (h : (⟨3, ![8, N, M]⟩ : Shape).Reduces [2] (⟨2, ![8, N]⟩ : Shape)) (i : Fin 8) (n : Fin N)
    (m : Fin ((⟨3, ![8, N, M]⟩ : Shape).size 2)) : h.lift (ix2 i n) m = ix3 i n (⟨m.val, m.isLt⟩ : Fin M) := by
  funext c; apply Fin.ext
  fin_cases c <;> rfl

/-! ## The minima over the points and over the key points -/

/-- For each key point, the least distance to a point: the minimum over axis 1, at (i, k). -/
theorem val_main_v20_at (pts : FVec Ideal S8x2048x3 .f32) (kpt : FVec Ideal S8x128x3 .f32) (i : Fin 8) (k : Fin 128) :
    Read.val_main_v20 (F := Ideal) pts kpt (ix2 i k)
      = (Finset.univ : Finset (Fin 2048)).fold min ⊤ (fun n =>
          Ideal.sqrt (0 + ∑ d : Fin 3, (pts (ix3 i n d) - kpt (ix3 i k d)) * (pts (ix3 i n d) - kpt (ix3 i k d)))) := by
  unfold Read.val_main_v20
  have hR : S8x2048x128.Reduces [1] S8x128 := by decide
  refine (Host.reduce_eq_fold_single FloatOps.minimumf _ _ reducesTo_S8x2048x128_S8x128_d1 hR h_S_ (ix2 i k)).trans ?_
  refine fold_minimumf_eq _ ?_ _ _ fun n => ?_
  · rw [Read.val_main_cst_5_apply, Ideal.ofBits_def, Cert.Lib.DistForms.ofBits_inf_f32]
  · show Read.val_main_v19 (F := Ideal) pts kpt (hR.lift (ix2 i k) n) = _
    rw [lift_axis1 hR i k n]
    exact d_pk_apply pts kpt i ⟨n.val, n.isLt⟩ k

/-- For each point, the least distance to a key point: the minimum over axis 2, at (i, n). -/
theorem val_main_v23_at (pts : FVec Ideal S8x2048x3 .f32) (kpt : FVec Ideal S8x128x3 .f32) (i : Fin 8) (n : Fin 2048) :
    Read.val_main_v23 (F := Ideal) pts kpt (ix2 i n)
      = (Finset.univ : Finset (Fin 128)).fold min ⊤ (fun k =>
          Ideal.sqrt (0 + ∑ d : Fin 3, (pts (ix3 i n d) - kpt (ix3 i k d)) * (pts (ix3 i n d) - kpt (ix3 i k d)))) := by
  unfold Read.val_main_v23
  have hR : S8x2048x128.Reduces [2] S8x2048 := by decide
  refine (Host.reduce_eq_fold_single FloatOps.minimumf _ _ reducesTo_S8x2048x128_S8x2048_d2 hR h_S_ (ix2 i n)).trans ?_
  refine fold_minimumf_eq _ ?_ _ _ fun k => ?_
  · rw [Read.val_main_cst_8_apply, Ideal.ofBits_def, Cert.Lib.DistForms.ofBits_inf_f32]
  · show Read.val_main_v19 (F := Ideal) pts kpt (hR.lift (ix2 i n) k) = _
    rw [lift_axis2 hR i n k]
    exact d_pk_apply pts kpt i n ⟨k.val, k.isLt⟩

/-! ## The distances between `pts` and the reconstructed model, and their minima -/

/-- The distance array between the points and the model points, at (i, n, m): point row `n`, model row `m`. -/
theorem d_pr_apply (pts mdl : FVec Ideal S8x2048x3 .f32) (i : Fin 8) (n m : Fin 2048) :
    Read.val_main_v76 (F := Ideal) pts mdl (ix3 i n m)
      = Ideal.sqrt (0 + ∑ d : Fin 3, (pts (ix3 i n d) - mdl (ix3 i m d)) * (pts (ix3 i n d) - mdl (ix3 i m d))) := by
  rw [Read.val_main_v76_apply, Read.val_main_call8_v1_apply]
  simp only [Read.val_main_call8_v0_apply, Read.val_main_v75_apply, Read.val_main_v73_apply, Read.val_main_v74_apply,
    Read.val_main_v71_apply, Read.val_main_v72_apply, Read.val_main_call8_cst_apply, Ideal.hostUnary_sqrt_def,
    Ideal.mulf_def, Ideal.subf_def, Ideal.ofBits_def, Ideal.ofBits_zero_f32]
  refine congrArg Ideal.sqrt (congrArg (0 + ·) (Finset.sum_congr rfl fun d _ => ?_))
  have e1 : Read.idx_main_v71 (Read.idx_main_v73 (Read.idx_main_call8_v1 (ix3 i n m) d)) = ix3 i n d := by
    funext a; match a with | ⟨0, _⟩ => rfl | ⟨1, _⟩ => rfl | ⟨2, _⟩ => rfl
  have e2 : Read.idx_main_v72 (Read.idx_main_v74 (Read.idx_main_call8_v1 (ix3 i n m) d)) = ix3 i m d := by
    funext a; match a with | ⟨0, _⟩ => rfl | ⟨1, _⟩ => rfl | ⟨2, _⟩ => rfl
  rw [e1, e2]

/-- For each point, the least distance to a model point: the minimum over axis 2, at (i, n). -/
theorem val_main_v77_at (pts mdl : FVec Ideal S8x2048x3 .f32) (i : Fin 8) (n : Fin 2048) :
    Read.val_main_v77 (F := Ideal) pts mdl (ix2 i n)
      = (Finset.univ : Finset (Fin 2048)).fold min ⊤ (fun m =>
          Ideal.sqrt (0 + ∑ d : Fin 3, (pts (ix3 i n d) - mdl (ix3 i m d)) * (pts (ix3 i n d) - mdl (ix3 i m d)))) := by
  unfold Read.val_main_v77
  have hR : S8x2048x2048.Reduces [2] S8x2048 := by decide
  refine (Host.reduce_eq_fold_single FloatOps.minimumf _ _ reducesTo_S8x2048x2048_S8x2048_d2 hR h_S_ (ix2 i n)).trans ?_
  refine fold_minimumf_eq _ ?_ _ _ fun m => ?_
  · rw [Read.val_main_cst_25_apply, Ideal.ofBits_def, Cert.Lib.DistForms.ofBits_inf_f32]
  · show Read.val_main_v76 (F := Ideal) pts mdl (hR.lift (ix2 i n) m) = _
    rw [lift_axis2 hR i n m]
    exact d_pr_apply pts mdl i n ⟨m.val, m.isLt⟩

/-- For each model point, the least distance to a point: the minimum over axis 1, at (i, m). -/
theorem val_main_v80_at (pts mdl : FVec Ideal S8x2048x3 .f32) (i : Fin 8) (m : Fin 2048) :
    Read.val_main_v80 (F := Ideal) pts mdl (ix2 i m)
      = (Finset.univ : Finset (Fin 2048)).fold min ⊤ (fun n =>
          Ideal.sqrt (0 + ∑ d : Fin 3, (pts (ix3 i n d) - mdl (ix3 i m d)) * (pts (ix3 i n d) - mdl (ix3 i m d)))) := by
  unfold Read.val_main_v80
  have hR : S8x2048x2048.Reduces [1] S8x2048 := by decide
  refine (Host.reduce_eq_fold_single FloatOps.minimumf _ _ reducesTo_S8x2048x2048_S8x2048_d1 hR h_S_ (ix2 i m)).trans ?_
  refine fold_minimumf_eq _ ?_ _ _ fun n => ?_
  · rw [Read.val_main_cst_28_apply, Ideal.ofBits_def, Cert.Lib.DistForms.ofBits_inf_f32]
  · show Read.val_main_v76 (F := Ideal) pts mdl (hR.lift (ix2 i m) n) = _
    rw [lift_axis1 hR i m n]
    exact d_pr_apply pts mdl i ⟨n.val, n.isLt⟩ m

end Cert.ReferenceIdeal.RefValue
-- ==== Proof.KHost.lean ====
/-
  The host side of the program with the kernels: what the host computes before each kernel region, read at an index.

  Before each pairwise-distance region the host squares a point array elementwise, sums over the coordinate axis from 0,
  and inserts a unit axis, so that the region finds the squared norms ‖p(i,n,·)‖² = 0 + ∑_d p(i,n,d)·p(i,n,d) as a
  column [8, N, 1] for its first point set and as a row [8, 1, N] for its second. No host stretch writes an argument
  array, so every region also finds the argument arrays as launched.
-/
import proofs.«127974_j197568496105_2_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.SL.Sem
  Idealize.ShloMosaic.StableHlo Idealize.ShloMosaic.ValueIdx

/-! ## Squared norms as a column and as a row -/

/-- Over (i, n), the index with `d` put back on the last axis of an [8, N, 3] array is (i, n, d). -/
theorem lift_last {N : Nat} (h : (⟨3, ![8, N, 3]⟩ : Shape).Reduces [2] (⟨2, ![8, N]⟩ : Shape)) (i : Fin 8) (n : Fin N)
    (d : Fin ((⟨3, ![8, N, 3]⟩ : Shape).size 2)) : h.lift (ix2 i n) d = ix3 i n (⟨d.val, d.isLt⟩ : Fin 3) := by
  funext c; apply Fin.ext
  fin_cases c <;> rfl

/-- The sum of squares over the coordinate axis, from the zero pattern, at (i, n). -/
theorem sqnorm_apply {N : Nat} (a : FVec Ideal ⟨3, ![8, N, 3]⟩ .f32)
    (hr : (⟨3, ![8, N, 3]⟩ : Shape).ReducesTo [2] (⟨2, ![8, N]⟩ : Shape))
    (hR : (⟨3, ![8, N, 3]⟩ : Shape).Reduces [2] (⟨2, ![8, N]⟩ : Shape))
    (hu : 0 < (⟨0, ![]⟩ : Shape).numel) (i : Fin 8) (n : Fin N) :
    Host.reduceAdd (mulf a a) (constant (F := Ideal) (⟨0, ![]⟩ : Shape) .f32 0x00000000#32) hr hu (ix2 i n)
      = 0 + ∑ d : Fin 3, a (ix3 i n d) * a (ix3 i n d) := by
  simp only [Host.reduceAdd, Ideal.hostReduceAdd_def]
  rw [Ideal.hostReduceAdd_single hr hR]
  show Ideal.ofBits .f32 0x00000000#32 + _ = _
  rw [Ideal.ofBits_zero_f32]
  refine congrArg (0 + ·) (Finset.sum_congr rfl fun d _ => ?_)
  rw [lift_last hR i n d]
  rfl

/-- The squared norms with a unit axis appended: the column [8, N, 1] at (i, n, 0). -/
theorem sqnorm_col {N : Nat} (hN : N ≠ 1) (a : FVec Ideal ⟨3, ![8, N, 3]⟩ .f32)
    (hb : (⟨2, ![8, N]⟩ : Shape).BroadcastsInDim (⟨3, ![8, N, 1]⟩ : Shape) ![0, 1])
    (hr : (⟨3, ![8, N, 3]⟩ : Shape).ReducesTo [2] (⟨2, ![8, N]⟩ : Shape))
    (hR : (⟨3, ![8, N, 3]⟩ : Shape).Reduces [2] (⟨2, ![8, N]⟩ : Shape))
    (hu : 0 < (⟨0, ![]⟩ : Shape).numel) (i : Fin 8) (n : Fin N) (z : Fin 1) :
    broadcastInDim (⟨3, ![8, N, 1]⟩ : Shape) ![0, 1] hb
        (Host.reduceAdd (mulf a a) (constant (F := Ideal) (⟨0, ![]⟩ : Shape) .f32 0x00000000#32) hr hu) (ix3 i n z)
      = 0 + ∑ d : Fin 3, a (ix3 i n d) * a (ix3 i n d) := by
  refine (broadcastInDim_apply _ hb _ (ix3 i n z) (ix2 i n) (fun c => ?_)).trans (sqnorm_apply a hr hR hu i n)
  match c with
  | ⟨0, _⟩ => show i.val = if (8 : Nat) = 1 then 0 else i.val; rw [if_neg (by decide)]
  | ⟨1, _⟩ => show n.val = if N = 1 then 0 else n.val; rw [if_neg hN]

/-- The squared norms with a unit axis inserted in the middle: the row [8, 1, N] at (i, 0, n). -/
theorem sqnorm_row {N : Nat} (hN : N ≠ 1) (a : FVec Ideal ⟨3, ![8, N, 3]⟩ .f32)
    (hb : (⟨2, ![8, N]⟩ : Shape).BroadcastsInDim (⟨3, ![8, 1, N]⟩ : Shape) ![0, 2])
    (hr : (⟨3, ![8, N, 3]⟩ : Shape).ReducesTo [2] (⟨2, ![8, N]⟩ : Shape))
    (hR : (⟨3, ![8, N, 3]⟩ : Shape).Reduces [2] (⟨2, ![8, N]⟩ : Shape))
    (hu : 0 < (⟨0, ![]⟩ : Shape).numel) (i : Fin 8) (z : Fin 1) (n : Fin N) :
    broadcastInDim (⟨3, ![8, 1, N]⟩ : Shape) ![0, 2] hb
        (Host.reduceAdd (mulf a a) (constant (F := Ideal) (⟨0, ![]⟩ : Shape) .f32 0x00000000#32) hr hu) (ix3 i z n)
      = 0 + ∑ d : Fin 3, a (ix3 i n d) * a (ix3 i n d) := by
  refine (broadcastInDim_apply _ hb _ (ix3 i z n) (ix2 i n) (fun c => ?_)).trans (sqnorm_apply a hr hR hu i n)
  match c with
  | ⟨0, _⟩ => show i.val = if (8 : Nat) = 1 then 0 else i.val; rw [if_neg (by decide)]
  | ⟨1, _⟩ => show n.val = if N = 1 then 0 else n.val; rw [if_neg hN]

/-! ## What no item touches -/

variable (m : (ℓ : Loc nD τ sig) → Buf (Elt Ideal) ℓ) (outs : Outs (F := Ideal))

/-- What each of the 23 items may write: a host stretch its results, a region its output array. -/
abbrev itemWrites : List (List (Ref sig .tc)) :=
  [hostOps0_W, hostOps0_1_W, hostOps0_2_W, hostOps0_3_W, hostOps0_4_W, hostOps0_5_W, hostOps0_6_W, [main_v20], hostOps1_W,
   [main_v27], hostOps2_W, hostOps2_1_W, hostOps2_2_W, hostOps2_3_W, hostOps2_4_W, [main_v57], hostOps3_W, [main_v66],
   hostOps4_W, [main_v73], hostOps5_W, hostOps5_1_W, hostOps5_2_W]

/-- A reference that no item writes (an argument array, for one). -/
abbrev Untouched (r : Ref sig .tc) : Prop := ∀ L ∈ (itemWrites : List (List (Ref sig .tc))), r ∉ L

/-! A reference no item writes holds its launch contents at every point between the items: one step per item. -/

theorem V1_launch (c : Dev nD) (r : Ref sig .tc) (h : Untouched r) : V1 m c r = m ((c : Thread nD τ).loc r) :=
  (V1_of m c r (h _ (by simp [itemWrites]))).trans rfl
theorem V2_launch (c : Dev nD) (r : Ref sig .tc) (h : Untouched r) : V2 m c r = m ((c : Thread nD τ).loc r) :=
  (V2_of m c r (h _ (by simp [itemWrites]))).trans (V1_launch m c r h)
theorem V3_launch (c : Dev nD) (r : Ref sig .tc) (h : Untouched r) : V3 m c r = m ((c : Thread nD τ).loc r) :=
  (V3_of m c r (h _ (by simp [itemWrites]))).trans (V2_launch m c r h)
theorem V4_launch (c : Dev nD) (r : Ref sig .tc) (h : Untouched r) : V4 m c r = m ((c : Thread nD τ).loc r) :=
  (V4_of m c r (h _ (by simp [itemWrites]))).trans (V3_launch m c r h)
theorem V5_launch (c : Dev nD) (r : Ref sig .tc) (h : Untouched r) : V5 m c r = m ((c : Thread nD τ).loc r) :=
  (V5_of m c r (h _ (by simp [itemWrites]))).trans (V4_launch m c r h)
theorem V6_launch (c : Dev nD) (r : Ref sig .tc) (h : Untouched r) : V6 m c r = m ((c : Thread nD τ).loc r) :=
  (V6_of m c r (h _ (by simp [itemWrites]))).trans (V5_launch m c r h)
theorem V7_launch (c : Dev nD) (r : Ref sig .tc) (h : Untouched r) : V7 m c r = m ((c : Thread nD τ).loc r) :=
  (V7_of m c r (h _ (by simp [itemWrites]))).trans (V6_launch m c r h)
theorem V8_launch (c : Dev nD) (r : Ref sig .tc) (h : Untouched r) : V8 m outs c r = m ((c : Thread nD τ).loc r) :=
  (V8_of m outs c r (h _ (by simp [itemWrites]))).trans (V7_launch m c r h)
theorem V9_launch (c : Dev nD) (r : Ref sig .tc) (h : Untouched r) : V9 m outs c r = m ((c : Thread nD τ).loc r) :=
  (V9_of m outs c r (h _ (by simp [itemWrites]))).trans (V8_launch m outs c r h)
theorem V10_launch (c : Dev nD) (r : Ref sig .tc) (h : Untouched r) : V10 m outs c r = m ((c : Thread nD τ).loc r) :=
  (V10_of m outs c r (h _ (by simp [itemWrites]))).trans (V9_launch m outs c r h)
theorem V11_launch (c : Dev nD) (r : Ref sig .tc) (h : Untouched r) : V11 m outs c r = m ((c : Thread nD τ).loc r) :=
  (V11_of m outs c r (h _ (by simp [itemWrites]))).trans (V10_launch m outs c r h)
theorem V12_launch (c : Dev nD) (r : Ref sig .tc) (h : Untouched r) : V12 m outs c r = m ((c : Thread nD τ).loc r) :=
  (V12_of m outs c r (h _ (by simp [itemWrites]))).trans (V11_launch m outs c r h)
theorem V13_launch (c : Dev nD) (r : Ref sig .tc) (h : Untouched r) : V13 m outs c r = m ((c : Thread nD τ).loc r) :=
  (V13_of m outs c r (h _ (by simp [itemWrites]))).trans (V12_launch m outs c r h)
theorem V14_launch (c : Dev nD) (r : Ref sig .tc) (h : Untouched r) : V14 m outs c r = m ((c : Thread nD τ).loc r) :=
  (V14_of m outs c r (h _ (by simp [itemWrites]))).trans (V13_launch m outs c r h)
theorem V15_launch (c : Dev nD) (r : Ref sig .tc) (h : Untouched r) : V15 m outs c r = m ((c : Thread nD τ).loc r) :=
  (V15_of m outs c r (h _ (by simp [itemWrites]))).trans (V14_launch m outs c r h)
theorem V16_launch (c : Dev nD) (r : Ref sig .tc) (h : Untouched r) : V16 m outs c r = m ((c : Thread nD τ).loc r) :=
  (V16_of m outs c r (h _ (by simp [itemWrites]))).trans (V15_launch m outs c r h)
theorem V17_launch (c : Dev nD) (r : Ref sig .tc) (h : Untouched r) : V17 m outs c r = m ((c : Thread nD τ).loc r) :=
  (V17_of m outs c r (h _ (by simp [itemWrites]))).trans (V16_launch m outs c r h)
theorem V18_launch (c : Dev nD) (r : Ref sig .tc) (h : Untouched r) : V18 m outs c r = m ((c : Thread nD τ).loc r) :=
  (V18_of m outs c r (h _ (by simp [itemWrites]))).trans (V17_launch m outs c r h)
theorem V19_launch (c : Dev nD) (r : Ref sig .tc) (h : Untouched r) : V19 m outs c r = m ((c : Thread nD τ).loc r) :=
  (V19_of m outs c r (h _ (by simp [itemWrites]))).trans (V18_launch m outs c r h)
theorem V20_launch (c : Dev nD) (r : Ref sig .tc) (h : Untouched r) : V20 m outs c r = m ((c : Thread nD τ).loc r) :=
  (V20_of m outs c r (h _ (by simp [itemWrites]))).trans (V19_launch m outs c r h)
theorem V21_launch (c : Dev nD) (r : Ref sig .tc) (h : Untouched r) : V21 m outs c r = m ((c : Thread nD τ).loc r) :=
  (V21_of m outs c r (h _ (by simp [itemWrites]))).trans (V20_launch m outs c r h)
theorem V22_launch (c : Dev nD) (r : Ref sig .tc) (h : Untouched r) : V22 m outs c r = m ((c : Thread nD τ).loc r) :=
  (V22_of m outs c r (h _ (by simp [itemWrites]))).trans (V21_launch m outs c r h)

/-! ## The arguments -/

/-- The argument arrays of @main on core `c`, as launched. -/
abbrev a0 (c : Dev nD) : FVec Ideal S8x2048x3 .f32 := m ((c : Thread nD τ).loc main_arg0)
abbrev a1 (c : Dev nD) : FVec Ideal S8x2048x3 .f32 := m ((c : Thread nD τ).loc main_arg1)
abbrev a2 (c : Dev nD) : FVec Ideal S8x128x3 .f32 := m ((c : Thread nD τ).loc main_arg2)
abbrev a3 (c : Dev nD) : FVec Ideal S8x2048x3 .f32 := m ((c : Thread nD τ).loc main_arg3)
abbrev a4 (c : Dev nD) : FVec Ideal S8x128x3 .f32 := m ((c : Thread nD τ).loc main_arg4)
abbrev a5 (c : Dev nD) : FVec Ideal S8x3x3 .f32 := m ((c : Thread nD τ).loc main_arg5)
abbrev a6 (c : Dev nD) : FVec Ideal S8x3 .f32 := m ((c : Thread nD τ).loc main_arg6)
abbrev a7 (c : Dev nD) : FVec Ideal S8x3 .f32 := m ((c : Thread nD τ).loc main_arg7)
abbrev a8 (c : Dev nD) : FVec Ideal S8x3x3 .f32 := m ((c : Thread nD τ).loc main_arg8)
abbrev a9 (c : Dev nD) : FVec Ideal S8x3 .f32 := m ((c : Thread nD τ).loc main_arg9)
abbrev a10 (c : Dev nD) : FVec Ideal S8x3 .f32 := m ((c : Thread nD τ).loc main_arg10)

theorem untouched_arg0 : Untouched main_arg0 := by decide
theorem untouched_arg1 : Untouched main_arg1 := by decide
theorem untouched_arg2 : Untouched main_arg2 := by decide
theorem untouched_arg3 : Untouched main_arg3 := by decide
theorem untouched_arg4 : Untouched main_arg4 := by decide
theorem untouched_arg5 : Untouched main_arg5 := by decide
theorem untouched_arg6 : Untouched main_arg6 := by decide
theorem untouched_arg7 : Untouched main_arg7 := by decide
theorem untouched_arg8 : Untouched main_arg8 := by decide
theorem untouched_arg9 : Untouched main_arg9 := by decide
theorem untouched_arg10 : Untouched main_arg10 := by decide

/-! The regions find the arguments themselves. -/

theorem V7_arg0 (c : Dev nD) : V7 m c main_arg0 = a0 m c := V7_launch m c main_arg0 untouched_arg0
theorem V7_arg2 (c : Dev nD) : V7 m c main_arg2 = a2 m c := V7_launch m c main_arg2 untouched_arg2
theorem V9_arg2 (c : Dev nD) : V9 m outs c main_arg2 = a2 m c := V9_launch m outs c main_arg2 untouched_arg2
theorem V9_arg0 (c : Dev nD) : V9 m outs c main_arg0 = a0 m c := V9_launch m outs c main_arg0 untouched_arg0
theorem V15_arg2 (c : Dev nD) : V15 m outs c main_arg2 = a2 m c := V15_launch m outs c main_arg2 untouched_arg2
theorem V17_arg0 (c : Dev nD) : V17 m outs c main_arg0 = a0 m c := V17_launch m outs c main_arg0 untouched_arg0
theorem V17_arg3 (c : Dev nD) : V17 m outs c main_arg3 = a3 m c := V17_launch m outs c main_arg3 untouched_arg3
theorem V19_arg3 (c : Dev nD) : V19 m outs c main_arg3 = a3 m c := V19_launch m outs c main_arg3 untouched_arg3
theorem V19_arg0 (c : Dev nD) : V19 m outs c main_arg0 = a0 m c := V19_launch m outs c main_arg0 untouched_arg0

/-! ## The squared norms the regions find -/

/-- Region 0's first operand norms: the points', as a column. -/
theorem V7_main_v16_at (c : Dev nD) (i : Fin 8) (n : Fin 2048) (z : Fin 1) :
    (V7 m c main_v16 : S8x2048x1.Idx → EReal) (ix3 i n z) = 0 + ∑ d : Fin 3, a0 m c (ix3 i n d) * a0 m c (ix3 i n d) := by
  have e : (V7 m c main_v16 : S8x2048x1.Idx → EReal)
      = broadcastInDim S8x2048x1 ![0, 1] bcast_S8x2048_S8x2048x1_0_1
          (Host.reduceAdd (mulf (V6 m c main_arg0) (V6 m c main_arg0)) (constant (F := Ideal) S_ .f32 0x00000000#32)
            reducesTo_S8x2048x3_S8x2048_d2 h_S_) := by
    show StableHlo.after hostOps0_6 (V6 m c) (Proc.devRef .tc main_v16) = _
    after_results
  rw [e, V6_launch m c main_arg0 untouched_arg0]
  exact sqnorm_col (by decide) (a0 m c) _ _ (by decide) _ i n z

/-- Region 0's second operand norms: the key points', as a row. -/
theorem V7_main_v19_at (c : Dev nD) (i : Fin 8) (z : Fin 1) (k : Fin 128) :
    (V7 m c main_v19 : S8x1x128.Idx → EReal) (ix3 i z k) = 0 + ∑ d : Fin 3, a2 m c (ix3 i k d) * a2 m c (ix3 i k d) := by
  have e : (V7 m c main_v19 : S8x1x128.Idx → EReal)
      = broadcastInDim S8x1x128 ![0, 2] bcast_S8x128_S8x1x128_0_2
          (Host.reduceAdd (mulf (V6 m c main_arg2) (V6 m c main_arg2)) (constant (F := Ideal) S_ .f32 0x00000000#32)
            reducesTo_S8x128x3_S8x128_d2 h_S_) := by
    show StableHlo.after hostOps0_6 (V6 m c) (Proc.devRef .tc main_v19) = _
    after_results
  rw [e, V6_launch m c main_arg2 untouched_arg2]
  exact sqnorm_row (by decide) (a2 m c) _ _ (by decide) _ i z k

/-- Region 1's first operand norms: the key points', as a column. -/
theorem V9_main_v23_at (c : Dev nD) (i : Fin 8) (k : Fin 128) (z : Fin 1) :
    (V9 m outs c main_v23 : S8x128x1.Idx → EReal) (ix3 i k z) = 0 + ∑ d : Fin 3, a2 m c (ix3 i k d) * a2 m c (ix3 i k d) := by
  have e : (V9 m outs c main_v23 : S8x128x1.Idx → EReal)
      = broadcastInDim S8x128x1 ![0, 1] bcast_S8x128_S8x128x1_0_1
          (Host.reduceAdd (mulf (V8 m outs c main_arg2) (V8 m outs c main_arg2)) (constant (F := Ideal) S_ .f32 0x00000000#32)
            reducesTo_S8x128x3_S8x128_d2 h_S_) := by
    show StableHlo.after hostOps1 (V8 m outs c) (Proc.devRef .tc main_v23) = _
    after_results
  rw [e, V8_launch m outs c main_arg2 untouched_arg2]
  exact sqnorm_col (by decide) (a2 m c) _ _ (by decide) _ i k z

/-- Region 1's second operand norms: the points', as a row. -/
theorem V9_main_v26_at (c : Dev nD) (i : Fin 8) (z : Fin 1) (n : Fin 2048) :
    (V9 m outs c main_v26 : S8x1x2048.Idx → EReal) (ix3 i z n) = 0 + ∑ d : Fin 3, a0 m c (ix3 i n d) * a0 m c (ix3 i n d) := by
  have e : (V9 m outs c main_v26 : S8x1x2048.Idx → EReal)
      = broadcastInDim S8x1x2048 ![0, 2] bcast_S8x2048_S8x1x2048_0_2
          (Host.reduceAdd (mulf (V8 m outs c main_arg0) (V8 m outs c main_arg0)) (constant (F := Ideal) S_ .f32 0x00000000#32)
            reducesTo_S8x2048x3_S8x2048_d2 h_S_) := by
    show StableHlo.after hostOps1 (V8 m outs c) (Proc.devRef .tc main_v26) = _
    after_results
  rw [e, V8_launch m outs c main_arg0 untouched_arg0]
  exact sqnorm_row (by decide) (a0 m c) _ _ (by decide) _ i z n

/-- Region 3's first operand norms: the points', as a column. -/
theorem V17_main_v62_at (c : Dev nD) (i : Fin 8) (n : Fin 2048) (z : Fin 1) :
    (V17 m outs c main_v62 : S8x2048x1.Idx → EReal) (ix3 i n z) = 0 + ∑ d : Fin 3, a0 m c (ix3 i n d) * a0 m c (ix3 i n d) := by
  have e : (V17 m outs c main_v62 : S8x2048x1.Idx → EReal)
      = broadcastInDim S8x2048x1 ![0, 1] bcast_S8x2048_S8x2048x1_0_1
          (Host.reduceAdd (mulf (V16 m outs c main_arg0) (V16 m outs c main_arg0)) (constant (F := Ideal) S_ .f32 0x00000000#32)
            reducesTo_S8x2048x3_S8x2048_d2 h_S_) := by
    show StableHlo.after hostOps3 (V16 m outs c) (Proc.devRef .tc main_v62) = _
    after_results
  rw [e, V16_launch m outs c main_arg0 untouched_arg0]
  exact sqnorm_col (by decide) (a0 m c) _ _ (by decide) _ i n z

/-- Region 3's second operand norms: the model points', as a row. -/
theorem V17_main_v65_at (c : Dev nD) (i : Fin 8) (z : Fin 1) (n : Fin 2048) :
    (V17 m outs c main_v65 : S8x1x2048.Idx → EReal) (ix3 i z n) = 0 + ∑ d : Fin 3, a3 m c (ix3 i n d) * a3 m c (ix3 i n d) := by
  have e : (V17 m outs c main_v65 : S8x1x2048.Idx → EReal)
      = broadcastInDim S8x1x2048 ![0, 2] bcast_S8x2048_S8x1x2048_0_2
          (Host.reduceAdd (mulf (V16 m outs c main_arg3) (V16 m outs c main_arg3)) (constant (F := Ideal) S_ .f32 0x00000000#32)
            reducesTo_S8x2048x3_S8x2048_d2 h_S_) := by
    show StableHlo.after hostOps3 (V16 m outs c) (Proc.devRef .tc main_v65) = _
    after_results
  rw [e, V16_launch m outs c main_arg3 untouched_arg3]
  exact sqnorm_row (by decide) (a3 m c) _ _ (by decide) _ i z n

/-- Region 4's first operand norms: the model points', as a column. -/
theorem V19_main_v69_at (c : Dev nD) (i : Fin 8) (n : Fin 2048) (z : Fin 1) :
    (V19 m outs c main_v69 : S8x2048x1.Idx → EReal) (ix3 i n z) = 0 + ∑ d : Fin 3, a3 m c (ix3 i n d) * a3 m c (ix3 i n d) := by
  have e : (V19 m outs c main_v69 : S8x2048x1.Idx → EReal)
      = broadcastInDim S8x2048x1 ![0, 1] bcast_S8x2048_S8x2048x1_0_1
          (Host.reduceAdd (mulf (V18 m outs c main_arg3) (V18 m outs c main_arg3)) (constant (F := Ideal) S_ .f32 0x00000000#32)
            reducesTo_S8x2048x3_S8x2048_d2 h_S_) := by
    show StableHlo.after hostOps4 (V18 m outs c) (Proc.devRef .tc main_v69) = _
    after_results
  rw [e, V18_launch m outs c main_arg3 untouched_arg3]
  exact sqnorm_col (by decide) (a3 m c) _ _ (by decide) _ i n z

/-- Region 4's second operand norms: the points', as a row. -/
theorem V19_main_v72_at (c : Dev nD) (i : Fin 8) (z : Fin 1) (n : Fin 2048) :
    (V19 m outs c main_v72 : S8x1x2048.Idx → EReal) (ix3 i z n) = 0 + ∑ d : Fin 3, a0 m c (ix3 i n d) * a0 m c (ix3 i n d) := by
  have e : (V19 m outs c main_v72 : S8x1x2048.Idx → EReal)
      = broadcastInDim S8x1x2048 ![0, 2] bcast_S8x2048_S8x1x2048_0_2
          (Host.reduceAdd (mulf (V18 m outs c main_arg0) (V18 m outs c main_arg0)) (constant (F := Ideal) S_ .f32 0x00000000#32)
            reducesTo_S8x2048x3_S8x2048_d2 h_S_) := by
    show StableHlo.after hostOps4 (V18 m outs c) (Proc.devRef .tc main_v72) = _
    after_results
  rw [e, V18_launch m outs c main_arg0 untouched_arg0]
  exact sqnorm_row (by decide) (a0 m c) _ _ (by decide) _ i z n

end Cert.KernelIdeal.KHost
-- ==== Proof.Bridge.lean ====
import proofs.«127974_j197568496105_2_alg».proof.Proof.KernelIdeal.Frame
import proofs.«127974_j197568496105_2_alg».proof.Proof.KernelIdeal.Val0
import proofs.«127974_j197568496105_2_alg».proof.Proof.KernelIdeal.Val1
import proofs.«127974_j197568496105_2_alg».proof.Proof.KernelIdeal.Val3
import proofs.«127974_j197568496105_2_alg».proof.Proof.KernelIdeal.Val4
import proofs.«127974_j197568496105_2_alg».proof.Proof.RefDist
import proofs.«127974_j197568496105_2_alg».proof.Proof.LibDistForms
import proofs.«127974_j197568496105_2_alg».proof.Proof.KHost

noncomputable section

namespace Cert.Bridge

open Cert.KernelIdeal Cert.KernelIdeal.Gen Cert.KernelIdeal.Frm Cert.KernelIdeal.KHost
open Idealize.ShloMosaic Idealize.ShloMosaic.TcCoe Idealize.ShloMosaic.ValueIdx Idealize.SL.Sem
open Cert.Lib.DistForms

variable (m : (ℓ : Loc nD τ sig) → Buf (Elt Ideal) ℓ) (outs : Outs (F := Ideal))

/-! # The four nearest-point arrays: the regions' outputs are the reference's min-reductions

At an entry both sides are a minimum over the other point set of a distance; the kernel's distance is the expanded form
‖a‖² + ‖b‖² − 2 a·b clamped at zero under the root, the reference's the root of the summed squared differences, and on
real coordinates the two agree. -/

/-- Region 0 (each point against the key points) is the reference's minimum over the key-point axis. -/
theorem out0_eq (hO : OutsOk m outs) (c : Dev nD) (h0 : ∀ j, a0 m c j ≠ ⊤ ∧ a0 m c j ≠ ⊥) (h2 : ∀ j, a2 m c j ≠ ⊤ ∧ a2 m c j ≠ ⊥) :
    outs 8 main_v20 c = Cert.ReferenceIdeal.Read.val_main_v23 (F := Ideal) (a0 m c) (a2 m c) := by
  rw [hO.h0 c]
  funext j
  obtain ⟨i, n, rfl⟩ : ∃ (i : Fin 8) (n : Fin 2048), j = ix2 i n := ⟨j 0, j 1, eq_ix2 j⟩
  refine (Rgn0.arr_out (E0 m) c i n).trans ?_
  refine Eq.trans ?_ (Cert.ReferenceIdeal.RefValue.val_main_v23_at (a0 m c) (a2 m c) i n).symm
  refine fold_min_congr _ _ fun k => ?_
  refine dist_forms_of_eq (fun d => a0 m c (ix3 i n d)) (fun d => a2 m c (ix3 i k d)) (fun d => h0 _) (fun d => h2 _) _ _ _ ?_ ?_ ?_
  · exact V7_main_v16_at m c i n 0
  · exact V7_main_v19_at m c i 0 k
  · rw [show Rgn0.arrA (E0 m) c = a0 m c from V7_arg0 m c, show Rgn0.arrB (E0 m) c = a2 m c from V7_arg2 m c]

/-- Region 1 (each key point against the points) is the reference's minimum over the point axis. -/
theorem out1_eq (hO : OutsOk m outs) (c : Dev nD) (h0 : ∀ j, a0 m c j ≠ ⊤ ∧ a0 m c j ≠ ⊥) (h2 : ∀ j, a2 m c j ≠ ⊤ ∧ a2 m c j ≠ ⊥) :
    outs 10 main_v27 c = Cert.ReferenceIdeal.Read.val_main_v20 (F := Ideal) (a0 m c) (a2 m c) := by
  rw [hO.h1 c]
  funext j
  obtain ⟨i, k, rfl⟩ : ∃ (i : Fin 8) (k : Fin 128), j = ix2 i k := ⟨j 0, j 1, eq_ix2 j⟩
  refine (Rgn1.arr_out (E1 m outs) c i k).trans ?_
  refine Eq.trans ?_ (Cert.ReferenceIdeal.RefValue.val_main_v20_at (a0 m c) (a2 m c) i k).symm
  refine fold_min_congr _ _ fun n => ?_
  refine dist_forms_swap_of_eq (fun d => a2 m c (ix3 i k d)) (fun d => a0 m c (ix3 i n d)) (fun d => h2 _) (fun d => h0 _) _ _ _ ?_ ?_ ?_
  · exact V9_main_v23_at m outs c i k 0
  · exact V9_main_v26_at m outs c i 0 n
  · rw [show Rgn1.arrA (E1 m outs) c = a2 m c from V9_arg2 m outs c, show Rgn1.arrB (E1 m outs) c = a0 m c from V9_arg0 m outs c]

/-- Region 3 (each point against the model) is the reference's minimum over the model axis. -/
theorem out3_eq (hO : OutsOk m outs) (c : Dev nD) (h0 : ∀ j, a0 m c j ≠ ⊤ ∧ a0 m c j ≠ ⊥) (h3 : ∀ j, a3 m c j ≠ ⊤ ∧ a3 m c j ≠ ⊥) :
    outs 18 main_v66 c = Cert.ReferenceIdeal.Read.val_main_v77 (F := Ideal) (a0 m c) (a3 m c) := by
  rw [hO.h3 c]
  funext j
  obtain ⟨i, n, rfl⟩ : ∃ (i : Fin 8) (n : Fin 2048), j = ix2 i n := ⟨j 0, j 1, eq_ix2 j⟩
  refine (Rgn3.arr_out (E3 m outs) c i n).trans ?_
  refine Eq.trans ?_ (Cert.ReferenceIdeal.RefValue.val_main_v77_at (a0 m c) (a3 m c) i n).symm
  refine fold_min_congr _ _ fun k => ?_
  refine dist_forms_of_eq (fun d => a0 m c (ix3 i n d)) (fun d => a3 m c (ix3 i k d)) (fun d => h0 _) (fun d => h3 _) _ _ _ ?_ ?_ ?_
  · exact V17_main_v62_at m outs c i n 0
  · exact V17_main_v65_at m outs c i 0 k
  · rw [show Rgn3.arrA (E3 m outs) c = a0 m c from V17_arg0 m outs c, show Rgn3.arrB (E3 m outs) c = a3 m c from V17_arg3 m outs c]

/-- Region 4 (each model point against the points) is the reference's minimum over the point axis. -/
theorem out4_eq (hO : OutsOk m outs) (c : Dev nD) (h0 : ∀ j, a0 m c j ≠ ⊤ ∧ a0 m c j ≠ ⊥) (h3 : ∀ j, a3 m c j ≠ ⊤ ∧ a3 m c j ≠ ⊥) :
    outs 20 main_v73 c = Cert.ReferenceIdeal.Read.val_main_v80 (F := Ideal) (a0 m c) (a3 m c) := by
  rw [hO.h4 c]
  funext j
  obtain ⟨i, k, rfl⟩ : ∃ (i : Fin 8) (k : Fin 2048), j = ix2 i k := ⟨j 0, j 1, eq_ix2 j⟩
  refine (Rgn4.arr_out (E4 m outs) c i k).trans ?_
  refine Eq.trans ?_ (Cert.ReferenceIdeal.RefValue.val_main_v80_at (a0 m c) (a3 m c) i k).symm
  refine fold_min_congr _ _ fun n => ?_
  refine dist_forms_swap_of_eq (fun d => a3 m c (ix3 i k d)) (fun d => a0 m c (ix3 i n d)) (fun d => h3 _) (fun d => h0 _) _ _ _ ?_ ?_ ?_
  · exact V19_main_v69_at m outs c i k 0
  · exact V19_main_v72_at m outs c i 0 n
  · rw [show Rgn4.arrA (E4 m outs) c = a3 m c from V19_arg3 m outs c, show Rgn4.arrB (E4 m outs) c = a0 m c from V19_arg0 m outs c]

end Cert.Bridge

end
-- ==== Proof.RefDiv.lean ====
/-
  The reference's thresholded sum of pairwise key-point distances, read in closed form.

  The reference forms, for every batch `i` and pair of key points (k, k'), the squared distance
  0 + ∑_d (q(i,k,d) − q(i,k',d))², replaces it on the diagonal k = k' by 1 (so that the root is safe there), takes the
  root, replaces the diagonal by +∞, clamps at the threshold with a minimum, and adds everything up from 0. The
  diagonal mask is the equality of two coordinate words. So each entry is the threshold on the diagonal and the minimum
  of the distance and the threshold off it, and the whole is the triple sum of these over i, k, k'.
-/
import proofs.«127974_j197568496105_2_alg».proof.Proof.Gen.ReferenceIdeal.Read
import proofs.«127974_j197568496105_2_alg».proof.Proof.LibDivForms

noncomputable section

open scoped BigOperators

namespace Cert.ReferenceIdeal.RefValue

open Cert.ReferenceIdeal Cert.ReferenceIdeal.Gen Idealize.ShloMosaic Idealize.ShloMosaic.ValueIdx

/-- The diagonal mask at (k, k'): the bit of `k = k'`. -/
theorem mask_at (k k' : Fin 128) :
    Read.val_main_v55 (F := Ideal) (ix2 k k') = if k = k' then 1#1 else 0#1 := by
  rw [Read.val_main_v55_apply, Read.val_main_v54_apply, Read.val_main_v51_apply, Read.val_main_v52_apply,
    Read.val_main_v53_apply, Read.val_main_c_apply]
  show IntOp.cmpi .eq (IntOp.addi (BitVec.ofNat 32 k.val) 0#32) (BitVec.ofNat 32 k'.val) = _
  rw [Cert.Lib.DivForms.cmpi_eq_addi_zero (by have := k.isLt; omega) (by have := k'.isLt; omega)]
  simp only [Fin.val_inj]

/-- The squared distance between key points `k` and `k'` of batch `i`. -/
theorem d2_kk_apply (kpt : FVec Ideal S8x128x3 .f32) (i : Fin 8) (k k' : Fin 128) :
    Read.val_main_v63 (F := Ideal) kpt (ix3 i k k')
      = 0 + ∑ d : Fin 3, (kpt (ix3 i k d) - kpt (ix3 i k' d)) * (kpt (ix3 i k d) - kpt (ix3 i k' d)) := by
  rw [Read.val_main_v63_apply]
  simp only [Read.val_main_v62_apply, Read.val_main_v61_apply, Read.val_main_v59_apply, Read.val_main_v60_apply,
    Read.val_main_v57_apply, Read.val_main_v58_apply, Read.val_main_cst_19_apply,
    Ideal.mulf_def, Ideal.subf_def, Ideal.ofBits_def, Ideal.ofBits_zero_f32]
  refine congrArg (0 + ·) (Finset.sum_congr rfl fun d _ => ?_)
  have e1 : Read.idx_main_v57 (Read.idx_main_v59 (Read.idx_main_v63 (ix3 i k k') d)) = ix3 i k d := by
    funext a; match a with | ⟨0, _⟩ => rfl | ⟨1, _⟩ => rfl | ⟨2, _⟩ => rfl
  have e2 : Read.idx_main_v58 (Read.idx_main_v60 (Read.idx_main_v63 (ix3 i k k') d)) = ix3 i k' d := by
    funext a; match a with | ⟨0, _⟩ => rfl | ⟨1, _⟩ => rfl | ⟨2, _⟩ => rfl
  rw [e1, e2]

/-- One entry of the clamped array: the threshold on the diagonal, the smaller of the distance and the threshold off it. -/
theorem val_main_v68_at (kpt : FVec Ideal S8x128x3 .f32) (i : Fin 8) (k k' : Fin 128) :
    Read.val_main_v68 (F := Ideal) kpt (ix3 i k k')
      = if k = k' then Ideal.ofBits .f32 0x3DCCCCCD#32
        else min (Ideal.sqrt (0 + ∑ d : Fin 3, (kpt (ix3 i k d) - kpt (ix3 i k' d)) * (kpt (ix3 i k d) - kpt (ix3 i k' d))))
          (Ideal.ofBits .f32 0x3DCCCCCD#32) := by
  have hm7 : Read.val_main_call7_v1 (F := Ideal) (ix3 i k k') = if k = k' then 1#1 else 0#1 := by
    rw [Read.val_main_call7_v1_apply, Read.val_main_v56_apply]
    exact mask_at k k'
  have hm6 : Read.val_main_call6_v1 (F := Ideal) (ix3 i k k') = if k = k' then 1#1 else 0#1 := by
    rw [Read.val_main_call6_v1_apply, Read.val_main_v56_apply]
    exact mask_at k k'
  rw [Read.val_main_v68_apply, Read.val_main_v66_apply, Read.val_main_v65_apply, Read.val_main_v64_apply, hm7, hm6,
    d2_kk_apply, Cert.Lib.DivForms.select_ite, Cert.Lib.DivForms.select_ite]
  simp only [Read.val_main_v67_apply, Read.val_main_cst_22_apply, Read.val_main_call7_v2_apply, Read.val_main_call7_v0_apply,
    Read.val_main_cst_21_apply, Read.val_main_call6_v2_apply, Read.val_main_call6_v0_apply, Read.val_main_cst_20_apply,
    Ideal.hostUnary_sqrt_def, Ideal.minimumf_def, Ideal.ofBits_def, Cert.Lib.DistForms.ofBits_inf_f32]
  exact Cert.Lib.DivForms.masked_root_form _ _ _ _

/-- THE SUM: from 0, over the batches and the ordered pairs of key points. -/
theorem val_main_v69_at (kpt : FVec Ideal S8x128x3 .f32) :
    Read.val_main_v69 (F := Ideal) kpt ix0
      = 0 + ∑ i : Fin 8, ∑ k : Fin 128, ∑ k' : Fin 128,
          (if k = k' then Ideal.ofBits .f32 0x3DCCCCCD#32
           else min (Ideal.sqrt (0 + ∑ d : Fin 3, (kpt (ix3 i k d) - kpt (ix3 i k' d)) * (kpt (ix3 i k d) - kpt (ix3 i k' d))))
             (Ideal.ofBits .f32 0x3DCCCCCD#32)) := by
  rw [Read.val_main_v69_apply, Read.val_main_cst_23_apply, Ideal.ofBits_def, Ideal.ofBits_zero_f32,
    Cert.Lib.DivForms.sum_idx3]
  refine congrArg (0 + ·) (Finset.sum_congr rfl fun i _ => Finset.sum_congr rfl fun k _ => Finset.sum_congr rfl fun k' _ => ?_)
  exact val_main_v68_at kpt i k k'

end Cert.ReferenceIdeal.RefValue
-- ==== Proof.KHostResult.lean ====
/-
  The host side of the program with the kernels: its result as the reference's own stage functions.

  Outside the kernel regions the program with the kernels computes, with the same host operations as the reference,
  the pose term, the normalized-coordinate term and the offset-magnitude term from the argument arrays, and from each
  region's output the same means the reference takes of its own nearest-neighbour arrays and thresholded sum. So once
  each region's output array is known to be the reference's corresponding array, the program's result is the
  reference's result: the six summands agree one by one and are added in the same order.
-/
import proofs.«127974_j197568496105_2_alg».proof.Proof.KHost
import proofs.«127974_j197568496105_2_alg».proof.Proof.Gen.ReferenceIdeal.Read

noncomputable section

open scoped BigOperators

namespace Cert.KernelIdeal.KHost

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (outs : Outs (F := Ideal))

/-! ## The three summands computed from the arguments alone -/

/-- The pose term: the first seven host stretches compute the reference's pose term of the arguments. -/
theorem pose_eq (c : Dev nD) :
    (V7 m c main_v13 : S_.Idx → EReal)
      = Cert.ReferenceIdeal.Read.val_main_v13 (F := Ideal) (a5 m c) (a6 m c) (a7 m c) (a8 m c) (a9 m c) (a10 m c) := by
  show StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) (Proc.devRef .tc main_v13) = _
  after_results_simp
  rfl

/-- The normalized-coordinate term over any contents the four stretches start from. -/
theorem nocs_chain (W : Valuation τ sig (Elt Ideal)) :
    (StableHlo.after (hostOps2_4 (F := Ideal)) (StableHlo.after hostOps2_3 (StableHlo.after hostOps2_2 (StableHlo.after hostOps2_1 W)))
        (Proc.devRef .tc main_v56) : S_.Idx → EReal)
      = Cert.ReferenceIdeal.Read.val_main_v50 (F := Ideal) (W (Proc.devRef .tc main_arg2)) (W (Proc.devRef .tc main_arg4))
          (W (Proc.devRef .tc main_arg8)) (W (Proc.devRef .tc main_arg9)) (W (Proc.devRef .tc main_arg10)) := by
  after_results_simp
  rfl

/-- The normalized-coordinate term of the arguments. -/
theorem nocs_eq (c : Dev nD) :
    (V15 m outs c main_v56 : S_.Idx → EReal)
      = Cert.ReferenceIdeal.Read.val_main_v50 (F := Ideal) (a2 m c) (a4 m c) (a8 m c) (a9 m c) (a10 m c) := by
  refine (nocs_chain (V11 m outs c)).trans ?_
  rw [V11_launch m outs c main_arg2 untouched_arg2, V11_launch m outs c main_arg4 untouched_arg4,
    V11_launch m outs c main_arg8 untouched_arg8, V11_launch m outs c main_arg9 untouched_arg9,
    V11_launch m outs c main_arg10 untouched_arg10]

/-- The offset-magnitude term over any contents the last two stretches start from, with the five other summands read there. -/
theorem tail_chain (W : Valuation τ sig (Elt Ideal)) :
    (StableHlo.after (hostOps5_2 (F := Ideal)) (StableHlo.after hostOps5_1 W) (Proc.devRef .tc main_v87) : S_.Idx → EReal)
      = (addf (addf (addf (addf (addf (W (Proc.devRef .tc main_v13)) (W (Proc.devRef .tc main_v56)))
            (W (Proc.devRef .tc main_v33))) (W (Proc.devRef .tc main_v59))) (W (Proc.devRef .tc main_v79)))
          (Cert.ReferenceIdeal.Read.val_main_v87 (F := Ideal) (W (Proc.devRef .tc main_arg1))) : FVec Ideal S_ .f32) := by
  after_results_simp
  rfl

/-! ## The three summands computed from the regions' outputs -/

/-- The key-point chamfer term over any contents the stretch starts from. -/
theorem cd_chain (W : Valuation τ sig (Elt Ideal)) (x0 : FVec Ideal S8x2048x3 .f32) (x2 : FVec Ideal S8x128x3 .f32)
    (h1 : (W (Proc.devRef .tc main_v27) : S8x128.Idx → EReal) = Cert.ReferenceIdeal.Read.val_main_v20 (F := Ideal) x0 x2)
    (h0 : (W (Proc.devRef .tc main_v20) : S8x2048.Idx → EReal) = Cert.ReferenceIdeal.Read.val_main_v23 (F := Ideal) x0 x2) :
    (StableHlo.after (hostOps2 (F := Ideal)) W (Proc.devRef .tc main_v33) : S_.Idx → EReal)
      = Cert.ReferenceIdeal.Read.val_main_v27 (F := Ideal) x0 x2 := by
  after_results
  rw [h1, h0]
  rfl

/-- The model chamfer term over any contents the stretch starts from. -/
theorem recon_chain (W : Valuation τ sig (Elt Ideal)) (x0 x3 : FVec Ideal S8x2048x3 .f32)
    (h3 : (W (Proc.devRef .tc main_v66) : S8x2048.Idx → EReal) = Cert.ReferenceIdeal.Read.val_main_v77 (F := Ideal) x0 x3)
    (h4 : (W (Proc.devRef .tc main_v73) : S8x2048.Idx → EReal) = Cert.ReferenceIdeal.Read.val_main_v80 (F := Ideal) x0 x3) :
    (StableHlo.after (hostOps5 (F := Ideal)) W (Proc.devRef .tc main_v79) : S_.Idx → EReal)
      = Cert.ReferenceIdeal.Read.val_main_v84 (F := Ideal) x0 x3 := by
  after_results
  rw [h3, h4]
  rfl

/-- A [1, 1] array has one index. -/
theorem idx_S1x1 (k : S1x1.Idx) : k = ix2 (0 : Fin 1) (0 : Fin 1) := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- The diversity term over any contents the stretch starts from: the region's [1, 1] output holds the sum. -/
theorem div_chain (W : Valuation τ sig (Elt Ideal)) (x2 : FVec Ideal S8x128x3 .f32)
    (h2 : (W (Proc.devRef .tc main_v57) : S1x1.Idx → EReal) (ix2 (0 : Fin 1) (0 : Fin 1))
            = Cert.ReferenceIdeal.Read.val_main_v69 (F := Ideal) x2 ix0) :
    (StableHlo.after (hostOps3 (F := Ideal)) W (Proc.devRef .tc main_v59) : S_.Idx → EReal)
      = Cert.ReferenceIdeal.Read.val_main_v70 (F := Ideal) x2 := by
  after_results
  unfold Cert.ReferenceIdeal.Read.val_main_v70
  have e : (fun i : S_.Idx => shapeCast S_ (W (Proc.devRef .tc main_v57) : S1x1.Idx → EReal) shapeCasts_S1x1_S_ i)
      = Cert.ReferenceIdeal.Read.val_main_v69 (F := Ideal) x2 := by
    funext i
    unfold shapeCast
    rw [idx_S1x1 (Shape.reshapeEquiv shapeCasts_S1x1_S_ i), h2, eq_ix0 i]
  exact congrArg (fun y : S_.Idx → EReal => Host.divf (F := Ideal) (φ := .f32) y (constant S_ .f32 0x48000000#32)) e

/-! ## What the regions leave, and what later items leave alone -/

/-- After region 1 its output array holds what the region left. -/
theorem V10_main_v27 (c : Dev nD) : V10 m outs c main_v27 = outs 10 main_v27 c := Function.update_self _ _ _
/-- … and region 0's output array still holds what region 0 left. -/
theorem V10_main_v20 (c : Dev nD) : V10 m outs c main_v20 = outs 8 main_v20 c :=
  (V10_of m outs c main_v20 (by decide)).trans <| (V9_of m outs c main_v20 (by decide)).trans (Function.update_self _ _ _)
/-- After region 2 its output array holds what the region left. -/
theorem V16_main_v57 (c : Dev nD) : V16 m outs c main_v57 = outs 16 main_v57 c := Function.update_self _ _ _
/-- After region 4 its output array holds what the region left. -/
theorem V20_main_v73 (c : Dev nD) : V20 m outs c main_v73 = outs 20 main_v73 c := Function.update_self _ _ _
/-- … and region 3's output array still holds what region 3 left. -/
theorem V20_main_v66 (c : Dev nD) : V20 m outs c main_v66 = outs 18 main_v66 c :=
  (V20_of m outs c main_v66 (by decide)).trans <| (V19_of m outs c main_v66 (by decide)).trans (Function.update_self _ _ _)

/-- The pose term is not written again before the last two stretches. -/
theorem V21_main_v13 (c : Dev nD) : V21 m outs c main_v13 = V7 m c main_v13 :=
  (V21_of m outs c main_v13 (by decide)).trans <| (V20_of m outs c main_v13 (by decide)).trans <|
  (V19_of m outs c main_v13 (by decide)).trans <| (V18_of m outs c main_v13 (by decide)).trans <|
  (V17_of m outs c main_v13 (by decide)).trans <| (V16_of m outs c main_v13 (by decide)).trans <|
  (V15_of m outs c main_v13 (by decide)).trans <| (V14_of m outs c main_v13 (by decide)).trans <|
  (V13_of m outs c main_v13 (by decide)).trans <| (V12_of m outs c main_v13 (by decide)).trans <|
  (V11_of m outs c main_v13 (by decide)).trans <| (V10_of m outs c main_v13 (by decide)).trans <|
  (V9_of m outs c main_v13 (by decide)).trans (V8_of m outs c main_v13 (by decide))
/-- Nor the key-point chamfer term. -/
theorem V21_main_v33 (c : Dev nD) : V21 m outs c main_v33 = V11 m outs c main_v33 :=
  (V21_of m outs c main_v33 (by decide)).trans <| (V20_of m outs c main_v33 (by decide)).trans <|
  (V19_of m outs c main_v33 (by decide)).trans <| (V18_of m outs c main_v33 (by decide)).trans <|
  (V17_of m outs c main_v33 (by decide)).trans <| (V16_of m outs c main_v33 (by decide)).trans <|
  (V15_of m outs c main_v33 (by decide)).trans <| (V14_of m outs c main_v33 (by decide)).trans <|
  (V13_of m outs c main_v33 (by decide)).trans (V12_of m outs c main_v33 (by decide))
/-- Nor the normalized-coordinate term. -/
theorem V21_main_v56 (c : Dev nD) : V21 m outs c main_v56 = V15 m outs c main_v56 :=
  (V21_of m outs c main_v56 (by decide)).trans <| (V20_of m outs c main_v56 (by decide)).trans <|
  (V19_of m outs c main_v56 (by decide)).trans <| (V18_of m outs c main_v56 (by decide)).trans <|
  (V17_of m outs c main_v56 (by decide)).trans (V16_of m outs c main_v56 (by decide))
/-- Nor the diversity term. -/
theorem V21_main_v59 (c : Dev nD) : V21 m outs c main_v59 = V17 m outs c main_v59 :=
  (V21_of m outs c main_v59 (by decide)).trans <| (V20_of m outs c main_v59 (by decide)).trans <|
  (V19_of m outs c main_v59 (by decide)).trans (V18_of m outs c main_v59 (by decide))

/-! ## The result -/

/-- THE RESULT: once each region's output array is the reference's corresponding array — region 0's the per-point
    minima over the key points, region 1's the per-key-point minima over the points, region 2's single entry the
    thresholded sum, region 3's the per-point minima over the model, region 4's the per-model-point minima over the
    points — the program's result buffer holds the reference's result. -/
theorem result_eq (c : Dev nD)
    (h0 : (outs 8 main_v20 c : S8x2048.Idx → EReal) = Cert.ReferenceIdeal.Read.val_main_v23 (F := Ideal) (a0 m c) (a2 m c))
    (h1 : (outs 10 main_v27 c : S8x128.Idx → EReal) = Cert.ReferenceIdeal.Read.val_main_v20 (F := Ideal) (a0 m c) (a2 m c))
    (h2 : (outs 16 main_v57 c : S1x1.Idx → EReal) (ix2 (0 : Fin 1) (0 : Fin 1))
            = Cert.ReferenceIdeal.Read.val_main_v69 (F := Ideal) (a2 m c) ix0)
    (h3 : (outs 18 main_v66 c : S8x2048.Idx → EReal) = Cert.ReferenceIdeal.Read.val_main_v77 (F := Ideal) (a0 m c) (a3 m c))
    (h4 : (outs 20 main_v73 c : S8x2048.Idx → EReal) = Cert.ReferenceIdeal.Read.val_main_v80 (F := Ideal) (a0 m c) (a3 m c)) :
    (V23 m outs c main_v87 : S_.Idx → EReal)
      = Cert.ReferenceIdeal.Read.val_main_v92 (F := Ideal) (a0 m c) (a1 m c) (a2 m c) (a3 m c) (a4 m c) (a5 m c) (a6 m c)
          (a7 m c) (a8 m c) (a9 m c) (a10 m c) := by
  have hcd : (V11 m outs c main_v33 : S_.Idx → EReal) = Cert.ReferenceIdeal.Read.val_main_v27 (F := Ideal) (a0 m c) (a2 m c) :=
    cd_chain (V10 m outs c) (a0 m c) (a2 m c) ((V10_main_v27 m outs c).trans h1) ((V10_main_v20 m outs c).trans h0)
  have hdiv : (V17 m outs c main_v59 : S_.Idx → EReal) = Cert.ReferenceIdeal.Read.val_main_v70 (F := Ideal) (a2 m c) :=
    div_chain (V16 m outs c) (a2 m c) ((congrFun (V16_main_v57 m outs c) _).trans h2)
  have hrec : (V21 m outs c main_v79 : S_.Idx → EReal) = Cert.ReferenceIdeal.Read.val_main_v84 (F := Ideal) (a0 m c) (a3 m c) :=
    recon_chain (V20 m outs c) (a0 m c) (a3 m c) ((V20_main_v66 m outs c).trans h3) ((V20_main_v73 m outs c).trans h4)
  refine (tail_chain (V21 m outs c)).trans ?_
  rw [V21_main_v13 m outs c, pose_eq m c, V21_main_v56 m outs c, nocs_eq m outs c, V21_main_v33 m outs c, hcd,
    V21_main_v59 m outs c, hdiv, hrec, V21_launch m outs c main_arg1 untouched_arg1]
  rfl

end Cert.KernelIdeal.KHost
-- ==== Proof.Finite.lean ====
import proofs.«127974_j197568496105_2_alg».proof.Pre_finite_inputs
import proofs.«127974_j197568496105_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Fin

open Idealize.ShloMosaic Cert.Pre_finite_inputs

/-- An extended real whose absolute value is below +∞ is neither infinity. -/
theorem not_inf_of_abs_lt (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  have hinf : Ideal.ofBits .f32 0x7F800000#32 = ⊤ := by simp [Ideal.ofBits, Ideal.ieee]
  rw [Ideal.cmpf_def, Ideal.absf_def, hinf] at h
  have h' : max x (-x) < ⊤ := by
    by_contra hc
    simp [Ideal.cmp, hc] at h
  constructor
  · rintro rfl; simp at h'
  · rintro rfl; simp at h'

instance : Subsingleton S_.Idx := ⟨fun a b => funext fun d => d.elim0⟩

/-- Under the precondition the three point-set arguments hold real numbers only. -/
theorem finite_of_pre (a0 a1 : FVec Ideal S8x2048x3 .f32) (a2 : FVec Ideal S8x128x3 .f32) (a3 : FVec Ideal S8x2048x3 .f32) (a4 : FVec Ideal S8x128x3 .f32)
    (a5 : FVec Ideal S8x3x3 .f32) (a6 a7 : FVec Ideal S8x3 .f32) (a8 : FVec Ideal S8x3x3 .f32) (a9 a10 : FVec Ideal S8x3 .f32)
    (h : fn (F := Ideal) a0 a1 a2 a3 a4 a5 a6 a7 a8 a9 a10 = (fun _ => 1#1)) :
    (∀ j, a0 j ≠ ⊤ ∧ a0 j ≠ ⊥) ∧ (∀ j, a2 j ≠ ⊤ ∧ a2 j ≠ ⊥) ∧ (∀ j, a3 j ≠ ⊤ ∧ a3 j ≠ ⊥) := by
  have h0 := congrFun h ValueIdx.ix0
  dsimp only [fn, fn_part1, fn_part2, fn_part3] at h0
  have split : ∀ (x y : IVec S_ 1), andi x y ValueIdx.ix0 = 1#1 → x ValueIdx.ix0 = 1#1 ∧ y ValueIdx.ix0 = 1#1 :=
    fun x y e => IntOp.andi_eq_one.mp e
  obtain ⟨h0, -⟩ := split _ _ h0
  obtain ⟨h0, -⟩ := split _ _ h0
  obtain ⟨h0, -⟩ := split _ _ h0
  obtain ⟨h0, -⟩ := split _ _ h0
  obtain ⟨h0, -⟩ := split _ _ h0
  obtain ⟨h0, -⟩ := split _ _ h0
  obtain ⟨h0, -⟩ := split _ _ h0
  obtain ⟨h0, hr3⟩ := split _ _ h0
  obtain ⟨h0, hr2⟩ := split _ _ h0
  obtain ⟨hr0, -⟩ := split _ _ h0
  exact ⟨fun j => not_inf_of_abs_lt _ (Host.reduce_andi_all _ _ _ _ _ hr0 j),
    fun j => not_inf_of_abs_lt _ (Host.reduce_andi_all _ _ _ _ _ hr2 j),
    fun j => not_inf_of_abs_lt _ (Host.reduce_andi_all _ _ _ _ _ hr3 j)⟩

end Cert.Pre_finite_inputs.Fin

end
-- ==== Proof.Algebraic.lean ====
import proofs.«127974_j197568496105_2_alg».proof.Defs
import proofs.«127974_j197568496105_2_alg».proof.Proof.KernelIdeal.FrameRun
import proofs.«127974_j197568496105_2_alg».proof.Proof.KernelIdeal.Val2
import proofs.«127974_j197568496105_2_alg».proof.Proof.Bridge
import proofs.«127974_j197568496105_2_alg».proof.Proof.RefDiv
import proofs.«127974_j197568496105_2_alg».proof.Proof.KHostResult
import proofs.«127974_j197568496105_2_alg».proof.Proof.Finite
import proofs.«127974_j197568496105_2_alg».proof.Proof.Gen.ReferenceIdeal.Run
import proofs.«127974_j197568496105_2_alg».proof.Proof.Gen.ReferenceIdeal.Read
import proofs.«127974_j197568496105_2_alg».proof.Proof.Gen.Pre_finite_inputs

noncomputable section

namespace Cert.Bridge

open Cert.KernelIdeal Cert.KernelIdeal.Gen Cert.KernelIdeal.Frm Cert.KernelIdeal.KHost
open Idealize.ShloMosaic Idealize.ShloMosaic.TcCoe Idealize.ShloMosaic.ValueIdx Idealize.SL.Sem

variable (m : (ℓ : Loc nD τ sig) → Buf (Elt Ideal) ℓ) (outs : Outs (F := Ideal))

/-- Region 2's one entry is the reference's clamped self-distance sum: entry by entry the diagonal is the threshold on
    both sides and off the diagonal the two distance forms agree on real coordinates. -/
theorem out2_eq (hO : OutsOk m outs) (c : Dev nD) (h2 : ∀ j, a2 m c j ≠ ⊤ ∧ a2 m c j ≠ ⊥) :
    (outs 16 main_v57 c : S1x1.Idx → EReal) (ix2 (0 : Fin 1) (0 : Fin 1)) = Cert.ReferenceIdeal.Read.val_main_v69 (F := Ideal) (a2 m c) ix0 := by
  rw [hO.h2 c]
  have hA : Rgn2.arrA (E2 m outs) c = a2 m c := V15_arg2 m outs c
  refine (Rgn2.arr_out (E2 m outs) c (by rw [hA]; exact h2)).trans ?_
  rw [hA]
  exact (Cert.ReferenceIdeal.RefValue.val_main_v69_at (a2 m c)).symm

end Cert.Bridge

namespace Cert.Proof.Alg

open Cert.KernelIdeal Cert.KernelIdeal.Gen Cert.KernelIdeal.Frm Cert.KernelIdeal.KHost
open Idealize.ShloMosaic Idealize.ShloMosaic.TcCoe Idealize.ShloMosaic.ValueIdx Idealize.SL.Sem

/-- The two idealized programs, run from memories agreeing on the arguments, end with the same scalar: the kernel
    program's result is the host arithmetic over its five regions' outputs, those outputs are the reference's four
    minimum arrays and its clamped sum, and the rest of the host arithmetic is the reference's own. -/
theorem algebraic : Cert.algebraic_KernelIdeal_ReferenceIdeal := by
  intro m ρ m' ρ' hpre hagree
  refine ⟨fun c => V23 m (o5 m) c main_v87, run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq]
  obtain ⟨e0, e1, e2, e3, e4, e5, e6, e7, e8, e9, e10⟩ := hagree c
  rw [e0, e1, e2, e3, e4, e5, e6, e7, e8, e9, e10]
  obtain ⟨h0, h2, h3⟩ := Cert.Pre_finite_inputs.Fin.finite_of_pre _ _ _ _ _ _ _ _ _ _ _ (hpre c)
  exact (result_eq m (o5 m) c
    (Cert.Bridge.out0_eq m (o5 m) (outsOk m) c h0 h2)
    (Cert.Bridge.out1_eq m (o5 m) (outsOk m) c h0 h2)
    (Cert.Bridge.out2_eq m (o5 m) (outsOk m) c h2)
    (Cert.Bridge.out3_eq m (o5 m) (outsOk m) c h0 h3)
    (Cert.Bridge.out4_eq m (o5 m) (outsOk m) c h0 h3)).symm

end Cert.Proof.Alg

end
-- ==== Proof.lean ====
/- The certificate of a six-term point-cloud loss: pose, normalised-coordinate, key-point chamfer, key-point diversity,
   reconstruction chamfer and offset terms. The kernel program computes the four nearest-point arrays and the clamped
   self-distance sum in five tiled regions, through the expanded distance ‖a‖² + ‖b‖² − 2 a·b clamped at zero under the
   root and a running minimum started at a constant named +∞; the reference computes the root of the summed squared
   differences and reduces by a minimum over a whole axis. On finite inputs the two distances agree, a minimum taken tile by
   tile is the minimum over the axis, and the remaining host arithmetic is the same on both sides.
   Frames: each region's body is run case by case over its tile coordinate, the accumulator carried in the region's
   invariant (Proof/Kernel/, Proof/KernelIdeal/); the reference's frame is its run with the result dropped. -/
import proofs.«127974_j197568496105_2_alg».proof.Defs
import proofs.«127974_j197568496105_2_alg».proof.Proof.Gen.Kernel
import proofs.«127974_j197568496105_2_alg».proof.Proof.Gen.KernelIdeal
import proofs.«127974_j197568496105_2_alg».proof.Proof.Gen.ReferenceIdeal
import proofs.«127974_j197568496105_2_alg».proof.Proof.Gen.ReferenceIdeal.Run
import proofs.«127974_j197568496105_2_alg».proof.Proof.Gen.ReferenceIdeal.Read
import proofs.«127974_j197568496105_2_alg».proof.Proof.Gen.Pre_finite_inputs
import proofs.«127974_j197568496105_2_alg».proof.Proof.Kernel.FrameRun
import proofs.«127974_j197568496105_2_alg».proof.Proof.KernelIdeal.FrameRun
import proofs.«127974_j197568496105_2_alg».proof.Proof.Small
import proofs.«127974_j197568496105_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame (F := Bits) m ρ
theorem frame_ki : Cert.frame_KernelIdeal := fun m ρ _ => Cert.KernelIdeal.Frm.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Proof.Small.frame_ri, Cert.Proof.Small.preserves, Cert.Proof.Alg.algebraic⟩

end Cert.Proof

end
